-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x8 : Shape := ⟨2, ![1000000, 8]⟩
abbrev S200000x64 : Shape := ⟨2, ![200000, 64]⟩
abbrev S20000x64 : Shape := ⟨2, ![20000, 64]⟩
abbrev S50000x64 : Shape := ⟨2, ![50000, 64]⟩
abbrev S100000x64 : Shape := ⟨2, ![100000, 64]⟩
abbrev S100000 : Shape := ⟨1, ![100000]⟩
abbrev S128x64 : Shape := ⟨2, ![128, 64]⟩
abbrev S64 : Shape := ⟨1, ![64]⟩
abbrev S8x32 : Shape := ⟨2, ![8, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S20000x64 : S_.BroadcastsInDim S20000x64 (![] : Fin 0 → Fin S20000x64.rank)
  reducesTo_S20000x64_S_d0_1 : S20000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg11 : FVec F S8x32 .f32) (main_arg12 : FVec F S32 .f32) (main_arg13 : FVec F S32x1 .f32) (main_arg14 : FVec F S1 .f32) (main_v33 : IVec S_ 1) : IVec S_ 1 :=
  let main_v34 : FVec F S8x32 .f32 := Host.absf main_arg11
  let main_cst_12 : FVec F S_ .f32 := constant S_ .f32 0x7F800000#32
  let main_v35 : FVec F S8x32 .f32 := broadcastInDim S8x32 ![] bcast_S_S8x32 main_cst_12
  let main_v36 : IVec S8x32 1 := cmpf .olt main_v34 main_v35
  let main_c_13 : IVec S_ 1 := constantI S_ 1 1#1
  let main_v37 : IVec S_ 1 := (fun x v => Host.reduce IntOp.andi x v reducesTo_S8x32_S_d0_1 h_S_) main_v36 main_c_13
  let main_v38 : IVec S_ 1 := andi main_v33 main_v37
  let main_v39 : FVec F S32 .f32 := Host.absf main_arg12
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg13
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S100000x64 .f32) (main_arg9 : FVec F S128x64 .f32) (main_arg10 : FVec F S64 .f32) (main_arg11 : FVec F S8x32 .f32) (main_arg12 : FVec F S32 .f32) (main_arg13 : FVec F S32x1 .f32) (main_arg14 : FVec F S1 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S100000x64 .f32 := Host.absf main_arg6
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S128x64 .f32 := Host.absf main_arg9
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_v33

def fn {F : FTy → Type} [FloatOps F] (main_arg0 : IVec S1000000 32) (main_arg1 : IVec S1000000 32) (main_arg2 : FVec F S1000000x8 .f32) (main_arg3 : FVec F S200000x64 .f32) (main_arg4 : FVec F S20000x64 .f32) (main_arg5 : FVec F S50000x64 .f32) (main_arg6 : FVec F S100000x64 .f32) (main_arg7 : IVec S100000 32) (main_arg8 : IVec S100000 32) (main_arg9 : FVec F S128x64 .f32) (main_arg10 : FVec F S64 .f32) (main_arg11 : FVec F S8x32 .f32) (main_arg12 : FVec F S32 .f32) (main_arg13 : FVec F S32x1 .f32) (main_arg14 : FVec F S1 .f32) : IVec S_ 1 :=
  let main_v0 : FVec F S1000000x8 .f32 := Host.absf main_arg2
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S20000x64 .f32 := Host.absf main_arg4
  let main_cst_2 : FVec F S_ .f32 := constant S_ .f32 0x7F800000#32
  let main_v10 : FVec F S20000x64 .f32 := broadcastInDim S20000x64 ![] bcast_S_S20000x64 main_cst_2
  let main_v11 : IVec S20000x64 1 := cmpf .olt main_v9 main_v10
  let main_c_3 : IVec S_ 1 := constantI S_ 1 1#1
  let main_v12 : IVec S_ 1 := (fun x v => Host.reduce IntOp.andi x v reducesTo_S20000x64_S_d0_1 h_S_) main_v11 main_c_3
  let main_v13 : IVec S_ 1 := andi main_v8 main_v12
  let main_v14 : FVec F S50000x64 .f32 := Host.absf main_arg5
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg6 main_arg9 main_arg10 main_arg11 main_arg12 main_arg13 main_arg14 main_v13 main_v16
-- ==== Kernel.lean ====
abbrev S1000000 : Shape := ⟨1, ![1000000]⟩
abbrev S1000000x8 : Shape := ⟨2, ![1000000, 8]⟩
abbrev S200000x64 : Shape := ⟨2, ![200000, 64]⟩
abbrev S20000x64 : Shape := ⟨2, ![20000, 64]⟩
abbrev S50000x64 : Shape := ⟨2, ![50000, 64]⟩
abbrev S100000x64 : Shape := ⟨2, ![100000, 64]⟩
abbrev S100000 : Shape := ⟨1, ![100000]⟩
abbrev S128x64 : Shape := ⟨2, ![128, 64]⟩
abbrev S64 : Shape := ⟨1, ![64]⟩
abbrev S8x32 : Shape := ⟨2, ![8, 32]⟩
abbrev S32 : Shape := ⟨1, ![32]⟩
abbrev S32x1 : Shape := ⟨2, ![32, 1]⟩
abbrev S1 : Shape := ⟨1, ![1]⟩
abbrev S_ : Shape := ⟨0, ![]⟩
abbrev S1015808x8 : Shape := ⟨2, ![1015808, 8]⟩
abbrev S1x32 : Shape := ⟨2, ![1, 32]⟩
abbrev S1x1 : Shape := ⟨2, ![1, 1]⟩
abbrev S1015808 : Shape := ⟨1, ![1015808]⟩
abbrev S32768x8 : Shape := ⟨2, ![32768, 8]⟩
abbrev S32768 : Shape := ⟨1, ![32768]⟩
abbrev S32768x32 : Shape := ⟨2, ![32768, 32]⟩
abbrev S32768x1 : Shape := ⟨2, ![32768, 1]⟩
abbrev S300000 : Shape := ⟨1, ![300000]⟩
abbrev S2300000 : Shape := ⟨1, ![2300000]⟩
abbrev S2300000x1 : Shape := ⟨2, ![2300000, 1]⟩
abbrev S204800x64 : Shape := ⟨2, ![204800, 64]⟩
abbrev S8192x64 : Shape := ⟨2, ![8192, 64]⟩
abbrev S8192 : Shape := ⟨1, ![8192]⟩
abbrev S8192x1 : Shape := ⟨2, ![8192, 1]⟩
abbrev S100000x1 : Shape := ⟨2, ![100000, 1]⟩
abbrev S100000x128 : Shape := ⟨2, ![100000, 128]⟩
abbrev S106496x128 : Shape := ⟨2, ![106496, 128]⟩
abbrev S1x64 : Shape := ⟨2, ![1, 64]⟩
abbrev S106496x64 : Shape := ⟨2, ![106496, 64]⟩
abbrev S8192x128 : Shape := ⟨2, ![8192, 128]⟩
abbrev S300000x64 : Shape := ⟨2, ![300000, 64]⟩
abbrev S2300000x64 : Shape := ⟨2, ![2300000, 64]⟩
abbrev S303104x64 : Shape := ⟨2, ![303104, 64]⟩

abbrev nBuf : Space → Nat
  | .hbm => 159
  | .vmem => 22
  | .smem => 0
  | _ => 0

abbrev hbmTy0_0 (i : Nat) : BufTy := match i % 128 with
  | 0 => ⟨S1000000, .i32⟩
  | 1 => ⟨S1000000, .i32⟩
  | 2 => ⟨S1000000x8, .f32⟩
  | 3 => ⟨S200000x64, .f32⟩
  | 4 => ⟨S20000x64, .f32⟩
  | 5 => ⟨S50000x64, .f32⟩
  | 6 => ⟨S100000x64, .f32⟩
  | 7 => ⟨S100000, .i32⟩
  | 8 => ⟨S100000, .i32⟩
  | 9 => ⟨S128x64, .f32⟩
  | 10 => ⟨S64, .f32⟩
  | 11 => ⟨S8x32, .f32⟩
  | 12 => ⟨S32, .f32⟩
  | 13 => ⟨S32x1, .f32⟩
  | 14 => ⟨S1, .f32⟩
  | 15 => ⟨S_, .i32⟩
  | 16 => ⟨S_, .f32⟩
  | 17 => ⟨S1015808x8, .f32⟩
  | 18 => ⟨S1x32, .f32⟩
  | 19 => ⟨S1x1, .f32⟩
  | 20 => ⟨S1015808, .f32⟩
  | 21 => ⟨S1000000, .f32⟩
  | 22 => ⟨S_, .i32⟩
  | 23 => ⟨S1000000, .i32⟩
  | 24 => ⟨S1000000, .i32⟩
  | 25 => ⟨S300000, .i32⟩
  | 26 => ⟨S2300000, .i32⟩
  | 27 => ⟨S2300000, .i32⟩
  | 28 => ⟨S_, .f32⟩
  | 29 => ⟨S300000, .f32⟩
  | 30 => ⟨S2300000, .f32⟩
  | 31 => ⟨S_, .f32⟩
  | 32 => ⟨S300000, .f32⟩
  | 33 => ⟨S2300000x1, .i32⟩
  | 34 => ⟨S300000, .f32⟩
  | 35 => ⟨S_, .f32⟩
  | 36 => ⟨S300000, .f32⟩
  | 37 => ⟨S300000, .i1⟩
  | 38 => ⟨S300000, .f32⟩
  | 39 => ⟨S_, .f32⟩
  | 40 => ⟨S_, .f32⟩
  | 41 => ⟨S300000, .f32⟩
  | 42 => ⟨S300000, .f32⟩
  | 43 => ⟨S_, .i32⟩
  | 44 => ⟨S2300000, .i32⟩
  | 45 => ⟨S2300000, .i1⟩
  | 46 => ⟨S_, .i32⟩
  | 47 => ⟨S2300000, .i32⟩
  | 48 => ⟨S2300000, .i32⟩
  | 49 => ⟨S2300000, .i32⟩
  | 50 => ⟨S2300000x1, .i32⟩
  | 51 => ⟨S2300000, .f32⟩
  | 52 => ⟨S2300000, .f32⟩
  | 53 => ⟨S_, .i32⟩
  | 54 => ⟨S2300000, .i32⟩
  | 55 => ⟨S2300000, .i1⟩
  | 56 => ⟨S_, .i32⟩
  | 57 => ⟨S2300000, .i32⟩
  | 58 => ⟨S2300000, .i32⟩
  | 59 => ⟨S2300000, .i32⟩
  | 60 => ⟨S2300000x1, .i32⟩
  | 61 => ⟨S2300000, .f32⟩
  | 62 => ⟨S2300000, .f32⟩
  | 63 => ⟨S_, .i32⟩
  | 64 => ⟨S_, .f32⟩
  | 65 => ⟨S204800x64, .f32⟩
  | 66 => ⟨S204800x64, .f32⟩
  | 67 => ⟨S200000x64, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x64, .f32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000x128, .f32⟩
  | 94 => ⟨S_, .i32⟩
  | 95 => ⟨S_, .f32⟩
  | 96 => ⟨S106496x128, .f32⟩
  | 97 => ⟨S1x64, .f32⟩
  | 98 => ⟨S106496x64, .f32⟩
  | 99 => ⟨S100000x64, .f32⟩
  | 100 => ⟨S300000x64, .f32⟩
  | 101 => ⟨S2300000x1, .f32⟩
  | 102 => ⟨S_, .i32⟩
  | 103 => ⟨S2300000, .i32⟩
  | 104 => ⟨S2300000, .i1⟩
  | 105 => ⟨S_, .i32⟩
  | 106 => ⟨S2300000, .i32⟩
  | 107 => ⟨S2300000, .i32⟩
  | 108 => ⟨S2300000, .i32⟩
  | 109 => ⟨S2300000x1, .i32⟩
  | 110 => ⟨S2300000x64, .f32⟩
  | 111 => ⟨S2300000x64, .f32⟩
  | 112 => ⟨S2300000x64, .f32⟩
  | 113 => ⟨S_, .f32⟩
  | 114 => ⟨S300000x64, .f32⟩
  | 115 => ⟨S2300000x1, .i32⟩
  | 116 => ⟨S300000x64, .f32⟩
  | 117 => ⟨S300000x64, .f32⟩
  | 118 => ⟨S2300000x1, .f32⟩
  | 119 => ⟨S_, .i32⟩
  | 120 => ⟨S2300000, .i32⟩
  | 121 => ⟨S2300000, .i1⟩
  | 122 => ⟨S_, .i32⟩
  | 123 => ⟨S2300000, .i32⟩
  | 124 => ⟨S2300000, .i32⟩
  | 125 => ⟨S2300000, .i32⟩
  | 126 => ⟨S2300000x1, .i32⟩
  | 127 => ⟨S2300000x64, .f32⟩
  | _ => ⟨S1000000, .i32⟩

abbrev hbmTy0_1 (i : Nat) : BufTy := match i % 128 with
  | 0 => ⟨S2300000x64, .f32⟩
  | 1 => ⟨S2300000x64, .f32⟩
  | 2 => ⟨S_, .f32⟩
  | 3 => ⟨S300000x64, .f32⟩
  | 4 => ⟨S2300000x1, .i32⟩
  | 5 => ⟨S300000x64, .f32⟩
  | 6 => ⟨S300000x64, .f32⟩
  | 7 => ⟨S2300000x1, .f32⟩
  | 8 => ⟨S_, .i32⟩
  | 9 => ⟨S2300000, .i32⟩
  | 10 => ⟨S2300000, .i1⟩
  | 11 => ⟨S_, .i32⟩
  | 12 => ⟨S2300000, .i32⟩
  | 13 => ⟨S2300000, .i32⟩
  | 14 => ⟨S2300000, .i32⟩
  | 15 => ⟨S2300000x1, .i32⟩
  | 16 => ⟨S2300000x64, .f32⟩
  | 17 => ⟨S2300000x64, .f32⟩
  | 18 => ⟨S2300000x64, .f32⟩
  | 19 => ⟨S_, .f32⟩
  | 20 => ⟨S300000x64, .f32⟩
  | 21 => ⟨S2300000x1, .i32⟩
  | 22 => ⟨S300000x64, .f32⟩
  | 23 => ⟨S300000x64, .f32⟩
  | 24 => ⟨S_, .i32⟩
  | 25 => ⟨S_, .f32⟩
  | 26 => ⟨S303104x64, .f32⟩
  | 27 => ⟨S303104x64, .f32⟩
  | 28 => ⟨S300000x64, .f32⟩
  | 29 => ⟨S200000x64, .f32⟩
  | 30 => ⟨S100000x64, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | .local _ .vmem, ⟨0, _⟩ => ⟨S32768x8, .f32⟩
  | .local _ .vmem, ⟨1, _⟩ => ⟨S32768x8, .f32⟩
  | .local _ .vmem, ⟨2, _⟩ => ⟨S8x32, .f32⟩
  | .local _ .vmem, ⟨3, _⟩ => ⟨S1x32, .f32⟩
  | .local _ .vmem, ⟨4, _⟩ => ⟨S32x1, .f32⟩
  | .local _ .vmem, ⟨5, _⟩ => ⟨S1x1, .f32⟩
  | .local _ .vmem, ⟨6, _⟩ => ⟨S32768, .f32⟩
  | .local _ .vmem, ⟨7, _⟩ => ⟨S32768, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S8192x64, .f32⟩
  | .local _ .vmem, ⟨12, _⟩ => ⟨S8192x128, .f32⟩
  | .local _ .vmem, ⟨13, _⟩ => ⟨S8192x128, .f32⟩
  | .local _ .vmem, ⟨14, _⟩ => ⟨S128x64, .f32⟩
  | .local _ .vmem, ⟨15, _⟩ => ⟨S1x64, .f32⟩
  | .local _ .vmem, ⟨16, _⟩ => ⟨S8192x64, .f32⟩
  | .local _ .vmem, ⟨17, _⟩ => ⟨S8192x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_call2_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_9 : Ref sig .tc := ⟨.hbm, 68, rfl⟩
abbrev main_v38 : Ref sig .tc := ⟨.hbm, 69, rfl⟩
abbrev main_v39 : Ref sig .tc := ⟨.hbm, 70, rfl⟩
abbrev main_c_10 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_c_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_cst_14 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_15 : Ref sig .tc := ⟨.hbm, 94, rfl⟩
abbrev main_call3_v0 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_18 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_19 : Ref sig .tc := ⟨.hbm, 119, rfl⟩
abbrev main_v78 : Ref sig .tc := ⟨.hbm, 120, rfl⟩
abbrev main_v79 : Ref sig .tc := ⟨.hbm, 121, rfl⟩
abbrev main_c_20 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_21 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_22 : Ref sig .tc := ⟨.hbm, 136, rfl⟩
abbrev main_v92 : Ref sig .tc := ⟨.hbm, 137, rfl⟩
abbrev main_v93 : Ref sig .tc := ⟨.hbm, 138, rfl⟩
abbrev main_c_23 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_24 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_c_25 : Ref sig .tc := ⟨.hbm, 152, rfl⟩
abbrev main_call4_v0 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![37], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  pads_S1000000x8_S1015808x8_0158080_000 : S1000000x8.Pads (![0, 0] : Fin 2 → Nat) ![15808, 0] ![0, 0] S1015808x8
  h_S_ : 0 < S_.numel
  shapeCasts_S32_S1x32 : S32.ShapeCasts S1x32
  shapeCasts_S1_S1x1 : S1.ShapeCasts S1x1
  inb_S32768x8_S32768x8_0_0 : ∀ a, (![0, 0] : Fin 2 → Nat) a + S32768x8.size a ≤ S32768x8.size a
  h_S32768x8 : 0 < S32768x8.numel
  shapeCasts_S32768x8_S32768x8 : S32768x8.ShapeCasts S32768x8
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32768x32 : S1x32.Broadcasts S32768x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32768x1 : S1x1.Broadcasts S32768x1
  shapeCasts_S32768x1_S32768 : S32768x1.ShapeCasts S32768
  inb_S32768_S32768_0 : ∀ a, (![0] : Fin 1 → Nat) a + S32768.size a ≤ S32768.size a
  h_S32768 : 0 < S32768.numel
  slices_S1015808_S1000000_0 : S1015808.Slices ![0] S1000000
  bcast_S_S1000000 : S_.BroadcastsInDim S1000000 (![] : Fin 0 → Fin S1000000.rank)
  concatenates_S1000000_S1000000_S300000_S2300000_d0 : Shape.Concatenates [S1000000, S1000000, S300000] S2300000 0
  bcast_S_S300000 : S_.BroadcastsInDim S300000 (![] : Fin 0 → Fin S300000.rank)
  bcast_S2300000_S2300000x1_0 : S2300000.BroadcastsInDim S2300000x1 (![0] : Fin 1 → Fin S2300000x1.rank)
  bcast_S_S2300000 : S_.BroadcastsInDim S2300000 (![] : Fin 0 → Fin S2300000.rank)
  pads_S200000x64_S204800x64_048000_000 : S200000x64.Pads (![0, 0] : Fin 2 → Nat) ![4800, 0] ![0, 0] S204800x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  broadcasts_S8192x1_S8192x64 : S8192x1.Broadcasts S8192x64
  slices_S204800x64_S200000x64_0_0 : S204800x64.Slices ![0, 0] S200000x64
  bcast_S_S100000 : S_.BroadcastsInDim S100000 (![] : Fin 0 → Fin S100000.rank)
  bcast_S100000_S100000x1_0 : S100000.BroadcastsInDim S100000x1 (![0] : Fin 1 → Fin S100000x1.rank)
  bcast_S_S100000x64 : S_.BroadcastsInDim S100000x64 (![] : Fin 0 → Fin S100000x64.rank)
  concatenates_S100000x64_S100000x64_S100000x128_d1 : Shape.Concatenates [S100000x64, S100000x64] S100000x128 1
  pads_S100000x128_S106496x128_064960_000 : S100000x128.Pads (![0, 0] : Fin 2 → Nat) ![6496, 0] ![0, 0] S106496x128
  shapeCasts_S64_S1x64 : S64.ShapeCasts S1x64
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S106496x64_S100000x64_0_0 : S106496x64.Slices ![0, 0] S100000x64
  concatenates_S200000x64_S100000x64_S300000x64_d0 : Shape.Concatenates [S200000x64, S100000x64] S300000x64 0
  bcast_S2300000x1_S2300000x64_0_1 : S2300000x1.BroadcastsInDim S2300000x64 (![0, 1] : Fin 2 → Fin S2300000x64.rank)
  bcast_S_S300000x64 : S_.BroadcastsInDim S300000x64 (![] : Fin 0 → Fin S300000x64.rank)
  pads_S300000x64_S303104x64_031040_000 : S300000x64.Pads (![0, 0] : Fin 2 → Nat) ![3104, 0] ![0, 0] S303104x64
  slices_S303104x64_S300000x64_0_0 : S303104x64.Slices ![0, 0] S300000x64
  slices_S300000x64_S200000x64_0_0 : S300000x64.Slices ![0, 0] S200000x64
  slices_S300000x64_S100000x64_200000_0 : S300000x64.Slices ![200000, 0] S100000x64
  dot_S32768x8_S8x32_S32768x32_1_0_0_1_n_n_wf : DotDims.WF S32768x8 S8x32 S32768x32 [1] [0] [0] [1] [] []
  dot_S32768x32_S32x1_S32768x1_1_0_0_1_n_n_wf : DotDims.WF S32768x32 S32x1 S32768x1 [1] [0] [0] [1] [] []
  scatter_S300000_S2300000x1_S2300000_n_0_0_1_wf : ScatterDims.WF S300000 S2300000x1 S2300000 [] [0] [0] 1
  gather_S300000_S2300000x1_S2300000_n_0_n_n_0_1_1_wf : GatherDims.WF S300000 S2300000x1 S2300000 [] [0] [] [0] [] 1 ![1]
  gather_S20000x64_S100000x1_S100000x64_1_0_n_n_0_1_164_wf : GatherDims.WF S20000x64 S100000x1 S100000x64 [1] [0] [] [0] [] 1 ![1, 64]
  gather_S50000x64_S100000x1_S100000x64_1_0_n_n_0_1_164_wf : GatherDims.WF S50000x64 S100000x1 S100000x64 [1] [0] [] [0] [] 1 ![1, 64]
  dot_S8192x128_S128x64_S8192x64_1_0_0_1_n_n_wf : DotDims.WF S8192x128 S128x64 S8192x64 [1] [0] [0] [1] [] []
  gather_S300000x64_S2300000x1_S2300000x64_1_0_n_n_0_1_164_wf : GatherDims.WF S300000x64 S2300000x1 S2300000x64 [1] [0] [] [0] [] 1 ![1, 64]
  scatter_S300000x64_S2300000x1_S2300000x64_1_0_0_1_wf : ScatterDims.WF S300000x64 S2300000x1 S2300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x8.size a ≤ S1015808x8.size a
  hwx0_0 : ∀ i : grid0.Coords, EltTy.bits .f32 = 32 ∨ (Rect.block (s := S1015808x8) S32768x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32768.size a ≤ S1015808.size a
  hwx0_5 : ∀ i : grid0.Coords, EltTy.bits .f32 = 32 ∨ (Rect.block (s := S1015808) S32768.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S204800x64.size a
  hwx1_0 : ∀ i : grid1.Coords, EltTy.bits .f32 = 32 ∨ (Rect.block (s := S204800x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S204800x64.size a
  hwx1_1 : ∀ i : grid1.Coords, EltTy.bits .f32 = 32 ∨ (Rect.block (s := S204800x64) S8192x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S106496x128.size a
  hwx2_0 : ∀ i : grid2.Coords, EltTy.bits .f32 = 32 ∨ (Rect.block (s := S106496x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S106496x64.size a
  hwx2_3 : ∀ i : grid2.Coords, EltTy.bits .f32 = 32 ∨ (Rect.block (s := S106496x64) S8192x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S303104x64.size a
  hwx3_0 : ∀ i : grid3.Coords, EltTy.bits .f32 = 32 ∨ (Rect.block (s := S303104x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S303104x64.size a
  hwx3_1 : ∀ i : grid3.Coords, EltTy.bits .f32 = 32 ∨ (Rect.block (s := S303104x64) S8192x64.size (cc3_transform_1 i) (hinb3_1 i)).WholeWords (EltTy.packing .f32)

variable [Facts₀]

def dot_S32768x8_S8x32_S32768x32_1_0_0_1_n_n : DotDims S32768x8 S8x32 S32768x32 where
  lhsContracting := [1]
  rhsContracting := [0]
  lhsNonContracting := [0]
  rhsNonContracting := [1]
  lhsBatch := []
  rhsBatch := []
  wf := dot_S32768x8_S8x32_S32768x32_1_0_0_1_n_n_wf
def dot_S32768x32_S32x1_S32768x1_1_0_0_1_n_n : DotDims S32768x32 S32x1 S32768x1 where
  lhsContracting := [1]
  rhsContracting := [0]
  lhsNonContracting := [0]
  rhsNonContracting := [1]
  lhsBatch := []
  rhsBatch := []
  wf := dot_S32768x32_S32x1_S32768x1_1_0_0_1_n_n_wf
def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def gather_S300000_S2300000x1_S2300000_n_0_n_n_0_1_1 : GatherDims S300000 S2300000x1 S2300000 where
  offsetDims := []
  collapsedSliceDims := [0]
  operandBatchingDims := []
  startIndicesBatchingDims := []
  startIndexMap := [0]
  indexVectorDim := 1
  sliceSizes := ![1]
  wf := gather_S300000_S2300000x1_S2300000_n_0_n_n_0_1_1_wf
def gather_S20000x64_S100000x1_S100000x64_1_0_n_n_0_1_164 : GatherDims S20000x64 S100000x1 S100000x64 where
  offsetDims := [1]
  collapsedSliceDims := [0]
  operandBatchingDims := []
  startIndicesBatchingDims := []
  startIndexMap := [0]
  indexVectorDim := 1
  sliceSizes := ![1, 64]
  wf := gather_S20000x64_S100000x1_S100000x64_1_0_n_n_0_1_164_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S300000x64_S2300000x1_S2300000x64_1_0_n_n_0_1_164 : GatherDims S300000x64 S2300000x1 S2300000x64 where
  offsetDims := [1]
  collapsedSliceDims := [0]
  operandBatchingDims := []
  startIndicesBatchingDims := []
  startIndexMap := [0]
  indexVectorDim := 1
  sliceSizes := ![1, 64]
  wf := gather_S300000x64_S2300000x1_S2300000x64_1_0_n_n_0_1_164_wf
def scatter_S300000x64_S2300000x1_S2300000x64_1_0_0_1 : ScatterDims S300000x64 S2300000x1 S2300000x64 where
  updateWindowDims := [1]
  insertedWindowDims := [0]
  scatterDimsToOperandDims := [0]
  indexVectorDim := 1
  wf := scatter_S300000x64_S2300000x1_S2300000x64_1_0_0_1_wf

abbrev win0_0 : Pipeline.Window sig grid0 :=
  Pipeline.Window.ofSpec (Memref.whole main_v0) S32768x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg13) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v58) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v105) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S8192x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S1000000 : Shape := ⟨1, ![1000000]⟩
abbrev S1000000x8 : Shape := ⟨2, ![1000000, 8]⟩
abbrev S200000x64 : Shape := ⟨2, ![200000, 64]⟩
abbrev S20000x64 : Shape := ⟨2, ![20000, 64]⟩
abbrev S50000x64 : Shape := ⟨2, ![50000, 64]⟩
abbrev S100000x64 : Shape := ⟨2, ![100000, 64]⟩
abbrev S100000 : Shape := ⟨1, ![100000]⟩
abbrev S128x64 : Shape := ⟨2, ![128, 64]⟩
abbrev S64 : Shape := ⟨1, ![64]⟩
abbrev S8x32 : Shape := ⟨2, ![8, 32]⟩
abbrev S32 : Shape := ⟨1, ![32]⟩
abbrev S32x1 : Shape := ⟨2, ![32, 1]⟩
abbrev S1 : Shape := ⟨1, ![1]⟩
abbrev S1000000x32 : Shape := ⟨2, ![1000000, 32]⟩
abbrev S1x32 : Shape := ⟨2, ![1, 32]⟩
abbrev S_ : Shape := ⟨0, ![]⟩
abbrev S1000000x1 : Shape := ⟨2, ![1000000, 1]⟩
abbrev S1x1 : Shape := ⟨2, ![1, 1]⟩
abbrev S300000 : Shape := ⟨1, ![300000]⟩
abbrev S2300000 : Shape := ⟨1, ![2300000]⟩
abbrev S2300000x1 : Shape := ⟨2, ![2300000, 1]⟩
abbrev S200000 : Shape := ⟨1, ![200000]⟩
abbrev S200000x1 : Shape := ⟨2, ![200000, 1]⟩
abbrev S100000x1 : Shape := ⟨2, ![100000, 1]⟩
abbrev S100000x128 : Shape := ⟨2, ![100000, 128]⟩
abbrev S1x64 : Shape := ⟨2, ![1, 64]⟩
abbrev S300000x64 : Shape := ⟨2, ![300000, 64]⟩
abbrev S2300000x64 : Shape := ⟨2, ![2300000, 64]⟩
abbrev S300000x1 : Shape := ⟨2, ![300000, 1]⟩

abbrev nBuf : Space → Nat
  | .hbm => 196
  | .vmem => 0
  | .smem => 0
  | _ => 0

abbrev hbmTy0_0 (i : Nat) : BufTy := match i % 128 with
  | 0 => ⟨S1000000, .i32⟩
  | 1 => ⟨S1000000, .i32⟩
  | 2 => ⟨S1000000x8, .f32⟩
  | 3 => ⟨S200000x64, .f32⟩
  | 4 => ⟨S20000x64, .f32⟩
  | 5 => ⟨S50000x64, .f32⟩
  | 6 => ⟨S100000x64, .f32⟩
  | 7 => ⟨S100000, .i32⟩
  | 8 => ⟨S100000, .i32⟩
  | 9 => ⟨S128x64, .f32⟩
  | 10 => ⟨S64, .f32⟩
  | 11 => ⟨S8x32, .f32⟩
  | 12 => ⟨S32, .f32⟩
  | 13 => ⟨S32x1, .f32⟩
  | 14 => ⟨S1, .f32⟩
  | 15 => ⟨S1000000x32, .f32⟩
  | 16 => ⟨S1x32, .f32⟩
  | 17 => ⟨S1000000x32, .f32⟩
  | 18 => ⟨S1000000x32, .f32⟩
  | 19 => ⟨S_, .f32⟩
  | 20 => ⟨S1000000x32, .f32⟩
  | 21 => ⟨S1000000x32, .f32⟩
  | 22 => ⟨S1000000x1, .f32⟩
  | 23 => ⟨S1x1, .f32⟩
  | 24 => ⟨S1000000x1, .f32⟩
  | 25 => ⟨S1000000x1, .f32⟩
  | 26 => ⟨S1000000x1, .f32⟩
  | 27 => ⟨S1000000x1, .f32⟩
  | 28 => ⟨S_, .f32⟩
  | 29 => ⟨S1000000x1, .f32⟩
  | 30 => ⟨S1000000x1, .f32⟩
  | 31 => ⟨S_, .f32⟩
  | 32 => ⟨S1000000x1, .f32⟩
  | 33 => ⟨S1000000x1, .f32⟩
  | 34 => ⟨S1000000, .f32⟩
  | 35 => ⟨S_, .f32⟩
  | 36 => ⟨S1000000, .f32⟩
  | 37 => ⟨S1000000, .f32⟩
  | 38 => ⟨S_, .i32⟩
  | 39 => ⟨S1000000, .i32⟩
  | 40 => ⟨S1000000, .i32⟩
  | 41 => ⟨S300000, .i32⟩
  | 42 => ⟨S2300000, .i32⟩
  | 43 => ⟨S2300000, .i32⟩
  | 44 => ⟨S_, .f32⟩
  | 45 => ⟨S300000, .f32⟩
  | 46 => ⟨S2300000, .f32⟩
  | 47 => ⟨S_, .f32⟩
  | 48 => ⟨S300000, .f32⟩
  | 49 => ⟨S2300000x1, .i32⟩
  | 50 => ⟨S300000, .f32⟩
  | 51 => ⟨S_, .f32⟩
  | 52 => ⟨S300000, .f32⟩
  | 53 => ⟨S300000, .i1⟩
  | 54 => ⟨S300000, .f32⟩
  | 55 => ⟨S_, .f32⟩
  | 56 => ⟨S_, .f32⟩
  | 57 => ⟨S300000, .f32⟩
  | 58 => ⟨S300000, .f32⟩
  | 59 => ⟨S_, .i32⟩
  | 60 => ⟨S2300000, .i32⟩
  | 61 => ⟨S2300000, .i1⟩
  | 62 => ⟨S_, .i32⟩
  | 63 => ⟨S2300000, .i32⟩
  | 64 => ⟨S2300000, .i32⟩
  | 65 => ⟨S2300000, .i32⟩
  | 66 => ⟨S2300000x1, .i32⟩
  | 67 => ⟨S2300000, .f32⟩
  | 68 => ⟨S2300000, .f32⟩
  | 69 => ⟨S_, .i32⟩
  | 70 => ⟨S2300000, .i32⟩
  | 71 => ⟨S2300000, .i1⟩
  | 72 => ⟨S_, .i32⟩
  | 73 => ⟨S2300000, .i32⟩
  | 74 => ⟨S2300000, .i32⟩
  | 75 => ⟨S2300000, .i32⟩
  | 76 => ⟨S2300000x1, .i32⟩
  | 77 => ⟨S2300000, .f32⟩
  | 78 => ⟨S2300000, .f32⟩
  | 79 => ⟨S200000x64, .f32⟩
  | 80 => ⟨S_, .f32⟩
  | 81 => ⟨S200000, .f32⟩
  | 82 => ⟨S200000x1, .f32⟩
  | 83 => ⟨S200000x1, .f32⟩
  | 84 => ⟨S_, .f32⟩
  | 85 => ⟨S200000x1, .f32⟩
  | 86 => ⟨S200000x1, .f32⟩
  | 87 => ⟨S200000x64, .f32⟩
  | 88 => ⟨S200000x64, .f32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x64, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x128, .f32⟩
  | 115 => ⟨S100000x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S100000, .f32⟩
  | 122 => ⟨S100000x1, .f32⟩
  | 123 => ⟨S100000x1, .f32⟩
  | 124 => ⟨S_, .f32⟩
  | 125 => ⟨S100000x1, .f32⟩
  | 126 => ⟨S100000x1, .f32⟩
  | 127 => ⟨S100000x64, .f32⟩
  | _ => ⟨S1000000, .i32⟩

abbrev hbmTy0_1 (i : Nat) : BufTy := match i % 128 with
  | 0 => ⟨S100000x64, .f32⟩
  | 1 => ⟨S300000x64, .f32⟩
  | 2 => ⟨S2300000x1, .f32⟩
  | 3 => ⟨S_, .i32⟩
  | 4 => ⟨S2300000, .i32⟩
  | 5 => ⟨S2300000, .i1⟩
  | 6 => ⟨S_, .i32⟩
  | 7 => ⟨S2300000, .i32⟩
  | 8 => ⟨S2300000, .i32⟩
  | 9 => ⟨S2300000, .i32⟩
  | 10 => ⟨S2300000x1, .i32⟩
  | 11 => ⟨S2300000x64, .f32⟩
  | 12 => ⟨S2300000x64, .f32⟩
  | 13 => ⟨S2300000x64, .f32⟩
  | 14 => ⟨S_, .f32⟩
  | 15 => ⟨S300000x64, .f32⟩
  | 16 => ⟨S2300000x1, .i32⟩
  | 17 => ⟨S300000x64, .f32⟩
  | 18 => ⟨S300000x64, .f32⟩
  | 19 => ⟨S2300000x1, .f32⟩
  | 20 => ⟨S_, .i32⟩
  | 21 => ⟨S2300000, .i32⟩
  | 22 => ⟨S2300000, .i1⟩
  | 23 => ⟨S_, .i32⟩
  | 24 => ⟨S2300000, .i32⟩
  | 25 => ⟨S2300000, .i32⟩
  | 26 => ⟨S2300000, .i32⟩
  | 27 => ⟨S2300000x1, .i32⟩
  | 28 => ⟨S2300000x64, .f32⟩
  | 29 => ⟨S2300000x64, .f32⟩
  | 30 => ⟨S2300000x64, .f32⟩
  | 31 => ⟨S_, .f32⟩
  | 32 => ⟨S300000x64, .f32⟩
  | 33 => ⟨S2300000x1, .i32⟩
  | 34 => ⟨S300000x64, .f32⟩
  | 35 => ⟨S300000x64, .f32⟩
  | 36 => ⟨S2300000x1, .f32⟩
  | 37 => ⟨S_, .i32⟩
  | 38 => ⟨S2300000, .i32⟩
  | 39 => ⟨S2300000, .i1⟩
  | 40 => ⟨S_, .i32⟩
  | 41 => ⟨S2300000, .i32⟩
  | 42 => ⟨S2300000, .i32⟩
  | 43 => ⟨S2300000, .i32⟩
  | 44 => ⟨S2300000x1, .i32⟩
  | 45 => ⟨S2300000x64, .f32⟩
  | 46 => ⟨S2300000x64, .f32⟩
  | 47 => ⟨S2300000x64, .f32⟩
  | 48 => ⟨S_, .f32⟩
  | 49 => ⟨S300000x64, .f32⟩
  | 50 => ⟨S2300000x1, .i32⟩
  | 51 => ⟨S300000x64, .f32⟩
  | 52 => ⟨S300000x64, .f32⟩
  | 53 => ⟨S_, .f32⟩
  | 54 => ⟨S300000x64, .f32⟩
  | 55 => ⟨S300000x64, .f32⟩
  | 56 => ⟨S300000x64, .f32⟩
  | 57 => ⟨S_, .f32⟩
  | 58 => ⟨S300000, .f32⟩
  | 59 => ⟨S300000x1, .f32⟩
  | 60 => ⟨S300000x1, .f32⟩
  | 61 => ⟨S_, .f32⟩
  | 62 => ⟨S300000x1, .f32⟩
  | 63 => ⟨S300000x1, .f32⟩
  | 64 => ⟨S300000x64, .f32⟩
  | 65 => ⟨S300000x64, .f32⟩
  | 66 => ⟨S200000x64, .f32⟩
  | 67 => ⟨S100000x64, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_call1_v0 : Ref sig .tc := ⟨.hbm, 56, rfl⟩
abbrev main_call1_v1 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_12 : Ref sig .tc := ⟨.hbm, 89, rfl⟩
abbrev main_v56 : Ref sig .tc := ⟨.hbm, 90, rfl⟩
abbrev main_v57 : Ref sig .tc := ⟨.hbm, 91, rfl⟩
abbrev main_c_13 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_c_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_16 : Ref sig .tc := ⟨.hbm, 108, rfl⟩
abbrev main_v71 : Ref sig .tc := ⟨.hbm, 109, rfl⟩
abbrev main_v72 : Ref sig .tc := ⟨.hbm, 110, rfl⟩
abbrev main_cst_17 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_20 : Ref sig .tc := ⟨.hbm, 131, rfl⟩
abbrev main_v90 : Ref sig .tc := ⟨.hbm, 132, rfl⟩
abbrev main_v91 : Ref sig .tc := ⟨.hbm, 133, rfl⟩
abbrev main_c_21 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_23 : Ref sig .tc := ⟨.hbm, 148, rfl⟩
abbrev main_v104 : Ref sig .tc := ⟨.hbm, 149, rfl⟩
abbrev main_v105 : Ref sig .tc := ⟨.hbm, 150, rfl⟩
abbrev main_c_24 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_25 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_26 : Ref sig .tc := ⟨.hbm, 165, rfl⟩
abbrev main_v118 : Ref sig .tc := ⟨.hbm, 166, rfl⟩
abbrev main_v119 : Ref sig .tc := ⟨.hbm, 167, rfl⟩
abbrev main_c_27 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_28 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_29 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_30 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_31 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  bcast_S_S1000000 : S_.BroadcastsInDim S1000000 (![] : Fin 0 → Fin S1000000.rank)
  concatenates_S1000000_S1000000_S300000_S2300000_d0 : Shape.Concatenates [S1000000, S1000000, S300000] S2300000 0
  bcast_S_S300000 : S_.BroadcastsInDim S300000 (![] : Fin 0 → Fin S300000.rank)
  bcast_S2300000_S2300000x1_0 : S2300000.BroadcastsInDim S2300000x1 (![0] : Fin 1 → Fin S2300000x1.rank)
  bcast_S_S2300000 : S_.BroadcastsInDim S2300000 (![] : Fin 0 → Fin S2300000.rank)
  reducesTo_S200000x64_S200000_d1 : S200000x64.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S200000x64_S100000x64_S300000x64_d0 : Shape.Concatenates [S200000x64, S100000x64] S300000x64 0
  bcast_S2300000x1_S2300000x64_0_1 : S2300000x1.BroadcastsInDim S2300000x64 (![0, 1] : Fin 2 → Fin S2300000x64.rank)
  bcast_S_S300000x64 : S_.BroadcastsInDim S300000x64 (![] : Fin 0 → Fin S300000x64.rank)
  reducesTo_S300000x64_S300000_d1 : S300000x64.ReducesTo [1] S300000
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  slices_S300000x64_S200000x64_0_0 : S300000x64.Slices ![0, 0] S200000x64
  slices_S300000x64_S100000x64_200000_0 : S300000x64.Slices ![200000, 0] S100000x64
  dot_S1000000x8_S8x32_S1000000x32_1_0_0_1_n_n_wf : DotDims.WF S1000000x8 S8x32 S1000000x32 [1] [0] [0] [1] [] []
  dot_S1000000x32_S32x1_S1000000x1_1_0_0_1_n_n_wf : DotDims.WF S1000000x32 S32x1 S1000000x1 [1] [0] [0] [1] [] []
  scatter_S300000_S2300000x1_S2300000_n_0_0_1_wf : ScatterDims.WF S300000 S2300000x1 S2300000 [] [0] [0] 1
  gather_S300000_S2300000x1_S2300000_n_0_n_n_0_1_1_wf : GatherDims.WF S300000 S2300000x1 S2300000 [] [0] [] [0] [] 1 ![1]
  gather_S20000x64_S100000x1_S100000x64_1_0_n_n_0_1_164_wf : GatherDims.WF S20000x64 S100000x1 S100000x64 [1] [0] [] [0] [] 1 ![1, 64]
  gather_S50000x64_S100000x1_S100000x64_1_0_n_n_0_1_164_wf : GatherDims.WF S50000x64 S100000x1 S100000x64 [1] [0] [] [0] [] 1 ![1, 64]
  dot_S100000x128_S128x64_S100000x64_1_0_0_1_n_n_wf : DotDims.WF S100000x128 S128x64 S100000x64 [1] [0] [0] [1] [] []
  gather_S300000x64_S2300000x1_S2300000x64_1_0_n_n_0_1_164_wf : GatherDims.WF S300000x64 S2300000x1 S2300000x64 [1] [0] [] [0] [] 1 ![1, 64]
  scatter_S300000x64_S2300000x1_S2300000x64_1_0_0_1_wf : ScatterDims.WF S300000x64 S2300000x1 S2300000x64 [1] [0] [0] 1

variable [Facts₀]

def dot_S1000000x8_S8x32_S1000000x32_1_0_0_1_n_n : DotDims S1000000x8 S8x32 S1000000x32 where
  lhsContracting := [1]
  rhsContracting := [0]
  lhsNonContracting := [0]
  rhsNonContracting := [1]
  lhsBatch := []
  rhsBatch := []
  wf := dot_S1000000x8_S8x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf
def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def gather_S300000_S2300000x1_S2300000_n_0_n_n_0_1_1 : GatherDims S300000 S2300000x1 S2300000 where
  offsetDims := []
  collapsedSliceDims := [0]
  operandBatchingDims := []
  startIndicesBatchingDims := []
  startIndexMap := [0]
  indexVectorDim := 1
  sliceSizes := ![1]
  wf := gather_S300000_S2300000x1_S2300000_n_0_n_n_0_1_1_wf
def gather_S20000x64_S100000x1_S100000x64_1_0_n_n_0_1_164 : GatherDims S20000x64 S100000x1 S100000x64 where
  offsetDims := [1]
  collapsedSliceDims := [0]
  operandBatchingDims := []
  startIndicesBatchingDims := []
  startIndexMap := [0]
  indexVectorDim := 1
  sliceSizes := ![1, 64]
  wf := gather_S20000x64_S100000x1_S100000x64_1_0_n_n_0_1_164_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S300000x64_S2300000x1_S2300000x64_1_0_n_n_0_1_164 : GatherDims S300000x64 S2300000x1 S2300000x64 where
  offsetDims := [1]
  collapsedSliceDims := [0]
  operandBatchingDims := []
  startIndicesBatchingDims := []
  startIndexMap := [0]
  indexVectorDim := 1
  sliceSizes := ![1, 64]
  wf := gather_S300000x64_S2300000x1_S2300000x64_1_0_n_n_0_1_164_wf
def scatter_S300000x64_S2300000x1_S2300000x64_1_0_0_1 : ScatterDims S300000x64 S2300000x1 S2300000x64 where
  updateWindowDims := [1]
  insertedWindowDims := [0]
  scatterDimsToOperandDims := [0]
  indexVectorDim := 1
  wf := scatter_S300000x64_S2300000x1_S2300000x64_1_0_0_1_wf

class Facts : Prop extends Facts₀ where

variable [Facts]
-- ==== Proof.K.Region0.lean ====
/-
  Region 0 of the program (its pallas_call number 0, the body `cc0__edge_mlp_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.Kernel.Launch
import proofs.«144458_j9423158248257_1_alg».proof.Proof.Gen.Kernel.Skeleton
import proofs.«144458_j9423158248257_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block of the entry array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block of the entry array at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block of the entry array at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block of the entry array at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S32768x8 := Rect.unit (s := S32768x8) ![0, 0] S32768x8.size inb_S32768x8_S32768x8_0_0
abbrev r0_1 : Rect S8x32 := Rect.unit (s := S8x32) ![0, 0] S8x32.size inb_S8x32_S8x32_0_0
abbrev r0_2 : Rect S1x32 := Rect.unit (s := S1x32) ![0, 0] S1x32.size inb_S1x32_S1x32_0_0
abbrev r0_3 : Rect S32x1 := Rect.unit (s := S32x1) ![0, 0] S32x1.size inb_S32x1_S32x1_0_0
abbrev r0_4 : Rect S1x1 := Rect.unit (s := S1x1) ![0, 0] S1x1.size inb_S1x1_S1x1_0_0
abbrev r0_5 : Rect S32768 := Rect.unit (s := S32768) ![0] S32768.size inb_S32768_S32768_0

/-- The output block after the body, from the input blocks: the one store's payload over the whole block. -/
def out0_5 (x0 : Vec F S32768x8 .f32) (x1 : Vec F S8x32 .f32) (x2 : Vec F S1x32 .f32) (x3 : Vec F S32x1 .f32) (x4 : Vec F S1x1 .f32) : Vec F S32768 .f32 :=
  View.canon [⟨r0_5, k0_pay1 (View.ld x0 r0_0) (View.ld x1 r0_1) (View.ld x2 r0_2) (View.ld x3 r0_3) (View.ld x4 r0_4)⟩]

/-- The one store covers the output block. -/
theorem cover0_5 (p0 : Vec F S32768 .f32) (y : S32768.Idx) :
    ∃ pc ∈ ([⟨r0_5, p0⟩] : List (View.Piece (Elt F) S32768 .f32)), y ∈ pc.1.set :=
  View.cover_of_tiled [⟨r0_5, p0⟩] S32768.size (by rfl) y

set_option maxHeartbeats 1000000 in
/-- The body on whole staging buffers, the inputs' at contents `xW` and the output's at anything, runs to the
    continuation with the inputs' as they were and the output's at `out0_5` of the inputs'. -/
theorem sound_kernel0 (c : Dev nD) (E : Set ℕ) (i : grid0.Coords) (arg0 : Memref sig .tc .vmem S32768x8 .f32) (harg0 : arg0.IsWhole) (arg1 : Memref sig .tc .vmem S8x32 .f32) (harg1 : arg1.IsWhole) (arg2 : Memref sig .tc .vmem S1x32 .f32) (harg2 : arg2.IsWhole) (arg3 : Memref sig .tc .vmem S32x1 .f32) (harg3 : arg3.IsWhole) (arg4 : Memref sig .tc .vmem S1x1 .f32) (harg4 : arg4.IsWhole) (arg5 : Memref sig .tc .vmem S32768 .f32) (harg5 : arg5.IsWhole)
    (x0 : Vec F S32768x8 .f32) (x1 : Vec F S8x32 .f32) (x2 : Vec F S1x32 .f32) (x3 : Vec F S32x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__edge_mlp_kernel i arg0 harg0 arg1 harg1 arg2 harg2 arg3 harg3 arg4 harg4 arg5 harg5) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the region finds them; after the body at point `t` each
    input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Region1.lean ====
/-
  Region 1 of the program (its pallas_call number 1, the body `cc1__l2norm_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.Kernel.Launch
import proofs.«144458_j9423158248257_1_alg».proof.Proof.Gen.Kernel.Skeleton
import proofs.«144458_j9423158248257_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S8192x64 := Rect.unit (s := S8192x64) ![0, 0] S8192x64.size inb_S8192x64_S8192x64_0_0
abbrev r1_1 : Rect S8192x64 := Rect.unit (s := S8192x64) ![0, 0] S8192x64.size inb_S8192x64_S8192x64_0_0

/-- The output block after the body, from the input blocks: the one store's payload over the whole block. -/
def out1_1 (x0 : Vec F S8192x64 .f32) : Vec F S8192x64 .f32 :=
  View.canon [⟨r1_1, k1_pay1 (View.ld x0 r1_0)⟩]

/-- The one store covers the output block. -/
theorem cover1_1 (p0 : Vec F S8192x64 .f32) (y : S8192x64.Idx) :
    ∃ pc ∈ ([⟨r1_1, p0⟩] : List (View.Piece (Elt F) S8192x64 .f32)), y ∈ pc.1.set :=
  View.cover_of_tiled [⟨r1_1, p0⟩] S8192x64.size (by rfl) y

set_option maxHeartbeats 1000000 in
/-- The body on whole staging buffers, the inputs' at contents `xW` and the output's at anything, runs to the
    continuation with the inputs' as they were and the output's at `out1_1` of the inputs'. -/
theorem sound_kernel1 (c : Dev nD) (E : Set ℕ) (i : grid1.Coords) (arg0 : Memref sig .tc .vmem S8192x64 .f32) (harg0 : arg0.IsWhole) (arg1 : Memref sig .tc .vmem S8192x64 .f32) (harg1 : arg1.IsWhole)
    (x0 : Vec F S8192x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__l2norm_kernel i arg0 harg0 arg1 harg1) K := by
  simp only [cc1__l2norm_kernel_eq_skeleton]; unfold cc1__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the region finds them; after the body at point `t` each
    input's buffer at its block and the output's at `out1_1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.Region2.lean ====
/-
  Region 2 of the program (its pallas_call number 2, the body `cc2__item_proj_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.Kernel.Launch
import proofs.«144458_j9423158248257_1_alg».proof.Proof.Gen.Kernel.Skeleton
import proofs.«144458_j9423158248257_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry array at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block of the entry array at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block of the entry array at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S8192x128 := Rect.unit (s := S8192x128) ![0, 0] S8192x128.size inb_S8192x128_S8192x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S8192x64 := Rect.unit (s := S8192x64) ![0, 0] S8192x64.size inb_S8192x64_S8192x64_0_0

/-- The output block after the body, from the input blocks: the one store's payload over the whole block. -/
def out2_3 (x0 : Vec F S8192x128 .f32) (x1 : Vec F S128x64 .f32) (x2 : Vec F S1x64 .f32) : Vec F S8192x64 .f32 :=
  View.canon [⟨r2_3, k2_pay1 (View.ld x0 r2_0) (View.ld x1 r2_1) (View.ld x2 r2_2)⟩]

/-- The one store covers the output block. -/
theorem cover2_3 (p0 : Vec F S8192x64 .f32) (y : S8192x64.Idx) :
    ∃ pc ∈ ([⟨r2_3, p0⟩] : List (View.Piece (Elt F) S8192x64 .f32)), y ∈ pc.1.set :=
  View.cover_of_tiled [⟨r2_3, p0⟩] S8192x64.size (by rfl) y

set_option maxHeartbeats 1000000 in
/-- The body on whole staging buffers, the inputs' at contents `xW` and the output's at anything, runs to the
    continuation with the inputs' as they were and the output's at `out2_3` of the inputs'. -/
theorem sound_kernel2 (c : Dev nD) (E : Set ℕ) (i : grid2.Coords) (arg0 : Memref sig .tc .vmem S8192x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S8192x64 .f32) (harg3 : arg3.IsWhole)
    (x0 : Vec F S8192x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__item_proj_kernel i arg0 harg0 arg1 harg1 arg2 harg2 arg3 harg3) K := by
  simp only [cc2__item_proj_kernel_eq_skeleton]; unfold cc2__item_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Region3.lean ====
/-
  Region 3 of the program (its pallas_call number 3, the body `cc3__l2norm_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.Kernel.Launch
import proofs.«144458_j9423158248257_1_alg».proof.Proof.Gen.Kernel.Skeleton
import proofs.«144458_j9423158248257_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the entry array at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S8192x64 := Rect.unit (s := S8192x64) ![0, 0] S8192x64.size inb_S8192x64_S8192x64_0_0
abbrev r3_1 : Rect S8192x64 := Rect.unit (s := S8192x64) ![0, 0] S8192x64.size inb_S8192x64_S8192x64_0_0

/-- The output block after the body, from the input blocks: the one store's payload over the whole block. -/
def out3_1 (x0 : Vec F S8192x64 .f32) : Vec F S8192x64 .f32 :=
  View.canon [⟨r3_1, k3_pay1 (View.ld x0 r3_0)⟩]

/-- The one store covers the output block. -/
theorem cover3_1 (p0 : Vec F S8192x64 .f32) (y : S8192x64.Idx) :
    ∃ pc ∈ ([⟨r3_1, p0⟩] : List (View.Piece (Elt F) S8192x64 .f32)), y ∈ pc.1.set :=
  View.cover_of_tiled [⟨r3_1, p0⟩] S8192x64.size (by rfl) y

set_option maxHeartbeats 1000000 in
/-- The body on whole staging buffers, the inputs' at contents `xW` and the output's at anything, runs to the
    continuation with the inputs' as they were and the output's at `out3_1` of the inputs'. -/
theorem sound_kernel3 (c : Dev nD) (E : Set ℕ) (i : grid3.Coords) (arg0 : Memref sig .tc .vmem S8192x64 .f32) (harg0 : arg0.IsWhole) (arg1 : Memref sig .tc .vmem S8192x64 .f32) (harg1 : arg1.IsWhole)
    (x0 : Vec F S8192x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__l2norm_kernel i arg0 harg0 arg1 harg1) K := by
  simp only [cc3__l2norm_kernel_eq_skeleton]; unfold cc3__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`: the arrays as the region finds them; after the body at point `t` each
    input's buffer at its block and the output's at `out3_1` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Segs.lean ====
/-
  The whole run of the program: its @main is seventeen items — host stretches and the four kernel regions — and the
  TensorCore's unscoped buffers pass from one item to the next at known contents. A host stretch leaves them at the
  stretch's operations applied to what it found; a region leaves its output window's array at the fold of its grid
  points' write-backs and every other buffer as it found it. Named `outs`, the regions' output arrays determine every
  later contents; `OutsOk` says that `outs` names exactly those folds. Under it each region is a segment of the run
  (its arrays split out of the buffers at entry and put back at exit), and every weakly fair execution of @main ends
  with every unscoped buffer at the last contents. The frame claim is that run read at the argument arrays.
-/
import proofs.«144458_j9423158248257_1_alg».proof.Proof.Gen.Kernel.Regions
import proofs.«144458_j9423158248257_1_alg».proof.Proof.K.Region0
import proofs.«144458_j9423158248257_1_alg».proof.Proof.K.Region1
import proofs.«144458_j9423158248257_1_alg».proof.Proof.K.Region2
import proofs.«144458_j9423158248257_1_alg».proof.Proof.K.Region3
import Idealize.ShloMosaic.Lib.Pipeline.RegionsLoop
import Idealize.ShloMosaic.Lib.Pipeline.FrameSuffix

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation read at the TensorCore's references. -/
abbrev rd (X : Dev nD → Valuation τ sig (Elt F)) : (c : Dev nD) → (b : Ref sig .tc) → Buf (Elt F) ((c : Thread nD τ).loc b) := fun c b => X c b

/-- `outs` names, at each region's output array, the fold of the region's write-backs from its entry contents. -/
def OutsOk : Prop :=
  (∀ c, (dat0 (rd (V3 m)) c).arrAt 5 cfg0.N = rd (V4 m outs) c (Pipeline.arrRef spec0 5))
  ∧ (∀ c, (dat1 (rd (V8 m outs)) c).arrAt 1 cfg1.N = rd (V9 m outs) c (Pipeline.arrRef spec1 1))
  ∧ (∀ c, (dat2 (rd (V12 m outs)) c).arrAt 3 cfg2.N = rd (V13 m outs) c (Pipeline.arrRef spec2 3))
  ∧ (∀ c, (dat3 (rd (V15 m outs)) c).arrAt 1 cfg3.N = rd (V16 m outs) c (Pipeline.arrRef spec3 1))

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (rd (V3 m)) c
  | ⟨1, _⟩ => fun c => dat1 (rd (V8 m outs)) c
  | ⟨2, _⟩ => fun c => dat2 (rd (V12 m outs)) c
  | ⟨3, _⟩ => fun c => dat3 (rd (V15 m outs)) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- At region 0's exit each of its arrays holds what the pipeline leaves: an input's array is as entered, the
    output's array is the folded write-backs, which is what `outs` names there. -/
theorem hF0 (h : OutsOk m outs) (c : Dev nD) : ∀ w : Fin cfg0.W, (dat0 (rd (V3 m)) c).arrAt w cfg0.N = rd (V4 m outs) c (Pipeline.arrRef spec0 w)
  | ⟨0, _⟩ => ((dat0 (rd (V3 m)) c).arrAt_in 0 rfl _).trans ((A_eq0 (rd (V3 m)) c 0).trans (V4_of m outs c _ (by decide)).symm)
  | ⟨1, _⟩ => ((dat0 (rd (V3 m)) c).arrAt_in 1 rfl _).trans ((A_eq0 (rd (V3 m)) c 1).trans (V4_of m outs c _ (by decide)).symm)
  | ⟨2, _⟩ => ((dat0 (rd (V3 m)) c).arrAt_in 2 rfl _).trans ((A_eq0 (rd (V3 m)) c 2).trans (V4_of m outs c _ (by decide)).symm)
  | ⟨3, _⟩ => ((dat0 (rd (V3 m)) c).arrAt_in 3 rfl _).trans ((A_eq0 (rd (V3 m)) c 3).trans (V4_of m outs c _ (by decide)).symm)
  | ⟨4, _⟩ => ((dat0 (rd (V3 m)) c).arrAt_in 4 rfl _).trans ((A_eq0 (rd (V3 m)) c 4).trans (V4_of m outs c _ (by decide)).symm)
  | ⟨5, _⟩ => h.1 c

/-- and every buffer that is no array of the region holds what it held at entry. -/
theorem hrest0 (c : Dev nD) : ∀ b, b ∉ Finset.univ.image (Pipeline.arrRef spec0) → rd (V4 m outs) c b = rd (V3 m) c b :=
  fun b hb => V4_of m outs c b (by
    intro hmem
    rw [List.mem_singleton] at hmem
    exact hb (Finset.mem_image.mpr ⟨5, Finset.mem_univ _, (show Pipeline.arrRef spec0 5 = b from hmem.symm)⟩))

set_option backward.isDefEq.respectTransparency.types false in
/-- Region 0 as a segment: entered from every unscoped buffer at the entry contents, left at the exit contents;
    its arrays split out of the unscoped buffers and put back; the generator register through the invariant. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (rd (V3 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (rd (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (rd (V3 m) c) (rd (V4 m outs) c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input's array is as entered, the
    output's array is the folded write-backs, which is what `outs` names there. -/
theorem hF1 (h : OutsOk m outs) (c : Dev nD) : ∀ w : Fin cfg1.W, (dat1 (rd (V8 m outs)) c).arrAt w cfg1.N = rd (V9 m outs) c (Pipeline.arrRef spec1 w)
  | ⟨0, _⟩ => ((dat1 (rd (V8 m outs)) c).arrAt_in 0 rfl _).trans ((A_eq1 (rd (V8 m outs)) c 0).trans (V9_of m outs c _ (by decide)).symm)
  | ⟨1, _⟩ => h.2.1 c

/-- and every buffer that is no array of the region holds what it held at entry. -/
theorem hrest1 (c : Dev nD) : ∀ b, b ∉ Finset.univ.image (Pipeline.arrRef spec1) → rd (V9 m outs) c b = rd (V8 m outs) c b :=
  fun b hb => V9_of m outs c b (by
    intro hmem
    rw [List.mem_singleton] at hmem
    exact hb (Finset.mem_image.mpr ⟨1, Finset.mem_univ _, (show Pipeline.arrRef spec1 1 = b from hmem.symm)⟩))

set_option backward.isDefEq.respectTransparency.types false in
/-- Region 1 as a segment: entered from every unscoped buffer at the entry contents, left at the exit contents;
    its arrays split out of the unscoped buffers and put back; the generator register through the invariant. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V8 m outs)) c).loose
  hwaits := Pipeline.hwaits_of_owed_zero _ _ _ _ L lv 1 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec1 c (rd (V8 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (rd (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (rd (V8 m outs) c) (rd (V9 m outs) c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input's array is as entered, the
    output's array is the folded write-backs, which is what `outs` names there. -/
theorem hF2 (h : OutsOk m outs) (c : Dev nD) : ∀ w : Fin cfg2.W, (dat2 (rd (V12 m outs)) c).arrAt w cfg2.N = rd (V13 m outs) c (Pipeline.arrRef spec2 w)
  | ⟨0, _⟩ => ((dat2 (rd (V12 m outs)) c).arrAt_in 0 rfl _).trans ((A_eq2 (rd (V12 m outs)) c 0).trans (V13_of m outs c _ (by decide)).symm)
  | ⟨1, _⟩ => ((dat2 (rd (V12 m outs)) c).arrAt_in 1 rfl _).trans ((A_eq2 (rd (V12 m outs)) c 1).trans (V13_of m outs c _ (by decide)).symm)
  | ⟨2, _⟩ => ((dat2 (rd (V12 m outs)) c).arrAt_in 2 rfl _).trans ((A_eq2 (rd (V12 m outs)) c 2).trans (V13_of m outs c _ (by decide)).symm)
  | ⟨3, _⟩ => h.2.2.1 c

/-- and every buffer that is no array of the region holds what it held at entry. -/
theorem hrest2 (c : Dev nD) : ∀ b, b ∉ Finset.univ.image (Pipeline.arrRef spec2) → rd (V13 m outs) c b = rd (V12 m outs) c b :=
  fun b hb => V13_of m outs c b (by
    intro hmem
    rw [List.mem_singleton] at hmem
    exact hb (Finset.mem_image.mpr ⟨3, Finset.mem_univ _, (show Pipeline.arrRef spec2 3 = b from hmem.symm)⟩))

set_option backward.isDefEq.respectTransparency.types false in
/-- Region 2 as a segment: entered from every unscoped buffer at the entry contents, left at the exit contents;
    its arrays split out of the unscoped buffers and put back; the generator register through the invariant. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V12 m outs)) c).loose
  hwaits := Pipeline.hwaits_of_owed_zero _ _ _ _ L lv 2 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec2 c (rd (V12 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (rd (V12 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (rd (V12 m outs) c) (rd (V13 m outs) c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input's array is as entered, the
    output's array is the folded write-backs, which is what `outs` names there. -/
theorem hF3 (h : OutsOk m outs) (c : Dev nD) : ∀ w : Fin cfg3.W, (dat3 (rd (V15 m outs)) c).arrAt w cfg3.N = rd (V16 m outs) c (Pipeline.arrRef spec3 w)
  | ⟨0, _⟩ => ((dat3 (rd (V15 m outs)) c).arrAt_in 0 rfl _).trans ((A_eq3 (rd (V15 m outs)) c 0).trans (V16_of m outs c _ (by decide)).symm)
  | ⟨1, _⟩ => h.2.2.2 c

/-- and every buffer that is no array of the region holds what it held at entry. -/
theorem hrest3 (c : Dev nD) : ∀ b, b ∉ Finset.univ.image (Pipeline.arrRef spec3) → rd (V16 m outs) c b = rd (V15 m outs) c b :=
  fun b hb => V16_of m outs c b (by
    intro hmem
    rw [List.mem_singleton] at hmem
    exact hb (Finset.mem_image.mpr ⟨1, Finset.mem_univ _, (show Pipeline.arrRef spec3 1 = b from hmem.symm)⟩))

set_option backward.isDefEq.respectTransparency.types false in
/-- Region 3 as a segment: entered from every unscoped buffer at the entry contents, left at the exit contents;
    its arrays split out of the unscoped buffers and put back; the generator register through the invariant. -/
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (V15 m outs)) c).loose
  hwaits := Pipeline.hwaits_of_owed_zero _ _ _ _ L lv 3 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec3 c (rd (V15 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (rd (V15 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (rd (V15 m outs) c) (rd (V16 m outs) c) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Run.lean ====
/-
  The run of the whole program from the launch to the return, and its frame. From any memory with zero counters every
  weakly fair execution of @main terminates, and at the end every unscoped buffer of every core holds the last
  contents of the item-by-item fold (`V17`): the launch deals the buffers at their launch contents, each host stretch
  and each region hands them on, and the last state is read against the final memory. An argument array is written by
  no host operation and is no region's output, so the fold at an argument walks back to the launch memory: that is
  the frame claim. The regions' outputs exist: they are defined one region after the other, each from the contents the
  earlier ones leave.
-/
import proofs.«144458_j9423158248257_1_alg».proof.Proof.K.Segs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-- What rides beside the buffers, the same between any two items. -/
abbrev Es : Fin 5 → Dev nD → sProp 𝕄 := fun _ c => R c

/-- What rides beside the buffers ends owing nothing. -/
theorem R_owes (c : Dev nD) : (R (F := F) c) ⊢ (iprop(∃ W, owes (c : Thread nD τ) (0 : CellTallies nD τ sig Unit) W) : sProp 𝕄) := by
  iintro ⟨-, HO⟩
  iexact HO

set_option backward.isDefEq.respectTransparency.types false in
/-- THE RUN, for any `outs` naming the regions' folds: every weakly fair execution of @main terminates and every
    final memory holds every unscoped buffer at the last contents `V17`. -/
theorem run_all (h : OutsOk m outs) :
    θ_run defs (onTc (τ := τ) (main (F := F))) ⟨m, fun _ => 0, ρ⟩ (fun r => ∀ c : Dev nD,
      ∀ b ∈ Pipeline.ucRefs τ sig, r.2.mem (((c : Thread nD τ)).1, b) = V17 m outs c b) := by
  refine Pipeline.θ_run_regions_kit_dev (pcfgs (F := F)) adm (pdats m outs) () cellOf_inj emb₁ defs₀ 𝒱₀ L lv m ρ main
    (segs m outs 𝒱₀ L lv (Es (F := F)) () (pdats m outs) (reg0 m outs h) (reg1 m outs h) (reg2 m outs h) (reg3 m outs h))
    (fun c Q => by
      rewrite [main_chain c, Seg.run_eq_chain,
        show (segs m outs 𝒱₀ L lv (Es (F := F)) () (pdats m outs) (reg0 m outs h) (reg1 m outs h) (reg2 m outs h) (reg3 m outs h) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m outs c))
    (hch := fun c => ⟨.rfl, .rfl, .rfl, .rfl, .rfl, .rfl, .rfl, .rfl, .rfl, .rfl, .rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m outs c b)
    (hfin := fun c s' => by
      iintro ⟨Hh, HSI⟩
      unfold StableHlo.held
      imodintro
      iapply (pointsTo_read_all (Pipeline.ucRefs τ sig) (fun b => (((c : Thread nD τ)).1, b)) (V17 m outs c) s')
      isplitl [Hh] <;> iassumption)
    (hQ := fun s h c => h c)

/-- An unscoped TensorCore reference is among those the last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, from the run: each argument's buffer is read off the last contents, which at an argument are the
    launch contents. -/
theorem frame_of_run (h : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ hr c => ⟨(hr c _ (mem_uc main_arg0 (by decide))).trans (V17_main_arg0 m outs c),
    (hr c _ (mem_uc main_arg1 (by decide))).trans (V17_main_arg1 m outs c),
    (hr c _ (mem_uc main_arg2 (by decide))).trans (V17_main_arg2 m outs c),
    (hr c _ (mem_uc main_arg3 (by decide))).trans (V17_main_arg3 m outs c),
    (hr c _ (mem_uc main_arg4 (by decide))).trans (V17_main_arg4 m outs c),
    (hr c _ (mem_uc main_arg5 (by decide))).trans (V17_main_arg5 m outs c),
    (hr c _ (mem_uc main_arg6 (by decide))).trans (V17_main_arg6 m outs c),
    (hr c _ (mem_uc main_arg7 (by decide))).trans (V17_main_arg7 m outs c),
    (hr c _ (mem_uc main_arg8 (by decide))).trans (V17_main_arg8 m outs c),
    (hr c _ (mem_uc main_arg9 (by decide))).trans (V17_main_arg9 m outs c),
    (hr c _ (mem_uc main_arg10 (by decide))).trans (V17_main_arg10 m outs c),
    (hr c _ (mem_uc main_arg11 (by decide))).trans (V17_main_arg11 m outs c),
    (hr c _ (mem_uc main_arg12 (by decide))).trans (V17_main_arg12 m outs c),
    (hr c _ (mem_uc main_arg13 (by decide))).trans (V17_main_arg13 m outs c),
    (hr c _ (mem_uc main_arg14 (by decide))).trans (V17_main_arg14 m outs c)⟩)
    (run_all m ρ outs h)

end Cert.Kernel.Reg

end
-- ==== Proof.K.Outs.lean ====
/-
  The regions' output arrays exist. Region 0's is the fold of its write-backs from the contents the first host
  stretches leave; the contents region 1 finds depend on that array only, so region 1's output is defined next, and so
  on: each region's output is defined from the earlier ones. The contents before a region depend on `outs` only at the
  earlier regions' output arrays, which is what makes the staged definition name the right folds.
-/
import proofs.«144458_j9423158248257_1_alg».proof.Proof.K.Run

set_option maxRecDepth 16384

noncomputable section

namespace Cert.Kernel.Reg

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The contents before region 1 depend on `outs` only at region 0's output. -/
theorem V8_congr (o o' : Outs (F := F)) (h : ∀ c, o 4 main_v3 c = o' 4 main_v3 c) : V8 m o = V8 m o' := by
  funext c
  show StableHlo.after _ (StableHlo.after _ (StableHlo.after _ (StableHlo.after _ (Function.update (V3 m c) _ (o 4 main_v3 c))))) = _
  rw [h c]

/-- The contents before region 2 depend on `outs` only at the outputs of regions 0 and 1. -/
theorem V12_congr (o o' : Outs (F := F)) (h : ∀ c, o 4 main_v3 c = o' 4 main_v3 c) (h' : ∀ c, o 9 main_v36 c = o' 9 main_v36 c) :
    V12 m o = V12 m o' := by
  funext c
  show StableHlo.after _ (StableHlo.after _ (StableHlo.after _ (Function.update (V8 m o c) _ (o 9 main_v36 c)))) = _
  rw [h' c, V8_congr m o o' h]

/-- The contents before region 3 depend on `outs` only at the outputs of regions 0, 1 and 2. -/
theorem V15_congr (o o' : Outs (F := F)) (h : ∀ c, o 4 main_v3 c = o' 4 main_v3 c) (h' : ∀ c, o 9 main_v36 c = o' 9 main_v36 c)
    (h'' : ∀ c, o 13 main_v60 c = o' 13 main_v60 c) : V15 m o = V15 m o' := by
  funext c
  show StableHlo.after _ (StableHlo.after _ (Function.update (V12 m o c) _ (o 13 main_v60 c))) = _
  rw [h'' c, V12_congr m o o' h h']

/-- Region 0's exit contents. -/
def outsA : Outs (F := F) := fun _ r c =>
  Pipeline.withArrays spec0 c (V3 m c) (fun w => (dat0 (rd (V3 m)) c).arrAt w cfg0.N) r
/-- … then region 1's, from what region 0 leaves. -/
def outsB : Outs (F := F) := fun J r c => if J = 4 then outsA m J r c else
  Pipeline.withArrays spec1 c (V8 m (outsA m) c) (fun w => (dat1 (rd (V8 m (outsA m))) c).arrAt w cfg1.N) r
/-- … then region 2's. -/
def outsC : Outs (F := F) := fun J r c => if J = 4 ∨ J = 9 then outsB m J r c else
  Pipeline.withArrays spec2 c (V12 m (outsB m) c) (fun w => (dat2 (rd (V12 m (outsB m))) c).arrAt w cfg2.N) r
/-- … then region 3's: the regions' outputs. -/
def outsD : Outs (F := F) := fun J r c => if J = 4 ∨ J = 9 ∨ J = 13 then outsC m J r c else
  Pipeline.withArrays spec3 c (V15 m (outsC m) c) (fun w => (dat3 (rd (V15 m (outsC m))) c).arrAt w cfg3.N) r

theorem outsD_4 (r c) : outsD m 4 r c = outsA m 4 r c := rfl
theorem outsD_9 (r c) : outsD m 9 r c = outsB m 9 r c := rfl
theorem outsD_13 (r c) : outsD m 13 r c = outsC m 13 r c := rfl
theorem outsC_4 (r c) : outsC m 4 r c = outsA m 4 r c := rfl
theorem outsC_9 (r c) : outsC m 9 r c = outsB m 9 r c := rfl
theorem outsB_4 (r c) : outsB m 4 r c = outsA m 4 r c := rfl

theorem V8_outsD : V8 m (outsD m) = V8 m (outsA m) := V8_congr m _ _ fun c => outsD_4 m _ c
theorem V12_outsD : V12 m (outsD m) = V12 m (outsB m) :=
  V12_congr m _ _ (fun c => (outsD_4 m _ c).trans (outsB_4 m _ c).symm) fun c => outsD_9 m _ c
theorem V15_outsD : V15 m (outsD m) = V15 m (outsC m) :=
  V15_congr m _ _ (fun c => (outsD_4 m _ c).trans (outsC_4 m _ c).symm) (fun c => (outsD_9 m _ c).trans (outsC_9 m _ c).symm)
    fun c => outsD_13 m _ c

/-- The staged definition names each region's fold. -/
theorem outsOk : OutsOk m (outsD m) := by
  refine ⟨fun c => ?_, fun c => ?_, fun c => ?_, fun c => ?_⟩
  · have e : V4 m (outsD m) c main_v3 = outsD m 4 main_v3 c := by simp only [V4, Function.update_self]
    show _ = V4 m (outsD m) c main_v3
    rw [e]
    exact (Pipeline.withArrays_arr spec0 launch0.win.arr_inj c (V3 m c) (fun w => (dat0 (rd (V3 m)) c).arrAt w cfg0.N) 5).symm
  · have e : V9 m (outsD m) c main_v36 = outsD m 9 main_v36 c := by simp only [V9, Function.update_self]
    show _ = V9 m (outsD m) c main_v36
    rw [e, V8_outsD]
    exact (Pipeline.withArrays_arr spec1 launch1.win.arr_inj c (V8 m (outsA m) c) (fun w => (dat1 (rd (V8 m (outsA m))) c).arrAt w cfg1.N) 1).symm
  · have e : V13 m (outsD m) c main_v60 = outsD m 13 main_v60 c := by simp only [V13, Function.update_self]
    show _ = V13 m (outsD m) c main_v60
    rw [e, V12_outsD]
    exact (Pipeline.withArrays_arr spec2 launch2.win.arr_inj c (V12 m (outsB m) c) (fun w => (dat2 (rd (V12 m (outsB m))) c).arrAt w cfg2.N) 3).symm
  · have e : V16 m (outsD m) c main_v106 = outsD m 16 main_v106 c := by simp only [V16, Function.update_self]
    show _ = V16 m (outsD m) c main_v106
    rw [e, V15_outsD]
    exact (Pipeline.withArrays_arr spec3 launch3.win.arr_inj c (V15 m (outsC m) c) (fun w => (dat3 (rd (V15 m (outsC m))) c).arrAt w cfg3.N) 1).symm

variable (ρ : Dev nD → PrngReg)

/-- THE FRAME of the program, at any `F`. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of_run m ρ (outsD m) (outsOk m)

end Cert.Kernel.Reg

end
-- ==== Proof.KI.Region0.lean ====
/-
  Region 0 of the program (its pallas_call number 0, the body `cc0__edge_mlp_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.KernelIdeal.Launch
import proofs.«144458_j9423158248257_1_alg».proof.Proof.Gen.KernelIdeal.Skeleton
import proofs.«144458_j9423158248257_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block of the entry array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block of the entry array at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block of the entry array at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block of the entry array at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S32768x8 := Rect.unit (s := S32768x8) ![0, 0] S32768x8.size inb_S32768x8_S32768x8_0_0
abbrev r0_1 : Rect S8x32 := Rect.unit (s := S8x32) ![0, 0] S8x32.size inb_S8x32_S8x32_0_0
abbrev r0_2 : Rect S1x32 := Rect.unit (s := S1x32) ![0, 0] S1x32.size inb_S1x32_S1x32_0_0
abbrev r0_3 : Rect S32x1 := Rect.unit (s := S32x1) ![0, 0] S32x1.size inb_S32x1_S32x1_0_0
abbrev r0_4 : Rect S1x1 := Rect.unit (s := S1x1) ![0, 0] S1x1.size inb_S1x1_S1x1_0_0
abbrev r0_5 : Rect S32768 := Rect.unit (s := S32768) ![0] S32768.size inb_S32768_S32768_0

/-- The output block after the body, from the input blocks: the one store's payload over the whole block. -/
def out0_5 (x0 : Vec F S32768x8 .f32) (x1 : Vec F S8x32 .f32) (x2 : Vec F S1x32 .f32) (x3 : Vec F S32x1 .f32) (x4 : Vec F S1x1 .f32) : Vec F S32768 .f32 :=
  View.canon [⟨r0_5, k0_pay1 (View.ld x0 r0_0) (View.ld x1 r0_1) (View.ld x2 r0_2) (View.ld x3 r0_3) (View.ld x4 r0_4)⟩]

/-- The one store covers the output block. -/
theorem cover0_5 (p0 : Vec F S32768 .f32) (y : S32768.Idx) :
    ∃ pc ∈ ([⟨r0_5, p0⟩] : List (View.Piece (Elt F) S32768 .f32)), y ∈ pc.1.set :=
  View.cover_of_tiled [⟨r0_5, p0⟩] S32768.size (by rfl) y

set_option maxHeartbeats 1000000 in
/-- The body on whole staging buffers, the inputs' at contents `xW` and the output's at anything, runs to the
    continuation with the inputs' as they were and the output's at `out0_5` of the inputs'. -/
theorem sound_kernel0 (c : Dev nD) (E : Set ℕ) (i : grid0.Coords) (arg0 : Memref sig .tc .vmem S32768x8 .f32) (harg0 : arg0.IsWhole) (arg1 : Memref sig .tc .vmem S8x32 .f32) (harg1 : arg1.IsWhole) (arg2 : Memref sig .tc .vmem S1x32 .f32) (harg2 : arg2.IsWhole) (arg3 : Memref sig .tc .vmem S32x1 .f32) (harg3 : arg3.IsWhole) (arg4 : Memref sig .tc .vmem S1x1 .f32) (harg4 : arg4.IsWhole) (arg5 : Memref sig .tc .vmem S32768 .f32) (harg5 : arg5.IsWhole)
    (x0 : Vec F S32768x8 .f32) (x1 : Vec F S8x32 .f32) (x2 : Vec F S1x32 .f32) (x3 : Vec F S32x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__edge_mlp_kernel i arg0 harg0 arg1 harg1 arg2 harg2 arg3 harg3 arg4 harg4 arg5 harg5) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the region finds them; after the body at point `t` each
    input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Region1.lean ====
/-
  Region 1 of the program (its pallas_call number 1, the body `cc1__l2norm_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.KernelIdeal.Launch
import proofs.«144458_j9423158248257_1_alg».proof.Proof.Gen.KernelIdeal.Skeleton
import proofs.«144458_j9423158248257_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S8192x64 := Rect.unit (s := S8192x64) ![0, 0] S8192x64.size inb_S8192x64_S8192x64_0_0
abbrev r1_1 : Rect S8192x64 := Rect.unit (s := S8192x64) ![0, 0] S8192x64.size inb_S8192x64_S8192x64_0_0

/-- The output block after the body, from the input blocks: the one store's payload over the whole block. -/
def out1_1 (x0 : Vec F S8192x64 .f32) : Vec F S8192x64 .f32 :=
  View.canon [⟨r1_1, k1_pay1 (View.ld x0 r1_0)⟩]

/-- The one store covers the output block. -/
theorem cover1_1 (p0 : Vec F S8192x64 .f32) (y : S8192x64.Idx) :
    ∃ pc ∈ ([⟨r1_1, p0⟩] : List (View.Piece (Elt F) S8192x64 .f32)), y ∈ pc.1.set :=
  View.cover_of_tiled [⟨r1_1, p0⟩] S8192x64.size (by rfl) y

set_option maxHeartbeats 1000000 in
/-- The body on whole staging buffers, the inputs' at contents `xW` and the output's at anything, runs to the
    continuation with the inputs' as they were and the output's at `out1_1` of the inputs'. -/
theorem sound_kernel1 (c : Dev nD) (E : Set ℕ) (i : grid1.Coords) (arg0 : Memref sig .tc .vmem S8192x64 .f32) (harg0 : arg0.IsWhole) (arg1 : Memref sig .tc .vmem S8192x64 .f32) (harg1 : arg1.IsWhole)
    (x0 : Vec F S8192x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__l2norm_kernel i arg0 harg0 arg1 harg1) K := by
  simp only [cc1__l2norm_kernel_eq_skeleton]; unfold cc1__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the region finds them; after the body at point `t` each
    input's buffer at its block and the output's at `out1_1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Region2.lean ====
/-
  Region 2 of the program (its pallas_call number 2, the body `cc2__item_proj_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.KernelIdeal.Launch
import proofs.«144458_j9423158248257_1_alg».proof.Proof.Gen.KernelIdeal.Skeleton
import proofs.«144458_j9423158248257_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry array at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block of the entry array at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block of the entry array at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S8192x128 := Rect.unit (s := S8192x128) ![0, 0] S8192x128.size inb_S8192x128_S8192x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S8192x64 := Rect.unit (s := S8192x64) ![0, 0] S8192x64.size inb_S8192x64_S8192x64_0_0

/-- The output block after the body, from the input blocks: the one store's payload over the whole block. -/
def out2_3 (x0 : Vec F S8192x128 .f32) (x1 : Vec F S128x64 .f32) (x2 : Vec F S1x64 .f32) : Vec F S8192x64 .f32 :=
  View.canon [⟨r2_3, k2_pay1 (View.ld x0 r2_0) (View.ld x1 r2_1) (View.ld x2 r2_2)⟩]

/-- The one store covers the output block. -/
theorem cover2_3 (p0 : Vec F S8192x64 .f32) (y : S8192x64.Idx) :
    ∃ pc ∈ ([⟨r2_3, p0⟩] : List (View.Piece (Elt F) S8192x64 .f32)), y ∈ pc.1.set :=
  View.cover_of_tiled [⟨r2_3, p0⟩] S8192x64.size (by rfl) y

set_option maxHeartbeats 1000000 in
/-- The body on whole staging buffers, the inputs' at contents `xW` and the output's at anything, runs to the
    continuation with the inputs' as they were and the output's at `out2_3` of the inputs'. -/
theorem sound_kernel2 (c : Dev nD) (E : Set ℕ) (i : grid2.Coords) (arg0 : Memref sig .tc .vmem S8192x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S8192x64 .f32) (harg3 : arg3.IsWhole)
    (x0 : Vec F S8192x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__item_proj_kernel i arg0 harg0 arg1 harg1 arg2 harg2 arg3 harg3) K := by
  simp only [cc2__item_proj_kernel_eq_skeleton]; unfold cc2__item_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Region3.lean ====
/-
  Region 3 of the program (its pallas_call number 3, the body `cc3__l2norm_kernel`), at ANY contents `V` of the
  TensorCore's buffers when the region is entered. A window's block at a grid point is the window's rectangle of its
  array read through the point's index map; the body loads each input block whole, computes one pure value of them (the
  skeleton's payload) and stores it over the whole output block. So after the body the inputs' staging buffers hold
  their blocks unchanged and the output's holds that payload of the input blocks; this is the pipeline's proof data,
  and the body obligation follows from one symbolic run of the body.
-/
import proofs.«144458_j9423158248257_1_alg».proof.Proof.Gen.KernelIdeal.Launch
import proofs.«144458_j9423158248257_1_alg».proof.Proof.Gen.KernelIdeal.Skeleton
import proofs.«144458_j9423158248257_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the entry array at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S8192x64 := Rect.unit (s := S8192x64) ![0, 0] S8192x64.size inb_S8192x64_S8192x64_0_0
abbrev r3_1 : Rect S8192x64 := Rect.unit (s := S8192x64) ![0, 0] S8192x64.size inb_S8192x64_S8192x64_0_0

/-- The output block after the body, from the input blocks: the one store's payload over the whole block. -/
def out3_1 (x0 : Vec F S8192x64 .f32) : Vec F S8192x64 .f32 :=
  View.canon [⟨r3_1, k3_pay1 (View.ld x0 r3_0)⟩]

/-- The one store covers the output block. -/
theorem cover3_1 (p0 : Vec F S8192x64 .f32) (y : S8192x64.Idx) :
    ∃ pc ∈ ([⟨r3_1, p0⟩] : List (View.Piece (Elt F) S8192x64 .f32)), y ∈ pc.1.set :=
  View.cover_of_tiled [⟨r3_1, p0⟩] S8192x64.size (by rfl) y

set_option maxHeartbeats 1000000 in
/-- The body on whole staging buffers, the inputs' at contents `xW` and the output's at anything, runs to the
    continuation with the inputs' as they were and the output's at `out3_1` of the inputs'. -/
theorem sound_kernel3 (c : Dev nD) (E : Set ℕ) (i : grid3.Coords) (arg0 : Memref sig .tc .vmem S8192x64 .f32) (harg0 : arg0.IsWhole) (arg1 : Memref sig .tc .vmem S8192x64 .f32) (harg1 : arg1.IsWhole)
    (x0 : Vec F S8192x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__l2norm_kernel i arg0 harg0 arg1 harg1) K := by
  simp only [cc3__l2norm_kernel_eq_skeleton]; unfold cc3__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`: the arrays as the region finds them; after the body at point `t` each
    input's buffer at its block and the output's at `out3_1` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Segs.lean ====
/-
  The whole run of the program: its @main is seventeen items — host stretches and the four kernel regions — and the
  TensorCore's unscoped buffers pass from one item to the next at known contents. A host stretch leaves them at the
  stretch's operations applied to what it found; a region leaves its output window's array at the fold of its grid
  points' write-backs and every other buffer as it found it. Named `outs`, the regions' output arrays determine every
  later contents; `OutsOk` says that `outs` names exactly those folds. Under it each region is a segment of the run
  (its arrays split out of the buffers at entry and put back at exit), and every weakly fair execution of @main ends
  with every unscoped buffer at the last contents. The frame claim is that run read at the argument arrays.
-/
import proofs.«144458_j9423158248257_1_alg».proof.Proof.Gen.KernelIdeal.Regions
import proofs.«144458_j9423158248257_1_alg».proof.Proof.KI.Region0
import proofs.«144458_j9423158248257_1_alg».proof.Proof.KI.Region1
import proofs.«144458_j9423158248257_1_alg».proof.Proof.KI.Region2
import proofs.«144458_j9423158248257_1_alg».proof.Proof.KI.Region3
import Idealize.ShloMosaic.Lib.Pipeline.RegionsLoop
import Idealize.ShloMosaic.Lib.Pipeline.FrameSuffix

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation read at the TensorCore's references. -/
abbrev rd (X : Dev nD → Valuation τ sig (Elt F)) : (c : Dev nD) → (b : Ref sig .tc) → Buf (Elt F) ((c : Thread nD τ).loc b) := fun c b => X c b

/-- `outs` names, at each region's output array, the fold of the region's write-backs from its entry contents. -/
def OutsOk : Prop :=
  (∀ c, (dat0 (rd (V3 m)) c).arrAt 5 cfg0.N = rd (V4 m outs) c (Pipeline.arrRef spec0 5))
  ∧ (∀ c, (dat1 (rd (V8 m outs)) c).arrAt 1 cfg1.N = rd (V9 m outs) c (Pipeline.arrRef spec1 1))
  ∧ (∀ c, (dat2 (rd (V12 m outs)) c).arrAt 3 cfg2.N = rd (V13 m outs) c (Pipeline.arrRef spec2 3))
  ∧ (∀ c, (dat3 (rd (V15 m outs)) c).arrAt 1 cfg3.N = rd (V16 m outs) c (Pipeline.arrRef spec3 1))

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (rd (V3 m)) c
  | ⟨1, _⟩ => fun c => dat1 (rd (V8 m outs)) c
  | ⟨2, _⟩ => fun c => dat2 (rd (V12 m outs)) c
  | ⟨3, _⟩ => fun c => dat3 (rd (V15 m outs)) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- At region 0's exit each of its arrays holds what the pipeline leaves: an input's array is as entered, the
    output's array is the folded write-backs, which is what `outs` names there. -/
theorem hF0 (h : OutsOk m outs) (c : Dev nD) : ∀ w : Fin cfg0.W, (dat0 (rd (V3 m)) c).arrAt w cfg0.N = rd (V4 m outs) c (Pipeline.arrRef spec0 w)
  | ⟨0, _⟩ => ((dat0 (rd (V3 m)) c).arrAt_in 0 rfl _).trans ((A_eq0 (rd (V3 m)) c 0).trans (V4_of m outs c _ (by decide)).symm)
  | ⟨1, _⟩ => ((dat0 (rd (V3 m)) c).arrAt_in 1 rfl _).trans ((A_eq0 (rd (V3 m)) c 1).trans (V4_of m outs c _ (by decide)).symm)
  | ⟨2, _⟩ => ((dat0 (rd (V3 m)) c).arrAt_in 2 rfl _).trans ((A_eq0 (rd (V3 m)) c 2).trans (V4_of m outs c _ (by decide)).symm)
  | ⟨3, _⟩ => ((dat0 (rd (V3 m)) c).arrAt_in 3 rfl _).trans ((A_eq0 (rd (V3 m)) c 3).trans (V4_of m outs c _ (by decide)).symm)
  | ⟨4, _⟩ => ((dat0 (rd (V3 m)) c).arrAt_in 4 rfl _).trans ((A_eq0 (rd (V3 m)) c 4).trans (V4_of m outs c _ (by decide)).symm)
  | ⟨5, _⟩ => h.1 c

/-- and every buffer that is no array of the region holds what it held at entry. -/
theorem hrest0 (c : Dev nD) : ∀ b, b ∉ Finset.univ.image (Pipeline.arrRef spec0) → rd (V4 m outs) c b = rd (V3 m) c b :=
  fun b hb => V4_of m outs c b (by
    intro hmem
    rw [List.mem_singleton] at hmem
    exact hb (Finset.mem_image.mpr ⟨5, Finset.mem_univ _, (show Pipeline.arrRef spec0 5 = b from hmem.symm)⟩))

set_option backward.isDefEq.respectTransparency.types false in
/-- Region 0 as a segment: entered from every unscoped buffer at the entry contents, left at the exit contents;
    its arrays split out of the unscoped buffers and put back; the generator register through the invariant. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (rd (V3 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (rd (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (rd (V3 m) c) (rd (V4 m outs) c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input's array is as entered, the
    output's array is the folded write-backs, which is what `outs` names there. -/
theorem hF1 (h : OutsOk m outs) (c : Dev nD) : ∀ w : Fin cfg1.W, (dat1 (rd (V8 m outs)) c).arrAt w cfg1.N = rd (V9 m outs) c (Pipeline.arrRef spec1 w)
  | ⟨0, _⟩ => ((dat1 (rd (V8 m outs)) c).arrAt_in 0 rfl _).trans ((A_eq1 (rd (V8 m outs)) c 0).trans (V9_of m outs c _ (by decide)).symm)
  | ⟨1, _⟩ => h.2.1 c

/-- and every buffer that is no array of the region holds what it held at entry. -/
theorem hrest1 (c : Dev nD) : ∀ b, b ∉ Finset.univ.image (Pipeline.arrRef spec1) → rd (V9 m outs) c b = rd (V8 m outs) c b :=
  fun b hb => V9_of m outs c b (by
    intro hmem
    rw [List.mem_singleton] at hmem
    exact hb (Finset.mem_image.mpr ⟨1, Finset.mem_univ _, (show Pipeline.arrRef spec1 1 = b from hmem.symm)⟩))

set_option backward.isDefEq.respectTransparency.types false in
/-- Region 1 as a segment: entered from every unscoped buffer at the entry contents, left at the exit contents;
    its arrays split out of the unscoped buffers and put back; the generator register through the invariant. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V8 m outs)) c).loose
  hwaits := Pipeline.hwaits_of_owed_zero _ _ _ _ L lv 1 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec1 c (rd (V8 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (rd (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (rd (V8 m outs) c) (rd (V9 m outs) c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input's array is as entered, the
    output's array is the folded write-backs, which is what `outs` names there. -/
theorem hF2 (h : OutsOk m outs) (c : Dev nD) : ∀ w : Fin cfg2.W, (dat2 (rd (V12 m outs)) c).arrAt w cfg2.N = rd (V13 m outs) c (Pipeline.arrRef spec2 w)
  | ⟨0, _⟩ => ((dat2 (rd (V12 m outs)) c).arrAt_in 0 rfl _).trans ((A_eq2 (rd (V12 m outs)) c 0).trans (V13_of m outs c _ (by decide)).symm)
  | ⟨1, _⟩ => ((dat2 (rd (V12 m outs)) c).arrAt_in 1 rfl _).trans ((A_eq2 (rd (V12 m outs)) c 1).trans (V13_of m outs c _ (by decide)).symm)
  | ⟨2, _⟩ => ((dat2 (rd (V12 m outs)) c).arrAt_in 2 rfl _).trans ((A_eq2 (rd (V12 m outs)) c 2).trans (V13_of m outs c _ (by decide)).symm)
  | ⟨3, _⟩ => h.2.2.1 c

/-- and every buffer that is no array of the region holds what it held at entry. -/
theorem hrest2 (c : Dev nD) : ∀ b, b ∉ Finset.univ.image (Pipeline.arrRef spec2) → rd (V13 m outs) c b = rd (V12 m outs) c b :=
  fun b hb => V13_of m outs c b (by
    intro hmem
    rw [List.mem_singleton] at hmem
    exact hb (Finset.mem_image.mpr ⟨3, Finset.mem_univ _, (show Pipeline.arrRef spec2 3 = b from hmem.symm)⟩))

set_option backward.isDefEq.respectTransparency.types false in
/-- Region 2 as a segment: entered from every unscoped buffer at the entry contents, left at the exit contents;
    its arrays split out of the unscoped buffers and put back; the generator register through the invariant. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V12 m outs)) c).loose
  hwaits := Pipeline.hwaits_of_owed_zero _ _ _ _ L lv 2 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec2 c (rd (V12 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (rd (V12 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (rd (V12 m outs) c) (rd (V13 m outs) c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input's array is as entered, the
    output's array is the folded write-backs, which is what `outs` names there. -/
theorem hF3 (h : OutsOk m outs) (c : Dev nD) : ∀ w : Fin cfg3.W, (dat3 (rd (V15 m outs)) c).arrAt w cfg3.N = rd (V16 m outs) c (Pipeline.arrRef spec3 w)
  | ⟨0, _⟩ => ((dat3 (rd (V15 m outs)) c).arrAt_in 0 rfl _).trans ((A_eq3 (rd (V15 m outs)) c 0).trans (V16_of m outs c _ (by decide)).symm)
  | ⟨1, _⟩ => h.2.2.2 c

/-- and every buffer that is no array of the region holds what it held at entry. -/
theorem hrest3 (c : Dev nD) : ∀ b, b ∉ Finset.univ.image (Pipeline.arrRef spec3) → rd (V16 m outs) c b = rd (V15 m outs) c b :=
  fun b hb => V16_of m outs c b (by
    intro hmem
    rw [List.mem_singleton] at hmem
    exact hb (Finset.mem_image.mpr ⟨1, Finset.mem_univ _, (show Pipeline.arrRef spec3 1 = b from hmem.symm)⟩))

set_option backward.isDefEq.respectTransparency.types false in
/-- Region 3 as a segment: entered from every unscoped buffer at the entry contents, left at the exit contents;
    its arrays split out of the unscoped buffers and put back; the generator register through the invariant. -/
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (V15 m outs)) c).loose
  hwaits := Pipeline.hwaits_of_owed_zero _ _ _ _ L lv 3 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec3 c (rd (V15 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (rd (V15 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (rd (V15 m outs) c) (rd (V16 m outs) c) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Run.lean ====
/-
  The run of the whole program from the launch to the return, and its frame. From any memory with zero counters every
  weakly fair execution of @main terminates, and at the end every unscoped buffer of every core holds the last
  contents of the item-by-item fold (`V17`): the launch deals the buffers at their launch contents, each host stretch
  and each region hands them on, and the last state is read against the final memory. An argument array is written by
  no host operation and is no region's output, so the fold at an argument walks back to the launch memory: that is
  the frame claim. The regions' outputs exist: they are defined one region after the other, each from the contents the
  earlier ones leave.
-/
import proofs.«144458_j9423158248257_1_alg».proof.Proof.KI.Segs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-- What rides beside the buffers, the same between any two items. -/
abbrev Es : Fin 5 → Dev nD → sProp 𝕄 := fun _ c => R c

/-- What rides beside the buffers ends owing nothing. -/
theorem R_owes (c : Dev nD) : (R (F := F) c) ⊢ (iprop(∃ W, owes (c : Thread nD τ) (0 : CellTallies nD τ sig Unit) W) : sProp 𝕄) := by
  iintro ⟨-, HO⟩
  iexact HO

set_option backward.isDefEq.respectTransparency.types false in
/-- THE RUN, for any `outs` naming the regions' folds: every weakly fair execution of @main terminates and every
    final memory holds every unscoped buffer at the last contents `V17`. -/
theorem run_all (h : OutsOk m outs) :
    θ_run defs (onTc (τ := τ) (main (F := F))) ⟨m, fun _ => 0, ρ⟩ (fun r => ∀ c : Dev nD,
      ∀ b ∈ Pipeline.ucRefs τ sig, r.2.mem (((c : Thread nD τ)).1, b) = V17 m outs c b) := by
  refine Pipeline.θ_run_regions_kit_dev (pcfgs (F := F)) adm (pdats m outs) () cellOf_inj emb₁ defs₀ 𝒱₀ L lv m ρ main
    (segs m outs 𝒱₀ L lv (Es (F := F)) () (pdats m outs) (reg0 m outs h) (reg1 m outs h) (reg2 m outs h) (reg3 m outs h))
    (fun c Q => by
      rewrite [main_chain c, Seg.run_eq_chain,
        show (segs m outs 𝒱₀ L lv (Es (F := F)) () (pdats m outs) (reg0 m outs h) (reg1 m outs h) (reg2 m outs h) (reg3 m outs h) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m outs c))
    (hch := fun c => ⟨.rfl, .rfl, .rfl, .rfl, .rfl, .rfl, .rfl, .rfl, .rfl, .rfl, .rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m outs c b)
    (hfin := fun c s' => by
      iintro ⟨Hh, HSI⟩
      unfold StableHlo.held
      imodintro
      iapply (pointsTo_read_all (Pipeline.ucRefs τ sig) (fun b => (((c : Thread nD τ)).1, b)) (V17 m outs c) s')
      isplitl [Hh] <;> iassumption)
    (hQ := fun s h c => h c)

/-- An unscoped TensorCore reference is among those the last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, from the run: each argument's buffer is read off the last contents, which at an argument are the
    launch contents. -/
theorem frame_of_run (h : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ hr c => ⟨(hr c _ (mem_uc main_arg0 (by decide))).trans (V17_main_arg0 m outs c),
    (hr c _ (mem_uc main_arg1 (by decide))).trans (V17_main_arg1 m outs c),
    (hr c _ (mem_uc main_arg2 (by decide))).trans (V17_main_arg2 m outs c),
    (hr c _ (mem_uc main_arg3 (by decide))).trans (V17_main_arg3 m outs c),
    (hr c _ (mem_uc main_arg4 (by decide))).trans (V17_main_arg4 m outs c),
    (hr c _ (mem_uc main_arg5 (by decide))).trans (V17_main_arg5 m outs c),
    (hr c _ (mem_uc main_arg6 (by decide))).trans (V17_main_arg6 m outs c),
    (hr c _ (mem_uc main_arg7 (by decide))).trans (V17_main_arg7 m outs c),
    (hr c _ (mem_uc main_arg8 (by decide))).trans (V17_main_arg8 m outs c),
    (hr c _ (mem_uc main_arg9 (by decide))).trans (V17_main_arg9 m outs c),
    (hr c _ (mem_uc main_arg10 (by decide))).trans (V17_main_arg10 m outs c),
    (hr c _ (mem_uc main_arg11 (by decide))).trans (V17_main_arg11 m outs c),
    (hr c _ (mem_uc main_arg12 (by decide))).trans (V17_main_arg12 m outs c),
    (hr c _ (mem_uc main_arg13 (by decide))).trans (V17_main_arg13 m outs c),
    (hr c _ (mem_uc main_arg14 (by decide))).trans (V17_main_arg14 m outs c)⟩)
    (run_all m ρ outs h)

end Cert.KernelIdeal.Reg

end
-- ==== Proof.KI.Outs.lean ====
/-
  The regions' output arrays exist. Region 0's is the fold of its write-backs from the contents the first host
  stretches leave; the contents region 1 finds depend on that array only, so region 1's output is defined next, and so
  on: each region's output is defined from the earlier ones. The contents before a region depend on `outs` only at the
  earlier regions' output arrays, which is what makes the staged definition name the right folds.
-/
import proofs.«144458_j9423158248257_1_alg».proof.Proof.KI.Run

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The contents before region 1 depend on `outs` only at region 0's output. -/
theorem V8_congr (o o' : Outs (F := F)) (h : ∀ c, o 4 main_v3 c = o' 4 main_v3 c) : V8 m o = V8 m o' := by
  funext c
  show StableHlo.after _ (StableHlo.after _ (StableHlo.after _ (StableHlo.after _ (Function.update (V3 m c) _ (o 4 main_v3 c))))) = _
  rw [h c]

/-- The contents before region 2 depend on `outs` only at the outputs of regions 0 and 1. -/
theorem V12_congr (o o' : Outs (F := F)) (h : ∀ c, o 4 main_v3 c = o' 4 main_v3 c) (h' : ∀ c, o 9 main_v36 c = o' 9 main_v36 c) :
    V12 m o = V12 m o' := by
  funext c
  show StableHlo.after _ (StableHlo.after _ (StableHlo.after _ (Function.update (V8 m o c) _ (o 9 main_v36 c)))) = _
  rw [h' c, V8_congr m o o' h]

/-- The contents before region 3 depend on `outs` only at the outputs of regions 0, 1 and 2. -/
theorem V15_congr (o o' : Outs (F := F)) (h : ∀ c, o 4 main_v3 c = o' 4 main_v3 c) (h' : ∀ c, o 9 main_v36 c = o' 9 main_v36 c)
    (h'' : ∀ c, o 13 main_v60 c = o' 13 main_v60 c) : V15 m o = V15 m o' := by
  funext c
  show StableHlo.after _ (StableHlo.after _ (Function.update (V12 m o c) _ (o 13 main_v60 c))) = _
  rw [h'' c, V12_congr m o o' h h']

/-- Region 0's exit contents. -/
def outsA : Outs (F := F) := fun _ r c =>
  Pipeline.withArrays spec0 c (V3 m c) (fun w => (dat0 (rd (V3 m)) c).arrAt w cfg0.N) r
/-- … then region 1's, from what region 0 leaves. -/
def outsB : Outs (F := F) := fun J r c => if J = 4 then outsA m J r c else
  Pipeline.withArrays spec1 c (V8 m (outsA m) c) (fun w => (dat1 (rd (V8 m (outsA m))) c).arrAt w cfg1.N) r
/-- … then region 2's. -/
def outsC : Outs (F := F) := fun J r c => if J = 4 ∨ J = 9 then outsB m J r c else
  Pipeline.withArrays spec2 c (V12 m (outsB m) c) (fun w => (dat2 (rd (V12 m (outsB m))) c).arrAt w cfg2.N) r
/-- … then region 3's: the regions' outputs. -/
def outsD : Outs (F := F) := fun J r c => if J = 4 ∨ J = 9 ∨ J = 13 then outsC m J r c else
  Pipeline.withArrays spec3 c (V15 m (outsC m) c) (fun w => (dat3 (rd (V15 m (outsC m))) c).arrAt w cfg3.N) r

theorem outsD_4 (r c) : outsD m 4 r c = outsA m 4 r c := rfl
theorem outsD_9 (r c) : outsD m 9 r c = outsB m 9 r c := rfl
theorem outsD_13 (r c) : outsD m 13 r c = outsC m 13 r c := rfl
theorem outsC_4 (r c) : outsC m 4 r c = outsA m 4 r c := rfl
theorem outsC_9 (r c) : outsC m 9 r c = outsB m 9 r c := rfl
theorem outsB_4 (r c) : outsB m 4 r c = outsA m 4 r c := rfl

theorem V8_outsD : V8 m (outsD m) = V8 m (outsA m) := V8_congr m _ _ fun c => outsD_4 m _ c
theorem V12_outsD : V12 m (outsD m) = V12 m (outsB m) :=
  V12_congr m _ _ (fun c => (outsD_4 m _ c).trans (outsB_4 m _ c).symm) fun c => outsD_9 m _ c
theorem V15_outsD : V15 m (outsD m) = V15 m (outsC m) :=
  V15_congr m _ _ (fun c => (outsD_4 m _ c).trans (outsC_4 m _ c).symm) (fun c => (outsD_9 m _ c).trans (outsC_9 m _ c).symm)
    fun c => outsD_13 m _ c

/-- The staged definition names each region's fold. -/
theorem outsOk : OutsOk m (outsD m) := by
  refine ⟨fun c => ?_, fun c => ?_, fun c => ?_, fun c => ?_⟩
  · have e : V4 m (outsD m) c main_v3 = outsD m 4 main_v3 c := by simp only [V4, Function.update_self]
    show _ = V4 m (outsD m) c main_v3
    rw [e]
    exact (Pipeline.withArrays_arr spec0 launch0.win.arr_inj c (V3 m c) (fun w => (dat0 (rd (V3 m)) c).arrAt w cfg0.N) 5).symm
  · have e : V9 m (outsD m) c main_v36 = outsD m 9 main_v36 c := by simp only [V9, Function.update_self]
    show _ = V9 m (outsD m) c main_v36
    rw [e, V8_outsD]
    exact (Pipeline.withArrays_arr spec1 launch1.win.arr_inj c (V8 m (outsA m) c) (fun w => (dat1 (rd (V8 m (outsA m))) c).arrAt w cfg1.N) 1).symm
  · have e : V13 m (outsD m) c main_v60 = outsD m 13 main_v60 c := by simp only [V13, Function.update_self]
    show _ = V13 m (outsD m) c main_v60
    rw [e, V12_outsD]
    exact (Pipeline.withArrays_arr spec2 launch2.win.arr_inj c (V12 m (outsB m) c) (fun w => (dat2 (rd (V12 m (outsB m))) c).arrAt w cfg2.N) 3).symm
  · have e : V16 m (outsD m) c main_v106 = outsD m 16 main_v106 c := by simp only [V16, Function.update_self]
    show _ = V16 m (outsD m) c main_v106
    rw [e, V15_outsD]
    exact (Pipeline.withArrays_arr spec3 launch3.win.arr_inj c (V15 m (outsC m) c) (fun w => (dat3 (rd (V15 m (outsC m))) c).arrAt w cfg3.N) 1).symm

variable (ρ : Dev nD → PrngReg)

/-- THE FRAME of the program, at any `F`. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of_run m ρ (outsD m) (outsOk m)

end Cert.KernelIdeal.Reg

end
-- ==== Proof.LibHostSSA.lean ====
/-
  Reading a straight line of host operations one operation at a time.

  In a line where every array is written by at most one operation, and an operation reads only arrays written before it
  (or never written by the line), what an array holds AFTER THE WHOLE LINE obeys the operation that writes it: the
  result array holds the operation's function of its operand arrays, all read after the whole line. The reason: cut the
  line at the operation; the part after it writes neither the result nor the operands, so reading them after the whole
  line is reading them right after (for the result) or right before (for the operands) the operation. The lemmas take
  the line, the list of arrays it writes in order, the position of the operation, and three list non-memberships that a
  literal line decides. Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- The line `L` writes exactly the arrays `W`, in order: each operation its one result array. -/
def WritesAre : List (HloOp τ sig Val) → List (Ref sig .tc) → Prop
  | [], [] => True
  | op :: L, r :: W => op.writes = {Proc.devRef .tc r} ∧ WritesAre L W
  | [], _ :: _ => False
  | _ :: _, [] => False

/-- A line leaves alone every array it does not write. -/
theorem WritesAre.keeps : ∀ {L : List (HloOp τ sig Val)} {W : List (Ref sig .tc)}, WritesAre L W →
    ∀ (V : Valuation τ sig Val) (r : Ref sig .tc), r ∉ W → StableHlo.after L V (Proc.devRef .tc r) = V (Proc.devRef .tc r)
  | [], [], _, _, _, _ => rfl
  | op :: L, w :: W, h, V, r, hr => by
      rw [StableHlo.after_cons, WritesAre.keeps h.2 _ r (fun hm => hr (List.mem_cons_of_mem _ hm)),
        op.result_of_not_mem V (by
          rw [h.1, Finset.mem_singleton]
          exact StableHlo.devRef_ne_of_ne (fun e => hr (e ▸ List.mem_cons_self)))]
  | [], _ :: _, h, _, _, _ => h.elim
  | _ :: _, [], h, _, _, _ => h.elim

/-- The tail of a line writes the tail of the list. -/
theorem WritesAre.drop : ∀ (k : ℕ) {L : List (HloOp τ sig Val)} {W : List (Ref sig .tc)}, WritesAre L W →
    WritesAre (L.drop k) (W.drop k)
  | 0, _, _, h => h
  | _ + 1, [], [], _ => trivial
  | k + 1, _ :: _, _ :: _, h => WritesAre.drop k h.2
  | _ + 1, [], _ :: _, h => h.elim
  | _ + 1, _ :: _, [], h => h.elim

variable {L : List (HloOp τ sig Val)} {W : List (Ref sig .tc)}

/-- An array no operation from position `k` on writes holds after the line what it held before position `k`. -/
theorem after_eq_take (h : WritesAre L W) (k : ℕ) (V : Valuation τ sig Val) (r : Ref sig .tc) (hr : r ∉ W.drop k) :
    StableHlo.after L V (Proc.devRef .tc r) = StableHlo.after (L.take k) V (Proc.devRef .tc r) := by
  conv_lhs => rw [← List.take_append_drop k L]
  rw [after_append]
  exact (h.drop k).keeps _ r hr

/-- An array no operation after position `k` writes holds after the line what operation `k` leaves in it. -/
theorem after_at (h : WritesAre L W) (k : ℕ) (V : Valuation τ sig Val) (op : HloOp τ sig Val)
    (hk : L.drop k = op :: L.drop (k + 1)) (r : Ref sig .tc) (hr : r ∉ W.drop (k + 1)) :
    StableHlo.after L V (Proc.devRef .tc r) = op.result (StableHlo.after (L.take k) V) (Proc.devRef .tc r) := by
  conv_lhs => rw [← List.take_append_drop k L, hk]
  rw [after_append, StableHlo.after_cons]
  exact (h.drop (k + 1)).keeps _ r hr

variable {x a b c y : Ref sig .tc}

theorem ssa_nullary (h : WritesAre L W) (k : ℕ) (V : Valuation τ sig Val) (v : y.ty.Contents Val) (hy)
    (hk : L.drop k = nullary (τ := τ) y v hy :: L.drop (k + 1)) (hy' : y ∉ W.drop (k + 1)) :
    StableHlo.after L V (Proc.devRef .tc y) = v := by
  rw [after_at h k V _ hk y hy', nullary_result]

theorem ssa_unary (h : WritesAre L W) (k : ℕ) (V : Valuation τ sig Val) (f : x.ty.Contents Val → y.ty.Contents Val) (hx hy)
    (hk : L.drop k = unary (τ := τ) x y f hx hy :: L.drop (k + 1)) (hy' : y ∉ W.drop (k + 1)) (hx' : x ∉ W.drop k) :
    StableHlo.after L V (Proc.devRef .tc y) = f (StableHlo.after L V (Proc.devRef .tc x)) := by
  rw [after_at h k V _ hk y hy', unary_result, after_eq_take h k V x hx']

theorem ssa_binary (h : WritesAre L W) (k : ℕ) (V : Valuation τ sig Val)
    (f : a.ty.Contents Val → b.ty.Contents Val → y.ty.Contents Val) (ha hb hy)
    (hk : L.drop k = binary (τ := τ) a b y f ha hb hy :: L.drop (k + 1)) (hy' : y ∉ W.drop (k + 1))
    (ha' : a ∉ W.drop k) (hb' : b ∉ W.drop k) :
    StableHlo.after L V (Proc.devRef .tc y) = f (StableHlo.after L V (Proc.devRef .tc a)) (StableHlo.after L V (Proc.devRef .tc b)) := by
  rw [after_at h k V _ hk y hy', binary_result, after_eq_take h k V a ha', after_eq_take h k V b hb']

theorem ssa_ternary (h : WritesAre L W) (k : ℕ) (V : Valuation τ sig Val)
    (f : c.ty.Contents Val → a.ty.Contents Val → b.ty.Contents Val → y.ty.Contents Val) (hc ha hb hy)
    (hk : L.drop k = ternary (τ := τ) c a b y f hc ha hb hy :: L.drop (k + 1)) (hy' : y ∉ W.drop (k + 1))
    (hc' : c ∉ W.drop k) (ha' : a ∉ W.drop k) (hb' : b ∉ W.drop k) :
    StableHlo.after L V (Proc.devRef .tc y)
      = f (StableHlo.after L V (Proc.devRef .tc c)) (StableHlo.after L V (Proc.devRef .tc a)) (StableHlo.after L V (Proc.devRef .tc b)) := by
  rw [after_at h k V _ hk y hy', ternary_result, after_eq_take h k V c hc', after_eq_take h k V a ha', after_eq_take h k V b hb']

theorem ssa_reshape (h : WritesAre L W) (k : ℕ) (V : Valuation τ sig Val) (he hn hx hy)
    (hk : L.drop k = reshape (τ := τ) (Val := Val) x y he hn hx hy :: L.drop (k + 1)) (hy' : y ∉ W.drop (k + 1)) (hx' : x ∉ W.drop k) :
    StableHlo.after L V (Proc.devRef .tc y)
      = fun i => he ▸ shapeCast y.ty.shape (StableHlo.after L V (Proc.devRef .tc x)) hn i := by
  rw [after_at h k V _ hk y hy', reshape_result, after_eq_take h k V x hx']

/-- A join of three operands, written as one operation over a literal family of three arrays. -/
theorem ssa_nary3 (h : WritesAre L W) (k : ℕ) (V : Valuation τ sig Val)
    (f : ((i : Fin 3) → ((![a, b, c] : Fin 3 → Ref sig .tc) i).ty.Contents Val) → y.ty.Contents Val) (hxs hy)
    (hk : L.drop k = nary (τ := τ) ![a, b, c] y f hxs hy :: L.drop (k + 1)) (hy' : y ∉ W.drop (k + 1))
    (ha' : a ∉ W.drop k) (hb' : b ∉ W.drop k) (hc' : c ∉ W.drop k) :
    StableHlo.after L V (Proc.devRef .tc y)
      = f (Fin.cons (StableHlo.after L V (Proc.devRef .tc a)) (Fin.cons (StableHlo.after L V (Proc.devRef .tc b))
          (Fin.cons (StableHlo.after L V (Proc.devRef .tc c)) (fun i => i.elim0)))) := by
  rw [after_at h k V _ hk y hy', nary_result, after_eq_take h k V a ha', after_eq_take h k V b hb', after_eq_take h k V c hc']
  congr 1; funext i; fin_cases i <;> rfl

end Cert.Lib

end
-- ==== Proof.KI.Host.lean ====
/-
  The host stretches of the program, one operation at a time. Every array of @main is written by one operation, and an
  operation reads arrays written before it; so after a stretch each array it writes holds its operation's function of
  the operand arrays, all read after the same stretch. One equation per host operation, from the line's lemmas.
-/
import proofs.«144458_j9423158248257_1_alg».proof.Proof.Gen.KernelIdeal.Regions
import proofs.«144458_j9423158248257_1_alg».proof.Proof.LibHostSSA

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F] (X : Valuation τ sig (Elt F))

/-! ## `hostOps0` -/

theorem hW_hostOps0 : Cert.Lib.WritesAre (hostOps0 (F := F)) hostOps0_W :=
  ⟨rfl, trivial⟩

theorem ssa_c : StableHlo.after (hostOps0 (F := F)) X main_c = (constantI S_ 32 0#32) :=
  Cert.Lib.ssa_nullary hW_hostOps0 0 X _ _ rfl (by decide)

/-! ## `hostOps0_1` -/

theorem hW_hostOps0_1 : Cert.Lib.WritesAre (hostOps0_1 (F := F)) hostOps0_1_W :=
  ⟨rfl, rfl, trivial⟩

theorem ssa_call0_v0 : StableHlo.after (hostOps0_1 (F := F)) X main_call0_v0 = (sitofp .f32) (StableHlo.after (hostOps0_1 (F := F)) X main_c) :=
  Cert.Lib.ssa_unary hW_hostOps0_1 0 X _ _ _ rfl (by decide) (by decide)
theorem ssa_v0 : StableHlo.after (hostOps0_1 (F := F)) X main_v0 = (fun x v => pad S1015808x8 ![0, 0] ![15808, 0] ![0, 0] x v pads_S1000000x8_S1015808x8_0158080_000 h_S_) (StableHlo.after (hostOps0_1 (F := F)) X main_arg2) (StableHlo.after (hostOps0_1 (F := F)) X main_call0_v0) :=
  Cert.Lib.ssa_binary hW_hostOps0_1 1 X _ _ _ _ rfl (by decide) (by decide) (by decide)

/-! ## `hostOps0_2` -/

theorem hW_hostOps0_2 : Cert.Lib.WritesAre (hostOps0_2 (F := F)) hostOps0_2_W :=
  ⟨rfl, rfl, trivial⟩

theorem ssa_v1 : StableHlo.after (hostOps0_2 (F := F)) X main_v1 = shapeCast _ (StableHlo.after (hostOps0_2 (F := F)) X main_arg12) shapeCasts_S32_S1x32 :=
  Cert.Lib.ssa_reshape hW_hostOps0_2 0 X _ _ _ _ rfl (by decide) (by decide)
theorem ssa_v2 : StableHlo.after (hostOps0_2 (F := F)) X main_v2 = shapeCast _ (StableHlo.after (hostOps0_2 (F := F)) X main_arg14) shapeCasts_S1_S1x1 :=
  Cert.Lib.ssa_reshape hW_hostOps0_2 1 X _ _ _ _ rfl (by decide) (by decide)

/-! ## `hostOps1` -/

theorem hW_hostOps1 : Cert.Lib.WritesAre (hostOps1 (F := F)) hostOps1_W :=
  ⟨rfl, rfl, rfl, rfl, rfl, rfl, rfl, rfl, rfl, rfl, rfl, rfl, rfl, rfl, rfl, rfl, rfl, rfl, rfl, trivial⟩

theorem ssa_v4 : StableHlo.after (hostOps1 (F := F)) X main_v4 = ((extractStridedSlice S1000000 ![0] · slices_S1015808_S1000000_0) : (⟨S1015808, .f32⟩ : BufTy).Contents (Elt F) → (⟨S1000000, .f32⟩ : BufTy).Contents (Elt F)) (StableHlo.after (hostOps1 (F := F)) X main_v3) :=
  Cert.Lib.ssa_unary hW_hostOps1 0 X _ _ _ rfl (by decide) (by decide)
theorem ssa_c_0 : StableHlo.after (hostOps1 (F := F)) X main_c_0 = (constantI S_ 32 200000#32) :=
  Cert.Lib.ssa_nullary hW_hostOps1 1 X _ _ rfl (by decide)
theorem ssa_v5 : StableHlo.after (hostOps1 (F := F)) X main_v5 = (broadcastInDim S1000000 ![] bcast_S_S1000000 : (⟨S_, .i32⟩ : BufTy).Contents (Elt F) → (⟨S1000000, .i32⟩ : BufTy).Contents (Elt F)) (StableHlo.after (hostOps1 (F := F)) X main_c_0) :=
  Cert.Lib.ssa_unary hW_hostOps1 2 X _ _ _ rfl (by decide) (by decide)
theorem ssa_v6 : StableHlo.after (hostOps1 (F := F)) X main_v6 = (addi : (⟨S1000000, .i32⟩ : BufTy).Contents (Elt F) → (⟨S1000000, .i32⟩ : BufTy).Contents (Elt F) → (⟨S1000000, .i32⟩ : BufTy).Contents (Elt F)) (StableHlo.after (hostOps1 (F := F)) X main_arg1) (StableHlo.after (hostOps1 (F := F)) X main_v5) :=
  Cert.Lib.ssa_binary hW_hostOps1 3 X _ _ _ _ rfl (by decide) (by decide) (by decide)
theorem ssa_v7 : StableHlo.after (hostOps1 (F := F)) X main_v7 = (iotaInDim S300000 32 0) :=
  Cert.Lib.ssa_nullary hW_hostOps1 4 X _ _ rfl (by decide)
theorem ssa_v8 : StableHlo.after (hostOps1 (F := F)) X main_v8 = concatenate S2300000 0 [⟨S1000000, (StableHlo.after (hostOps1 (F := F)) X main_arg0)⟩, ⟨S1000000, (StableHlo.after (hostOps1 (F := F)) X main_v6)⟩, ⟨S300000, (StableHlo.after (hostOps1 (F := F)) X main_v7)⟩] concatenates_S1000000_S1000000_S300000_S2300000_d0 :=
  Cert.Lib.ssa_nary3 hW_hostOps1 5 X _ _ _ rfl (by decide) (by decide) (by decide) (by decide)
theorem ssa_v9 : StableHlo.after (hostOps1 (F := F)) X main_v9 = concatenate S2300000 0 [⟨S1000000, (StableHlo.after (hostOps1 (F := F)) X main_v6)⟩, ⟨S1000000, (StableHlo.after (hostOps1 (F := F)) X main_arg0)⟩, ⟨S300000, (StableHlo.after (hostOps1 (F := F)) X main_v7)⟩] concatenates_S1000000_S1000000_S300000_S2300000_d0 :=
  Cert.Lib.ssa_nary3 hW_hostOps1 6 X _ _ _ rfl (by decide) (by decide) (by decide) (by decide)
theorem ssa_cst : StableHlo.after (hostOps1 (F := F)) X main_cst = (constant S_ .f32 0x3F800000#32) :=
  Cert.Lib.ssa_nullary hW_hostOps1 7 X _ _ rfl (by decide)
theorem ssa_v10 : StableHlo.after (hostOps1 (F := F)) X main_v10 = (broadcastInDim S300000 ![] bcast_S_S300000 : (⟨S_, .f32⟩ : BufTy).Contents (Elt F) → (⟨S300000, .f32⟩ : BufTy).Contents (Elt F)) (StableHlo.after (hostOps1 (F := F)) X main_cst) :=
  Cert.Lib.ssa_unary hW_hostOps1 8 X _ _ _ rfl (by decide) (by decide)
theorem ssa_v11 : StableHlo.after (hostOps1 (F := F)) X main_v11 = concatenate S2300000 0 [⟨S1000000, (StableHlo.after (hostOps1 (F := F)) X main_v4)⟩, ⟨S1000000, (StableHlo.after (hostOps1 (F := F)) X main_v4)⟩, ⟨S300000, (StableHlo.after (hostOps1 (F := F)) X main_v10)⟩] concatenates_S1000000_S1000000_S300000_S2300000_d0 :=
  Cert.Lib.ssa_nary3 hW_hostOps1 9 X _ _ _ rfl (by decide) (by decide) (by decide) (by decide)
theorem ssa_cst_1 : StableHlo.after (hostOps1 (F := F)) X main_cst_1 = (constant S_ .f32 0x00000000#32) :=
  Cert.Lib.ssa_nullary hW_hostOps1 10 X _ _ rfl (by decide)
theorem ssa_v12 : StableHlo.after (hostOps1 (F := F)) X main_v12 = (broadcastInDim S300000 ![] bcast_S_S300000 : (⟨S_, .f32⟩ : BufTy).Contents (Elt F) → (⟨S300000, .f32⟩ : BufTy).Contents (Elt F)) (StableHlo.after (hostOps1 (F := F)) X main_cst_1) :=
  Cert.Lib.ssa_unary hW_hostOps1 11 X _ _ _ rfl (by decide) (by decide)
theorem ssa_v13 : StableHlo.after (hostOps1 (F := F)) X main_v13 = (broadcastInDim S2300000x1 ![0] bcast_S2300000_S2300000x1_0 : (⟨S2300000, .i32⟩ : BufTy).Contents (Elt F) → (⟨S2300000x1, .i32⟩ : BufTy).Contents (Elt F)) (StableHlo.after (hostOps1 (F := F)) X main_v9) :=
  Cert.Lib.ssa_unary hW_hostOps1 12 X _ _ _ rfl (by decide) (by decide)
theorem ssa_v14 : StableHlo.after (hostOps1 (F := F)) X main_v14 = ((fun x i u => Host.scatterAdd scatter_S300000_S2300000x1_S2300000_n_0_0_1 x i u) : (⟨S300000, .f32⟩ : BufTy).Contents (Elt F) → (⟨S2300000x1, .i32⟩ : BufTy).Contents (Elt F) → (⟨S2300000, .f32⟩ : BufTy).Contents (Elt F) → (⟨S300000, .f32⟩ : BufTy).Contents (Elt F)) (StableHlo.after (hostOps1 (F := F)) X main_v12) (StableHlo.after (hostOps1 (F := F)) X main_v13) (StableHlo.after (hostOps1 (F := F)) X main_v11) :=
  Cert.Lib.ssa_ternary hW_hostOps1 13 X _ _ _ _ _ rfl (by decide) (by decide) (by decide) (by decide)
theorem ssa_cst_2 : StableHlo.after (hostOps1 (F := F)) X main_cst_2 = (constant S_ .f32 0x00000000#32) :=
  Cert.Lib.ssa_nullary hW_hostOps1 14 X _ _ rfl (by decide)
theorem ssa_v15 : StableHlo.after (hostOps1 (F := F)) X main_v15 = (broadcastInDim S300000 ![] bcast_S_S300000 : (⟨S_, .f32⟩ : BufTy).Contents (Elt F) → (⟨S300000, .f32⟩ : BufTy).Contents (Elt F)) (StableHlo.after (hostOps1 (F := F)) X main_cst_2) :=
  Cert.Lib.ssa_unary hW_hostOps1 15 X _ _ _ rfl (by decide) (by decide)
theorem ssa_v16 : StableHlo.after (hostOps1 (F := F)) X main_v16 = (cmpf .ogt : (⟨S300000, .f32⟩ : BufTy).Contents (Elt F) → (⟨S300000, .f32⟩ : BufTy).Contents (Elt F) → (⟨S300000, .i1⟩ : BufTy).Contents (Elt F)) (StableHlo.after (hostOps1 (F := F)) X main_v14) (StableHlo.after (hostOps1 (F := F)) X main_v15) :=
  Cert.Lib.ssa_binary hW_hostOps1 16 X _ _ _ _ rfl (by decide) (by decide) (by decide)
theorem ssa_v17 : StableHlo.after (hostOps1 (F := F)) X main_v17 = (Host.rsqrt : (⟨S300000, .f32⟩ : BufTy).Contents (Elt F) → (⟨S300000, .f32⟩ : BufTy).Contents (Elt F)) (StableHlo.after (hostOps1 (F := F)) X main_v14) :=
  Cert.Lib.ssa_unary hW_hostOps1 17 X _ _ _ rfl (by decide) (by decide)
theorem ssa_cst_3 : StableHlo.after (hostOps1 (F := F)) X main_cst_3 = (constant S_ .f32 0x00000000#32) :=
  Cert.Lib.ssa_nullary hW_hostOps1 18 X _ _ rfl (by decide)

/-! ## `hostOps1_1` -/

theorem hW_hostOps1_1 : Cert.Lib.WritesAre (hostOps1_1 (F := F)) hostOps1_1_W :=
  ⟨rfl, rfl, rfl, trivial⟩

theorem ssa_call1_v0 : StableHlo.after (hostOps1_1 (F := F)) X main_call1_v0 = id (StableHlo.after (hostOps1_1 (F := F)) X main_cst_3) :=
  Cert.Lib.ssa_unary hW_hostOps1_1 0 X _ _ _ rfl (by decide) (by decide)
theorem ssa_call1_v1 : StableHlo.after (hostOps1_1 (F := F)) X main_call1_v1 = (broadcastInDim S300000 ![] bcast_S_S300000) (StableHlo.after (hostOps1_1 (F := F)) X main_call1_v0) :=
  Cert.Lib.ssa_unary hW_hostOps1_1 1 X _ _ _ rfl (by decide) (by decide)
theorem ssa_v18 : StableHlo.after (hostOps1_1 (F := F)) X main_v18 = select (StableHlo.after (hostOps1_1 (F := F)) X main_v16) (StableHlo.after (hostOps1_1 (F := F)) X main_v17) (StableHlo.after (hostOps1_1 (F := F)) X main_call1_v1) :=
  Cert.Lib.ssa_ternary hW_hostOps1_1 2 X _ _ _ _ _ rfl (by decide) (by decide) (by decide) (by decide)

/-! ## `hostOps1_2` -/

theorem hW_hostOps1_2 : Cert.Lib.WritesAre (hostOps1_2 (F := F)) hostOps1_2_W :=
  ⟨rfl, rfl, rfl, rfl, rfl, rfl, rfl, rfl, rfl, rfl, rfl, rfl, rfl, rfl, rfl, rfl, rfl, rfl, rfl, rfl, rfl, trivial⟩

theorem ssa_c_4 : StableHlo.after (hostOps1_2 (F := F)) X main_c_4 = (constantI S_ 32 0#32) :=
  Cert.Lib.ssa_nullary hW_hostOps1_2 0 X _ _ rfl (by decide)
theorem ssa_v19 : StableHlo.after (hostOps1_2 (F := F)) X main_v19 = (broadcastInDim S2300000 ![] bcast_S_S2300000 : (⟨S_, .i32⟩ : BufTy).Contents (Elt F) → (⟨S2300000, .i32⟩ : BufTy).Contents (Elt F)) (StableHlo.after (hostOps1_2 (F := F)) X main_c_4) :=
  Cert.Lib.ssa_unary hW_hostOps1_2 1 X _ _ _ rfl (by decide) (by decide)
theorem ssa_v20 : StableHlo.after (hostOps1_2 (F := F)) X main_v20 = (cmpi .slt : (⟨S2300000, .i32⟩ : BufTy).Contents (Elt F) → (⟨S2300000, .i32⟩ : BufTy).Contents (Elt F) → (⟨S2300000, .i1⟩ : BufTy).Contents (Elt F)) (StableHlo.after (hostOps1_2 (F := F)) X main_v8) (StableHlo.after (hostOps1_2 (F := F)) X main_v19) :=
  Cert.Lib.ssa_binary hW_hostOps1_2 2 X _ _ _ _ rfl (by decide) (by decide) (by decide)
theorem ssa_c_5 : StableHlo.after (hostOps1_2 (F := F)) X main_c_5 = (constantI S_ 32 300000#32) :=
  Cert.Lib.ssa_nullary hW_hostOps1_2 3 X _ _ rfl (by decide)
theorem ssa_v21 : StableHlo.after (hostOps1_2 (F := F)) X main_v21 = (broadcastInDim S2300000 ![] bcast_S_S2300000 : (⟨S_, .i32⟩ : BufTy).Contents (Elt F) → (⟨S2300000, .i32⟩ : BufTy).Contents (Elt F)) (StableHlo.after (hostOps1_2 (F := F)) X main_c_5) :=
  Cert.Lib.ssa_unary hW_hostOps1_2 4 X _ _ _ rfl (by decide) (by decide)
theorem ssa_v22 : StableHlo.after (hostOps1_2 (F := F)) X main_v22 = (addi : (⟨S2300000, .i32⟩ : BufTy).Contents (Elt F) → (⟨S2300000, .i32⟩ : BufTy).Contents (Elt F) → (⟨S2300000, .i32⟩ : BufTy).Contents (Elt F)) (StableHlo.after (hostOps1_2 (F := F)) X main_v8) (StableHlo.after (hostOps1_2 (F := F)) X main_v21) :=
  Cert.Lib.ssa_binary hW_hostOps1_2 5 X _ _ _ _ rfl (by decide) (by decide) (by decide)
theorem ssa_v23 : StableHlo.after (hostOps1_2 (F := F)) X main_v23 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (hostOps1_2 (F := F)) X main_v20) (StableHlo.after (hostOps1_2 (F := F)) X main_v22) (StableHlo.after (hostOps1_2 (F := F)) X main_v8) :=
  Cert.Lib.ssa_ternary hW_hostOps1_2 6 X _ _ _ _ _ rfl (by decide) (by decide) (by decide) (by decide)
theorem ssa_v24 : StableHlo.after (hostOps1_2 (F := F)) X main_v24 = (broadcastInDim S2300000x1 ![0] bcast_S2300000_S2300000x1_0 : (⟨S2300000, .i32⟩ : BufTy).Contents (Elt F) → (⟨S2300000x1, .i32⟩ : BufTy).Contents (Elt F)) (StableHlo.after (hostOps1_2 (F := F)) X main_v23) :=
  Cert.Lib.ssa_unary hW_hostOps1_2 7 X _ _ _ rfl (by decide) (by decide)
theorem ssa_v25 : StableHlo.after (hostOps1_2 (F := F)) X main_v25 = ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)) (StableHlo.after (hostOps1_2 (F := F)) X main_v18) (StableHlo.after (hostOps1_2 (F := F)) X main_v24) :=
  Cert.Lib.ssa_binary hW_hostOps1_2 8 X _ _ _ _ rfl (by decide) (by decide) (by decide)
theorem ssa_v26 : StableHlo.after (hostOps1_2 (F := F)) X main_v26 = (mulf : (⟨S2300000, .f32⟩ : BufTy).Contents (Elt F) → (⟨S2300000, .f32⟩ : BufTy).Contents (Elt F) → (⟨S2300000, .f32⟩ : BufTy).Contents (Elt F)) (StableHlo.after (hostOps1_2 (F := F)) X main_v25) (StableHlo.after (hostOps1_2 (F := F)) X main_v11) :=
  Cert.Lib.ssa_binary hW_hostOps1_2 9 X _ _ _ _ rfl (by decide) (by decide) (by decide)
theorem ssa_c_6 : StableHlo.after (hostOps1_2 (F := F)) X main_c_6 = (constantI S_ 32 0#32) :=
  Cert.Lib.ssa_nullary hW_hostOps1_2 10 X _ _ rfl (by decide)
theorem ssa_v27 : StableHlo.after (hostOps1_2 (F := F)) X main_v27 = (broadcastInDim S2300000 ![] bcast_S_S2300000 : (⟨S_, .i32⟩ : BufTy).Contents (Elt F) → (⟨S2300000, .i32⟩ : BufTy).Contents (Elt F)) (StableHlo.after (hostOps1_2 (F := F)) X main_c_6) :=
  Cert.Lib.ssa_unary hW_hostOps1_2 11 X _ _ _ rfl (by decide) (by decide)
theorem ssa_v28 : StableHlo.after (hostOps1_2 (F := F)) X main_v28 = (cmpi .slt : (⟨S2300000, .i32⟩ : BufTy).Contents (Elt F) → (⟨S2300000, .i32⟩ : BufTy).Contents (Elt F) → (⟨S2300000, .i1⟩ : BufTy).Contents (Elt F)) (StableHlo.after (hostOps1_2 (F := F)) X main_v9) (StableHlo.after (hostOps1_2 (F := F)) X main_v27) :=
  Cert.Lib.ssa_binary hW_hostOps1_2 12 X _ _ _ _ rfl (by decide) (by decide) (by decide)
theorem ssa_c_7 : StableHlo.after (hostOps1_2 (F := F)) X main_c_7 = (constantI S_ 32 300000#32) :=
  Cert.Lib.ssa_nullary hW_hostOps1_2 13 X _ _ rfl (by decide)
theorem ssa_v29 : StableHlo.after (hostOps1_2 (F := F)) X main_v29 = (broadcastInDim S2300000 ![] bcast_S_S2300000 : (⟨S_, .i32⟩ : BufTy).Contents (Elt F) → (⟨S2300000, .i32⟩ : BufTy).Contents (Elt F)) (StableHlo.after (hostOps1_2 (F := F)) X main_c_7) :=
  Cert.Lib.ssa_unary hW_hostOps1_2 14 X _ _ _ rfl (by decide) (by decide)
theorem ssa_v30 : StableHlo.after (hostOps1_2 (F := F)) X main_v30 = (addi : (⟨S2300000, .i32⟩ : BufTy).Contents (Elt F) → (⟨S2300000, .i32⟩ : BufTy).Contents (Elt F) → (⟨S2300000, .i32⟩ : BufTy).Contents (Elt F)) (StableHlo.after (hostOps1_2 (F := F)) X main_v9) (StableHlo.after (hostOps1_2 (F := F)) X main_v29) :=
  Cert.Lib.ssa_binary hW_hostOps1_2 15 X _ _ _ _ rfl (by decide) (by decide) (by decide)
theorem ssa_v31 : StableHlo.after (hostOps1_2 (F := F)) X main_v31 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (hostOps1_2 (F := F)) X main_v28) (StableHlo.after (hostOps1_2 (F := F)) X main_v30) (StableHlo.after (hostOps1_2 (F := F)) X main_v9) :=
  Cert.Lib.ssa_ternary hW_hostOps1_2 16 X _ _ _ _ _ rfl (by decide) (by decide) (by decide) (by decide)
theorem ssa_v32 : StableHlo.after (hostOps1_2 (F := F)) X main_v32 = (broadcastInDim S2300000x1 ![0] bcast_S2300000_S2300000x1_0 : (⟨S2300000, .i32⟩ : BufTy).Contents (Elt F) → (⟨S2300000x1, .i32⟩ : BufTy).Contents (Elt F)) (StableHlo.after (hostOps1_2 (F := F)) X main_v31) :=
  Cert.Lib.ssa_unary hW_hostOps1_2 17 X _ _ _ rfl (by decide) (by decide)
theorem ssa_v33 : StableHlo.after (hostOps1_2 (F := F)) X main_v33 = ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)) (StableHlo.after (hostOps1_2 (F := F)) X main_v18) (StableHlo.after (hostOps1_2 (F := F)) X main_v32) :=
  Cert.Lib.ssa_binary hW_hostOps1_2 18 X _ _ _ _ rfl (by decide) (by decide) (by decide)
theorem ssa_v34 : StableHlo.after (hostOps1_2 (F := F)) X main_v34 = (mulf : (⟨S2300000, .f32⟩ : BufTy).Contents (Elt F) → (⟨S2300000, .f32⟩ : BufTy).Contents (Elt F) → (⟨S2300000, .f32⟩ : BufTy).Contents (Elt F)) (StableHlo.after (hostOps1_2 (F := F)) X main_v26) (StableHlo.after (hostOps1_2 (F := F)) X main_v33) :=
  Cert.Lib.ssa_binary hW_hostOps1_2 19 X _ _ _ _ rfl (by decide) (by decide) (by decide)
theorem ssa_c_8 : StableHlo.after (hostOps1_2 (F := F)) X main_c_8 = (constantI S_ 32 0#32) :=
  Cert.Lib.ssa_nullary hW_hostOps1_2 20 X _ _ rfl (by decide)

/-! ## `hostOps1_3` -/

theorem hW_hostOps1_3 : Cert.Lib.WritesAre (hostOps1_3 (F := F)) hostOps1_3_W :=
  ⟨rfl, rfl, trivial⟩

theorem ssa_call2_v0 : StableHlo.after (hostOps1_3 (F := F)) X main_call2_v0 = (sitofp .f32) (StableHlo.after (hostOps1_3 (F := F)) X main_c_8) :=
  Cert.Lib.ssa_unary hW_hostOps1_3 0 X _ _ _ rfl (by decide) (by decide)
theorem ssa_v35 : StableHlo.after (hostOps1_3 (F := F)) X main_v35 = (fun x v => pad S204800x64 ![0, 0] ![4800, 0] ![0, 0] x v pads_S200000x64_S204800x64_048000_000 h_S_) (StableHlo.after (hostOps1_3 (F := F)) X main_arg3) (StableHlo.after (hostOps1_3 (F := F)) X main_call2_v0) :=
  Cert.Lib.ssa_binary hW_hostOps1_3 1 X _ _ _ _ rfl (by decide) (by decide) (by decide)

/-! ## `hostOps2` -/

theorem hW_hostOps2 : Cert.Lib.WritesAre (hostOps2 (F := F)) hostOps2_W :=
  ⟨rfl, rfl, rfl, rfl, rfl, rfl, rfl, rfl, rfl, rfl, rfl, rfl, rfl, rfl, rfl, rfl, rfl, rfl, rfl, rfl, rfl, rfl, rfl, rfl, rfl, rfl, rfl, rfl, trivial⟩

theorem ssa_v37 : StableHlo.after (hostOps2 (F := F)) X main_v37 = ((extractStridedSlice S200000x64 ![0, 0] · slices_S204800x64_S200000x64_0_0) : (⟨S204800x64, .f32⟩ : BufTy).Contents (Elt F) → (⟨S200000x64, .f32⟩ : BufTy).Contents (Elt F)) (StableHlo.after (hostOps2 (F := F)) X main_v36) :=
  Cert.Lib.ssa_unary hW_hostOps2 0 X _ _ _ rfl (by decide) (by decide)
theorem ssa_c_9 : StableHlo.after (hostOps2 (F := F)) X main_c_9 = (constantI S_ 32 0#32) :=
  Cert.Lib.ssa_nullary hW_hostOps2 1 X _ _ rfl (by decide)
theorem ssa_v38 : StableHlo.after (hostOps2 (F := F)) X main_v38 = (broadcastInDim S100000 ![] bcast_S_S100000 : (⟨S_, .i32⟩ : BufTy).Contents (Elt F) → (⟨S100000, .i32⟩ : BufTy).Contents (Elt F)) (StableHlo.after (hostOps2 (F := F)) X main_c_9) :=
  Cert.Lib.ssa_unary hW_hostOps2 2 X _ _ _ rfl (by decide) (by decide)
theorem ssa_v39 : StableHlo.after (hostOps2 (F := F)) X main_v39 = (cmpi .slt : (⟨S100000, .i32⟩ : BufTy).Contents (Elt F) → (⟨S100000, .i32⟩ : BufTy).Contents (Elt F) → (⟨S100000, .i1⟩ : BufTy).Contents (Elt F)) (StableHlo.after (hostOps2 (F := F)) X main_arg7) (StableHlo.after (hostOps2 (F := F)) X main_v38) :=
  Cert.Lib.ssa_binary hW_hostOps2 3 X _ _ _ _ rfl (by decide) (by decide) (by decide)
theorem ssa_c_10 : StableHlo.after (hostOps2 (F := F)) X main_c_10 = (constantI S_ 32 20000#32) :=
  Cert.Lib.ssa_nullary hW_hostOps2 4 X _ _ rfl (by decide)
theorem ssa_v40 : StableHlo.after (hostOps2 (F := F)) X main_v40 = (broadcastInDim S100000 ![] bcast_S_S100000 : (⟨S_, .i32⟩ : BufTy).Contents (Elt F) → (⟨S100000, .i32⟩ : BufTy).Contents (Elt F)) (StableHlo.after (hostOps2 (F := F)) X main_c_10) :=
  Cert.Lib.ssa_unary hW_hostOps2 5 X _ _ _ rfl (by decide) (by decide)
theorem ssa_v41 : StableHlo.after (hostOps2 (F := F)) X main_v41 = (addi : (⟨S100000, .i32⟩ : BufTy).Contents (Elt F) → (⟨S100000, .i32⟩ : BufTy).Contents (Elt F) → (⟨S100000, .i32⟩ : BufTy).Contents (Elt F)) (StableHlo.after (hostOps2 (F := F)) X main_arg7) (StableHlo.after (hostOps2 (F := F)) X main_v40) :=
  Cert.Lib.ssa_binary hW_hostOps2 6 X _ _ _ _ rfl (by decide) (by decide) (by decide)
theorem ssa_v42 : StableHlo.after (hostOps2 (F := F)) X main_v42 = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (StableHlo.after (hostOps2 (F := F)) X main_v39) (StableHlo.after (hostOps2 (F := F)) X main_v41) (StableHlo.after (hostOps2 (F := F)) X main_arg7) :=
  Cert.Lib.ssa_ternary hW_hostOps2 7 X _ _ _ _ _ rfl (by decide) (by decide) (by decide) (by decide)
theorem ssa_v43 : StableHlo.after (hostOps2 (F := F)) X main_v43 = (broadcastInDim S100000x1 ![0] bcast_S100000_S100000x1_0 : (⟨S100000, .i32⟩ : BufTy).Contents (Elt F) → (⟨S100000x1, .i32⟩ : BufTy).Contents (Elt F)) (StableHlo.after (hostOps2 (F := F)) X main_v42) :=
  Cert.Lib.ssa_unary hW_hostOps2 8 X _ _ _ rfl (by decide) (by decide)
theorem ssa_v44 : StableHlo.after (hostOps2 (F := F)) X main_v44 = ((fun x i => Host.gather gather_S20000x64_S100000x1_S100000x64_1_0_n_n_0_1_164 x i) : (⟨S20000x64, .f32⟩ : BufTy).Contents (Elt F) → (⟨S100000x1, .i32⟩ : BufTy).Contents (Elt F) → (⟨S100000x64, .f32⟩ : BufTy).Contents (Elt F)) (StableHlo.after (hostOps2 (F := F)) X main_arg4) (StableHlo.after (hostOps2 (F := F)) X main_v43) :=
  Cert.Lib.ssa_binary hW_hostOps2 9 X _ _ _ _ rfl (by decide) (by decide) (by decide)
theorem ssa_c_11 : StableHlo.after (hostOps2 (F := F)) X main_c_11 = (constantI S_ 32 0#32) :=
  Cert.Lib.ssa_nullary hW_hostOps2 10 X _ _ rfl (by decide)
theorem ssa_v45 : StableHlo.after (hostOps2 (F := F)) X main_v45 = (broadcastInDim S100000 ![] bcast_S_S100000 : (⟨S_, .i32⟩ : BufTy).Contents (Elt F) → (⟨S100000, .i32⟩ : BufTy).Contents (Elt F)) (StableHlo.after (hostOps2 (F := F)) X main_c_11) :=
  Cert.Lib.ssa_unary hW_hostOps2 11 X _ _ _ rfl (by decide) (by decide)
theorem ssa_v46 : StableHlo.after (hostOps2 (F := F)) X main_v46 = (cmpi .slt : (⟨S100000, .i32⟩ : BufTy).Contents (Elt F) → (⟨S100000, .i32⟩ : BufTy).Contents (Elt F) → (⟨S100000, .i1⟩ : BufTy).Contents (Elt F)) (StableHlo.after (hostOps2 (F := F)) X main_arg8) (StableHlo.after (hostOps2 (F := F)) X main_v45) :=
  Cert.Lib.ssa_binary hW_hostOps2 12 X _ _ _ _ rfl (by decide) (by decide) (by decide)
theorem ssa_c_12 : StableHlo.after (hostOps2 (F := F)) X main_c_12 = (constantI S_ 32 50000#32) :=
  Cert.Lib.ssa_nullary hW_hostOps2 13 X _ _ rfl (by decide)
theorem ssa_v47 : StableHlo.after (hostOps2 (F := F)) X main_v47 = (broadcastInDim S100000 ![] bcast_S_S100000 : (⟨S_, .i32⟩ : BufTy).Contents (Elt F) → (⟨S100000, .i32⟩ : BufTy).Contents (Elt F)) (StableHlo.after (hostOps2 (F := F)) X main_c_12) :=
  Cert.Lib.ssa_unary hW_hostOps2 14 X _ _ _ rfl (by decide) (by decide)
theorem ssa_v48 : StableHlo.after (hostOps2 (F := F)) X main_v48 = (addi : (⟨S100000, .i32⟩ : BufTy).Contents (Elt F) → (⟨S100000, .i32⟩ : BufTy).Contents (Elt F) → (⟨S100000, .i32⟩ : BufTy).Contents (Elt F)) (StableHlo.after (hostOps2 (F := F)) X main_arg8) (StableHlo.after (hostOps2 (F := F)) X main_v47) :=
  Cert.Lib.ssa_binary hW_hostOps2 15 X _ _ _ _ rfl (by decide) (by decide) (by decide)
theorem ssa_v49 : StableHlo.after (hostOps2 (F := F)) X main_v49 = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (StableHlo.after (hostOps2 (F := F)) X main_v46) (StableHlo.after (hostOps2 (F := F)) X main_v48) (StableHlo.after (hostOps2 (F := F)) X main_arg8) :=
  Cert.Lib.ssa_ternary hW_hostOps2 16 X _ _ _ _ _ rfl (by decide) (by decide) (by decide) (by decide)
theorem ssa_v50 : StableHlo.after (hostOps2 (F := F)) X main_v50 = (broadcastInDim S100000x1 ![0] bcast_S100000_S100000x1_0 : (⟨S100000, .i32⟩ : BufTy).Contents (Elt F) → (⟨S100000x1, .i32⟩ : BufTy).Contents (Elt F)) (StableHlo.after (hostOps2 (F := F)) X main_v49) :=
  Cert.Lib.ssa_unary hW_hostOps2 17 X _ _ _ rfl (by decide) (by decide)
theorem ssa_v51 : StableHlo.after (hostOps2 (F := F)) X main_v51 = ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)) (StableHlo.after (hostOps2 (F := F)) X main_arg5) (StableHlo.after (hostOps2 (F := F)) X main_v50) :=
  Cert.Lib.ssa_binary hW_hostOps2 18 X _ _ _ _ rfl (by decide) (by decide) (by decide)
theorem ssa_v52 : StableHlo.after (hostOps2 (F := F)) X main_v52 = (addf : (⟨S100000x64, .f32⟩ : BufTy).Contents (Elt F) → (⟨S100000x64, .f32⟩ : BufTy).Contents (Elt F) → (⟨S100000x64, .f32⟩ : BufTy).Contents (Elt F)) (StableHlo.after (hostOps2 (F := F)) X main_v44) (StableHlo.after (hostOps2 (F := F)) X main_v51) :=
  Cert.Lib.ssa_binary hW_hostOps2 19 X _ _ _ _ rfl (by decide) (by decide) (by decide)
theorem ssa_cst_13 : StableHlo.after (hostOps2 (F := F)) X main_cst_13 = (constant S_ .f32 0x3F800000#32) :=
  Cert.Lib.ssa_nullary hW_hostOps2 20 X _ _ rfl (by decide)
theorem ssa_v53 : StableHlo.after (hostOps2 (F := F)) X main_v53 = (broadcastInDim S100000x64 ![] bcast_S_S100000x64 : (⟨S_, .f32⟩ : BufTy).Contents (Elt F) → (⟨S100000x64, .f32⟩ : BufTy).Contents (Elt F)) (StableHlo.after (hostOps2 (F := F)) X main_cst_13) :=
  Cert.Lib.ssa_unary hW_hostOps2 21 X _ _ _ rfl (by decide) (by decide)
theorem ssa_v54 : StableHlo.after (hostOps2 (F := F)) X main_v54 = (mulf : (⟨S100000x64, .f32⟩ : BufTy).Contents (Elt F) → (⟨S100000x64, .f32⟩ : BufTy).Contents (Elt F) → (⟨S100000x64, .f32⟩ : BufTy).Contents (Elt F)) (StableHlo.after (hostOps2 (F := F)) X main_v52) (StableHlo.after (hostOps2 (F := F)) X main_v53) :=
  Cert.Lib.ssa_binary hW_hostOps2 22 X _ _ _ _ rfl (by decide) (by decide) (by decide)
theorem ssa_cst_14 : StableHlo.after (hostOps2 (F := F)) X main_cst_14 = (constant S_ .f32 0x3F800000#32) :=
  Cert.Lib.ssa_nullary hW_hostOps2 23 X _ _ rfl (by decide)
theorem ssa_v55 : StableHlo.after (hostOps2 (F := F)) X main_v55 = (broadcastInDim S100000x64 ![] bcast_S_S100000x64 : (⟨S_, .f32⟩ : BufTy).Contents (Elt F) → (⟨S100000x64, .f32⟩ : BufTy).Contents (Elt F)) (StableHlo.after (hostOps2 (F := F)) X main_cst_14) :=
  Cert.Lib.ssa_unary hW_hostOps2 24 X _ _ _ rfl (by decide) (by decide)
theorem ssa_v56 : StableHlo.after (hostOps2 (F := F)) X main_v56 = (mulf : (⟨S100000x64, .f32⟩ : BufTy).Contents (Elt F) → (⟨S100000x64, .f32⟩ : BufTy).Contents (Elt F) → (⟨S100000x64, .f32⟩ : BufTy).Contents (Elt F)) (StableHlo.after (hostOps2 (F := F)) X main_arg6) (StableHlo.after (hostOps2 (F := F)) X main_v55) :=
  Cert.Lib.ssa_binary hW_hostOps2 25 X _ _ _ _ rfl (by decide) (by decide) (by decide)
theorem ssa_v57 : StableHlo.after (hostOps2 (F := F)) X main_v57 = ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) (StableHlo.after (hostOps2 (F := F)) X main_v56) (StableHlo.after (hostOps2 (F := F)) X main_v54) :=
  Cert.Lib.ssa_binary hW_hostOps2 26 X _ _ _ _ rfl (by decide) (by decide) (by decide)
theorem ssa_c_15 : StableHlo.after (hostOps2 (F := F)) X main_c_15 = (constantI S_ 32 0#32) :=
  Cert.Lib.ssa_nullary hW_hostOps2 27 X _ _ rfl (by decide)

/-! ## `hostOps2_1` -/

theorem hW_hostOps2_1 : Cert.Lib.WritesAre (hostOps2_1 (F := F)) hostOps2_1_W :=
  ⟨rfl, rfl, trivial⟩

theorem ssa_call3_v0 : StableHlo.after (hostOps2_1 (F := F)) X main_call3_v0 = (sitofp .f32) (StableHlo.after (hostOps2_1 (F := F)) X main_c_15) :=
  Cert.Lib.ssa_unary hW_hostOps2_1 0 X _ _ _ rfl (by decide) (by decide)
theorem ssa_v58 : StableHlo.after (hostOps2_1 (F := F)) X main_v58 = (fun x v => pad S106496x128 ![0, 0] ![6496, 0] ![0, 0] x v pads_S100000x128_S106496x128_064960_000 h_S_) (StableHlo.after (hostOps2_1 (F := F)) X main_v57) (StableHlo.after (hostOps2_1 (F := F)) X main_call3_v0) :=
  Cert.Lib.ssa_binary hW_hostOps2_1 1 X _ _ _ _ rfl (by decide) (by decide) (by decide)

/-! ## `hostOps2_2` -/

theorem hW_hostOps2_2 : Cert.Lib.WritesAre (hostOps2_2 (F := F)) hostOps2_2_W :=
  ⟨rfl, trivial⟩

theorem ssa_v59 : StableHlo.after (hostOps2_2 (F := F)) X main_v59 = shapeCast _ (StableHlo.after (hostOps2_2 (F := F)) X main_arg10) shapeCasts_S64_S1x64 :=
  Cert.Lib.ssa_reshape hW_hostOps2_2 0 X _ _ _ _ rfl (by decide) (by decide)

/-! ## `hostOps3` -/

theorem hW_hostOps3 : Cert.Lib.WritesAre (hostOps3 (F := F)) hostOps3_W :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

theorem ssa_v61 : StableHlo.after (hostOps3 (F := F)) X main_v61 = ((extractStridedSlice S100000x64 ![0, 0] · slices_S106496x64_S100000x64_0_0) : (⟨S106496x64, .f32⟩ : BufTy).Contents (Elt F) → (⟨S100000x64, .f32⟩ : BufTy).Contents (Elt F)) (StableHlo.after (hostOps3 (F := F)) X main_v60) :=
  Cert.Lib.ssa_unary hW_hostOps3 0 X _ _ _ rfl (by decide) (by decide)
theorem ssa_v62 : StableHlo.after (hostOps3 (F := F)) X main_v62 = ((fun a b => concatenate S300000x64 0 [⟨S200000x64, a⟩, ⟨S100000x64, b⟩] concatenates_S200000x64_S100000x64_S300000x64_d0) : (⟨S200000x64, .f32⟩ : BufTy).Contents (Elt F) → (⟨S100000x64, .f32⟩ : BufTy).Contents (Elt F) → (⟨S300000x64, .f32⟩ : BufTy).Contents (Elt F)) (StableHlo.after (hostOps3 (F := F)) X main_v37) (StableHlo.after (hostOps3 (F := F)) X main_v61) :=
  Cert.Lib.ssa_binary hW_hostOps3 1 X _ _ _ _ rfl (by decide) (by decide) (by decide)
theorem ssa_v63 : StableHlo.after (hostOps3 (F := F)) X main_v63 = (broadcastInDim S2300000x1 ![0] bcast_S2300000_S2300000x1_0 : (⟨S2300000, .f32⟩ : BufTy).Contents (Elt F) → (⟨S2300000x1, .f32⟩ : BufTy).Contents (Elt F)) (StableHlo.after (hostOps3 (F := F)) X main_v34) :=
  Cert.Lib.ssa_unary hW_hostOps3 2 X _ _ _ rfl (by decide) (by decide)
theorem ssa_c_16 : StableHlo.after (hostOps3 (F := F)) X main_c_16 = (constantI S_ 32 0#32) :=
  Cert.Lib.ssa_nullary hW_hostOps3 3 X _ _ rfl (by decide)
theorem ssa_v64 : StableHlo.after (hostOps3 (F := F)) X main_v64 = (broadcastInDim S2300000 ![] bcast_S_S2300000 : (⟨S_, .i32⟩ : BufTy).Contents (Elt F) → (⟨S2300000, .i32⟩ : BufTy).Contents (Elt F)) (StableHlo.after (hostOps3 (F := F)) X main_c_16) :=
  Cert.Lib.ssa_unary hW_hostOps3 4 X _ _ _ rfl (by decide) (by decide)
theorem ssa_v65 : StableHlo.after (hostOps3 (F := F)) X main_v65 = (cmpi .slt : (⟨S2300000, .i32⟩ : BufTy).Contents (Elt F) → (⟨S2300000, .i32⟩ : BufTy).Contents (Elt F) → (⟨S2300000, .i1⟩ : BufTy).Contents (Elt F)) (StableHlo.after (hostOps3 (F := F)) X main_v8) (StableHlo.after (hostOps3 (F := F)) X main_v64) :=
  Cert.Lib.ssa_binary hW_hostOps3 5 X _ _ _ _ rfl (by decide) (by decide) (by decide)
theorem ssa_c_17 : StableHlo.after (hostOps3 (F := F)) X main_c_17 = (constantI S_ 32 300000#32) :=
  Cert.Lib.ssa_nullary hW_hostOps3 6 X _ _ rfl (by decide)
theorem ssa_v66 : StableHlo.after (hostOps3 (F := F)) X main_v66 = (broadcastInDim S2300000 ![] bcast_S_S2300000 : (⟨S_, .i32⟩ : BufTy).Contents (Elt F) → (⟨S2300000, .i32⟩ : BufTy).Contents (Elt F)) (StableHlo.after (hostOps3 (F := F)) X main_c_17) :=
  Cert.Lib.ssa_unary hW_hostOps3 7 X _ _ _ rfl (by decide) (by decide)
theorem ssa_v67 : StableHlo.after (hostOps3 (F := F)) X main_v67 = (addi : (⟨S2300000, .i32⟩ : BufTy).Contents (Elt F) → (⟨S2300000, .i32⟩ : BufTy).Contents (Elt F) → (⟨S2300000, .i32⟩ : BufTy).Contents (Elt F)) (StableHlo.after (hostOps3 (F := F)) X main_v8) (StableHlo.after (hostOps3 (F := F)) X main_v66) :=
  Cert.Lib.ssa_binary hW_hostOps3 8 X _ _ _ _ rfl (by decide) (by decide) (by decide)
theorem ssa_v68 : StableHlo.after (hostOps3 (F := F)) X main_v68 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (hostOps3 (F := F)) X main_v65) (StableHlo.after (hostOps3 (F := F)) X main_v67) (StableHlo.after (hostOps3 (F := F)) X main_v8) :=
  Cert.Lib.ssa_ternary hW_hostOps3 9 X _ _ _ _ _ rfl (by decide) (by decide) (by decide) (by decide)
theorem ssa_v69 : StableHlo.after (hostOps3 (F := F)) X main_v69 = (broadcastInDim S2300000x1 ![0] bcast_S2300000_S2300000x1_0 : (⟨S2300000, .i32⟩ : BufTy).Contents (Elt F) → (⟨S2300000x1, .i32⟩ : BufTy).Contents (Elt F)) (StableHlo.after (hostOps3 (F := F)) X main_v68) :=
  Cert.Lib.ssa_unary hW_hostOps3 10 X _ _ _ rfl (by decide) (by decide)
theorem ssa_v70 : StableHlo.after (hostOps3 (F := F)) X main_v70 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (StableHlo.after (hostOps3 (F := F)) X main_v62) (StableHlo.after (hostOps3 (F := F)) X main_v69) :=
  Cert.Lib.ssa_binary hW_hostOps3 11 X _ _ _ _ rfl (by decide) (by decide) (by decide)
theorem ssa_v71 : StableHlo.after (hostOps3 (F := F)) X main_v71 = (broadcastInDim S2300000x64 ![0, 1] bcast_S2300000x1_S2300000x64_0_1 : (⟨S2300000x1, .f32⟩ : BufTy).Contents (Elt F) → (⟨S2300000x64, .f32⟩ : BufTy).Contents (Elt F)) (StableHlo.after (hostOps3 (F := F)) X main_v63) :=
  Cert.Lib.ssa_unary hW_hostOps3 12 X _ _ _ rfl (by decide) (by decide)
theorem ssa_v72 : StableHlo.after (hostOps3 (F := F)) X main_v72 = (mulf : (⟨S2300000x64, .f32⟩ : BufTy).Contents (Elt F) → (⟨S2300000x64, .f32⟩ : BufTy).Contents (Elt F) → (⟨S2300000x64, .f32⟩ : BufTy).Contents (Elt F)) (StableHlo.after (hostOps3 (F := F)) X main_v71) (StableHlo.after (hostOps3 (F := F)) X main_v70) :=
  Cert.Lib.ssa_binary hW_hostOps3 13 X _ _ _ _ rfl (by decide) (by decide) (by decide)
theorem ssa_cst_18 : StableHlo.after (hostOps3 (F := F)) X main_cst_18 = (constant S_ .f32 0x00000000#32) :=
  Cert.Lib.ssa_nullary hW_hostOps3 14 X _ _ rfl (by decide)
theorem ssa_v73 : StableHlo.after (hostOps3 (F := F)) X main_v73 = (broadcastInDim S300000x64 ![] bcast_S_S300000x64 : (⟨S_, .f32⟩ : BufTy).Contents (Elt F) → (⟨S300000x64, .f32⟩ : BufTy).Contents (Elt F)) (StableHlo.after (hostOps3 (F := F)) X main_cst_18) :=
  Cert.Lib.ssa_unary hW_hostOps3 15 X _ _ _ rfl (by decide) (by decide)
theorem ssa_v74 : StableHlo.after (hostOps3 (F := F)) X main_v74 = (broadcastInDim S2300000x1 ![0] bcast_S2300000_S2300000x1_0 : (⟨S2300000, .i32⟩ : BufTy).Contents (Elt F) → (⟨S2300000x1, .i32⟩ : BufTy).Contents (Elt F)) (StableHlo.after (hostOps3 (F := F)) X main_v9) :=
  Cert.Lib.ssa_unary hW_hostOps3 16 X _ _ _ rfl (by decide) (by decide)
theorem ssa_v75 : StableHlo.after (hostOps3 (F := F)) X main_v75 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (StableHlo.after (hostOps3 (F := F)) X main_v73) (StableHlo.after (hostOps3 (F := F)) X main_v74) (StableHlo.after (hostOps3 (F := F)) X main_v72) :=
  Cert.Lib.ssa_ternary hW_hostOps3 17 X _ _ _ _ _ rfl (by decide) (by decide) (by decide) (by decide)
theorem ssa_v76 : StableHlo.after (hostOps3 (F := F)) X main_v76 = (addf : (⟨S300000x64, .f32⟩ : BufTy).Contents (Elt F) → (⟨S300000x64, .f32⟩ : BufTy).Contents (Elt F) → (⟨S300000x64, .f32⟩ : BufTy).Contents (Elt F)) (StableHlo.after (hostOps3 (F := F)) X main_v62) (StableHlo.after (hostOps3 (F := F)) X main_v75) :=
  Cert.Lib.ssa_binary hW_hostOps3 18 X _ _ _ _ rfl (by decide) (by decide) (by decide)
theorem ssa_v77 : StableHlo.after (hostOps3 (F := F)) X main_v77 = (broadcastInDim S2300000x1 ![0] bcast_S2300000_S2300000x1_0 : (⟨S2300000, .f32⟩ : BufTy).Contents (Elt F) → (⟨S2300000x1, .f32⟩ : BufTy).Contents (Elt F)) (StableHlo.after (hostOps3 (F := F)) X main_v34) :=
  Cert.Lib.ssa_unary hW_hostOps3 19 X _ _ _ rfl (by decide) (by decide)
theorem ssa_c_19 : StableHlo.after (hostOps3 (F := F)) X main_c_19 = (constantI S_ 32 0#32) :=
  Cert.Lib.ssa_nullary hW_hostOps3 20 X _ _ rfl (by decide)
theorem ssa_v78 : StableHlo.after (hostOps3 (F := F)) X main_v78 = (broadcastInDim S2300000 ![] bcast_S_S2300000 : (⟨S_, .i32⟩ : BufTy).Contents (Elt F) → (⟨S2300000, .i32⟩ : BufTy).Contents (Elt F)) (StableHlo.after (hostOps3 (F := F)) X main_c_19) :=
  Cert.Lib.ssa_unary hW_hostOps3 21 X _ _ _ rfl (by decide) (by decide)
theorem ssa_v79 : StableHlo.after (hostOps3 (F := F)) X main_v79 = (cmpi .slt : (⟨S2300000, .i32⟩ : BufTy).Contents (Elt F) → (⟨S2300000, .i32⟩ : BufTy).Contents (Elt F) → (⟨S2300000, .i1⟩ : BufTy).Contents (Elt F)) (StableHlo.after (hostOps3 (F := F)) X main_v8) (StableHlo.after (hostOps3 (F := F)) X main_v78) :=
  Cert.Lib.ssa_binary hW_hostOps3 22 X _ _ _ _ rfl (by decide) (by decide) (by decide)
theorem ssa_c_20 : StableHlo.after (hostOps3 (F := F)) X main_c_20 = (constantI S_ 32 300000#32) :=
  Cert.Lib.ssa_nullary hW_hostOps3 23 X _ _ rfl (by decide)
theorem ssa_v80 : StableHlo.after (hostOps3 (F := F)) X main_v80 = (broadcastInDim S2300000 ![] bcast_S_S2300000 : (⟨S_, .i32⟩ : BufTy).Contents (Elt F) → (⟨S2300000, .i32⟩ : BufTy).Contents (Elt F)) (StableHlo.after (hostOps3 (F := F)) X main_c_20) :=
  Cert.Lib.ssa_unary hW_hostOps3 24 X _ _ _ rfl (by decide) (by decide)
theorem ssa_v81 : StableHlo.after (hostOps3 (F := F)) X main_v81 = (addi : (⟨S2300000, .i32⟩ : BufTy).Contents (Elt F) → (⟨S2300000, .i32⟩ : BufTy).Contents (Elt F) → (⟨S2300000, .i32⟩ : BufTy).Contents (Elt F)) (StableHlo.after (hostOps3 (F := F)) X main_v8) (StableHlo.after (hostOps3 (F := F)) X main_v80) :=
  Cert.Lib.ssa_binary hW_hostOps3 25 X _ _ _ _ rfl (by decide) (by decide) (by decide)
theorem ssa_v82 : StableHlo.after (hostOps3 (F := F)) X main_v82 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (hostOps3 (F := F)) X main_v79) (StableHlo.after (hostOps3 (F := F)) X main_v81) (StableHlo.after (hostOps3 (F := F)) X main_v8) :=
  Cert.Lib.ssa_ternary hW_hostOps3 26 X _ _ _ _ _ rfl (by decide) (by decide) (by decide) (by decide)
theorem ssa_v83 : StableHlo.after (hostOps3 (F := F)) X main_v83 = (broadcastInDim S2300000x1 ![0] bcast_S2300000_S2300000x1_0 : (⟨S2300000, .i32⟩ : BufTy).Contents (Elt F) → (⟨S2300000x1, .i32⟩ : BufTy).Contents (Elt F)) (StableHlo.after (hostOps3 (F := F)) X main_v82) :=
  Cert.Lib.ssa_unary hW_hostOps3 27 X _ _ _ rfl (by decide) (by decide)
theorem ssa_v84 : StableHlo.after (hostOps3 (F := F)) X main_v84 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (StableHlo.after (hostOps3 (F := F)) X main_v75) (StableHlo.after (hostOps3 (F := F)) X main_v83) :=
  Cert.Lib.ssa_binary hW_hostOps3 28 X _ _ _ _ rfl (by decide) (by decide) (by decide)
theorem ssa_v85 : StableHlo.after (hostOps3 (F := F)) X main_v85 = (broadcastInDim S2300000x64 ![0, 1] bcast_S2300000x1_S2300000x64_0_1 : (⟨S2300000x1, .f32⟩ : BufTy).Contents (Elt F) → (⟨S2300000x64, .f32⟩ : BufTy).Contents (Elt F)) (StableHlo.after (hostOps3 (F := F)) X main_v77) :=
  Cert.Lib.ssa_unary hW_hostOps3 29 X _ _ _ rfl (by decide) (by decide)
theorem ssa_v86 : StableHlo.after (hostOps3 (F := F)) X main_v86 = (mulf : (⟨S2300000x64, .f32⟩ : BufTy).Contents (Elt F) → (⟨S2300000x64, .f32⟩ : BufTy).Contents (Elt F) → (⟨S2300000x64, .f32⟩ : BufTy).Contents (Elt F)) (StableHlo.after (hostOps3 (F := F)) X main_v85) (StableHlo.after (hostOps3 (F := F)) X main_v84) :=
  Cert.Lib.ssa_binary hW_hostOps3 30 X _ _ _ _ rfl (by decide) (by decide) (by decide)
theorem ssa_cst_21 : StableHlo.after (hostOps3 (F := F)) X main_cst_21 = (constant S_ .f32 0x00000000#32) :=
  Cert.Lib.ssa_nullary hW_hostOps3 31 X _ _ rfl (by decide)
theorem ssa_v87 : StableHlo.after (hostOps3 (F := F)) X main_v87 = (broadcastInDim S300000x64 ![] bcast_S_S300000x64 : (⟨S_, .f32⟩ : BufTy).Contents (Elt F) → (⟨S300000x64, .f32⟩ : BufTy).Contents (Elt F)) (StableHlo.after (hostOps3 (F := F)) X main_cst_21) :=
  Cert.Lib.ssa_unary hW_hostOps3 32 X _ _ _ rfl (by decide) (by decide)
theorem ssa_v88 : StableHlo.after (hostOps3 (F := F)) X main_v88 = (broadcastInDim S2300000x1 ![0] bcast_S2300000_S2300000x1_0 : (⟨S2300000, .i32⟩ : BufTy).Contents (Elt F) → (⟨S2300000x1, .i32⟩ : BufTy).Contents (Elt F)) (StableHlo.after (hostOps3 (F := F)) X main_v9) :=
  Cert.Lib.ssa_unary hW_hostOps3 33 X _ _ _ rfl (by decide) (by decide)
theorem ssa_v89 : StableHlo.after (hostOps3 (F := F)) X main_v89 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (StableHlo.after (hostOps3 (F := F)) X main_v87) (StableHlo.after (hostOps3 (F := F)) X main_v88) (StableHlo.after (hostOps3 (F := F)) X main_v86) :=
  Cert.Lib.ssa_ternary hW_hostOps3 34 X _ _ _ _ _ rfl (by decide) (by decide) (by decide) (by decide)
theorem ssa_v90 : StableHlo.after (hostOps3 (F := F)) X main_v90 = (addf : (⟨S300000x64, .f32⟩ : BufTy).Contents (Elt F) → (⟨S300000x64, .f32⟩ : BufTy).Contents (Elt F) → (⟨S300000x64, .f32⟩ : BufTy).Contents (Elt F)) (StableHlo.after (hostOps3 (F := F)) X main_v76) (StableHlo.after (hostOps3 (F := F)) X main_v89) :=
  Cert.Lib.ssa_binary hW_hostOps3 35 X _ _ _ _ rfl (by decide) (by decide) (by decide)
theorem ssa_v91 : StableHlo.after (hostOps3 (F := F)) X main_v91 = (broadcastInDim S2300000x1 ![0] bcast_S2300000_S2300000x1_0 : (⟨S2300000, .f32⟩ : BufTy).Contents (Elt F) → (⟨S2300000x1, .f32⟩ : BufTy).Contents (Elt F)) (StableHlo.after (hostOps3 (F := F)) X main_v34) :=
  Cert.Lib.ssa_unary hW_hostOps3 36 X _ _ _ rfl (by decide) (by decide)
theorem ssa_c_22 : StableHlo.after (hostOps3 (F := F)) X main_c_22 = (constantI S_ 32 0#32) :=
  Cert.Lib.ssa_nullary hW_hostOps3 37 X _ _ rfl (by decide)
theorem ssa_v92 : StableHlo.after (hostOps3 (F := F)) X main_v92 = (broadcastInDim S2300000 ![] bcast_S_S2300000 : (⟨S_, .i32⟩ : BufTy).Contents (Elt F) → (⟨S2300000, .i32⟩ : BufTy).Contents (Elt F)) (StableHlo.after (hostOps3 (F := F)) X main_c_22) :=
  Cert.Lib.ssa_unary hW_hostOps3 38 X _ _ _ rfl (by decide) (by decide)
theorem ssa_v93 : StableHlo.after (hostOps3 (F := F)) X main_v93 = (cmpi .slt : (⟨S2300000, .i32⟩ : BufTy).Contents (Elt F) → (⟨S2300000, .i32⟩ : BufTy).Contents (Elt F) → (⟨S2300000, .i1⟩ : BufTy).Contents (Elt F)) (StableHlo.after (hostOps3 (F := F)) X main_v8) (StableHlo.after (hostOps3 (F := F)) X main_v92) :=
  Cert.Lib.ssa_binary hW_hostOps3 39 X _ _ _ _ rfl (by decide) (by decide) (by decide)
theorem ssa_c_23 : StableHlo.after (hostOps3 (F := F)) X main_c_23 = (constantI S_ 32 300000#32) :=
  Cert.Lib.ssa_nullary hW_hostOps3 40 X _ _ rfl (by decide)
theorem ssa_v94 : StableHlo.after (hostOps3 (F := F)) X main_v94 = (broadcastInDim S2300000 ![] bcast_S_S2300000 : (⟨S_, .i32⟩ : BufTy).Contents (Elt F) → (⟨S2300000, .i32⟩ : BufTy).Contents (Elt F)) (StableHlo.after (hostOps3 (F := F)) X main_c_23) :=
  Cert.Lib.ssa_unary hW_hostOps3 41 X _ _ _ rfl (by decide) (by decide)
theorem ssa_v95 : StableHlo.after (hostOps3 (F := F)) X main_v95 = (addi : (⟨S2300000, .i32⟩ : BufTy).Contents (Elt F) → (⟨S2300000, .i32⟩ : BufTy).Contents (Elt F) → (⟨S2300000, .i32⟩ : BufTy).Contents (Elt F)) (StableHlo.after (hostOps3 (F := F)) X main_v8) (StableHlo.after (hostOps3 (F := F)) X main_v94) :=
  Cert.Lib.ssa_binary hW_hostOps3 42 X _ _ _ _ rfl (by decide) (by decide) (by decide)
theorem ssa_v96 : StableHlo.after (hostOps3 (F := F)) X main_v96 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (hostOps3 (F := F)) X main_v93) (StableHlo.after (hostOps3 (F := F)) X main_v95) (StableHlo.after (hostOps3 (F := F)) X main_v8) :=
  Cert.Lib.ssa_ternary hW_hostOps3 43 X _ _ _ _ _ rfl (by decide) (by decide) (by decide) (by decide)
theorem ssa_v97 : StableHlo.after (hostOps3 (F := F)) X main_v97 = (broadcastInDim S2300000x1 ![0] bcast_S2300000_S2300000x1_0 : (⟨S2300000, .i32⟩ : BufTy).Contents (Elt F) → (⟨S2300000x1, .i32⟩ : BufTy).Contents (Elt F)) (StableHlo.after (hostOps3 (F := F)) X main_v96) :=
  Cert.Lib.ssa_unary hW_hostOps3 44 X _ _ _ rfl (by decide) (by decide)
theorem ssa_v98 : StableHlo.after (hostOps3 (F := F)) X main_v98 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (StableHlo.after (hostOps3 (F := F)) X main_v89) (StableHlo.after (hostOps3 (F := F)) X main_v97) :=
  Cert.Lib.ssa_binary hW_hostOps3 45 X _ _ _ _ rfl (by decide) (by decide) (by decide)
theorem ssa_v99 : StableHlo.after (hostOps3 (F := F)) X main_v99 = (broadcastInDim S2300000x64 ![0, 1] bcast_S2300000x1_S2300000x64_0_1 : (⟨S2300000x1, .f32⟩ : BufTy).Contents (Elt F) → (⟨S2300000x64, .f32⟩ : BufTy).Contents (Elt F)) (StableHlo.after (hostOps3 (F := F)) X main_v91) :=
  Cert.Lib.ssa_unary hW_hostOps3 46 X _ _ _ rfl (by decide) (by decide)
theorem ssa_v100 : StableHlo.after (hostOps3 (F := F)) X main_v100 = (mulf : (⟨S2300000x64, .f32⟩ : BufTy).Contents (Elt F) → (⟨S2300000x64, .f32⟩ : BufTy).Contents (Elt F) → (⟨S2300000x64, .f32⟩ : BufTy).Contents (Elt F)) (StableHlo.after (hostOps3 (F := F)) X main_v99) (StableHlo.after (hostOps3 (F := F)) X main_v98) :=
  Cert.Lib.ssa_binary hW_hostOps3 47 X _ _ _ _ rfl (by decide) (by decide) (by decide)
theorem ssa_cst_24 : StableHlo.after (hostOps3 (F := F)) X main_cst_24 = (constant S_ .f32 0x00000000#32) :=
  Cert.Lib.ssa_nullary hW_hostOps3 48 X _ _ rfl (by decide)
theorem ssa_v101 : StableHlo.after (hostOps3 (F := F)) X main_v101 = (broadcastInDim S300000x64 ![] bcast_S_S300000x64 : (⟨S_, .f32⟩ : BufTy).Contents (Elt F) → (⟨S300000x64, .f32⟩ : BufTy).Contents (Elt F)) (StableHlo.after (hostOps3 (F := F)) X main_cst_24) :=
  Cert.Lib.ssa_unary hW_hostOps3 49 X _ _ _ rfl (by decide) (by decide)
theorem ssa_v102 : StableHlo.after (hostOps3 (F := F)) X main_v102 = (broadcastInDim S2300000x1 ![0] bcast_S2300000_S2300000x1_0 : (⟨S2300000, .i32⟩ : BufTy).Contents (Elt F) → (⟨S2300000x1, .i32⟩ : BufTy).Contents (Elt F)) (StableHlo.after (hostOps3 (F := F)) X main_v9) :=
  Cert.Lib.ssa_unary hW_hostOps3 50 X _ _ _ rfl (by decide) (by decide)
theorem ssa_v103 : StableHlo.after (hostOps3 (F := F)) X main_v103 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (StableHlo.after (hostOps3 (F := F)) X main_v101) (StableHlo.after (hostOps3 (F := F)) X main_v102) (StableHlo.after (hostOps3 (F := F)) X main_v100) :=
  Cert.Lib.ssa_ternary hW_hostOps3 51 X _ _ _ _ _ rfl (by decide) (by decide) (by decide) (by decide)
theorem ssa_v104 : StableHlo.after (hostOps3 (F := F)) X main_v104 = (addf : (⟨S300000x64, .f32⟩ : BufTy).Contents (Elt F) → (⟨S300000x64, .f32⟩ : BufTy).Contents (Elt F) → (⟨S300000x64, .f32⟩ : BufTy).Contents (Elt F)) (StableHlo.after (hostOps3 (F := F)) X main_v90) (StableHlo.after (hostOps3 (F := F)) X main_v103) :=
  Cert.Lib.ssa_binary hW_hostOps3 52 X _ _ _ _ rfl (by decide) (by decide) (by decide)
theorem ssa_c_25 : StableHlo.after (hostOps3 (F := F)) X main_c_25 = (constantI S_ 32 0#32) :=
  Cert.Lib.ssa_nullary hW_hostOps3 53 X _ _ rfl (by decide)

/-! ## `hostOps3_1` -/

theorem hW_hostOps3_1 : Cert.Lib.WritesAre (hostOps3_1 (F := F)) hostOps3_1_W :=
  ⟨rfl, rfl, trivial⟩

theorem ssa_call4_v0 : StableHlo.after (hostOps3_1 (F := F)) X main_call4_v0 = (sitofp .f32) (StableHlo.after (hostOps3_1 (F := F)) X main_c_25) :=
  Cert.Lib.ssa_unary hW_hostOps3_1 0 X _ _ _ rfl (by decide) (by decide)
theorem ssa_v105 : StableHlo.after (hostOps3_1 (F := F)) X main_v105 = (fun x v => pad S303104x64 ![0, 0] ![3104, 0] ![0, 0] x v pads_S300000x64_S303104x64_031040_000 h_S_) (StableHlo.after (hostOps3_1 (F := F)) X main_v104) (StableHlo.after (hostOps3_1 (F := F)) X main_call4_v0) :=
  Cert.Lib.ssa_binary hW_hostOps3_1 1 X _ _ _ _ rfl (by decide) (by decide) (by decide)

/-! ## `hostOps4` -/

theorem hW_hostOps4 : Cert.Lib.WritesAre (hostOps4 (F := F)) hostOps4_W :=
  ⟨rfl, rfl, rfl, trivial⟩

theorem ssa_v107 : StableHlo.after (hostOps4 (F := F)) X main_v107 = ((extractStridedSlice S300000x64 ![0, 0] · slices_S303104x64_S300000x64_0_0) : (⟨S303104x64, .f32⟩ : BufTy).Contents (Elt F) → (⟨S300000x64, .f32⟩ : BufTy).Contents (Elt F)) (StableHlo.after (hostOps4 (F := F)) X main_v106) :=
  Cert.Lib.ssa_unary hW_hostOps4 0 X _ _ _ rfl (by decide) (by decide)
theorem ssa_v108 : StableHlo.after (hostOps4 (F := F)) X main_v108 = ((extractStridedSlice S200000x64 ![0, 0] · slices_S300000x64_S200000x64_0_0) : (⟨S300000x64, .f32⟩ : BufTy).Contents (Elt F) → (⟨S200000x64, .f32⟩ : BufTy).Contents (Elt F)) (StableHlo.after (hostOps4 (F := F)) X main_v107) :=
  Cert.Lib.ssa_unary hW_hostOps4 1 X _ _ _ rfl (by decide) (by decide)
theorem ssa_v109 : StableHlo.after (hostOps4 (F := F)) X main_v109 = ((extractStridedSlice S100000x64 ![200000, 0] · slices_S300000x64_S100000x64_200000_0) : (⟨S300000x64, .f32⟩ : BufTy).Contents (Elt F) → (⟨S100000x64, .f32⟩ : BufTy).Contents (Elt F)) (StableHlo.after (hostOps4 (F := F)) X main_v107) :=
  Cert.Lib.ssa_unary hW_hostOps4 2 X _ _ _ rfl (by decide) (by decide)

end Cert.KernelIdeal.Host

end
-- ==== Proof.KI.HostEnd.lean ====
/-
  Every array of @main at the end of the run. An array holds at the end what it held right after the item that wrote it,
  since no later item writes it; so the equation an operation satisfies after its own stretch holds of the last
  contents as well: the result array holds the operation's function of the operand arrays, all read at the end.
-/
import proofs.«144458_j9423158248257_1_alg».proof.Proof.KI.Host

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F)) (c : Dev nD)

/-! ## An array not written after item J holds at the end what it held after item J -/

theorem carry0 (r : Ref sig .tc) (h : r ∉ hostOps0_W ++ (hostOps0_1_W ++ (hostOps0_2_W ++ (([main_v3] : List (Ref sig .tc)) ++ (hostOps1_W ++ (hostOps1_1_W ++ (hostOps1_2_W ++ (hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W))))))))))))))))) : V17 m outs c r = V0 m c r := by
  simp only [List.mem_append, not_or] at h
  exact ((V17_of m outs c r h.2.2.2.2.2.2.2.2.2.2.2.2.2.2.2.2).trans ((V16_of m outs c r h.2.2.2.2.2.2.2.2.2.2.2.2.2.2.2.1).trans ((V15_of m outs c r h.2.2.2.2.2.2.2.2.2.2.2.2.2.2.1).trans ((V14_of m outs c r h.2.2.2.2.2.2.2.2.2.2.2.2.2.1).trans ((V13_of m outs c r h.2.2.2.2.2.2.2.2.2.2.2.2.1).trans ((V12_of m outs c r h.2.2.2.2.2.2.2.2.2.2.2.1).trans ((V11_of m outs c r h.2.2.2.2.2.2.2.2.2.2.1).trans ((V10_of m outs c r h.2.2.2.2.2.2.2.2.2.1).trans ((V9_of m outs c r h.2.2.2.2.2.2.2.2.1).trans ((V8_of m outs c r h.2.2.2.2.2.2.2.1).trans ((V7_of m outs c r h.2.2.2.2.2.2.1).trans ((V6_of m outs c r h.2.2.2.2.2.1).trans ((V5_of m outs c r h.2.2.2.2.1).trans ((V4_of m outs c r h.2.2.2.1).trans ((V3_of m c r h.2.2.1).trans ((V2_of m c r h.2.1).trans (V1_of m c r h.1)))))))))))))))))

theorem carry1 (r : Ref sig .tc) (h : r ∉ hostOps0_1_W ++ (hostOps0_2_W ++ (([main_v3] : List (Ref sig .tc)) ++ (hostOps1_W ++ (hostOps1_1_W ++ (hostOps1_2_W ++ (hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W)))))))))))))))) : V17 m outs c r = V1 m c r := by
  simp only [List.mem_append, not_or] at h
  exact ((V17_of m outs c r h.2.2.2.2.2.2.2.2.2.2.2.2.2.2.2).trans ((V16_of m outs c r h.2.2.2.2.2.2.2.2.2.2.2.2.2.2.1).trans ((V15_of m outs c r h.2.2.2.2.2.2.2.2.2.2.2.2.2.1).trans ((V14_of m outs c r h.2.2.2.2.2.2.2.2.2.2.2.2.1).trans ((V13_of m outs c r h.2.2.2.2.2.2.2.2.2.2.2.1).trans ((V12_of m outs c r h.2.2.2.2.2.2.2.2.2.2.1).trans ((V11_of m outs c r h.2.2.2.2.2.2.2.2.2.1).trans ((V10_of m outs c r h.2.2.2.2.2.2.2.2.1).trans ((V9_of m outs c r h.2.2.2.2.2.2.2.1).trans ((V8_of m outs c r h.2.2.2.2.2.2.1).trans ((V7_of m outs c r h.2.2.2.2.2.1).trans ((V6_of m outs c r h.2.2.2.2.1).trans ((V5_of m outs c r h.2.2.2.1).trans ((V4_of m outs c r h.2.2.1).trans ((V3_of m c r h.2.1).trans (V2_of m c r h.1))))))))))))))))

theorem carry2 (r : Ref sig .tc) (h : r ∉ hostOps0_2_W ++ (([main_v3] : List (Ref sig .tc)) ++ (hostOps1_W ++ (hostOps1_1_W ++ (hostOps1_2_W ++ (hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W))))))))))))))) : V17 m outs c r = V2 m c r := by
  simp only [List.mem_append, not_or] at h
  exact ((V17_of m outs c r h.2.2.2.2.2.2.2.2.2.2.2.2.2.2).trans ((V16_of m outs c r h.2.2.2.2.2.2.2.2.2.2.2.2.2.1).trans ((V15_of m outs c r h.2.2.2.2.2.2.2.2.2.2.2.2.1).trans ((V14_of m outs c r h.2.2.2.2.2.2.2.2.2.2.2.1).trans ((V13_of m outs c r h.2.2.2.2.2.2.2.2.2.2.1).trans ((V12_of m outs c r h.2.2.2.2.2.2.2.2.2.1).trans ((V11_of m outs c r h.2.2.2.2.2.2.2.2.1).trans ((V10_of m outs c r h.2.2.2.2.2.2.2.1).trans ((V9_of m outs c r h.2.2.2.2.2.2.1).trans ((V8_of m outs c r h.2.2.2.2.2.1).trans ((V7_of m outs c r h.2.2.2.2.1).trans ((V6_of m outs c r h.2.2.2.1).trans ((V5_of m outs c r h.2.2.1).trans ((V4_of m outs c r h.2.1).trans (V3_of m c r h.1)))))))))))))))

theorem carry3 (r : Ref sig .tc) (h : r ∉ ([main_v3] : List (Ref sig .tc)) ++ (hostOps1_W ++ (hostOps1_1_W ++ (hostOps1_2_W ++ (hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W)))))))))))))) : V17 m outs c r = V3 m c r := by
  simp only [List.mem_append, not_or] at h
  exact ((V17_of m outs c r h.2.2.2.2.2.2.2.2.2.2.2.2.2).trans ((V16_of m outs c r h.2.2.2.2.2.2.2.2.2.2.2.2.1).trans ((V15_of m outs c r h.2.2.2.2.2.2.2.2.2.2.2.1).trans ((V14_of m outs c r h.2.2.2.2.2.2.2.2.2.2.1).trans ((V13_of m outs c r h.2.2.2.2.2.2.2.2.2.1).trans ((V12_of m outs c r h.2.2.2.2.2.2.2.2.1).trans ((V11_of m outs c r h.2.2.2.2.2.2.2.1).trans ((V10_of m outs c r h.2.2.2.2.2.2.1).trans ((V9_of m outs c r h.2.2.2.2.2.1).trans ((V8_of m outs c r h.2.2.2.2.1).trans ((V7_of m outs c r h.2.2.2.1).trans ((V6_of m outs c r h.2.2.1).trans ((V5_of m outs c r h.2.1).trans (V4_of m outs c r h.1))))))))))))))

theorem carry4 (r : Ref sig .tc) (h : r ∉ hostOps1_W ++ (hostOps1_1_W ++ (hostOps1_2_W ++ (hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W))))))))))))) : V17 m outs c r = V4 m outs c r := by
  simp only [List.mem_append, not_or] at h
  exact ((V17_of m outs c r h.2.2.2.2.2.2.2.2.2.2.2.2).trans ((V16_of m outs c r h.2.2.2.2.2.2.2.2.2.2.2.1).trans ((V15_of m outs c r h.2.2.2.2.2.2.2.2.2.2.1).trans ((V14_of m outs c r h.2.2.2.2.2.2.2.2.2.1).trans ((V13_of m outs c r h.2.2.2.2.2.2.2.2.1).trans ((V12_of m outs c r h.2.2.2.2.2.2.2.1).trans ((V11_of m outs c r h.2.2.2.2.2.2.1).trans ((V10_of m outs c r h.2.2.2.2.2.1).trans ((V9_of m outs c r h.2.2.2.2.1).trans ((V8_of m outs c r h.2.2.2.1).trans ((V7_of m outs c r h.2.2.1).trans ((V6_of m outs c r h.2.1).trans (V5_of m outs c r h.1)))))))))))))

theorem carry5 (r : Ref sig .tc) (h : r ∉ hostOps1_1_W ++ (hostOps1_2_W ++ (hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W)))))))))))) : V17 m outs c r = V5 m outs c r := by
  simp only [List.mem_append, not_or] at h
  exact ((V17_of m outs c r h.2.2.2.2.2.2.2.2.2.2.2).trans ((V16_of m outs c r h.2.2.2.2.2.2.2.2.2.2.1).trans ((V15_of m outs c r h.2.2.2.2.2.2.2.2.2.1).trans ((V14_of m outs c r h.2.2.2.2.2.2.2.2.1).trans ((V13_of m outs c r h.2.2.2.2.2.2.2.1).trans ((V12_of m outs c r h.2.2.2.2.2.2.1).trans ((V11_of m outs c r h.2.2.2.2.2.1).trans ((V10_of m outs c r h.2.2.2.2.1).trans ((V9_of m outs c r h.2.2.2.1).trans ((V8_of m outs c r h.2.2.1).trans ((V7_of m outs c r h.2.1).trans (V6_of m outs c r h.1))))))))))))

theorem carry6 (r : Ref sig .tc) (h : r ∉ hostOps1_2_W ++ (hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W))))))))))) : V17 m outs c r = V6 m outs c r := by
  simp only [List.mem_append, not_or] at h
  exact ((V17_of m outs c r h.2.2.2.2.2.2.2.2.2.2).trans ((V16_of m outs c r h.2.2.2.2.2.2.2.2.2.1).trans ((V15_of m outs c r h.2.2.2.2.2.2.2.2.1).trans ((V14_of m outs c r h.2.2.2.2.2.2.2.1).trans ((V13_of m outs c r h.2.2.2.2.2.2.1).trans ((V12_of m outs c r h.2.2.2.2.2.1).trans ((V11_of m outs c r h.2.2.2.2.1).trans ((V10_of m outs c r h.2.2.2.1).trans ((V9_of m outs c r h.2.2.1).trans ((V8_of m outs c r h.2.1).trans (V7_of m outs c r h.1)))))))))))

theorem carry7 (r : Ref sig .tc) (h : r ∉ hostOps1_3_W ++ (([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W)))))))))) : V17 m outs c r = V7 m outs c r := by
  simp only [List.mem_append, not_or] at h
  exact ((V17_of m outs c r h.2.2.2.2.2.2.2.2.2).trans ((V16_of m outs c r h.2.2.2.2.2.2.2.2.1).trans ((V15_of m outs c r h.2.2.2.2.2.2.2.1).trans ((V14_of m outs c r h.2.2.2.2.2.2.1).trans ((V13_of m outs c r h.2.2.2.2.2.1).trans ((V12_of m outs c r h.2.2.2.2.1).trans ((V11_of m outs c r h.2.2.2.1).trans ((V10_of m outs c r h.2.2.1).trans ((V9_of m outs c r h.2.1).trans (V8_of m outs c r h.1))))))))))

theorem carry8 (r : Ref sig .tc) (h : r ∉ ([main_v36] : List (Ref sig .tc)) ++ (hostOps2_W ++ (hostOps2_1_W ++ (hostOps2_2_W ++ (([main_v60] : List (Ref sig .tc)) ++ (hostOps3_W ++ (hostOps3_1_W ++ (([main_v106] : List (Ref sig .tc)) ++ (hostOps4_W))))))))) : V17 m outs c r = V8 m outs c r := by
  simp only [List.mem_append, not_or] at h
  exact ((V17_of m outs c r h.2.2.2.2.2.2.2.2).trans ((V16_of m outs c r h.2.2.2.2.2.2.2.1).trans ((V15_of m outs c r h.2.2.2.2.2.2.1).trans ((V14_of m outs c r h.2.2.2.2.2.1).trans ((V13_of m outs c r h.2.2.2.2.1).trans ((V12_of m outs c r h.2.2.2.1).trans ((V11_of m outs c r h.2.2.1).trans ((V10_of m outs c r h.2.1).trans (V9_of m outs c r h.1)))))))))

theorem carry9 (r : Ref sig .tc) (h : r ∉ hostOps2_W ++ (hostOps2_1_W ++ (hostOps2_2_W ++ (([main_v60] : List (Ref sig .tc)) ++ (hostOps3_W ++ (hostOps3_1_W ++ (([main_v106] : List (Ref sig .tc)) ++ (hostOps4_W)))))))) : V17 m outs c r = V9 m outs c r := by
  simp only [List.mem_append, not_or] at h
  exact ((V17_of m outs c r h.2.2.2.2.2.2.2).trans ((V16_of m outs c r h.2.2.2.2.2.2.1).trans ((V15_of m outs c r h.2.2.2.2.2.1).trans ((V14_of m outs c r h.2.2.2.2.1).trans ((V13_of m outs c r h.2.2.2.1).trans ((V12_of m outs c r h.2.2.1).trans ((V11_of m outs c r h.2.1).trans (V10_of m outs c r h.1))))))))

theorem carry10 (r : Ref sig .tc) (h : r ∉ hostOps2_1_W ++ (hostOps2_2_W ++ (([main_v60] : List (Ref sig .tc)) ++ (hostOps3_W ++ (hostOps3_1_W ++ (([main_v106] : List (Ref sig .tc)) ++ (hostOps4_W))))))) : V17 m outs c r = V10 m outs c r := by
  simp only [List.mem_append, not_or] at h
  exact ((V17_of m outs c r h.2.2.2.2.2.2).trans ((V16_of m outs c r h.2.2.2.2.2.1).trans ((V15_of m outs c r h.2.2.2.2.1).trans ((V14_of m outs c r h.2.2.2.1).trans ((V13_of m outs c r h.2.2.1).trans ((V12_of m outs c r h.2.1).trans (V11_of m outs c r h.1)))))))

theorem carry11 (r : Ref sig .tc) (h : r ∉ hostOps2_2_W ++ (([main_v60] : List (Ref sig .tc)) ++ (hostOps3_W ++ (hostOps3_1_W ++ (([main_v106] : List (Ref sig .tc)) ++ (hostOps4_W)))))) : V17 m outs c r = V11 m outs c r := by
  simp only [List.mem_append, not_or] at h
  exact ((V17_of m outs c r h.2.2.2.2.2).trans ((V16_of m outs c r h.2.2.2.2.1).trans ((V15_of m outs c r h.2.2.2.1).trans ((V14_of m outs c r h.2.2.1).trans ((V13_of m outs c r h.2.1).trans (V12_of m outs c r h.1))))))

theorem carry12 (r : Ref sig .tc) (h : r ∉ ([main_v60] : List (Ref sig .tc)) ++ (hostOps3_W ++ (hostOps3_1_W ++ (([main_v106] : List (Ref sig .tc)) ++ (hostOps4_W))))) : V17 m outs c r = V12 m outs c r := by
  simp only [List.mem_append, not_or] at h
  exact ((V17_of m outs c r h.2.2.2.2).trans ((V16_of m outs c r h.2.2.2.1).trans ((V15_of m outs c r h.2.2.1).trans ((V14_of m outs c r h.2.1).trans (V13_of m outs c r h.1)))))

theorem carry13 (r : Ref sig .tc) (h : r ∉ hostOps3_W ++ (hostOps3_1_W ++ (([main_v106] : List (Ref sig .tc)) ++ (hostOps4_W)))) : V17 m outs c r = V13 m outs c r := by
  simp only [List.mem_append, not_or] at h
  exact ((V17_of m outs c r h.2.2.2).trans ((V16_of m outs c r h.2.2.1).trans ((V15_of m outs c r h.2.1).trans (V14_of m outs c r h.1))))

theorem carry14 (r : Ref sig .tc) (h : r ∉ hostOps3_1_W ++ (([main_v106] : List (Ref sig .tc)) ++ (hostOps4_W))) : V17 m outs c r = V14 m outs c r := by
  simp only [List.mem_append, not_or] at h
  exact ((V17_of m outs c r h.2.2).trans ((V16_of m outs c r h.2.1).trans (V15_of m outs c r h.1)))

theorem carry15 (r : Ref sig .tc) (h : r ∉ ([main_v106] : List (Ref sig .tc)) ++ (hostOps4_W)) : V17 m outs c r = V15 m outs c r := by
  simp only [List.mem_append, not_or] at h
  exact ((V17_of m outs c r h.2).trans (V16_of m outs c r h.1))

theorem carry16 (r : Ref sig .tc) (h : r ∉ hostOps4_W) : V17 m outs c r = V16 m outs c r := by
  exact (V17_of m outs c r h)

/-! ## The operations' equations at the end of the run -/

theorem x_c : V17 m outs c main_c = (constantI S_ 32 0#32) := by
  rw [carry1 m outs c main_c (by decide)]
  exact Cert.KernelIdeal.Host.ssa_c _
theorem x_call0_v0 : V17 m outs c main_call0_v0 = (sitofp .f32) (V17 m outs c main_c) := by
  rw [carry2 m outs c main_call0_v0 (by decide), carry2 m outs c main_c (by decide)]
  exact Cert.KernelIdeal.Host.ssa_call0_v0 _
theorem x_v0 : V17 m outs c main_v0 = (fun x v => pad S1015808x8 ![0, 0] ![15808, 0] ![0, 0] x v pads_S1000000x8_S1015808x8_0158080_000 h_S_) (V17 m outs c main_arg2) (V17 m outs c main_call0_v0) := by
  rw [carry2 m outs c main_v0 (by decide), carry2 m outs c main_arg2 (by decide), carry2 m outs c main_call0_v0 (by decide)]
  exact Cert.KernelIdeal.Host.ssa_v0 _
theorem x_v1 : V17 m outs c main_v1 = shapeCast _ (V17 m outs c main_arg12) shapeCasts_S32_S1x32 := by
  rw [carry3 m outs c main_v1 (by decide), carry3 m outs c main_arg12 (by decide)]
  exact Cert.KernelIdeal.Host.ssa_v1 _
theorem x_v2 : V17 m outs c main_v2 = shapeCast _ (V17 m outs c main_arg14) shapeCasts_S1_S1x1 := by
  rw [carry3 m outs c main_v2 (by decide), carry3 m outs c main_arg14 (by decide)]
  exact Cert.KernelIdeal.Host.ssa_v2 _
theorem x_v4 : V17 m outs c main_v4 = ((extractStridedSlice S1000000 ![0] · slices_S1015808_S1000000_0) : (⟨S1015808, .f32⟩ : BufTy).Contents (Elt F) → (⟨S1000000, .f32⟩ : BufTy).Contents (Elt F)) (V17 m outs c main_v3) := by
  rw [carry5 m outs c main_v4 (by decide), carry5 m outs c main_v3 (by decide)]
  exact Cert.KernelIdeal.Host.ssa_v4 _
theorem x_c_0 : V17 m outs c main_c_0 = (constantI S_ 32 200000#32) := by
  rw [carry5 m outs c main_c_0 (by decide)]
  exact Cert.KernelIdeal.Host.ssa_c_0 _
theorem x_v5 : V17 m outs c main_v5 = (broadcastInDim S1000000 ![] bcast_S_S1000000 : (⟨S_, .i32⟩ : BufTy).Contents (Elt F) → (⟨S1000000, .i32⟩ : BufTy).Contents (Elt F)) (V17 m outs c main_c_0) := by
  rw [carry5 m outs c main_v5 (by decide), carry5 m outs c main_c_0 (by decide)]
  exact Cert.KernelIdeal.Host.ssa_v5 _
theorem x_v6 : V17 m outs c main_v6 = (addi : (⟨S1000000, .i32⟩ : BufTy).Contents (Elt F) → (⟨S1000000, .i32⟩ : BufTy).Contents (Elt F) → (⟨S1000000, .i32⟩ : BufTy).Contents (Elt F)) (V17 m outs c main_arg1) (V17 m outs c main_v5) := by
  rw [carry5 m outs c main_v6 (by decide), carry5 m outs c main_arg1 (by decide), carry5 m outs c main_v5 (by decide)]
  exact Cert.KernelIdeal.Host.ssa_v6 _
theorem x_v7 : V17 m outs c main_v7 = (iotaInDim S300000 32 0) := by
  rw [carry5 m outs c main_v7 (by decide)]
  exact Cert.KernelIdeal.Host.ssa_v7 _
theorem x_v8 : V17 m outs c main_v8 = concatenate S2300000 0 [⟨S1000000, (V17 m outs c main_arg0)⟩, ⟨S1000000, (V17 m outs c main_v6)⟩, ⟨S300000, (V17 m outs c main_v7)⟩] concatenates_S1000000_S1000000_S300000_S2300000_d0 := by
  rw [carry5 m outs c main_v8 (by decide), carry5 m outs c main_arg0 (by decide), carry5 m outs c main_v6 (by decide), carry5 m outs c main_v7 (by decide)]
  exact Cert.KernelIdeal.Host.ssa_v8 _
theorem x_v9 : V17 m outs c main_v9 = concatenate S2300000 0 [⟨S1000000, (V17 m outs c main_v6)⟩, ⟨S1000000, (V17 m outs c main_arg0)⟩, ⟨S300000, (V17 m outs c main_v7)⟩] concatenates_S1000000_S1000000_S300000_S2300000_d0 := by
  rw [carry5 m outs c main_v9 (by decide), carry5 m outs c main_v6 (by decide), carry5 m outs c main_arg0 (by decide), carry5 m outs c main_v7 (by decide)]
  exact Cert.KernelIdeal.Host.ssa_v9 _
theorem x_cst : V17 m outs c main_cst = (constant S_ .f32 0x3F800000#32) := by
  rw [carry5 m outs c main_cst (by decide)]
  exact Cert.KernelIdeal.Host.ssa_cst _
theorem x_v10 : V17 m outs c main_v10 = (broadcastInDim S300000 ![] bcast_S_S300000 : (⟨S_, .f32⟩ : BufTy).Contents (Elt F) → (⟨S300000, .f32⟩ : BufTy).Contents (Elt F)) (V17 m outs c main_cst) := by
  rw [carry5 m outs c main_v10 (by decide), carry5 m outs c main_cst (by decide)]
  exact Cert.KernelIdeal.Host.ssa_v10 _
theorem x_v11 : V17 m outs c main_v11 = concatenate S2300000 0 [⟨S1000000, (V17 m outs c main_v4)⟩, ⟨S1000000, (V17 m outs c main_v4)⟩, ⟨S300000, (V17 m outs c main_v10)⟩] concatenates_S1000000_S1000000_S300000_S2300000_d0 := by
  rw [carry5 m outs c main_v11 (by decide), carry5 m outs c main_v4 (by decide), carry5 m outs c main_v10 (by decide)]
  exact Cert.KernelIdeal.Host.ssa_v11 _
theorem x_cst_1 : V17 m outs c main_cst_1 = (constant S_ .f32 0x00000000#32) := by
  rw [carry5 m outs c main_cst_1 (by decide)]
  exact Cert.KernelIdeal.Host.ssa_cst_1 _
theorem x_v12 : V17 m outs c main_v12 = (broadcastInDim S300000 ![] bcast_S_S300000 : (⟨S_, .f32⟩ : BufTy).Contents (Elt F) → (⟨S300000, .f32⟩ : BufTy).Contents (Elt F)) (V17 m outs c main_cst_1) := by
  rw [carry5 m outs c main_v12 (by decide), carry5 m outs c main_cst_1 (by decide)]
  exact Cert.KernelIdeal.Host.ssa_v12 _
theorem x_v13 : V17 m outs c main_v13 = (broadcastInDim S2300000x1 ![0] bcast_S2300000_S2300000x1_0 : (⟨S2300000, .i32⟩ : BufTy).Contents (Elt F) → (⟨S2300000x1, .i32⟩ : BufTy).Contents (Elt F)) (V17 m outs c main_v9) := by
  rw [carry5 m outs c main_v13 (by decide), carry5 m outs c main_v9 (by decide)]
  exact Cert.KernelIdeal.Host.ssa_v13 _
theorem x_v14 : V17 m outs c main_v14 = ((fun x i u => Host.scatterAdd scatter_S300000_S2300000x1_S2300000_n_0_0_1 x i u) : (⟨S300000, .f32⟩ : BufTy).Contents (Elt F) → (⟨S2300000x1, .i32⟩ : BufTy).Contents (Elt F) → (⟨S2300000, .f32⟩ : BufTy).Contents (Elt F) → (⟨S300000, .f32⟩ : BufTy).Contents (Elt F)) (V17 m outs c main_v12) (V17 m outs c main_v13) (V17 m outs c main_v11) := by
  rw [carry5 m outs c main_v14 (by decide), carry5 m outs c main_v12 (by decide), carry5 m outs c main_v13 (by decide), carry5 m outs c main_v11 (by decide)]
  exact Cert.KernelIdeal.Host.ssa_v14 _
theorem x_cst_2 : V17 m outs c main_cst_2 = (constant S_ .f32 0x00000000#32) := by
  rw [carry5 m outs c main_cst_2 (by decide)]
  exact Cert.KernelIdeal.Host.ssa_cst_2 _
theorem x_v15 : V17 m outs c main_v15 = (broadcastInDim S300000 ![] bcast_S_S300000 : (⟨S_, .f32⟩ : BufTy).Contents (Elt F) → (⟨S300000, .f32⟩ : BufTy).Contents (Elt F)) (V17 m outs c main_cst_2) := by
  rw [carry5 m outs c main_v15 (by decide), carry5 m outs c main_cst_2 (by decide)]
  exact Cert.KernelIdeal.Host.ssa_v15 _
theorem x_v16 : V17 m outs c main_v16 = (cmpf .ogt : (⟨S300000, .f32⟩ : BufTy).Contents (Elt F) → (⟨S300000, .f32⟩ : BufTy).Contents (Elt F) → (⟨S300000, .i1⟩ : BufTy).Contents (Elt F)) (V17 m outs c main_v14) (V17 m outs c main_v15) := by
  rw [carry5 m outs c main_v16 (by decide), carry5 m outs c main_v14 (by decide), carry5 m outs c main_v15 (by decide)]
  exact Cert.KernelIdeal.Host.ssa_v16 _
theorem x_v17 : V17 m outs c main_v17 = (Host.rsqrt : (⟨S300000, .f32⟩ : BufTy).Contents (Elt F) → (⟨S300000, .f32⟩ : BufTy).Contents (Elt F)) (V17 m outs c main_v14) := by
  rw [carry5 m outs c main_v17 (by decide), carry5 m outs c main_v14 (by decide)]
  exact Cert.KernelIdeal.Host.ssa_v17 _
theorem x_cst_3 : V17 m outs c main_cst_3 = (constant S_ .f32 0x00000000#32) := by
  rw [carry5 m outs c main_cst_3 (by decide)]
  exact Cert.KernelIdeal.Host.ssa_cst_3 _
theorem x_call1_v0 : V17 m outs c main_call1_v0 = id (V17 m outs c main_cst_3) := by
  rw [carry6 m outs c main_call1_v0 (by decide), carry6 m outs c main_cst_3 (by decide)]
  exact Cert.KernelIdeal.Host.ssa_call1_v0 _
theorem x_call1_v1 : V17 m outs c main_call1_v1 = (broadcastInDim S300000 ![] bcast_S_S300000) (V17 m outs c main_call1_v0) := by
  rw [carry6 m outs c main_call1_v1 (by decide), carry6 m outs c main_call1_v0 (by decide)]
  exact Cert.KernelIdeal.Host.ssa_call1_v1 _
theorem x_v18 : V17 m outs c main_v18 = select (V17 m outs c main_v16) (V17 m outs c main_v17) (V17 m outs c main_call1_v1) := by
  rw [carry6 m outs c main_v18 (by decide), carry6 m outs c main_v16 (by decide), carry6 m outs c main_v17 (by decide), carry6 m outs c main_call1_v1 (by decide)]
  exact Cert.KernelIdeal.Host.ssa_v18 _
theorem x_c_4 : V17 m outs c main_c_4 = (constantI S_ 32 0#32) := by
  rw [carry7 m outs c main_c_4 (by decide)]
  exact Cert.KernelIdeal.Host.ssa_c_4 _
theorem x_v19 : V17 m outs c main_v19 = (broadcastInDim S2300000 ![] bcast_S_S2300000 : (⟨S_, .i32⟩ : BufTy).Contents (Elt F) → (⟨S2300000, .i32⟩ : BufTy).Contents (Elt F)) (V17 m outs c main_c_4) := by
  rw [carry7 m outs c main_v19 (by decide), carry7 m outs c main_c_4 (by decide)]
  exact Cert.KernelIdeal.Host.ssa_v19 _
theorem x_v20 : V17 m outs c main_v20 = (cmpi .slt : (⟨S2300000, .i32⟩ : BufTy).Contents (Elt F) → (⟨S2300000, .i32⟩ : BufTy).Contents (Elt F) → (⟨S2300000, .i1⟩ : BufTy).Contents (Elt F)) (V17 m outs c main_v8) (V17 m outs c main_v19) := by
  rw [carry7 m outs c main_v20 (by decide), carry7 m outs c main_v8 (by decide), carry7 m outs c main_v19 (by decide)]
  exact Cert.KernelIdeal.Host.ssa_v20 _
theorem x_c_5 : V17 m outs c main_c_5 = (constantI S_ 32 300000#32) := by
  rw [carry7 m outs c main_c_5 (by decide)]
  exact Cert.KernelIdeal.Host.ssa_c_5 _
theorem x_v21 : V17 m outs c main_v21 = (broadcastInDim S2300000 ![] bcast_S_S2300000 : (⟨S_, .i32⟩ : BufTy).Contents (Elt F) → (⟨S2300000, .i32⟩ : BufTy).Contents (Elt F)) (V17 m outs c main_c_5) := by
  rw [carry7 m outs c main_v21 (by decide), carry7 m outs c main_c_5 (by decide)]
  exact Cert.KernelIdeal.Host.ssa_v21 _
theorem x_v22 : V17 m outs c main_v22 = (addi : (⟨S2300000, .i32⟩ : BufTy).Contents (Elt F) → (⟨S2300000, .i32⟩ : BufTy).Contents (Elt F) → (⟨S2300000, .i32⟩ : BufTy).Contents (Elt F)) (V17 m outs c main_v8) (V17 m outs c main_v21) := by
  rw [carry7 m outs c main_v22 (by decide), carry7 m outs c main_v8 (by decide), carry7 m outs c main_v21 (by decide)]
  exact Cert.KernelIdeal.Host.ssa_v22 _
theorem x_v23 : V17 m outs c main_v23 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (V17 m outs c main_v20) (V17 m outs c main_v22) (V17 m outs c main_v8) := by
  rw [carry7 m outs c main_v23 (by decide), carry7 m outs c main_v20 (by decide), carry7 m outs c main_v22 (by decide), carry7 m outs c main_v8 (by decide)]
  exact Cert.KernelIdeal.Host.ssa_v23 _
theorem x_v24 : V17 m outs c main_v24 = (broadcastInDim S2300000x1 ![0] bcast_S2300000_S2300000x1_0 : (⟨S2300000, .i32⟩ : BufTy).Contents (Elt F) → (⟨S2300000x1, .i32⟩ : BufTy).Contents (Elt F)) (V17 m outs c main_v23) := by
  rw [carry7 m outs c main_v24 (by decide), carry7 m outs c main_v23 (by decide)]
  exact Cert.KernelIdeal.Host.ssa_v24 _
theorem x_v25 : V17 m outs c main_v25 = ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)) (V17 m outs c main_v18) (V17 m outs c main_v24) := by
  rw [carry7 m outs c main_v25 (by decide), carry7 m outs c main_v18 (by decide), carry7 m outs c main_v24 (by decide)]
  exact Cert.KernelIdeal.Host.ssa_v25 _
theorem x_v26 : V17 m outs c main_v26 = (mulf : (⟨S2300000, .f32⟩ : BufTy).Contents (Elt F) → (⟨S2300000, .f32⟩ : BufTy).Contents (Elt F) → (⟨S2300000, .f32⟩ : BufTy).Contents (Elt F)) (V17 m outs c main_v25) (V17 m outs c main_v11) := by
  rw [carry7 m outs c main_v26 (by decide), carry7 m outs c main_v25 (by decide), carry7 m outs c main_v11 (by decide)]
  exact Cert.KernelIdeal.Host.ssa_v26 _
theorem x_c_6 : V17 m outs c main_c_6 = (constantI S_ 32 0#32) := by
  rw [carry7 m outs c main_c_6 (by decide)]
  exact Cert.KernelIdeal.Host.ssa_c_6 _
theorem x_v27 : V17 m outs c main_v27 = (broadcastInDim S2300000 ![] bcast_S_S2300000 : (⟨S_, .i32⟩ : BufTy).Contents (Elt F) → (⟨S2300000, .i32⟩ : BufTy).Contents (Elt F)) (V17 m outs c main_c_6) := by
  rw [carry7 m outs c main_v27 (by decide), carry7 m outs c main_c_6 (by decide)]
  exact Cert.KernelIdeal.Host.ssa_v27 _
theorem x_v28 : V17 m outs c main_v28 = (cmpi .slt : (⟨S2300000, .i32⟩ : BufTy).Contents (Elt F) → (⟨S2300000, .i32⟩ : BufTy).Contents (Elt F) → (⟨S2300000, .i1⟩ : BufTy).Contents (Elt F)) (V17 m outs c main_v9) (V17 m outs c main_v27) := by
  rw [carry7 m outs c main_v28 (by decide), carry7 m outs c main_v9 (by decide), carry7 m outs c main_v27 (by decide)]
  exact Cert.KernelIdeal.Host.ssa_v28 _
theorem x_c_7 : V17 m outs c main_c_7 = (constantI S_ 32 300000#32) := by
  rw [carry7 m outs c main_c_7 (by decide)]
  exact Cert.KernelIdeal.Host.ssa_c_7 _
theorem x_v29 : V17 m outs c main_v29 = (broadcastInDim S2300000 ![] bcast_S_S2300000 : (⟨S_, .i32⟩ : BufTy).Contents (Elt F) → (⟨S2300000, .i32⟩ : BufTy).Contents (Elt F)) (V17 m outs c main_c_7) := by
  rw [carry7 m outs c main_v29 (by decide), carry7 m outs c main_c_7 (by decide)]
  exact Cert.KernelIdeal.Host.ssa_v29 _
theorem x_v30 : V17 m outs c main_v30 = (addi : (⟨S2300000, .i32⟩ : BufTy).Contents (Elt F) → (⟨S2300000, .i32⟩ : BufTy).Contents (Elt F) → (⟨S2300000, .i32⟩ : BufTy).Contents (Elt F)) (V17 m outs c main_v9) (V17 m outs c main_v29) := by
  rw [carry7 m outs c main_v30 (by decide), carry7 m outs c main_v9 (by decide), carry7 m outs c main_v29 (by decide)]
  exact Cert.KernelIdeal.Host.ssa_v30 _
theorem x_v31 : V17 m outs c main_v31 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (V17 m outs c main_v28) (V17 m outs c main_v30) (V17 m outs c main_v9) := by
  rw [carry7 m outs c main_v31 (by decide), carry7 m outs c main_v28 (by decide), carry7 m outs c main_v30 (by decide), carry7 m outs c main_v9 (by decide)]
  exact Cert.KernelIdeal.Host.ssa_v31 _
theorem x_v32 : V17 m outs c main_v32 = (broadcastInDim S2300000x1 ![0] bcast_S2300000_S2300000x1_0 : (⟨S2300000, .i32⟩ : BufTy).Contents (Elt F) → (⟨S2300000x1, .i32⟩ : BufTy).Contents (Elt F)) (V17 m outs c main_v31) := by
  rw [carry7 m outs c main_v32 (by decide), carry7 m outs c main_v31 (by decide)]
  exact Cert.KernelIdeal.Host.ssa_v32 _
theorem x_v33 : V17 m outs c main_v33 = ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)) (V17 m outs c main_v18) (V17 m outs c main_v32) := by
  rw [carry7 m outs c main_v33 (by decide), carry7 m outs c main_v18 (by decide), carry7 m outs c main_v32 (by decide)]
  exact Cert.KernelIdeal.Host.ssa_v33 _
theorem x_v34 : V17 m outs c main_v34 = (mulf : (⟨S2300000, .f32⟩ : BufTy).Contents (Elt F) → (⟨S2300000, .f32⟩ : BufTy).Contents (Elt F) → (⟨S2300000, .f32⟩ : BufTy).Contents (Elt F)) (V17 m outs c main_v26) (V17 m outs c main_v33) := by
  rw [carry7 m outs c main_v34 (by decide), carry7 m outs c main_v26 (by decide), carry7 m outs c main_v33 (by decide)]
  exact Cert.KernelIdeal.Host.ssa_v34 _
theorem x_c_8 : V17 m outs c main_c_8 = (constantI S_ 32 0#32) := by
  rw [carry7 m outs c main_c_8 (by decide)]
  exact Cert.KernelIdeal.Host.ssa_c_8 _
theorem x_call2_v0 : V17 m outs c main_call2_v0 = (sitofp .f32) (V17 m outs c main_c_8) := by
  rw [carry8 m outs c main_call2_v0 (by decide), carry8 m outs c main_c_8 (by decide)]
  exact Cert.KernelIdeal.Host.ssa_call2_v0 _
theorem x_v35 : V17 m outs c main_v35 = (fun x v => pad S204800x64 ![0, 0] ![4800, 0] ![0, 0] x v pads_S200000x64_S204800x64_048000_000 h_S_) (V17 m outs c main_arg3) (V17 m outs c main_call2_v0) := by
  rw [carry8 m outs c main_v35 (by decide), carry8 m outs c main_arg3 (by decide), carry8 m outs c main_call2_v0 (by decide)]
  exact Cert.KernelIdeal.Host.ssa_v35 _
theorem x_v37 : V17 m outs c main_v37 = ((extractStridedSlice S200000x64 ![0, 0] · slices_S204800x64_S200000x64_0_0) : (⟨S204800x64, .f32⟩ : BufTy).Contents (Elt F) → (⟨S200000x64, .f32⟩ : BufTy).Contents (Elt F)) (V17 m outs c main_v36) := by
  rw [carry10 m outs c main_v37 (by decide), carry10 m outs c main_v36 (by decide)]
  exact Cert.KernelIdeal.Host.ssa_v37 _
theorem x_c_9 : V17 m outs c main_c_9 = (constantI S_ 32 0#32) := by
  rw [carry10 m outs c main_c_9 (by decide)]
  exact Cert.KernelIdeal.Host.ssa_c_9 _
theorem x_v38 : V17 m outs c main_v38 = (broadcastInDim S100000 ![] bcast_S_S100000 : (⟨S_, .i32⟩ : BufTy).Contents (Elt F) → (⟨S100000, .i32⟩ : BufTy).Contents (Elt F)) (V17 m outs c main_c_9) := by
  rw [carry10 m outs c main_v38 (by decide), carry10 m outs c main_c_9 (by decide)]
  exact Cert.KernelIdeal.Host.ssa_v38 _
theorem x_v39 : V17 m outs c main_v39 = (cmpi .slt : (⟨S100000, .i32⟩ : BufTy).Contents (Elt F) → (⟨S100000, .i32⟩ : BufTy).Contents (Elt F) → (⟨S100000, .i1⟩ : BufTy).Contents (Elt F)) (V17 m outs c main_arg7) (V17 m outs c main_v38) := by
  rw [carry10 m outs c main_v39 (by decide), carry10 m outs c main_arg7 (by decide), carry10 m outs c main_v38 (by decide)]
  exact Cert.KernelIdeal.Host.ssa_v39 _
theorem x_c_10 : V17 m outs c main_c_10 = (constantI S_ 32 20000#32) := by
  rw [carry10 m outs c main_c_10 (by decide)]
  exact Cert.KernelIdeal.Host.ssa_c_10 _
theorem x_v40 : V17 m outs c main_v40 = (broadcastInDim S100000 ![] bcast_S_S100000 : (⟨S_, .i32⟩ : BufTy).Contents (Elt F) → (⟨S100000, .i32⟩ : BufTy).Contents (Elt F)) (V17 m outs c main_c_10) := by
  rw [carry10 m outs c main_v40 (by decide), carry10 m outs c main_c_10 (by decide)]
  exact Cert.KernelIdeal.Host.ssa_v40 _
theorem x_v41 : V17 m outs c main_v41 = (addi : (⟨S100000, .i32⟩ : BufTy).Contents (Elt F) → (⟨S100000, .i32⟩ : BufTy).Contents (Elt F) → (⟨S100000, .i32⟩ : BufTy).Contents (Elt F)) (V17 m outs c main_arg7) (V17 m outs c main_v40) := by
  rw [carry10 m outs c main_v41 (by decide), carry10 m outs c main_arg7 (by decide), carry10 m outs c main_v40 (by decide)]
  exact Cert.KernelIdeal.Host.ssa_v41 _
theorem x_v42 : V17 m outs c main_v42 = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (V17 m outs c main_v39) (V17 m outs c main_v41) (V17 m outs c main_arg7) := by
  rw [carry10 m outs c main_v42 (by decide), carry10 m outs c main_v39 (by decide), carry10 m outs c main_v41 (by decide), carry10 m outs c main_arg7 (by decide)]
  exact Cert.KernelIdeal.Host.ssa_v42 _
theorem x_v43 : V17 m outs c main_v43 = (broadcastInDim S100000x1 ![0] bcast_S100000_S100000x1_0 : (⟨S100000, .i32⟩ : BufTy).Contents (Elt F) → (⟨S100000x1, .i32⟩ : BufTy).Contents (Elt F)) (V17 m outs c main_v42) := by
  rw [carry10 m outs c main_v43 (by decide), carry10 m outs c main_v42 (by decide)]
  exact Cert.KernelIdeal.Host.ssa_v43 _
theorem x_v44 : V17 m outs c main_v44 = ((fun x i => Host.gather gather_S20000x64_S100000x1_S100000x64_1_0_n_n_0_1_164 x i) : (⟨S20000x64, .f32⟩ : BufTy).Contents (Elt F) → (⟨S100000x1, .i32⟩ : BufTy).Contents (Elt F) → (⟨S100000x64, .f32⟩ : BufTy).Contents (Elt F)) (V17 m outs c main_arg4) (V17 m outs c main_v43) := by
  rw [carry10 m outs c main_v44 (by decide), carry10 m outs c main_arg4 (by decide), carry10 m outs c main_v43 (by decide)]
  exact Cert.KernelIdeal.Host.ssa_v44 _
theorem x_c_11 : V17 m outs c main_c_11 = (constantI S_ 32 0#32) := by
  rw [carry10 m outs c main_c_11 (by decide)]
  exact Cert.KernelIdeal.Host.ssa_c_11 _
theorem x_v45 : V17 m outs c main_v45 = (broadcastInDim S100000 ![] bcast_S_S100000 : (⟨S_, .i32⟩ : BufTy).Contents (Elt F) → (⟨S100000, .i32⟩ : BufTy).Contents (Elt F)) (V17 m outs c main_c_11) := by
  rw [carry10 m outs c main_v45 (by decide), carry10 m outs c main_c_11 (by decide)]
  exact Cert.KernelIdeal.Host.ssa_v45 _
theorem x_v46 : V17 m outs c main_v46 = (cmpi .slt : (⟨S100000, .i32⟩ : BufTy).Contents (Elt F) → (⟨S100000, .i32⟩ : BufTy).Contents (Elt F) → (⟨S100000, .i1⟩ : BufTy).Contents (Elt F)) (V17 m outs c main_arg8) (V17 m outs c main_v45) := by
  rw [carry10 m outs c main_v46 (by decide), carry10 m outs c main_arg8 (by decide), carry10 m outs c main_v45 (by decide)]
  exact Cert.KernelIdeal.Host.ssa_v46 _
theorem x_c_12 : V17 m outs c main_c_12 = (constantI S_ 32 50000#32) := by
  rw [carry10 m outs c main_c_12 (by decide)]
  exact Cert.KernelIdeal.Host.ssa_c_12 _
theorem x_v47 : V17 m outs c main_v47 = (broadcastInDim S100000 ![] bcast_S_S100000 : (⟨S_, .i32⟩ : BufTy).Contents (Elt F) → (⟨S100000, .i32⟩ : BufTy).Contents (Elt F)) (V17 m outs c main_c_12) := by
  rw [carry10 m outs c main_v47 (by decide), carry10 m outs c main_c_12 (by decide)]
  exact Cert.KernelIdeal.Host.ssa_v47 _
theorem x_v48 : V17 m outs c main_v48 = (addi : (⟨S100000, .i32⟩ : BufTy).Contents (Elt F) → (⟨S100000, .i32⟩ : BufTy).Contents (Elt F) → (⟨S100000, .i32⟩ : BufTy).Contents (Elt F)) (V17 m outs c main_arg8) (V17 m outs c main_v47) := by
  rw [carry10 m outs c main_v48 (by decide), carry10 m outs c main_arg8 (by decide), carry10 m outs c main_v47 (by decide)]
  exact Cert.KernelIdeal.Host.ssa_v48 _
theorem x_v49 : V17 m outs c main_v49 = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (V17 m outs c main_v46) (V17 m outs c main_v48) (V17 m outs c main_arg8) := by
  rw [carry10 m outs c main_v49 (by decide), carry10 m outs c main_v46 (by decide), carry10 m outs c main_v48 (by decide), carry10 m outs c main_arg8 (by decide)]
  exact Cert.KernelIdeal.Host.ssa_v49 _
theorem x_v50 : V17 m outs c main_v50 = (broadcastInDim S100000x1 ![0] bcast_S100000_S100000x1_0 : (⟨S100000, .i32⟩ : BufTy).Contents (Elt F) → (⟨S100000x1, .i32⟩ : BufTy).Contents (Elt F)) (V17 m outs c main_v49) := by
  rw [carry10 m outs c main_v50 (by decide), carry10 m outs c main_v49 (by decide)]
  exact Cert.KernelIdeal.Host.ssa_v50 _
theorem x_v51 : V17 m outs c main_v51 = ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)) (V17 m outs c main_arg5) (V17 m outs c main_v50) := by
  rw [carry10 m outs c main_v51 (by decide), carry10 m outs c main_arg5 (by decide), carry10 m outs c main_v50 (by decide)]
  exact Cert.KernelIdeal.Host.ssa_v51 _
theorem x_v52 : V17 m outs c main_v52 = (addf : (⟨S100000x64, .f32⟩ : BufTy).Contents (Elt F) → (⟨S100000x64, .f32⟩ : BufTy).Contents (Elt F) → (⟨S100000x64, .f32⟩ : BufTy).Contents (Elt F)) (V17 m outs c main_v44) (V17 m outs c main_v51) := by
  rw [carry10 m outs c main_v52 (by decide), carry10 m outs c main_v44 (by decide), carry10 m outs c main_v51 (by decide)]
  exact Cert.KernelIdeal.Host.ssa_v52 _
theorem x_cst_13 : V17 m outs c main_cst_13 = (constant S_ .f32 0x3F800000#32) := by
  rw [carry10 m outs c main_cst_13 (by decide)]
  exact Cert.KernelIdeal.Host.ssa_cst_13 _
theorem x_v53 : V17 m outs c main_v53 = (broadcastInDim S100000x64 ![] bcast_S_S100000x64 : (⟨S_, .f32⟩ : BufTy).Contents (Elt F) → (⟨S100000x64, .f32⟩ : BufTy).Contents (Elt F)) (V17 m outs c main_cst_13) := by
  rw [carry10 m outs c main_v53 (by decide), carry10 m outs c main_cst_13 (by decide)]
  exact Cert.KernelIdeal.Host.ssa_v53 _
theorem x_v54 : V17 m outs c main_v54 = (mulf : (⟨S100000x64, .f32⟩ : BufTy).Contents (Elt F) → (⟨S100000x64, .f32⟩ : BufTy).Contents (Elt F) → (⟨S100000x64, .f32⟩ : BufTy).Contents (Elt F)) (V17 m outs c main_v52) (V17 m outs c main_v53) := by
  rw [carry10 m outs c main_v54 (by decide), carry10 m outs c main_v52 (by decide), carry10 m outs c main_v53 (by decide)]
  exact Cert.KernelIdeal.Host.ssa_v54 _
theorem x_cst_14 : V17 m outs c main_cst_14 = (constant S_ .f32 0x3F800000#32) := by
  rw [carry10 m outs c main_cst_14 (by decide)]
  exact Cert.KernelIdeal.Host.ssa_cst_14 _
theorem x_v55 : V17 m outs c main_v55 = (broadcastInDim S100000x64 ![] bcast_S_S100000x64 : (⟨S_, .f32⟩ : BufTy).Contents (Elt F) → (⟨S100000x64, .f32⟩ : BufTy).Contents (Elt F)) (V17 m outs c main_cst_14) := by
  rw [carry10 m outs c main_v55 (by decide), carry10 m outs c main_cst_14 (by decide)]
  exact Cert.KernelIdeal.Host.ssa_v55 _
theorem x_v56 : V17 m outs c main_v56 = (mulf : (⟨S100000x64, .f32⟩ : BufTy).Contents (Elt F) → (⟨S100000x64, .f32⟩ : BufTy).Contents (Elt F) → (⟨S100000x64, .f32⟩ : BufTy).Contents (Elt F)) (V17 m outs c main_arg6) (V17 m outs c main_v55) := by
  rw [carry10 m outs c main_v56 (by decide), carry10 m outs c main_arg6 (by decide), carry10 m outs c main_v55 (by decide)]
  exact Cert.KernelIdeal.Host.ssa_v56 _
theorem x_v57 : V17 m outs c main_v57 = ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) (V17 m outs c main_v56) (V17 m outs c main_v54) := by
  rw [carry10 m outs c main_v57 (by decide), carry10 m outs c main_v56 (by decide), carry10 m outs c main_v54 (by decide)]
  exact Cert.KernelIdeal.Host.ssa_v57 _
theorem x_c_15 : V17 m outs c main_c_15 = (constantI S_ 32 0#32) := by
  rw [carry10 m outs c main_c_15 (by decide)]
  exact Cert.KernelIdeal.Host.ssa_c_15 _
theorem x_call3_v0 : V17 m outs c main_call3_v0 = (sitofp .f32) (V17 m outs c main_c_15) := by
  rw [carry11 m outs c main_call3_v0 (by decide), carry11 m outs c main_c_15 (by decide)]
  exact Cert.KernelIdeal.Host.ssa_call3_v0 _
theorem x_v58 : V17 m outs c main_v58 = (fun x v => pad S106496x128 ![0, 0] ![6496, 0] ![0, 0] x v pads_S100000x128_S106496x128_064960_000 h_S_) (V17 m outs c main_v57) (V17 m outs c main_call3_v0) := by
  rw [carry11 m outs c main_v58 (by decide), carry11 m outs c main_v57 (by decide), carry11 m outs c main_call3_v0 (by decide)]
  exact Cert.KernelIdeal.Host.ssa_v58 _
theorem x_v59 : V17 m outs c main_v59 = shapeCast _ (V17 m outs c main_arg10) shapeCasts_S64_S1x64 := by
  rw [carry12 m outs c main_v59 (by decide), carry12 m outs c main_arg10 (by decide)]
  exact Cert.KernelIdeal.Host.ssa_v59 _
theorem x_v61 : V17 m outs c main_v61 = ((extractStridedSlice S100000x64 ![0, 0] · slices_S106496x64_S100000x64_0_0) : (⟨S106496x64, .f32⟩ : BufTy).Contents (Elt F) → (⟨S100000x64, .f32⟩ : BufTy).Contents (Elt F)) (V17 m outs c main_v60) := by
  rw [carry14 m outs c main_v61 (by decide), carry14 m outs c main_v60 (by decide)]
  exact Cert.KernelIdeal.Host.ssa_v61 _
theorem x_v62 : V17 m outs c main_v62 = ((fun a b => concatenate S300000x64 0 [⟨S200000x64, a⟩, ⟨S100000x64, b⟩] concatenates_S200000x64_S100000x64_S300000x64_d0) : (⟨S200000x64, .f32⟩ : BufTy).Contents (Elt F) → (⟨S100000x64, .f32⟩ : BufTy).Contents (Elt F) → (⟨S300000x64, .f32⟩ : BufTy).Contents (Elt F)) (V17 m outs c main_v37) (V17 m outs c main_v61) := by
  rw [carry14 m outs c main_v62 (by decide), carry14 m outs c main_v37 (by decide), carry14 m outs c main_v61 (by decide)]
  exact Cert.KernelIdeal.Host.ssa_v62 _
theorem x_v63 : V17 m outs c main_v63 = (broadcastInDim S2300000x1 ![0] bcast_S2300000_S2300000x1_0 : (⟨S2300000, .f32⟩ : BufTy).Contents (Elt F) → (⟨S2300000x1, .f32⟩ : BufTy).Contents (Elt F)) (V17 m outs c main_v34) := by
  rw [carry14 m outs c main_v63 (by decide), carry14 m outs c main_v34 (by decide)]
  exact Cert.KernelIdeal.Host.ssa_v63 _
theorem x_c_16 : V17 m outs c main_c_16 = (constantI S_ 32 0#32) := by
  rw [carry14 m outs c main_c_16 (by decide)]
  exact Cert.KernelIdeal.Host.ssa_c_16 _
theorem x_v64 : V17 m outs c main_v64 = (broadcastInDim S2300000 ![] bcast_S_S2300000 : (⟨S_, .i32⟩ : BufTy).Contents (Elt F) → (⟨S2300000, .i32⟩ : BufTy).Contents (Elt F)) (V17 m outs c main_c_16) := by
  rw [carry14 m outs c main_v64 (by decide), carry14 m outs c main_c_16 (by decide)]
  exact Cert.KernelIdeal.Host.ssa_v64 _
theorem x_v65 : V17 m outs c main_v65 = (cmpi .slt : (⟨S2300000, .i32⟩ : BufTy).Contents (Elt F) → (⟨S2300000, .i32⟩ : BufTy).Contents (Elt F) → (⟨S2300000, .i1⟩ : BufTy).Contents (Elt F)) (V17 m outs c main_v8) (V17 m outs c main_v64) := by
  rw [carry14 m outs c main_v65 (by decide), carry14 m outs c main_v8 (by decide), carry14 m outs c main_v64 (by decide)]
  exact Cert.KernelIdeal.Host.ssa_v65 _
theorem x_c_17 : V17 m outs c main_c_17 = (constantI S_ 32 300000#32) := by
  rw [carry14 m outs c main_c_17 (by decide)]
  exact Cert.KernelIdeal.Host.ssa_c_17 _
theorem x_v66 : V17 m outs c main_v66 = (broadcastInDim S2300000 ![] bcast_S_S2300000 : (⟨S_, .i32⟩ : BufTy).Contents (Elt F) → (⟨S2300000, .i32⟩ : BufTy).Contents (Elt F)) (V17 m outs c main_c_17) := by
  rw [carry14 m outs c main_v66 (by decide), carry14 m outs c main_c_17 (by decide)]
  exact Cert.KernelIdeal.Host.ssa_v66 _
theorem x_v67 : V17 m outs c main_v67 = (addi : (⟨S2300000, .i32⟩ : BufTy).Contents (Elt F) → (⟨S2300000, .i32⟩ : BufTy).Contents (Elt F) → (⟨S2300000, .i32⟩ : BufTy).Contents (Elt F)) (V17 m outs c main_v8) (V17 m outs c main_v66) := by
  rw [carry14 m outs c main_v67 (by decide), carry14 m outs c main_v8 (by decide), carry14 m outs c main_v66 (by decide)]
  exact Cert.KernelIdeal.Host.ssa_v67 _
theorem x_v68 : V17 m outs c main_v68 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (V17 m outs c main_v65) (V17 m outs c main_v67) (V17 m outs c main_v8) := by
  rw [carry14 m outs c main_v68 (by decide), carry14 m outs c main_v65 (by decide), carry14 m outs c main_v67 (by decide), carry14 m outs c main_v8 (by decide)]
  exact Cert.KernelIdeal.Host.ssa_v68 _
theorem x_v69 : V17 m outs c main_v69 = (broadcastInDim S2300000x1 ![0] bcast_S2300000_S2300000x1_0 : (⟨S2300000, .i32⟩ : BufTy).Contents (Elt F) → (⟨S2300000x1, .i32⟩ : BufTy).Contents (Elt F)) (V17 m outs c main_v68) := by
  rw [carry14 m outs c main_v69 (by decide), carry14 m outs c main_v68 (by decide)]
  exact Cert.KernelIdeal.Host.ssa_v69 _
theorem x_v70 : V17 m outs c main_v70 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (V17 m outs c main_v62) (V17 m outs c main_v69) := by
  rw [carry14 m outs c main_v70 (by decide), carry14 m outs c main_v62 (by decide), carry14 m outs c main_v69 (by decide)]
  exact Cert.KernelIdeal.Host.ssa_v70 _
theorem x_v71 : V17 m outs c main_v71 = (broadcastInDim S2300000x64 ![0, 1] bcast_S2300000x1_S2300000x64_0_1 : (⟨S2300000x1, .f32⟩ : BufTy).Contents (Elt F) → (⟨S2300000x64, .f32⟩ : BufTy).Contents (Elt F)) (V17 m outs c main_v63) := by
  rw [carry14 m outs c main_v71 (by decide), carry14 m outs c main_v63 (by decide)]
  exact Cert.KernelIdeal.Host.ssa_v71 _
theorem x_v72 : V17 m outs c main_v72 = (mulf : (⟨S2300000x64, .f32⟩ : BufTy).Contents (Elt F) → (⟨S2300000x64, .f32⟩ : BufTy).Contents (Elt F) → (⟨S2300000x64, .f32⟩ : BufTy).Contents (Elt F)) (V17 m outs c main_v71) (V17 m outs c main_v70) := by
  rw [carry14 m outs c main_v72 (by decide), carry14 m outs c main_v71 (by decide), carry14 m outs c main_v70 (by decide)]
  exact Cert.KernelIdeal.Host.ssa_v72 _
theorem x_cst_18 : V17 m outs c main_cst_18 = (constant S_ .f32 0x00000000#32) := by
  rw [carry14 m outs c main_cst_18 (by decide)]
  exact Cert.KernelIdeal.Host.ssa_cst_18 _
theorem x_v73 : V17 m outs c main_v73 = (broadcastInDim S300000x64 ![] bcast_S_S300000x64 : (⟨S_, .f32⟩ : BufTy).Contents (Elt F) → (⟨S300000x64, .f32⟩ : BufTy).Contents (Elt F)) (V17 m outs c main_cst_18) := by
  rw [carry14 m outs c main_v73 (by decide), carry14 m outs c main_cst_18 (by decide)]
  exact Cert.KernelIdeal.Host.ssa_v73 _
theorem x_v74 : V17 m outs c main_v74 = (broadcastInDim S2300000x1 ![0] bcast_S2300000_S2300000x1_0 : (⟨S2300000, .i32⟩ : BufTy).Contents (Elt F) → (⟨S2300000x1, .i32⟩ : BufTy).Contents (Elt F)) (V17 m outs c main_v9) := by
  rw [carry14 m outs c main_v74 (by decide), carry14 m outs c main_v9 (by decide)]
  exact Cert.KernelIdeal.Host.ssa_v74 _
theorem x_v75 : V17 m outs c main_v75 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (V17 m outs c main_v73) (V17 m outs c main_v74) (V17 m outs c main_v72) := by
  rw [carry14 m outs c main_v75 (by decide), carry14 m outs c main_v73 (by decide), carry14 m outs c main_v74 (by decide), carry14 m outs c main_v72 (by decide)]
  exact Cert.KernelIdeal.Host.ssa_v75 _
theorem x_v76 : V17 m outs c main_v76 = (addf : (⟨S300000x64, .f32⟩ : BufTy).Contents (Elt F) → (⟨S300000x64, .f32⟩ : BufTy).Contents (Elt F) → (⟨S300000x64, .f32⟩ : BufTy).Contents (Elt F)) (V17 m outs c main_v62) (V17 m outs c main_v75) := by
  rw [carry14 m outs c main_v76 (by decide), carry14 m outs c main_v62 (by decide), carry14 m outs c main_v75 (by decide)]
  exact Cert.KernelIdeal.Host.ssa_v76 _
theorem x_v77 : V17 m outs c main_v77 = (broadcastInDim S2300000x1 ![0] bcast_S2300000_S2300000x1_0 : (⟨S2300000, .f32⟩ : BufTy).Contents (Elt F) → (⟨S2300000x1, .f32⟩ : BufTy).Contents (Elt F)) (V17 m outs c main_v34) := by
  rw [carry14 m outs c main_v77 (by decide), carry14 m outs c main_v34 (by decide)]
  exact Cert.KernelIdeal.Host.ssa_v77 _
theorem x_c_19 : V17 m outs c main_c_19 = (constantI S_ 32 0#32) := by
  rw [carry14 m outs c main_c_19 (by decide)]
  exact Cert.KernelIdeal.Host.ssa_c_19 _
theorem x_v78 : V17 m outs c main_v78 = (broadcastInDim S2300000 ![] bcast_S_S2300000 : (⟨S_, .i32⟩ : BufTy).Contents (Elt F) → (⟨S2300000, .i32⟩ : BufTy).Contents (Elt F)) (V17 m outs c main_c_19) := by
  rw [carry14 m outs c main_v78 (by decide), carry14 m outs c main_c_19 (by decide)]
  exact Cert.KernelIdeal.Host.ssa_v78 _
theorem x_v79 : V17 m outs c main_v79 = (cmpi .slt : (⟨S2300000, .i32⟩ : BufTy).Contents (Elt F) → (⟨S2300000, .i32⟩ : BufTy).Contents (Elt F) → (⟨S2300000, .i1⟩ : BufTy).Contents (Elt F)) (V17 m outs c main_v8) (V17 m outs c main_v78) := by
  rw [carry14 m outs c main_v79 (by decide), carry14 m outs c main_v8 (by decide), carry14 m outs c main_v78 (by decide)]
  exact Cert.KernelIdeal.Host.ssa_v79 _
theorem x_c_20 : V17 m outs c main_c_20 = (constantI S_ 32 300000#32) := by
  rw [carry14 m outs c main_c_20 (by decide)]
  exact Cert.KernelIdeal.Host.ssa_c_20 _
theorem x_v80 : V17 m outs c main_v80 = (broadcastInDim S2300000 ![] bcast_S_S2300000 : (⟨S_, .i32⟩ : BufTy).Contents (Elt F) → (⟨S2300000, .i32⟩ : BufTy).Contents (Elt F)) (V17 m outs c main_c_20) := by
  rw [carry14 m outs c main_v80 (by decide), carry14 m outs c main_c_20 (by decide)]
  exact Cert.KernelIdeal.Host.ssa_v80 _
theorem x_v81 : V17 m outs c main_v81 = (addi : (⟨S2300000, .i32⟩ : BufTy).Contents (Elt F) → (⟨S2300000, .i32⟩ : BufTy).Contents (Elt F) → (⟨S2300000, .i32⟩ : BufTy).Contents (Elt F)) (V17 m outs c main_v8) (V17 m outs c main_v80) := by
  rw [carry14 m outs c main_v81 (by decide), carry14 m outs c main_v8 (by decide), carry14 m outs c main_v80 (by decide)]
  exact Cert.KernelIdeal.Host.ssa_v81 _
theorem x_v82 : V17 m outs c main_v82 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (V17 m outs c main_v79) (V17 m outs c main_v81) (V17 m outs c main_v8) := by
  rw [carry14 m outs c main_v82 (by decide), carry14 m outs c main_v79 (by decide), carry14 m outs c main_v81 (by decide), carry14 m outs c main_v8 (by decide)]
  exact Cert.KernelIdeal.Host.ssa_v82 _
theorem x_v83 : V17 m outs c main_v83 = (broadcastInDim S2300000x1 ![0] bcast_S2300000_S2300000x1_0 : (⟨S2300000, .i32⟩ : BufTy).Contents (Elt F) → (⟨S2300000x1, .i32⟩ : BufTy).Contents (Elt F)) (V17 m outs c main_v82) := by
  rw [carry14 m outs c main_v83 (by decide), carry14 m outs c main_v82 (by decide)]
  exact Cert.KernelIdeal.Host.ssa_v83 _
theorem x_v84 : V17 m outs c main_v84 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (V17 m outs c main_v75) (V17 m outs c main_v83) := by
  rw [carry14 m outs c main_v84 (by decide), carry14 m outs c main_v75 (by decide), carry14 m outs c main_v83 (by decide)]
  exact Cert.KernelIdeal.Host.ssa_v84 _
theorem x_v85 : V17 m outs c main_v85 = (broadcastInDim S2300000x64 ![0, 1] bcast_S2300000x1_S2300000x64_0_1 : (⟨S2300000x1, .f32⟩ : BufTy).Contents (Elt F) → (⟨S2300000x64, .f32⟩ : BufTy).Contents (Elt F)) (V17 m outs c main_v77) := by
  rw [carry14 m outs c main_v85 (by decide), carry14 m outs c main_v77 (by decide)]
  exact Cert.KernelIdeal.Host.ssa_v85 _
theorem x_v86 : V17 m outs c main_v86 = (mulf : (⟨S2300000x64, .f32⟩ : BufTy).Contents (Elt F) → (⟨S2300000x64, .f32⟩ : BufTy).Contents (Elt F) → (⟨S2300000x64, .f32⟩ : BufTy).Contents (Elt F)) (V17 m outs c main_v85) (V17 m outs c main_v84) := by
  rw [carry14 m outs c main_v86 (by decide), carry14 m outs c main_v85 (by decide), carry14 m outs c main_v84 (by decide)]
  exact Cert.KernelIdeal.Host.ssa_v86 _
theorem x_cst_21 : V17 m outs c main_cst_21 = (constant S_ .f32 0x00000000#32) := by
  rw [carry14 m outs c main_cst_21 (by decide)]
  exact Cert.KernelIdeal.Host.ssa_cst_21 _
theorem x_v87 : V17 m outs c main_v87 = (broadcastInDim S300000x64 ![] bcast_S_S300000x64 : (⟨S_, .f32⟩ : BufTy).Contents (Elt F) → (⟨S300000x64, .f32⟩ : BufTy).Contents (Elt F)) (V17 m outs c main_cst_21) := by
  rw [carry14 m outs c main_v87 (by decide), carry14 m outs c main_cst_21 (by decide)]
  exact Cert.KernelIdeal.Host.ssa_v87 _
theorem x_v88 : V17 m outs c main_v88 = (broadcastInDim S2300000x1 ![0] bcast_S2300000_S2300000x1_0 : (⟨S2300000, .i32⟩ : BufTy).Contents (Elt F) → (⟨S2300000x1, .i32⟩ : BufTy).Contents (Elt F)) (V17 m outs c main_v9) := by
  rw [carry14 m outs c main_v88 (by decide), carry14 m outs c main_v9 (by decide)]
  exact Cert.KernelIdeal.Host.ssa_v88 _
theorem x_v89 : V17 m outs c main_v89 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (V17 m outs c main_v87) (V17 m outs c main_v88) (V17 m outs c main_v86) := by
  rw [carry14 m outs c main_v89 (by decide), carry14 m outs c main_v87 (by decide), carry14 m outs c main_v88 (by decide), carry14 m outs c main_v86 (by decide)]
  exact Cert.KernelIdeal.Host.ssa_v89 _
theorem x_v90 : V17 m outs c main_v90 = (addf : (⟨S300000x64, .f32⟩ : BufTy).Contents (Elt F) → (⟨S300000x64, .f32⟩ : BufTy).Contents (Elt F) → (⟨S300000x64, .f32⟩ : BufTy).Contents (Elt F)) (V17 m outs c main_v76) (V17 m outs c main_v89) := by
  rw [carry14 m outs c main_v90 (by decide), carry14 m outs c main_v76 (by decide), carry14 m outs c main_v89 (by decide)]
  exact Cert.KernelIdeal.Host.ssa_v90 _
theorem x_v91 : V17 m outs c main_v91 = (broadcastInDim S2300000x1 ![0] bcast_S2300000_S2300000x1_0 : (⟨S2300000, .f32⟩ : BufTy).Contents (Elt F) → (⟨S2300000x1, .f32⟩ : BufTy).Contents (Elt F)) (V17 m outs c main_v34) := by
  rw [carry14 m outs c main_v91 (by decide), carry14 m outs c main_v34 (by decide)]
  exact Cert.KernelIdeal.Host.ssa_v91 _
theorem x_c_22 : V17 m outs c main_c_22 = (constantI S_ 32 0#32) := by
  rw [carry14 m outs c main_c_22 (by decide)]
  exact Cert.KernelIdeal.Host.ssa_c_22 _
theorem x_v92 : V17 m outs c main_v92 = (broadcastInDim S2300000 ![] bcast_S_S2300000 : (⟨S_, .i32⟩ : BufTy).Contents (Elt F) → (⟨S2300000, .i32⟩ : BufTy).Contents (Elt F)) (V17 m outs c main_c_22) := by
  rw [carry14 m outs c main_v92 (by decide), carry14 m outs c main_c_22 (by decide)]
  exact Cert.KernelIdeal.Host.ssa_v92 _
theorem x_v93 : V17 m outs c main_v93 = (cmpi .slt : (⟨S2300000, .i32⟩ : BufTy).Contents (Elt F) → (⟨S2300000, .i32⟩ : BufTy).Contents (Elt F) → (⟨S2300000, .i1⟩ : BufTy).Contents (Elt F)) (V17 m outs c main_v8) (V17 m outs c main_v92) := by
  rw [carry14 m outs c main_v93 (by decide), carry14 m outs c main_v8 (by decide), carry14 m outs c main_v92 (by decide)]
  exact Cert.KernelIdeal.Host.ssa_v93 _
theorem x_c_23 : V17 m outs c main_c_23 = (constantI S_ 32 300000#32) := by
  rw [carry14 m outs c main_c_23 (by decide)]
  exact Cert.KernelIdeal.Host.ssa_c_23 _
theorem x_v94 : V17 m outs c main_v94 = (broadcastInDim S2300000 ![] bcast_S_S2300000 : (⟨S_, .i32⟩ : BufTy).Contents (Elt F) → (⟨S2300000, .i32⟩ : BufTy).Contents (Elt F)) (V17 m outs c main_c_23) := by
  rw [carry14 m outs c main_v94 (by decide), carry14 m outs c main_c_23 (by decide)]
  exact Cert.KernelIdeal.Host.ssa_v94 _
theorem x_v95 : V17 m outs c main_v95 = (addi : (⟨S2300000, .i32⟩ : BufTy).Contents (Elt F) → (⟨S2300000, .i32⟩ : BufTy).Contents (Elt F) → (⟨S2300000, .i32⟩ : BufTy).Contents (Elt F)) (V17 m outs c main_v8) (V17 m outs c main_v94) := by
  rw [carry14 m outs c main_v95 (by decide), carry14 m outs c main_v8 (by decide), carry14 m outs c main_v94 (by decide)]
  exact Cert.KernelIdeal.Host.ssa_v95 _
theorem x_v96 : V17 m outs c main_v96 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (V17 m outs c main_v93) (V17 m outs c main_v95) (V17 m outs c main_v8) := by
  rw [carry14 m outs c main_v96 (by decide), carry14 m outs c main_v93 (by decide), carry14 m outs c main_v95 (by decide), carry14 m outs c main_v8 (by decide)]
  exact Cert.KernelIdeal.Host.ssa_v96 _
theorem x_v97 : V17 m outs c main_v97 = (broadcastInDim S2300000x1 ![0] bcast_S2300000_S2300000x1_0 : (⟨S2300000, .i32⟩ : BufTy).Contents (Elt F) → (⟨S2300000x1, .i32⟩ : BufTy).Contents (Elt F)) (V17 m outs c main_v96) := by
  rw [carry14 m outs c main_v97 (by decide), carry14 m outs c main_v96 (by decide)]
  exact Cert.KernelIdeal.Host.ssa_v97 _
theorem x_v98 : V17 m outs c main_v98 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (V17 m outs c main_v89) (V17 m outs c main_v97) := by
  rw [carry14 m outs c main_v98 (by decide), carry14 m outs c main_v89 (by decide), carry14 m outs c main_v97 (by decide)]
  exact Cert.KernelIdeal.Host.ssa_v98 _
theorem x_v99 : V17 m outs c main_v99 = (broadcastInDim S2300000x64 ![0, 1] bcast_S2300000x1_S2300000x64_0_1 : (⟨S2300000x1, .f32⟩ : BufTy).Contents (Elt F) → (⟨S2300000x64, .f32⟩ : BufTy).Contents (Elt F)) (V17 m outs c main_v91) := by
  rw [carry14 m outs c main_v99 (by decide), carry14 m outs c main_v91 (by decide)]
  exact Cert.KernelIdeal.Host.ssa_v99 _
theorem x_v100 : V17 m outs c main_v100 = (mulf : (⟨S2300000x64, .f32⟩ : BufTy).Contents (Elt F) → (⟨S2300000x64, .f32⟩ : BufTy).Contents (Elt F) → (⟨S2300000x64, .f32⟩ : BufTy).Contents (Elt F)) (V17 m outs c main_v99) (V17 m outs c main_v98) := by
  rw [carry14 m outs c main_v100 (by decide), carry14 m outs c main_v99 (by decide), carry14 m outs c main_v98 (by decide)]
  exact Cert.KernelIdeal.Host.ssa_v100 _
theorem x_cst_24 : V17 m outs c main_cst_24 = (constant S_ .f32 0x00000000#32) := by
  rw [carry14 m outs c main_cst_24 (by decide)]
  exact Cert.KernelIdeal.Host.ssa_cst_24 _
theorem x_v101 : V17 m outs c main_v101 = (broadcastInDim S300000x64 ![] bcast_S_S300000x64 : (⟨S_, .f32⟩ : BufTy).Contents (Elt F) → (⟨S300000x64, .f32⟩ : BufTy).Contents (Elt F)) (V17 m outs c main_cst_24) := by
  rw [carry14 m outs c main_v101 (by decide), carry14 m outs c main_cst_24 (by decide)]
  exact Cert.KernelIdeal.Host.ssa_v101 _
theorem x_v102 : V17 m outs c main_v102 = (broadcastInDim S2300000x1 ![0] bcast_S2300000_S2300000x1_0 : (⟨S2300000, .i32⟩ : BufTy).Contents (Elt F) → (⟨S2300000x1, .i32⟩ : BufTy).Contents (Elt F)) (V17 m outs c main_v9) := by
  rw [carry14 m outs c main_v102 (by decide), carry14 m outs c main_v9 (by decide)]
  exact Cert.KernelIdeal.Host.ssa_v102 _
theorem x_v103 : V17 m outs c main_v103 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (V17 m outs c main_v101) (V17 m outs c main_v102) (V17 m outs c main_v100) := by
  rw [carry14 m outs c main_v103 (by decide), carry14 m outs c main_v101 (by decide), carry14 m outs c main_v102 (by decide), carry14 m outs c main_v100 (by decide)]
  exact Cert.KernelIdeal.Host.ssa_v103 _
theorem x_v104 : V17 m outs c main_v104 = (addf : (⟨S300000x64, .f32⟩ : BufTy).Contents (Elt F) → (⟨S300000x64, .f32⟩ : BufTy).Contents (Elt F) → (⟨S300000x64, .f32⟩ : BufTy).Contents (Elt F)) (V17 m outs c main_v90) (V17 m outs c main_v103) := by
  rw [carry14 m outs c main_v104 (by decide), carry14 m outs c main_v90 (by decide), carry14 m outs c main_v103 (by decide)]
  exact Cert.KernelIdeal.Host.ssa_v104 _
theorem x_c_25 : V17 m outs c main_c_25 = (constantI S_ 32 0#32) := by
  rw [carry14 m outs c main_c_25 (by decide)]
  exact Cert.KernelIdeal.Host.ssa_c_25 _
theorem x_call4_v0 : V17 m outs c main_call4_v0 = (sitofp .f32) (V17 m outs c main_c_25) := by
  rw [carry15 m outs c main_call4_v0 (by decide), carry15 m outs c main_c_25 (by decide)]
  exact Cert.KernelIdeal.Host.ssa_call4_v0 _
theorem x_v105 : V17 m outs c main_v105 = (fun x v => pad S303104x64 ![0, 0] ![3104, 0] ![0, 0] x v pads_S300000x64_S303104x64_031040_000 h_S_) (V17 m outs c main_v104) (V17 m outs c main_call4_v0) := by
  rw [carry15 m outs c main_v105 (by decide), carry15 m outs c main_v104 (by decide), carry15 m outs c main_call4_v0 (by decide)]
  exact Cert.KernelIdeal.Host.ssa_v105 _
theorem x_v107 : V17 m outs c main_v107 = ((extractStridedSlice S300000x64 ![0, 0] · slices_S303104x64_S300000x64_0_0) : (⟨S303104x64, .f32⟩ : BufTy).Contents (Elt F) → (⟨S300000x64, .f32⟩ : BufTy).Contents (Elt F)) (V17 m outs c main_v106) := by
  exact Cert.KernelIdeal.Host.ssa_v107 _
theorem x_v108 : V17 m outs c main_v108 = ((extractStridedSlice S200000x64 ![0, 0] · slices_S300000x64_S200000x64_0_0) : (⟨S300000x64, .f32⟩ : BufTy).Contents (Elt F) → (⟨S200000x64, .f32⟩ : BufTy).Contents (Elt F)) (V17 m outs c main_v107) := by
  exact Cert.KernelIdeal.Host.ssa_v108 _
theorem x_v109 : V17 m outs c main_v109 = ((extractStridedSlice S100000x64 ![200000, 0] · slices_S300000x64_S100000x64_200000_0) : (⟨S300000x64, .f32⟩ : BufTy).Contents (Elt F) → (⟨S100000x64, .f32⟩ : BufTy).Contents (Elt F)) (V17 m outs c main_v107) := by
  exact Cert.KernelIdeal.Host.ssa_v109 _

end Cert.KernelIdeal.Host

end
-- ==== Proof.RefHand.lean ====
/-
  The reference program one operation at a time. Its @main is a straight line of host operations in which every array
  is written once; so after the line each array holds its operation's function of the operand arrays read after the
  line, and, going down the line, each array is its stage function of the argument arrays, which the line never writes.
-/
import proofs.«144458_j9423158248257_1_alg».proof.Proof.RefReadP
import proofs.«144458_j9423158248257_1_alg».proof.Proof.LibHostSSA

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F] (X : Valuation τ sig (Elt F))

/-- The arrays the line writes, in order. -/
abbrev opsW : List (Ref sig .tc) := [main_v0, main_v1, main_v2, main_v3, main_call0_cst, main_call0_v0, main_v4, main_v5, main_v6, main_v7, main_v8, main_v9, main_v10, main_cst, main_v11, main_v12, main_cst_0, main_v13, main_v14, main_v15, main_cst_1, main_v16, main_v17, main_c, main_v18, main_v19, main_v20, main_v21, main_v22, main_cst_2, main_v23, main_v24, main_cst_3, main_v25, main_v26, main_v27, main_cst_4, main_v28, main_v29, main_v30, main_cst_5, main_call1_v0, main_call1_v1, main_v31, main_c_6, main_v32, main_v33, main_c_7, main_v34, main_v35, main_v36, main_v37, main_v38, main_v39, main_c_8, main_v40, main_v41, main_c_9, main_v42, main_v43, main_v44, main_v45, main_v46, main_v47, main_v48, main_cst_10, main_v49, main_v50, main_v51, main_cst_11, main_v52, main_v53, main_v54, main_v55, main_c_12, main_v56, main_v57, main_c_13, main_v58, main_v59, main_v60, main_v61, main_v62, main_c_14, main_v63, main_v64, main_c_15, main_v65, main_v66, main_v67, main_v68, main_v69, main_v70, main_cst_16, main_v71, main_v72, main_cst_17, main_v73, main_v74, main_v75, main_v76, main_v77, main_v78, main_v79, main_v80, main_cst_18, main_v81, main_v82, main_v83, main_cst_19, main_v84, main_v85, main_v86, main_v87, main_v88, main_v89, main_c_20, main_v90, main_v91, main_c_21, main_v92, main_v93, main_v94, main_v95, main_v96, main_v97, main_v98, main_cst_22, main_v99, main_v100, main_v101, main_v102, main_v103, main_c_23, main_v104, main_v105, main_c_24, main_v106, main_v107, main_v108, main_v109, main_v110, main_v111, main_v112, main_cst_25, main_v113, main_v114, main_v115, main_v116, main_v117, main_c_26, main_v118, main_v119, main_c_27, main_v120, main_v121, main_v122, main_v123, main_v124, main_v125, main_v126, main_cst_28, main_v127, main_v128, main_v129, main_v130, main_cst_29, main_v131, main_v132, main_v133, main_cst_30, main_v134, main_v135, main_v136, main_cst_31, main_v137, main_v138, main_v139, main_v140, main_v141, main_v142]

theorem hW_ops : Cert.Lib.WritesAre (ops (F := F)) opsW :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

theorem keep_arg0 : StableHlo.after (ops (F := F)) X main_arg0 = X main_arg0 :=
  hW_ops.keeps X main_arg0 (by decide)
theorem keep_arg1 : StableHlo.after (ops (F := F)) X main_arg1 = X main_arg1 :=
  hW_ops.keeps X main_arg1 (by decide)
theorem keep_arg2 : StableHlo.after (ops (F := F)) X main_arg2 = X main_arg2 :=
  hW_ops.keeps X main_arg2 (by decide)
theorem keep_arg3 : StableHlo.after (ops (F := F)) X main_arg3 = X main_arg3 :=
  hW_ops.keeps X main_arg3 (by decide)
theorem keep_arg4 : StableHlo.after (ops (F := F)) X main_arg4 = X main_arg4 :=
  hW_ops.keeps X main_arg4 (by decide)
theorem keep_arg5 : StableHlo.after (ops (F := F)) X main_arg5 = X main_arg5 :=
  hW_ops.keeps X main_arg5 (by decide)
theorem keep_arg6 : StableHlo.after (ops (F := F)) X main_arg6 = X main_arg6 :=
  hW_ops.keeps X main_arg6 (by decide)
theorem keep_arg7 : StableHlo.after (ops (F := F)) X main_arg7 = X main_arg7 :=
  hW_ops.keeps X main_arg7 (by decide)
theorem keep_arg8 : StableHlo.after (ops (F := F)) X main_arg8 = X main_arg8 :=
  hW_ops.keeps X main_arg8 (by decide)
theorem keep_arg9 : StableHlo.after (ops (F := F)) X main_arg9 = X main_arg9 :=
  hW_ops.keeps X main_arg9 (by decide)
theorem keep_arg10 : StableHlo.after (ops (F := F)) X main_arg10 = X main_arg10 :=
  hW_ops.keeps X main_arg10 (by decide)
theorem keep_arg11 : StableHlo.after (ops (F := F)) X main_arg11 = X main_arg11 :=
  hW_ops.keeps X main_arg11 (by decide)
theorem keep_arg12 : StableHlo.after (ops (F := F)) X main_arg12 = X main_arg12 :=
  hW_ops.keeps X main_arg12 (by decide)
theorem keep_arg13 : StableHlo.after (ops (F := F)) X main_arg13 = X main_arg13 :=
  hW_ops.keeps X main_arg13 (by decide)
theorem keep_arg14 : StableHlo.after (ops (F := F)) X main_arg14 = X main_arg14 :=
  hW_ops.keeps X main_arg14 (by decide)

theorem ssa_v0 : StableHlo.after (ops (F := F)) X main_v0 = ((fun l r => Host.dotGeneral dot_S1000000x8_S8x32_S1000000x32_1_0_0_1_n_n none l r) : (⟨S1000000x8, .f32⟩ : BufTy).Contents (Elt F) → (⟨S8x32, .f32⟩ : BufTy).Contents (Elt F) → (⟨S1000000x32, .f32⟩ : BufTy).Contents (Elt F)) (StableHlo.after (ops (F := F)) X main_arg2) (StableHlo.after (ops (F := F)) X main_arg11) :=
  Cert.Lib.ssa_binary hW_ops 0 X _ _ _ _ rfl (by decide) (by decide) (by decide)
theorem ssa_v1 : StableHlo.after (ops (F := F)) X main_v1 = (broadcastInDim S1x32 ![1] bcast_S32_S1x32_1 : (⟨S32, .f32⟩ : BufTy).Contents (Elt F) → (⟨S1x32, .f32⟩ : BufTy).Contents (Elt F)) (StableHlo.after (ops (F := F)) X main_arg12) :=
  Cert.Lib.ssa_unary hW_ops 1 X _ _ _ rfl (by decide) (by decide)
theorem ssa_v2 : StableHlo.after (ops (F := F)) X main_v2 = (broadcastInDim S1000000x32 ![0, 1] bcast_S1x32_S1000000x32_0_1 : (⟨S1x32, .f32⟩ : BufTy).Contents (Elt F) → (⟨S1000000x32, .f32⟩ : BufTy).Contents (Elt F)) (StableHlo.after (ops (F := F)) X main_v1) :=
  Cert.Lib.ssa_unary hW_ops 2 X _ _ _ rfl (by decide) (by decide)
theorem ssa_v3 : StableHlo.after (ops (F := F)) X main_v3 = (addf : (⟨S1000000x32, .f32⟩ : BufTy).Contents (Elt F) → (⟨S1000000x32, .f32⟩ : BufTy).Contents (Elt F) → (⟨S1000000x32, .f32⟩ : BufTy).Contents (Elt F)) (StableHlo.after (ops (F := F)) X main_v0) (StableHlo.after (ops (F := F)) X main_v2) :=
  Cert.Lib.ssa_binary hW_ops 3 X _ _ _ _ rfl (by decide) (by decide) (by decide)
theorem ssa_call0_cst : StableHlo.after (ops (F := F)) X main_call0_cst = (constant S_ .f32 0x00000000#32) :=
  Cert.Lib.ssa_nullary hW_ops 4 X _ _ rfl (by decide)
theorem ssa_call0_v0 : StableHlo.after (ops (F := F)) X main_call0_v0 = (broadcastInDim S1000000x32 ![] bcast_S_S1000000x32) (StableHlo.after (ops (F := F)) X main_call0_cst) :=
  Cert.Lib.ssa_unary hW_ops 5 X _ _ _ rfl (by decide) (by decide)
theorem ssa_v4 : StableHlo.after (ops (F := F)) X main_v4 = maximumf (StableHlo.after (ops (F := F)) X main_v3) (StableHlo.after (ops (F := F)) X main_call0_v0) :=
  Cert.Lib.ssa_binary hW_ops 6 X _ _ _ _ rfl (by decide) (by decide) (by decide)
theorem ssa_v5 : StableHlo.after (ops (F := F)) X main_v5 = ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)) (StableHlo.after (ops (F := F)) X main_v4) (StableHlo.after (ops (F := F)) X main_arg13) :=
  Cert.Lib.ssa_binary hW_ops 7 X _ _ _ _ rfl (by decide) (by decide) (by decide)
theorem ssa_v6 : StableHlo.after (ops (F := F)) X main_v6 = (broadcastInDim S1x1 ![1] bcast_S1_S1x1_1 : (⟨S1, .f32⟩ : BufTy).Contents (Elt F) → (⟨S1x1, .f32⟩ : BufTy).Contents (Elt F)) (StableHlo.after (ops (F := F)) X main_arg14) :=
  Cert.Lib.ssa_unary hW_ops 8 X _ _ _ rfl (by decide) (by decide)
theorem ssa_v7 : StableHlo.after (ops (F := F)) X main_v7 = (broadcastInDim S1000000x1 ![0, 1] bcast_S1x1_S1000000x1_0_1 : (⟨S1x1, .f32⟩ : BufTy).Contents (Elt F) → (⟨S1000000x1, .f32⟩ : BufTy).Contents (Elt F)) (StableHlo.after (ops (F := F)) X main_v6) :=
  Cert.Lib.ssa_unary hW_ops 9 X _ _ _ rfl (by decide) (by decide)
theorem ssa_v8 : StableHlo.after (ops (F := F)) X main_v8 = (addf : (⟨S1000000x1, .f32⟩ : BufTy).Contents (Elt F) → (⟨S1000000x1, .f32⟩ : BufTy).Contents (Elt F) → (⟨S1000000x1, .f32⟩ : BufTy).Contents (Elt F)) (StableHlo.after (ops (F := F)) X main_v5) (StableHlo.after (ops (F := F)) X main_v7) :=
  Cert.Lib.ssa_binary hW_ops 10 X _ _ _ _ rfl (by decide) (by decide) (by decide)
theorem ssa_v9 : StableHlo.after (ops (F := F)) X main_v9 = (Host.negf : (⟨S1000000x1, .f32⟩ : BufTy).Contents (Elt F) → (⟨S1000000x1, .f32⟩ : BufTy).Contents (Elt F)) (StableHlo.after (ops (F := F)) X main_v8) :=
  Cert.Lib.ssa_unary hW_ops 11 X _ _ _ rfl (by decide) (by decide)
theorem ssa_v10 : StableHlo.after (ops (F := F)) X main_v10 = (Host.exp : (⟨S1000000x1, .f32⟩ : BufTy).Contents (Elt F) → (⟨S1000000x1, .f32⟩ : BufTy).Contents (Elt F)) (StableHlo.after (ops (F := F)) X main_v9) :=
  Cert.Lib.ssa_unary hW_ops 12 X _ _ _ rfl (by decide) (by decide)
theorem ssa_cst : StableHlo.after (ops (F := F)) X main_cst = (constant S_ .f32 0x3F800000#32) :=
  Cert.Lib.ssa_nullary hW_ops 13 X _ _ rfl (by decide)
theorem ssa_v11 : StableHlo.after (ops (F := F)) X main_v11 = (broadcastInDim S1000000x1 ![] bcast_S_S1000000x1 : (⟨S_, .f32⟩ : BufTy).Contents (Elt F) → (⟨S1000000x1, .f32⟩ : BufTy).Contents (Elt F)) (StableHlo.after (ops (F := F)) X main_cst) :=
  Cert.Lib.ssa_unary hW_ops 14 X _ _ _ rfl (by decide) (by decide)
theorem ssa_v12 : StableHlo.after (ops (F := F)) X main_v12 = (addf : (⟨S1000000x1, .f32⟩ : BufTy).Contents (Elt F) → (⟨S1000000x1, .f32⟩ : BufTy).Contents (Elt F) → (⟨S1000000x1, .f32⟩ : BufTy).Contents (Elt F)) (StableHlo.after (ops (F := F)) X main_v11) (StableHlo.after (ops (F := F)) X main_v10) :=
  Cert.Lib.ssa_binary hW_ops 15 X _ _ _ _ rfl (by decide) (by decide) (by decide)
theorem ssa_cst_0 : StableHlo.after (ops (F := F)) X main_cst_0 = (constant S_ .f32 0x3F800000#32) :=
  Cert.Lib.ssa_nullary hW_ops 16 X _ _ rfl (by decide)
theorem ssa_v13 : StableHlo.after (ops (F := F)) X main_v13 = (broadcastInDim S1000000x1 ![] bcast_S_S1000000x1 : (⟨S_, .f32⟩ : BufTy).Contents (Elt F) → (⟨S1000000x1, .f32⟩ : BufTy).Contents (Elt F)) (StableHlo.after (ops (F := F)) X main_cst_0) :=
  Cert.Lib.ssa_unary hW_ops 17 X _ _ _ rfl (by decide) (by decide)
theorem ssa_v14 : StableHlo.after (ops (F := F)) X main_v14 = (Host.divf : (⟨S1000000x1, .f32⟩ : BufTy).Contents (Elt F) → (⟨S1000000x1, .f32⟩ : BufTy).Contents (Elt F) → (⟨S1000000x1, .f32⟩ : BufTy).Contents (Elt F)) (StableHlo.after (ops (F := F)) X main_v13) (StableHlo.after (ops (F := F)) X main_v12) :=
  Cert.Lib.ssa_binary hW_ops 18 X _ _ _ _ rfl (by decide) (by decide) (by decide)
theorem ssa_v15 : StableHlo.after (ops (F := F)) X main_v15 = shapeCast _ (StableHlo.after (ops (F := F)) X main_v14) shapeCasts_S1000000x1_S1000000 :=
  Cert.Lib.ssa_reshape hW_ops 19 X _ _ _ _ rfl (by decide) (by decide)
theorem ssa_cst_1 : StableHlo.after (ops (F := F)) X main_cst_1 = (constant S_ .f32 0x358637BD#32) :=
  Cert.Lib.ssa_nullary hW_ops 20 X _ _ rfl (by decide)
theorem ssa_v16 : StableHlo.after (ops (F := F)) X main_v16 = (broadcastInDim S1000000 ![] bcast_S_S1000000 : (⟨S_, .f32⟩ : BufTy).Contents (Elt F) → (⟨S1000000, .f32⟩ : BufTy).Contents (Elt F)) (StableHlo.after (ops (F := F)) X main_cst_1) :=
  Cert.Lib.ssa_unary hW_ops 21 X _ _ _ rfl (by decide) (by decide)
theorem ssa_v17 : StableHlo.after (ops (F := F)) X main_v17 = (maximumf : (⟨S1000000, .f32⟩ : BufTy).Contents (Elt F) → (⟨S1000000, .f32⟩ : BufTy).Contents (Elt F) → (⟨S1000000, .f32⟩ : BufTy).Contents (Elt F)) (StableHlo.after (ops (F := F)) X main_v15) (StableHlo.after (ops (F := F)) X main_v16) :=
  Cert.Lib.ssa_binary hW_ops 22 X _ _ _ _ rfl (by decide) (by decide) (by decide)
theorem ssa_c : StableHlo.after (ops (F := F)) X main_c = (constantI S_ 32 200000#32) :=
  Cert.Lib.ssa_nullary hW_ops 23 X _ _ rfl (by decide)
theorem ssa_v18 : StableHlo.after (ops (F := F)) X main_v18 = (broadcastInDim S1000000 ![] bcast_S_S1000000 : (⟨S_, .i32⟩ : BufTy).Contents (Elt F) → (⟨S1000000, .i32⟩ : BufTy).Contents (Elt F)) (StableHlo.after (ops (F := F)) X main_c) :=
  Cert.Lib.ssa_unary hW_ops 24 X _ _ _ rfl (by decide) (by decide)
theorem ssa_v19 : StableHlo.after (ops (F := F)) X main_v19 = (addi : (⟨S1000000, .i32⟩ : BufTy).Contents (Elt F) → (⟨S1000000, .i32⟩ : BufTy).Contents (Elt F) → (⟨S1000000, .i32⟩ : BufTy).Contents (Elt F)) (StableHlo.after (ops (F := F)) X main_arg1) (StableHlo.after (ops (F := F)) X main_v18) :=
  Cert.Lib.ssa_binary hW_ops 25 X _ _ _ _ rfl (by decide) (by decide) (by decide)
theorem ssa_v20 : StableHlo.after (ops (F := F)) X main_v20 = (iotaInDim S300000 32 0) :=
  Cert.Lib.ssa_nullary hW_ops 26 X _ _ rfl (by decide)
theorem ssa_v21 : StableHlo.after (ops (F := F)) X main_v21 = concatenate S2300000 0 [⟨S1000000, (StableHlo.after (ops (F := F)) X main_arg0)⟩, ⟨S1000000, (StableHlo.after (ops (F := F)) X main_v19)⟩, ⟨S300000, (StableHlo.after (ops (F := F)) X main_v20)⟩] concatenates_S1000000_S1000000_S300000_S2300000_d0 :=
  Cert.Lib.ssa_nary3 hW_ops 27 X _ _ _ rfl (by decide) (by decide) (by decide) (by decide)
theorem ssa_v22 : StableHlo.after (ops (F := F)) X main_v22 = concatenate S2300000 0 [⟨S1000000, (StableHlo.after (ops (F := F)) X main_v19)⟩, ⟨S1000000, (StableHlo.after (ops (F := F)) X main_arg0)⟩, ⟨S300000, (StableHlo.after (ops (F := F)) X main_v20)⟩] concatenates_S1000000_S1000000_S300000_S2300000_d0 :=
  Cert.Lib.ssa_nary3 hW_ops 28 X _ _ _ rfl (by decide) (by decide) (by decide) (by decide)
theorem ssa_cst_2 : StableHlo.after (ops (F := F)) X main_cst_2 = (constant S_ .f32 0x3F800000#32) :=
  Cert.Lib.ssa_nullary hW_ops 29 X _ _ rfl (by decide)
theorem ssa_v23 : StableHlo.after (ops (F := F)) X main_v23 = (broadcastInDim S300000 ![] bcast_S_S300000 : (⟨S_, .f32⟩ : BufTy).Contents (Elt F) → (⟨S300000, .f32⟩ : BufTy).Contents (Elt F)) (StableHlo.after (ops (F := F)) X main_cst_2) :=
  Cert.Lib.ssa_unary hW_ops 30 X _ _ _ rfl (by decide) (by decide)
theorem ssa_v24 : StableHlo.after (ops (F := F)) X main_v24 = concatenate S2300000 0 [⟨S1000000, (StableHlo.after (ops (F := F)) X main_v17)⟩, ⟨S1000000, (StableHlo.after (ops (F := F)) X main_v17)⟩, ⟨S300000, (StableHlo.after (ops (F := F)) X main_v23)⟩] concatenates_S1000000_S1000000_S300000_S2300000_d0 :=
  Cert.Lib.ssa_nary3 hW_ops 31 X _ _ _ rfl (by decide) (by decide) (by decide) (by decide)
theorem ssa_cst_3 : StableHlo.after (ops (F := F)) X main_cst_3 = (constant S_ .f32 0x00000000#32) :=
  Cert.Lib.ssa_nullary hW_ops 32 X _ _ rfl (by decide)
theorem ssa_v25 : StableHlo.after (ops (F := F)) X main_v25 = (broadcastInDim S300000 ![] bcast_S_S300000 : (⟨S_, .f32⟩ : BufTy).Contents (Elt F) → (⟨S300000, .f32⟩ : BufTy).Contents (Elt F)) (StableHlo.after (ops (F := F)) X main_cst_3) :=
  Cert.Lib.ssa_unary hW_ops 33 X _ _ _ rfl (by decide) (by decide)
theorem ssa_v26 : StableHlo.after (ops (F := F)) X main_v26 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v22) :=
  Cert.Lib.ssa_unary hW_ops 34 X _ _ _ rfl (by decide) (by decide)
theorem ssa_v27 : StableHlo.after (ops (F := F)) X main_v27 = ((fun x i u => Host.scatterAdd scatter_S300000_S2300000x1_S2300000_n_0_0_1 x i u) : (⟨S300000, .f32⟩ : BufTy).Contents (Elt F) → (⟨S2300000x1, .i32⟩ : BufTy).Contents (Elt F) → (⟨S2300000, .f32⟩ : BufTy).Contents (Elt F) → (⟨S300000, .f32⟩ : BufTy).Contents (Elt F)) (StableHlo.after (ops (F := F)) X main_v25) (StableHlo.after (ops (F := F)) X main_v26) (StableHlo.after (ops (F := F)) X main_v24) :=
  Cert.Lib.ssa_ternary hW_ops 35 X _ _ _ _ _ rfl (by decide) (by decide) (by decide) (by decide)
theorem ssa_cst_4 : StableHlo.after (ops (F := F)) X main_cst_4 = (constant S_ .f32 0x00000000#32) :=
  Cert.Lib.ssa_nullary hW_ops 36 X _ _ rfl (by decide)
theorem ssa_v28 : StableHlo.after (ops (F := F)) X main_v28 = (broadcastInDim S300000 ![] bcast_S_S300000 : (⟨S_, .f32⟩ : BufTy).Contents (Elt F) → (⟨S300000, .f32⟩ : BufTy).Contents (Elt F)) (StableHlo.after (ops (F := F)) X main_cst_4) :=
  Cert.Lib.ssa_unary hW_ops 37 X _ _ _ rfl (by decide) (by decide)
theorem ssa_v29 : StableHlo.after (ops (F := F)) X main_v29 = (cmpf .ogt : (⟨S300000, .f32⟩ : BufTy).Contents (Elt F) → (⟨S300000, .f32⟩ : BufTy).Contents (Elt F) → (⟨S300000, .i1⟩ : BufTy).Contents (Elt F)) (StableHlo.after (ops (F := F)) X main_v27) (StableHlo.after (ops (F := F)) X main_v28) :=
  Cert.Lib.ssa_binary hW_ops 38 X _ _ _ _ rfl (by decide) (by decide) (by decide)
theorem ssa_v30 : StableHlo.after (ops (F := F)) X main_v30 = (Host.rsqrt : (⟨S300000, .f32⟩ : BufTy).Contents (Elt F) → (⟨S300000, .f32⟩ : BufTy).Contents (Elt F)) (StableHlo.after (ops (F := F)) X main_v27) :=
  Cert.Lib.ssa_unary hW_ops 39 X _ _ _ rfl (by decide) (by decide)
theorem ssa_cst_5 : StableHlo.after (ops (F := F)) X main_cst_5 = (constant S_ .f32 0x00000000#32) :=
  Cert.Lib.ssa_nullary hW_ops 40 X _ _ rfl (by decide)
theorem ssa_call1_v0 : StableHlo.after (ops (F := F)) X main_call1_v0 = id (StableHlo.after (ops (F := F)) X main_cst_5) :=
  Cert.Lib.ssa_unary hW_ops 41 X _ _ _ rfl (by decide) (by decide)
theorem ssa_call1_v1 : StableHlo.after (ops (F := F)) X main_call1_v1 = (broadcastInDim S300000 ![] bcast_S_S300000) (StableHlo.after (ops (F := F)) X main_call1_v0) :=
  Cert.Lib.ssa_unary hW_ops 42 X _ _ _ rfl (by decide) (by decide)
theorem ssa_v31 : StableHlo.after (ops (F := F)) X main_v31 = select (StableHlo.after (ops (F := F)) X main_v29) (StableHlo.after (ops (F := F)) X main_v30) (StableHlo.after (ops (F := F)) X main_call1_v1) :=
  Cert.Lib.ssa_ternary hW_ops 43 X _ _ _ _ _ rfl (by decide) (by decide) (by decide) (by decide)
theorem ssa_c_6 : StableHlo.after (ops (F := F)) X main_c_6 = (constantI S_ 32 0#32) :=
  Cert.Lib.ssa_nullary hW_ops 44 X _ _ rfl (by decide)
theorem ssa_v32 : StableHlo.after (ops (F := F)) X main_v32 = (broadcastInDim S2300000 ![] bcast_S_S2300000 : (⟨S_, .i32⟩ : BufTy).Contents (Elt F) → (⟨S2300000, .i32⟩ : BufTy).Contents (Elt F)) (StableHlo.after (ops (F := F)) X main_c_6) :=
  Cert.Lib.ssa_unary hW_ops 45 X _ _ _ rfl (by decide) (by decide)
theorem ssa_v33 : StableHlo.after (ops (F := F)) X main_v33 = (cmpi .slt : (⟨S2300000, .i32⟩ : BufTy).Contents (Elt F) → (⟨S2300000, .i32⟩ : BufTy).Contents (Elt F) → (⟨S2300000, .i1⟩ : BufTy).Contents (Elt F)) (StableHlo.after (ops (F := F)) X main_v21) (StableHlo.after (ops (F := F)) X main_v32) :=
  Cert.Lib.ssa_binary hW_ops 46 X _ _ _ _ rfl (by decide) (by decide) (by decide)
theorem ssa_c_7 : StableHlo.after (ops (F := F)) X main_c_7 = (constantI S_ 32 300000#32) :=
  Cert.Lib.ssa_nullary hW_ops 47 X _ _ rfl (by decide)
theorem ssa_v34 : StableHlo.after (ops (F := F)) X main_v34 = (broadcastInDim S2300000 ![] bcast_S_S2300000 : (⟨S_, .i32⟩ : BufTy).Contents (Elt F) → (⟨S2300000, .i32⟩ : BufTy).Contents (Elt F)) (StableHlo.after (ops (F := F)) X main_c_7) :=
  Cert.Lib.ssa_unary hW_ops 48 X _ _ _ rfl (by decide) (by decide)
theorem ssa_v35 : StableHlo.after (ops (F := F)) X main_v35 = (addi : (⟨S2300000, .i32⟩ : BufTy).Contents (Elt F) → (⟨S2300000, .i32⟩ : BufTy).Contents (Elt F) → (⟨S2300000, .i32⟩ : BufTy).Contents (Elt F)) (StableHlo.after (ops (F := F)) X main_v21) (StableHlo.after (ops (F := F)) X main_v34) :=
  Cert.Lib.ssa_binary hW_ops 49 X _ _ _ _ rfl (by decide) (by decide) (by decide)
theorem ssa_v36 : StableHlo.after (ops (F := F)) X main_v36 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (ops (F := F)) X main_v33) (StableHlo.after (ops (F := F)) X main_v35) (StableHlo.after (ops (F := F)) X main_v21) :=
  Cert.Lib.ssa_ternary hW_ops 50 X _ _ _ _ _ rfl (by decide) (by decide) (by decide) (by decide)
theorem ssa_v37 : StableHlo.after (ops (F := F)) X main_v37 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v36) :=
  Cert.Lib.ssa_unary hW_ops 51 X _ _ _ rfl (by decide) (by decide)
theorem ssa_v38 : StableHlo.after (ops (F := F)) X main_v38 = ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)) (StableHlo.after (ops (F := F)) X main_v31) (StableHlo.after (ops (F := F)) X main_v37) :=
  Cert.Lib.ssa_binary hW_ops 52 X _ _ _ _ rfl (by decide) (by decide) (by decide)
theorem ssa_v39 : StableHlo.after (ops (F := F)) X main_v39 = (mulf : (⟨S2300000, .f32⟩ : BufTy).Contents (Elt F) → (⟨S2300000, .f32⟩ : BufTy).Contents (Elt F) → (⟨S2300000, .f32⟩ : BufTy).Contents (Elt F)) (StableHlo.after (ops (F := F)) X main_v38) (StableHlo.after (ops (F := F)) X main_v24) :=
  Cert.Lib.ssa_binary hW_ops 53 X _ _ _ _ rfl (by decide) (by decide) (by decide)
theorem ssa_c_8 : StableHlo.after (ops (F := F)) X main_c_8 = (constantI S_ 32 0#32) :=
  Cert.Lib.ssa_nullary hW_ops 54 X _ _ rfl (by decide)
theorem ssa_v40 : StableHlo.after (ops (F := F)) X main_v40 = (broadcastInDim S2300000 ![] bcast_S_S2300000 : (⟨S_, .i32⟩ : BufTy).Contents (Elt F) → (⟨S2300000, .i32⟩ : BufTy).Contents (Elt F)) (StableHlo.after (ops (F := F)) X main_c_8) :=
  Cert.Lib.ssa_unary hW_ops 55 X _ _ _ rfl (by decide) (by decide)
theorem ssa_v41 : StableHlo.after (ops (F := F)) X main_v41 = (cmpi .slt : (⟨S2300000, .i32⟩ : BufTy).Contents (Elt F) → (⟨S2300000, .i32⟩ : BufTy).Contents (Elt F) → (⟨S2300000, .i1⟩ : BufTy).Contents (Elt F)) (StableHlo.after (ops (F := F)) X main_v22) (StableHlo.after (ops (F := F)) X main_v40) :=
  Cert.Lib.ssa_binary hW_ops 56 X _ _ _ _ rfl (by decide) (by decide) (by decide)
theorem ssa_c_9 : StableHlo.after (ops (F := F)) X main_c_9 = (constantI S_ 32 300000#32) :=
  Cert.Lib.ssa_nullary hW_ops 57 X _ _ rfl (by decide)
theorem ssa_v42 : StableHlo.after (ops (F := F)) X main_v42 = (broadcastInDim S2300000 ![] bcast_S_S2300000 : (⟨S_, .i32⟩ : BufTy).Contents (Elt F) → (⟨S2300000, .i32⟩ : BufTy).Contents (Elt F)) (StableHlo.after (ops (F := F)) X main_c_9) :=
  Cert.Lib.ssa_unary hW_ops 58 X _ _ _ rfl (by decide) (by decide)
theorem ssa_v43 : StableHlo.after (ops (F := F)) X main_v43 = (addi : (⟨S2300000, .i32⟩ : BufTy).Contents (Elt F) → (⟨S2300000, .i32⟩ : BufTy).Contents (Elt F) → (⟨S2300000, .i32⟩ : BufTy).Contents (Elt F)) (StableHlo.after (ops (F := F)) X main_v22) (StableHlo.after (ops (F := F)) X main_v42) :=
  Cert.Lib.ssa_binary hW_ops 59 X _ _ _ _ rfl (by decide) (by decide) (by decide)
theorem ssa_v44 : StableHlo.after (ops (F := F)) X main_v44 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (ops (F := F)) X main_v41) (StableHlo.after (ops (F := F)) X main_v43) (StableHlo.after (ops (F := F)) X main_v22) :=
  Cert.Lib.ssa_ternary hW_ops 60 X _ _ _ _ _ rfl (by decide) (by decide) (by decide) (by decide)
theorem ssa_v45 : StableHlo.after (ops (F := F)) X main_v45 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v44) :=
  Cert.Lib.ssa_unary hW_ops 61 X _ _ _ rfl (by decide) (by decide)
theorem ssa_v46 : StableHlo.after (ops (F := F)) X main_v46 = ((fun x i => Host.gather gather_S300000_S2300000x1_S2300000_n_0_n_n_0_1_1 x i) : (⟨S300000, .f32⟩ : BufTy).Contents (Elt F) → (⟨S2300000x1, .i32⟩ : BufTy).Contents (Elt F) → (⟨S2300000, .f32⟩ : BufTy).Contents (Elt F)) (StableHlo.after (ops (F := F)) X main_v31) (StableHlo.after (ops (F := F)) X main_v45) :=
  Cert.Lib.ssa_binary hW_ops 62 X _ _ _ _ rfl (by decide) (by decide) (by decide)
theorem ssa_v47 : StableHlo.after (ops (F := F)) X main_v47 = (mulf : (⟨S2300000, .f32⟩ : BufTy).Contents (Elt F) → (⟨S2300000, .f32⟩ : BufTy).Contents (Elt F) → (⟨S2300000, .f32⟩ : BufTy).Contents (Elt F)) (StableHlo.after (ops (F := F)) X main_v39) (StableHlo.after (ops (F := F)) X main_v46) :=
  Cert.Lib.ssa_binary hW_ops 63 X _ _ _ _ rfl (by decide) (by decide) (by decide)
theorem ssa_v48 : StableHlo.after (ops (F := F)) X main_v48 = (mulf : (⟨S200000x64, .f32⟩ : BufTy).Contents (Elt F) → (⟨S200000x64, .f32⟩ : BufTy).Contents (Elt F) → (⟨S200000x64, .f32⟩ : BufTy).Contents (Elt F)) (StableHlo.after (ops (F := F)) X main_arg3) (StableHlo.after (ops (F := F)) X main_arg3) :=
  Cert.Lib.ssa_binary hW_ops 64 X _ _ _ _ rfl (by decide) (by decide) (by decide)
theorem ssa_cst_10 : StableHlo.after (ops (F := F)) X main_cst_10 = (constant S_ .f32 0x00000000#32) :=
  Cert.Lib.ssa_nullary hW_ops 65 X _ _ rfl (by decide)
theorem ssa_v49 : StableHlo.after (ops (F := F)) X main_v49 = ((fun x v => Host.reduceAdd x v reducesTo_S200000x64_S200000_d1 h_S_) : (⟨S200000x64, .f32⟩ : BufTy).Contents (Elt F) → (⟨S_, .f32⟩ : BufTy).Contents (Elt F) → (⟨S200000, .f32⟩ : BufTy).Contents (Elt F)) (StableHlo.after (ops (F := F)) X main_v48) (StableHlo.after (ops (F := F)) X main_cst_10) :=
  Cert.Lib.ssa_binary hW_ops 66 X _ _ _ _ rfl (by decide) (by decide) (by decide)
theorem ssa_v50 : StableHlo.after (ops (F := F)) X main_v50 = (broadcastInDim S200000x1 ![0] bcast_S200000_S200000x1_0 : (⟨S200000, .f32⟩ : BufTy).Contents (Elt F) → (⟨S200000x1, .f32⟩ : BufTy).Contents (Elt F)) (StableHlo.after (ops (F := F)) X main_v49) :=
  Cert.Lib.ssa_unary hW_ops 67 X _ _ _ rfl (by decide) (by decide)
theorem ssa_v51 : StableHlo.after (ops (F := F)) X main_v51 = (Host.sqrt : (⟨S200000x1, .f32⟩ : BufTy).Contents (Elt F) → (⟨S200000x1, .f32⟩ : BufTy).Contents (Elt F)) (StableHlo.after (ops (F := F)) X main_v50) :=
  Cert.Lib.ssa_unary hW_ops 68 X _ _ _ rfl (by decide) (by decide)
theorem ssa_cst_11 : StableHlo.after (ops (F := F)) X main_cst_11 = (constant S_ .f32 0x2B8CBCCC#32) :=
  Cert.Lib.ssa_nullary hW_ops 69 X _ _ rfl (by decide)
theorem ssa_v52 : StableHlo.after (ops (F := F)) X main_v52 = (broadcastInDim S200000x1 ![] bcast_S_S200000x1 : (⟨S_, .f32⟩ : BufTy).Contents (Elt F) → (⟨S200000x1, .f32⟩ : BufTy).Contents (Elt F)) (StableHlo.after (ops (F := F)) X main_cst_11) :=
  Cert.Lib.ssa_unary hW_ops 70 X _ _ _ rfl (by decide) (by decide)
theorem ssa_v53 : StableHlo.after (ops (F := F)) X main_v53 = (maximumf : (⟨S200000x1, .f32⟩ : BufTy).Contents (Elt F) → (⟨S200000x1, .f32⟩ : BufTy).Contents (Elt F) → (⟨S200000x1, .f32⟩ : BufTy).Contents (Elt F)) (StableHlo.after (ops (F := F)) X main_v51) (StableHlo.after (ops (F := F)) X main_v52) :=
  Cert.Lib.ssa_binary hW_ops 71 X _ _ _ _ rfl (by decide) (by decide) (by decide)
theorem ssa_v54 : StableHlo.after (ops (F := F)) X main_v54 = (broadcastInDim S200000x64 ![0, 1] bcast_S200000x1_S200000x64_0_1 : (⟨S200000x1, .f32⟩ : BufTy).Contents (Elt F) → (⟨S200000x64, .f32⟩ : BufTy).Contents (Elt F)) (StableHlo.after (ops (F := F)) X main_v53) :=
  Cert.Lib.ssa_unary hW_ops 72 X _ _ _ rfl (by decide) (by decide)
theorem ssa_v55 : StableHlo.after (ops (F := F)) X main_v55 = (Host.divf : (⟨S200000x64, .f32⟩ : BufTy).Contents (Elt F) → (⟨S200000x64, .f32⟩ : BufTy).Contents (Elt F) → (⟨S200000x64, .f32⟩ : BufTy).Contents (Elt F)) (StableHlo.after (ops (F := F)) X main_arg3) (StableHlo.after (ops (F := F)) X main_v54) :=
  Cert.Lib.ssa_binary hW_ops 73 X _ _ _ _ rfl (by decide) (by decide) (by decide)
theorem ssa_c_12 : StableHlo.after (ops (F := F)) X main_c_12 = (constantI S_ 32 0#32) :=
  Cert.Lib.ssa_nullary hW_ops 74 X _ _ rfl (by decide)
theorem ssa_v56 : StableHlo.after (ops (F := F)) X main_v56 = (broadcastInDim S100000 ![] bcast_S_S100000 : (⟨S_, .i32⟩ : BufTy).Contents (Elt F) → (⟨S100000, .i32⟩ : BufTy).Contents (Elt F)) (StableHlo.after (ops (F := F)) X main_c_12) :=
  Cert.Lib.ssa_unary hW_ops 75 X _ _ _ rfl (by decide) (by decide)
theorem ssa_v57 : StableHlo.after (ops (F := F)) X main_v57 = (cmpi .slt : (⟨S100000, .i32⟩ : BufTy).Contents (Elt F) → (⟨S100000, .i32⟩ : BufTy).Contents (Elt F) → (⟨S100000, .i1⟩ : BufTy).Contents (Elt F)) (StableHlo.after (ops (F := F)) X main_arg7) (StableHlo.after (ops (F := F)) X main_v56) :=
  Cert.Lib.ssa_binary hW_ops 76 X _ _ _ _ rfl (by decide) (by decide) (by decide)
theorem ssa_c_13 : StableHlo.after (ops (F := F)) X main_c_13 = (constantI S_ 32 20000#32) :=
  Cert.Lib.ssa_nullary hW_ops 77 X _ _ rfl (by decide)
theorem ssa_v58 : StableHlo.after (ops (F := F)) X main_v58 = (broadcastInDim S100000 ![] bcast_S_S100000 : (⟨S_, .i32⟩ : BufTy).Contents (Elt F) → (⟨S100000, .i32⟩ : BufTy).Contents (Elt F)) (StableHlo.after (ops (F := F)) X main_c_13) :=
  Cert.Lib.ssa_unary hW_ops 78 X _ _ _ rfl (by decide) (by decide)
theorem ssa_v59 : StableHlo.after (ops (F := F)) X main_v59 = (addi : (⟨S100000, .i32⟩ : BufTy).Contents (Elt F) → (⟨S100000, .i32⟩ : BufTy).Contents (Elt F) → (⟨S100000, .i32⟩ : BufTy).Contents (Elt F)) (StableHlo.after (ops (F := F)) X main_arg7) (StableHlo.after (ops (F := F)) X main_v58) :=
  Cert.Lib.ssa_binary hW_ops 79 X _ _ _ _ rfl (by decide) (by decide) (by decide)
theorem ssa_v60 : StableHlo.after (ops (F := F)) X main_v60 = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (StableHlo.after (ops (F := F)) X main_v57) (StableHlo.after (ops (F := F)) X main_v59) (StableHlo.after (ops (F := F)) X main_arg7) :=
  Cert.Lib.ssa_ternary hW_ops 80 X _ _ _ _ _ rfl (by decide) (by decide) (by decide) (by decide)
theorem ssa_v61 : StableHlo.after (ops (F := F)) X main_v61 = (broadcastInDim S100000x1 ![0] bcast_S100000_S100000x1_0 : (⟨S100000, .i32⟩ : BufTy).Contents (Elt F) → (⟨S100000x1, .i32⟩ : BufTy).Contents (Elt F)) (StableHlo.after (ops (F := F)) X main_v60) :=
  Cert.Lib.ssa_unary hW_ops 81 X _ _ _ rfl (by decide) (by decide)
theorem ssa_v62 : StableHlo.after (ops (F := F)) X main_v62 = ((fun x i => Host.gather gather_S20000x64_S100000x1_S100000x64_1_0_n_n_0_1_164 x i) : (⟨S20000x64, .f32⟩ : BufTy).Contents (Elt F) → (⟨S100000x1, .i32⟩ : BufTy).Contents (Elt F) → (⟨S100000x64, .f32⟩ : BufTy).Contents (Elt F)) (StableHlo.after (ops (F := F)) X main_arg4) (StableHlo.after (ops (F := F)) X main_v61) :=
  Cert.Lib.ssa_binary hW_ops 82 X _ _ _ _ rfl (by decide) (by decide) (by decide)
theorem ssa_c_14 : StableHlo.after (ops (F := F)) X main_c_14 = (constantI S_ 32 0#32) :=
  Cert.Lib.ssa_nullary hW_ops 83 X _ _ rfl (by decide)
theorem ssa_v63 : StableHlo.after (ops (F := F)) X main_v63 = (broadcastInDim S100000 ![] bcast_S_S100000 : (⟨S_, .i32⟩ : BufTy).Contents (Elt F) → (⟨S100000, .i32⟩ : BufTy).Contents (Elt F)) (StableHlo.after (ops (F := F)) X main_c_14) :=
  Cert.Lib.ssa_unary hW_ops 84 X _ _ _ rfl (by decide) (by decide)
theorem ssa_v64 : StableHlo.after (ops (F := F)) X main_v64 = (cmpi .slt : (⟨S100000, .i32⟩ : BufTy).Contents (Elt F) → (⟨S100000, .i32⟩ : BufTy).Contents (Elt F) → (⟨S100000, .i1⟩ : BufTy).Contents (Elt F)) (StableHlo.after (ops (F := F)) X main_arg8) (StableHlo.after (ops (F := F)) X main_v63) :=
  Cert.Lib.ssa_binary hW_ops 85 X _ _ _ _ rfl (by decide) (by decide) (by decide)
theorem ssa_c_15 : StableHlo.after (ops (F := F)) X main_c_15 = (constantI S_ 32 50000#32) :=
  Cert.Lib.ssa_nullary hW_ops 86 X _ _ rfl (by decide)
theorem ssa_v65 : StableHlo.after (ops (F := F)) X main_v65 = (broadcastInDim S100000 ![] bcast_S_S100000 : (⟨S_, .i32⟩ : BufTy).Contents (Elt F) → (⟨S100000, .i32⟩ : BufTy).Contents (Elt F)) (StableHlo.after (ops (F := F)) X main_c_15) :=
  Cert.Lib.ssa_unary hW_ops 87 X _ _ _ rfl (by decide) (by decide)
theorem ssa_v66 : StableHlo.after (ops (F := F)) X main_v66 = (addi : (⟨S100000, .i32⟩ : BufTy).Contents (Elt F) → (⟨S100000, .i32⟩ : BufTy).Contents (Elt F) → (⟨S100000, .i32⟩ : BufTy).Contents (Elt F)) (StableHlo.after (ops (F := F)) X main_arg8) (StableHlo.after (ops (F := F)) X main_v65) :=
  Cert.Lib.ssa_binary hW_ops 88 X _ _ _ _ rfl (by decide) (by decide) (by decide)
theorem ssa_v67 : StableHlo.after (ops (F := F)) X main_v67 = (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (StableHlo.after (ops (F := F)) X main_v64) (StableHlo.after (ops (F := F)) X main_v66) (StableHlo.after (ops (F := F)) X main_arg8) :=
  Cert.Lib.ssa_ternary hW_ops 89 X _ _ _ _ _ rfl (by decide) (by decide) (by decide) (by decide)
theorem ssa_v68 : StableHlo.after (ops (F := F)) X main_v68 = (broadcastInDim S100000x1 ![0] bcast_S100000_S100000x1_0 : (⟨S100000, .i32⟩ : BufTy).Contents (Elt F) → (⟨S100000x1, .i32⟩ : BufTy).Contents (Elt F)) (StableHlo.after (ops (F := F)) X main_v67) :=
  Cert.Lib.ssa_unary hW_ops 90 X _ _ _ rfl (by decide) (by decide)
theorem ssa_v69 : StableHlo.after (ops (F := F)) X main_v69 = ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)) (StableHlo.after (ops (F := F)) X main_arg5) (StableHlo.after (ops (F := F)) X main_v68) :=
  Cert.Lib.ssa_binary hW_ops 91 X _ _ _ _ rfl (by decide) (by decide) (by decide)
theorem ssa_v70 : StableHlo.after (ops (F := F)) X main_v70 = (addf : (⟨S100000x64, .f32⟩ : BufTy).Contents (Elt F) → (⟨S100000x64, .f32⟩ : BufTy).Contents (Elt F) → (⟨S100000x64, .f32⟩ : BufTy).Contents (Elt F)) (StableHlo.after (ops (F := F)) X main_v62) (StableHlo.after (ops (F := F)) X main_v69) :=
  Cert.Lib.ssa_binary hW_ops 92 X _ _ _ _ rfl (by decide) (by decide) (by decide)
theorem ssa_cst_16 : StableHlo.after (ops (F := F)) X main_cst_16 = (constant S_ .f32 0x3F800000#32) :=
  Cert.Lib.ssa_nullary hW_ops 93 X _ _ rfl (by decide)
theorem ssa_v71 : StableHlo.after (ops (F := F)) X main_v71 = (broadcastInDim S100000x64 ![] bcast_S_S100000x64 : (⟨S_, .f32⟩ : BufTy).Contents (Elt F) → (⟨S100000x64, .f32⟩ : BufTy).Contents (Elt F)) (StableHlo.after (ops (F := F)) X main_cst_16) :=
  Cert.Lib.ssa_unary hW_ops 94 X _ _ _ rfl (by decide) (by decide)
theorem ssa_v72 : StableHlo.after (ops (F := F)) X main_v72 = (mulf : (⟨S100000x64, .f32⟩ : BufTy).Contents (Elt F) → (⟨S100000x64, .f32⟩ : BufTy).Contents (Elt F) → (⟨S100000x64, .f32⟩ : BufTy).Contents (Elt F)) (StableHlo.after (ops (F := F)) X main_v70) (StableHlo.after (ops (F := F)) X main_v71) :=
  Cert.Lib.ssa_binary hW_ops 95 X _ _ _ _ rfl (by decide) (by decide) (by decide)
theorem ssa_cst_17 : StableHlo.after (ops (F := F)) X main_cst_17 = (constant S_ .f32 0x3F800000#32) :=
  Cert.Lib.ssa_nullary hW_ops 96 X _ _ rfl (by decide)
theorem ssa_v73 : StableHlo.after (ops (F := F)) X main_v73 = (broadcastInDim S100000x64 ![] bcast_S_S100000x64 : (⟨S_, .f32⟩ : BufTy).Contents (Elt F) → (⟨S100000x64, .f32⟩ : BufTy).Contents (Elt F)) (StableHlo.after (ops (F := F)) X main_cst_17) :=
  Cert.Lib.ssa_unary hW_ops 97 X _ _ _ rfl (by decide) (by decide)
theorem ssa_v74 : StableHlo.after (ops (F := F)) X main_v74 = (mulf : (⟨S100000x64, .f32⟩ : BufTy).Contents (Elt F) → (⟨S100000x64, .f32⟩ : BufTy).Contents (Elt F) → (⟨S100000x64, .f32⟩ : BufTy).Contents (Elt F)) (StableHlo.after (ops (F := F)) X main_arg6) (StableHlo.after (ops (F := F)) X main_v73) :=
  Cert.Lib.ssa_binary hW_ops 98 X _ _ _ _ rfl (by decide) (by decide) (by decide)
theorem ssa_v75 : StableHlo.after (ops (F := F)) X main_v75 = ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) (StableHlo.after (ops (F := F)) X main_v74) (StableHlo.after (ops (F := F)) X main_v72) :=
  Cert.Lib.ssa_binary hW_ops 99 X _ _ _ _ rfl (by decide) (by decide) (by decide)
theorem ssa_v76 : StableHlo.after (ops (F := F)) X main_v76 = ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) (StableHlo.after (ops (F := F)) X main_v75) (StableHlo.after (ops (F := F)) X main_arg9) :=
  Cert.Lib.ssa_binary hW_ops 100 X _ _ _ _ rfl (by decide) (by decide) (by decide)
theorem ssa_v77 : StableHlo.after (ops (F := F)) X main_v77 = (broadcastInDim S1x64 ![1] bcast_S64_S1x64_1 : (⟨S64, .f32⟩ : BufTy).Contents (Elt F) → (⟨S1x64, .f32⟩ : BufTy).Contents (Elt F)) (StableHlo.after (ops (F := F)) X main_arg10) :=
  Cert.Lib.ssa_unary hW_ops 101 X _ _ _ rfl (by decide) (by decide)
theorem ssa_v78 : StableHlo.after (ops (F := F)) X main_v78 = (broadcastInDim S100000x64 ![0, 1] bcast_S1x64_S100000x64_0_1 : (⟨S1x64, .f32⟩ : BufTy).Contents (Elt F) → (⟨S100000x64, .f32⟩ : BufTy).Contents (Elt F)) (StableHlo.after (ops (F := F)) X main_v77) :=
  Cert.Lib.ssa_unary hW_ops 102 X _ _ _ rfl (by decide) (by decide)
theorem ssa_v79 : StableHlo.after (ops (F := F)) X main_v79 = (addf : (⟨S100000x64, .f32⟩ : BufTy).Contents (Elt F) → (⟨S100000x64, .f32⟩ : BufTy).Contents (Elt F) → (⟨S100000x64, .f32⟩ : BufTy).Contents (Elt F)) (StableHlo.after (ops (F := F)) X main_v76) (StableHlo.after (ops (F := F)) X main_v78) :=
  Cert.Lib.ssa_binary hW_ops 103 X _ _ _ _ rfl (by decide) (by decide) (by decide)
theorem ssa_v80 : StableHlo.after (ops (F := F)) X main_v80 = (mulf : (⟨S100000x64, .f32⟩ : BufTy).Contents (Elt F) → (⟨S100000x64, .f32⟩ : BufTy).Contents (Elt F) → (⟨S100000x64, .f32⟩ : BufTy).Contents (Elt F)) (StableHlo.after (ops (F := F)) X main_v79) (StableHlo.after (ops (F := F)) X main_v79) :=
  Cert.Lib.ssa_binary hW_ops 104 X _ _ _ _ rfl (by decide) (by decide) (by decide)
theorem ssa_cst_18 : StableHlo.after (ops (F := F)) X main_cst_18 = (constant S_ .f32 0x00000000#32) :=
  Cert.Lib.ssa_nullary hW_ops 105 X _ _ rfl (by decide)
theorem ssa_v81 : StableHlo.after (ops (F := F)) X main_v81 = ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) (StableHlo.after (ops (F := F)) X main_v80) (StableHlo.after (ops (F := F)) X main_cst_18) :=
  Cert.Lib.ssa_binary hW_ops 106 X _ _ _ _ rfl (by decide) (by decide) (by decide)
theorem ssa_v82 : StableHlo.after (ops (F := F)) X main_v82 = (broadcastInDim S100000x1 ![0] bcast_S100000_S100000x1_0 : (⟨S100000, .f32⟩ : BufTy).Contents (Elt F) → (⟨S100000x1, .f32⟩ : BufTy).Contents (Elt F)) (StableHlo.after (ops (F := F)) X main_v81) :=
  Cert.Lib.ssa_unary hW_ops 107 X _ _ _ rfl (by decide) (by decide)
theorem ssa_v83 : StableHlo.after (ops (F := F)) X main_v83 = (Host.sqrt : (⟨S100000x1, .f32⟩ : BufTy).Contents (Elt F) → (⟨S100000x1, .f32⟩ : BufTy).Contents (Elt F)) (StableHlo.after (ops (F := F)) X main_v82) :=
  Cert.Lib.ssa_unary hW_ops 108 X _ _ _ rfl (by decide) (by decide)
theorem ssa_cst_19 : StableHlo.after (ops (F := F)) X main_cst_19 = (constant S_ .f32 0x2B8CBCCC#32) :=
  Cert.Lib.ssa_nullary hW_ops 109 X _ _ rfl (by decide)
theorem ssa_v84 : StableHlo.after (ops (F := F)) X main_v84 = (broadcastInDim S100000x1 ![] bcast_S_S100000x1 : (⟨S_, .f32⟩ : BufTy).Contents (Elt F) → (⟨S100000x1, .f32⟩ : BufTy).Contents (Elt F)) (StableHlo.after (ops (F := F)) X main_cst_19) :=
  Cert.Lib.ssa_unary hW_ops 110 X _ _ _ rfl (by decide) (by decide)
theorem ssa_v85 : StableHlo.after (ops (F := F)) X main_v85 = (maximumf : (⟨S100000x1, .f32⟩ : BufTy).Contents (Elt F) → (⟨S100000x1, .f32⟩ : BufTy).Contents (Elt F) → (⟨S100000x1, .f32⟩ : BufTy).Contents (Elt F)) (StableHlo.after (ops (F := F)) X main_v83) (StableHlo.after (ops (F := F)) X main_v84) :=
  Cert.Lib.ssa_binary hW_ops 111 X _ _ _ _ rfl (by decide) (by decide) (by decide)
theorem ssa_v86 : StableHlo.after (ops (F := F)) X main_v86 = (broadcastInDim S100000x64 ![0, 1] bcast_S100000x1_S100000x64_0_1 : (⟨S100000x1, .f32⟩ : BufTy).Contents (Elt F) → (⟨S100000x64, .f32⟩ : BufTy).Contents (Elt F)) (StableHlo.after (ops (F := F)) X main_v85) :=
  Cert.Lib.ssa_unary hW_ops 112 X _ _ _ rfl (by decide) (by decide)
theorem ssa_v87 : StableHlo.after (ops (F := F)) X main_v87 = (Host.divf : (⟨S100000x64, .f32⟩ : BufTy).Contents (Elt F) → (⟨S100000x64, .f32⟩ : BufTy).Contents (Elt F) → (⟨S100000x64, .f32⟩ : BufTy).Contents (Elt F)) (StableHlo.after (ops (F := F)) X main_v79) (StableHlo.after (ops (F := F)) X main_v86) :=
  Cert.Lib.ssa_binary hW_ops 113 X _ _ _ _ rfl (by decide) (by decide) (by decide)
theorem ssa_v88 : StableHlo.after (ops (F := F)) X main_v88 = ((fun a b => concatenate S300000x64 0 [⟨S200000x64, a⟩, ⟨S100000x64, b⟩] concatenates_S200000x64_S100000x64_S300000x64_d0) : (⟨S200000x64, .f32⟩ : BufTy).Contents (Elt F) → (⟨S100000x64, .f32⟩ : BufTy).Contents (Elt F) → (⟨S300000x64, .f32⟩ : BufTy).Contents (Elt F)) (StableHlo.after (ops (F := F)) X main_v55) (StableHlo.after (ops (F := F)) X main_v87) :=
  Cert.Lib.ssa_binary hW_ops 114 X _ _ _ _ rfl (by decide) (by decide) (by decide)
theorem ssa_v89 : StableHlo.after (ops (F := F)) X main_v89 = (broadcastInDim S2300000x1 ![0] bcast_S2300000_S2300000x1_0 : (⟨S2300000, .f32⟩ : BufTy).Contents (Elt F) → (⟨S2300000x1, .f32⟩ : BufTy).Contents (Elt F)) (StableHlo.after (ops (F := F)) X main_v47) :=
  Cert.Lib.ssa_unary hW_ops 115 X _ _ _ rfl (by decide) (by decide)
theorem ssa_c_20 : StableHlo.after (ops (F := F)) X main_c_20 = (constantI S_ 32 0#32) :=
  Cert.Lib.ssa_nullary hW_ops 116 X _ _ rfl (by decide)
theorem ssa_v90 : StableHlo.after (ops (F := F)) X main_v90 = (broadcastInDim S2300000 ![] bcast_S_S2300000 : (⟨S_, .i32⟩ : BufTy).Contents (Elt F) → (⟨S2300000, .i32⟩ : BufTy).Contents (Elt F)) (StableHlo.after (ops (F := F)) X main_c_20) :=
  Cert.Lib.ssa_unary hW_ops 117 X _ _ _ rfl (by decide) (by decide)
theorem ssa_v91 : StableHlo.after (ops (F := F)) X main_v91 = (cmpi .slt : (⟨S2300000, .i32⟩ : BufTy).Contents (Elt F) → (⟨S2300000, .i32⟩ : BufTy).Contents (Elt F) → (⟨S2300000, .i1⟩ : BufTy).Contents (Elt F)) (StableHlo.after (ops (F := F)) X main_v21) (StableHlo.after (ops (F := F)) X main_v90) :=
  Cert.Lib.ssa_binary hW_ops 118 X _ _ _ _ rfl (by decide) (by decide) (by decide)
theorem ssa_c_21 : StableHlo.after (ops (F := F)) X main_c_21 = (constantI S_ 32 300000#32) :=
  Cert.Lib.ssa_nullary hW_ops 119 X _ _ rfl (by decide)
theorem ssa_v92 : StableHlo.after (ops (F := F)) X main_v92 = (broadcastInDim S2300000 ![] bcast_S_S2300000 : (⟨S_, .i32⟩ : BufTy).Contents (Elt F) → (⟨S2300000, .i32⟩ : BufTy).Contents (Elt F)) (StableHlo.after (ops (F := F)) X main_c_21) :=
  Cert.Lib.ssa_unary hW_ops 120 X _ _ _ rfl (by decide) (by decide)
theorem ssa_v93 : StableHlo.after (ops (F := F)) X main_v93 = (addi : (⟨S2300000, .i32⟩ : BufTy).Contents (Elt F) → (⟨S2300000, .i32⟩ : BufTy).Contents (Elt F) → (⟨S2300000, .i32⟩ : BufTy).Contents (Elt F)) (StableHlo.after (ops (F := F)) X main_v21) (StableHlo.after (ops (F := F)) X main_v92) :=
  Cert.Lib.ssa_binary hW_ops 121 X _ _ _ _ rfl (by decide) (by decide) (by decide)
theorem ssa_v94 : StableHlo.after (ops (F := F)) X main_v94 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (ops (F := F)) X main_v91) (StableHlo.after (ops (F := F)) X main_v93) (StableHlo.after (ops (F := F)) X main_v21) :=
  Cert.Lib.ssa_ternary hW_ops 122 X _ _ _ _ _ rfl (by decide) (by decide) (by decide) (by decide)
theorem ssa_v95 : StableHlo.after (ops (F := F)) X main_v95 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v94) :=
  Cert.Lib.ssa_unary hW_ops 123 X _ _ _ rfl (by decide) (by decide)
theorem ssa_v96 : StableHlo.after (ops (F := F)) X main_v96 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (StableHlo.after (ops (F := F)) X main_v88) (StableHlo.after (ops (F := F)) X main_v95) :=
  Cert.Lib.ssa_binary hW_ops 124 X _ _ _ _ rfl (by decide) (by decide) (by decide)
theorem ssa_v97 : StableHlo.after (ops (F := F)) X main_v97 = (broadcastInDim S2300000x64 ![0, 1] bcast_S2300000x1_S2300000x64_0_1 : (⟨S2300000x1, .f32⟩ : BufTy).Contents (Elt F) → (⟨S2300000x64, .f32⟩ : BufTy).Contents (Elt F)) (StableHlo.after (ops (F := F)) X main_v89) :=
  Cert.Lib.ssa_unary hW_ops 125 X _ _ _ rfl (by decide) (by decide)
theorem ssa_v98 : StableHlo.after (ops (F := F)) X main_v98 = (mulf : (⟨S2300000x64, .f32⟩ : BufTy).Contents (Elt F) → (⟨S2300000x64, .f32⟩ : BufTy).Contents (Elt F) → (⟨S2300000x64, .f32⟩ : BufTy).Contents (Elt F)) (StableHlo.after (ops (F := F)) X main_v97) (StableHlo.after (ops (F := F)) X main_v96) :=
  Cert.Lib.ssa_binary hW_ops 126 X _ _ _ _ rfl (by decide) (by decide) (by decide)
theorem ssa_cst_22 : StableHlo.after (ops (F := F)) X main_cst_22 = (constant S_ .f32 0x00000000#32) :=
  Cert.Lib.ssa_nullary hW_ops 127 X _ _ rfl (by decide)
theorem ssa_v99 : StableHlo.after (ops (F := F)) X main_v99 = (broadcastInDim S300000x64 ![] bcast_S_S300000x64 : (⟨S_, .f32⟩ : BufTy).Contents (Elt F) → (⟨S300000x64, .f32⟩ : BufTy).Contents (Elt F)) (StableHlo.after (ops (F := F)) X main_cst_22) :=
  Cert.Lib.ssa_unary hW_ops 128 X _ _ _ rfl (by decide) (by decide)
theorem ssa_v100 : StableHlo.after (ops (F := F)) X main_v100 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v22) :=
  Cert.Lib.ssa_unary hW_ops 129 X _ _ _ rfl (by decide) (by decide)
theorem ssa_v101 : StableHlo.after (ops (F := F)) X main_v101 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (StableHlo.after (ops (F := F)) X main_v99) (StableHlo.after (ops (F := F)) X main_v100) (StableHlo.after (ops (F := F)) X main_v98) :=
  Cert.Lib.ssa_ternary hW_ops 130 X _ _ _ _ _ rfl (by decide) (by decide) (by decide) (by decide)
theorem ssa_v102 : StableHlo.after (ops (F := F)) X main_v102 = (addf : (⟨S300000x64, .f32⟩ : BufTy).Contents (Elt F) → (⟨S300000x64, .f32⟩ : BufTy).Contents (Elt F) → (⟨S300000x64, .f32⟩ : BufTy).Contents (Elt F)) (StableHlo.after (ops (F := F)) X main_v88) (StableHlo.after (ops (F := F)) X main_v101) :=
  Cert.Lib.ssa_binary hW_ops 131 X _ _ _ _ rfl (by decide) (by decide) (by decide)
theorem ssa_v103 : StableHlo.after (ops (F := F)) X main_v103 = (broadcastInDim S2300000x1 ![0] bcast_S2300000_S2300000x1_0 : (⟨S2300000, .f32⟩ : BufTy).Contents (Elt F) → (⟨S2300000x1, .f32⟩ : BufTy).Contents (Elt F)) (StableHlo.after (ops (F := F)) X main_v47) :=
  Cert.Lib.ssa_unary hW_ops 132 X _ _ _ rfl (by decide) (by decide)
theorem ssa_c_23 : StableHlo.after (ops (F := F)) X main_c_23 = (constantI S_ 32 0#32) :=
  Cert.Lib.ssa_nullary hW_ops 133 X _ _ rfl (by decide)
theorem ssa_v104 : StableHlo.after (ops (F := F)) X main_v104 = (broadcastInDim S2300000 ![] bcast_S_S2300000 : (⟨S_, .i32⟩ : BufTy).Contents (Elt F) → (⟨S2300000, .i32⟩ : BufTy).Contents (Elt F)) (StableHlo.after (ops (F := F)) X main_c_23) :=
  Cert.Lib.ssa_unary hW_ops 134 X _ _ _ rfl (by decide) (by decide)
theorem ssa_v105 : StableHlo.after (ops (F := F)) X main_v105 = (cmpi .slt : (⟨S2300000, .i32⟩ : BufTy).Contents (Elt F) → (⟨S2300000, .i32⟩ : BufTy).Contents (Elt F) → (⟨S2300000, .i1⟩ : BufTy).Contents (Elt F)) (StableHlo.after (ops (F := F)) X main_v21) (StableHlo.after (ops (F := F)) X main_v104) :=
  Cert.Lib.ssa_binary hW_ops 135 X _ _ _ _ rfl (by decide) (by decide) (by decide)
theorem ssa_c_24 : StableHlo.after (ops (F := F)) X main_c_24 = (constantI S_ 32 300000#32) :=
  Cert.Lib.ssa_nullary hW_ops 136 X _ _ rfl (by decide)
theorem ssa_v106 : StableHlo.after (ops (F := F)) X main_v106 = (broadcastInDim S2300000 ![] bcast_S_S2300000 : (⟨S_, .i32⟩ : BufTy).Contents (Elt F) → (⟨S2300000, .i32⟩ : BufTy).Contents (Elt F)) (StableHlo.after (ops (F := F)) X main_c_24) :=
  Cert.Lib.ssa_unary hW_ops 137 X _ _ _ rfl (by decide) (by decide)
theorem ssa_v107 : StableHlo.after (ops (F := F)) X main_v107 = (addi : (⟨S2300000, .i32⟩ : BufTy).Contents (Elt F) → (⟨S2300000, .i32⟩ : BufTy).Contents (Elt F) → (⟨S2300000, .i32⟩ : BufTy).Contents (Elt F)) (StableHlo.after (ops (F := F)) X main_v21) (StableHlo.after (ops (F := F)) X main_v106) :=
  Cert.Lib.ssa_binary hW_ops 138 X _ _ _ _ rfl (by decide) (by decide) (by decide)
theorem ssa_v108 : StableHlo.after (ops (F := F)) X main_v108 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (ops (F := F)) X main_v105) (StableHlo.after (ops (F := F)) X main_v107) (StableHlo.after (ops (F := F)) X main_v21) :=
  Cert.Lib.ssa_ternary hW_ops 139 X _ _ _ _ _ rfl (by decide) (by decide) (by decide) (by decide)
theorem ssa_v109 : StableHlo.after (ops (F := F)) X main_v109 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v108) :=
  Cert.Lib.ssa_unary hW_ops 140 X _ _ _ rfl (by decide) (by decide)
theorem ssa_v110 : StableHlo.after (ops (F := F)) X main_v110 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (StableHlo.after (ops (F := F)) X main_v101) (StableHlo.after (ops (F := F)) X main_v109) :=
  Cert.Lib.ssa_binary hW_ops 141 X _ _ _ _ rfl (by decide) (by decide) (by decide)
theorem ssa_v111 : StableHlo.after (ops (F := F)) X main_v111 = (broadcastInDim S2300000x64 ![0, 1] bcast_S2300000x1_S2300000x64_0_1 : (⟨S2300000x1, .f32⟩ : BufTy).Contents (Elt F) → (⟨S2300000x64, .f32⟩ : BufTy).Contents (Elt F)) (StableHlo.after (ops (F := F)) X main_v103) :=
  Cert.Lib.ssa_unary hW_ops 142 X _ _ _ rfl (by decide) (by decide)
theorem ssa_v112 : StableHlo.after (ops (F := F)) X main_v112 = (mulf : (⟨S2300000x64, .f32⟩ : BufTy).Contents (Elt F) → (⟨S2300000x64, .f32⟩ : BufTy).Contents (Elt F) → (⟨S2300000x64, .f32⟩ : BufTy).Contents (Elt F)) (StableHlo.after (ops (F := F)) X main_v111) (StableHlo.after (ops (F := F)) X main_v110) :=
  Cert.Lib.ssa_binary hW_ops 143 X _ _ _ _ rfl (by decide) (by decide) (by decide)
theorem ssa_cst_25 : StableHlo.after (ops (F := F)) X main_cst_25 = (constant S_ .f32 0x00000000#32) :=
  Cert.Lib.ssa_nullary hW_ops 144 X _ _ rfl (by decide)
theorem ssa_v113 : StableHlo.after (ops (F := F)) X main_v113 = (broadcastInDim S300000x64 ![] bcast_S_S300000x64 : (⟨S_, .f32⟩ : BufTy).Contents (Elt F) → (⟨S300000x64, .f32⟩ : BufTy).Contents (Elt F)) (StableHlo.after (ops (F := F)) X main_cst_25) :=
  Cert.Lib.ssa_unary hW_ops 145 X _ _ _ rfl (by decide) (by decide)
theorem ssa_v114 : StableHlo.after (ops (F := F)) X main_v114 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v22) :=
  Cert.Lib.ssa_unary hW_ops 146 X _ _ _ rfl (by decide) (by decide)
theorem ssa_v115 : StableHlo.after (ops (F := F)) X main_v115 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (StableHlo.after (ops (F := F)) X main_v113) (StableHlo.after (ops (F := F)) X main_v114) (StableHlo.after (ops (F := F)) X main_v112) :=
  Cert.Lib.ssa_ternary hW_ops 147 X _ _ _ _ _ rfl (by decide) (by decide) (by decide) (by decide)
theorem ssa_v116 : StableHlo.after (ops (F := F)) X main_v116 = (addf : (⟨S300000x64, .f32⟩ : BufTy).Contents (Elt F) → (⟨S300000x64, .f32⟩ : BufTy).Contents (Elt F) → (⟨S300000x64, .f32⟩ : BufTy).Contents (Elt F)) (StableHlo.after (ops (F := F)) X main_v102) (StableHlo.after (ops (F := F)) X main_v115) :=
  Cert.Lib.ssa_binary hW_ops 148 X _ _ _ _ rfl (by decide) (by decide) (by decide)
theorem ssa_v117 : StableHlo.after (ops (F := F)) X main_v117 = (broadcastInDim S2300000x1 ![0] bcast_S2300000_S2300000x1_0 : (⟨S2300000, .f32⟩ : BufTy).Contents (Elt F) → (⟨S2300000x1, .f32⟩ : BufTy).Contents (Elt F)) (StableHlo.after (ops (F := F)) X main_v47) :=
  Cert.Lib.ssa_unary hW_ops 149 X _ _ _ rfl (by decide) (by decide)
theorem ssa_c_26 : StableHlo.after (ops (F := F)) X main_c_26 = (constantI S_ 32 0#32) :=
  Cert.Lib.ssa_nullary hW_ops 150 X _ _ rfl (by decide)
theorem ssa_v118 : StableHlo.after (ops (F := F)) X main_v118 = (broadcastInDim S2300000 ![] bcast_S_S2300000 : (⟨S_, .i32⟩ : BufTy).Contents (Elt F) → (⟨S2300000, .i32⟩ : BufTy).Contents (Elt F)) (StableHlo.after (ops (F := F)) X main_c_26) :=
  Cert.Lib.ssa_unary hW_ops 151 X _ _ _ rfl (by decide) (by decide)
theorem ssa_v119 : StableHlo.after (ops (F := F)) X main_v119 = (cmpi .slt : (⟨S2300000, .i32⟩ : BufTy).Contents (Elt F) → (⟨S2300000, .i32⟩ : BufTy).Contents (Elt F) → (⟨S2300000, .i1⟩ : BufTy).Contents (Elt F)) (StableHlo.after (ops (F := F)) X main_v21) (StableHlo.after (ops (F := F)) X main_v118) :=
  Cert.Lib.ssa_binary hW_ops 152 X _ _ _ _ rfl (by decide) (by decide) (by decide)
theorem ssa_c_27 : StableHlo.after (ops (F := F)) X main_c_27 = (constantI S_ 32 300000#32) :=
  Cert.Lib.ssa_nullary hW_ops 153 X _ _ rfl (by decide)
theorem ssa_v120 : StableHlo.after (ops (F := F)) X main_v120 = (broadcastInDim S2300000 ![] bcast_S_S2300000 : (⟨S_, .i32⟩ : BufTy).Contents (Elt F) → (⟨S2300000, .i32⟩ : BufTy).Contents (Elt F)) (StableHlo.after (ops (F := F)) X main_c_27) :=
  Cert.Lib.ssa_unary hW_ops 154 X _ _ _ rfl (by decide) (by decide)
theorem ssa_v121 : StableHlo.after (ops (F := F)) X main_v121 = (addi : (⟨S2300000, .i32⟩ : BufTy).Contents (Elt F) → (⟨S2300000, .i32⟩ : BufTy).Contents (Elt F) → (⟨S2300000, .i32⟩ : BufTy).Contents (Elt F)) (StableHlo.after (ops (F := F)) X main_v21) (StableHlo.after (ops (F := F)) X main_v120) :=
  Cert.Lib.ssa_binary hW_ops 155 X _ _ _ _ rfl (by decide) (by decide) (by decide)
theorem ssa_v122 : StableHlo.after (ops (F := F)) X main_v122 = (select : (⟨S2300000, .i1⟩ : BufTy).Contents (Elt F) → (⟨S2300000, .i32⟩ : BufTy).Contents (Elt F) → (⟨S2300000, .i32⟩ : BufTy).Contents (Elt F) → (⟨S2300000, .i32⟩ : BufTy).Contents (Elt F)) (StableHlo.after (ops (F := F)) X main_v119) (StableHlo.after (ops (F := F)) X main_v121) (StableHlo.after (ops (F := F)) X main_v21) :=
  Cert.Lib.ssa_ternary hW_ops 156 X _ _ _ _ _ rfl (by decide) (by decide) (by decide) (by decide)
theorem ssa_v123 : StableHlo.after (ops (F := F)) X main_v123 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v122) :=
  Cert.Lib.ssa_unary hW_ops 157 X _ _ _ rfl (by decide) (by decide)
theorem ssa_v124 : StableHlo.after (ops (F := F)) X main_v124 = ((fun x i => Host.gather gather_S300000x64_S2300000x1_S2300000x64_1_0_n_n_0_1_164 x i) : (⟨S300000x64, .f32⟩ : BufTy).Contents (Elt F) → (⟨S2300000x1, .i32⟩ : BufTy).Contents (Elt F) → (⟨S2300000x64, .f32⟩ : BufTy).Contents (Elt F)) (StableHlo.after (ops (F := F)) X main_v115) (StableHlo.after (ops (F := F)) X main_v123) :=
  Cert.Lib.ssa_binary hW_ops 158 X _ _ _ _ rfl (by decide) (by decide) (by decide)
theorem ssa_v125 : StableHlo.after (ops (F := F)) X main_v125 = (broadcastInDim S2300000x64 ![0, 1] bcast_S2300000x1_S2300000x64_0_1 : (⟨S2300000x1, .f32⟩ : BufTy).Contents (Elt F) → (⟨S2300000x64, .f32⟩ : BufTy).Contents (Elt F)) (StableHlo.after (ops (F := F)) X main_v117) :=
  Cert.Lib.ssa_unary hW_ops 159 X _ _ _ rfl (by decide) (by decide)
theorem ssa_v126 : StableHlo.after (ops (F := F)) X main_v126 = (mulf : (⟨S2300000x64, .f32⟩ : BufTy).Contents (Elt F) → (⟨S2300000x64, .f32⟩ : BufTy).Contents (Elt F) → (⟨S2300000x64, .f32⟩ : BufTy).Contents (Elt F)) (StableHlo.after (ops (F := F)) X main_v125) (StableHlo.after (ops (F := F)) X main_v124) :=
  Cert.Lib.ssa_binary hW_ops 160 X _ _ _ _ rfl (by decide) (by decide) (by decide)
theorem ssa_cst_28 : StableHlo.after (ops (F := F)) X main_cst_28 = (constant S_ .f32 0x00000000#32) :=
  Cert.Lib.ssa_nullary hW_ops 161 X _ _ rfl (by decide)
theorem ssa_v127 : StableHlo.after (ops (F := F)) X main_v127 = (broadcastInDim S300000x64 ![] bcast_S_S300000x64 : (⟨S_, .f32⟩ : BufTy).Contents (Elt F) → (⟨S300000x64, .f32⟩ : BufTy).Contents (Elt F)) (StableHlo.after (ops (F := F)) X main_cst_28) :=
  Cert.Lib.ssa_unary hW_ops 162 X _ _ _ rfl (by decide) (by decide)
theorem ssa_v128 : StableHlo.after (ops (F := F)) X main_v128 = (broadcastInDim S2300000x1 ![0] bcast_S2300000_S2300000x1_0 : (⟨S2300000, .i32⟩ : BufTy).Contents (Elt F) → (⟨S2300000x1, .i32⟩ : BufTy).Contents (Elt F)) (StableHlo.after (ops (F := F)) X main_v22) :=
  Cert.Lib.ssa_unary hW_ops 163 X _ _ _ rfl (by decide) (by decide)
theorem ssa_v129 : StableHlo.after (ops (F := F)) X main_v129 = ((fun x i u => Host.scatterAdd scatter_S300000x64_S2300000x1_S2300000x64_1_0_0_1 x i u) : (⟨S300000x64, .f32⟩ : BufTy).Contents (Elt F) → (⟨S2300000x1, .i32⟩ : BufTy).Contents (Elt F) → (⟨S2300000x64, .f32⟩ : BufTy).Contents (Elt F) → (⟨S300000x64, .f32⟩ : BufTy).Contents (Elt F)) (StableHlo.after (ops (F := F)) X main_v127) (StableHlo.after (ops (F := F)) X main_v128) (StableHlo.after (ops (F := F)) X main_v126) :=
  Cert.Lib.ssa_ternary hW_ops 164 X _ _ _ _ _ rfl (by decide) (by decide) (by decide) (by decide)
theorem ssa_v130 : StableHlo.after (ops (F := F)) X main_v130 = (addf : (⟨S300000x64, .f32⟩ : BufTy).Contents (Elt F) → (⟨S300000x64, .f32⟩ : BufTy).Contents (Elt F) → (⟨S300000x64, .f32⟩ : BufTy).Contents (Elt F)) (StableHlo.after (ops (F := F)) X main_v116) (StableHlo.after (ops (F := F)) X main_v129) :=
  Cert.Lib.ssa_binary hW_ops 165 X _ _ _ _ rfl (by decide) (by decide) (by decide)
theorem ssa_cst_29 : StableHlo.after (ops (F := F)) X main_cst_29 = (constant S_ .f32 0x40800000#32) :=
  Cert.Lib.ssa_nullary hW_ops 166 X _ _ rfl (by decide)
theorem ssa_v131 : StableHlo.after (ops (F := F)) X main_v131 = (broadcastInDim S300000x64 ![] bcast_S_S300000x64 : (⟨S_, .f32⟩ : BufTy).Contents (Elt F) → (⟨S300000x64, .f32⟩ : BufTy).Contents (Elt F)) (StableHlo.after (ops (F := F)) X main_cst_29) :=
  Cert.Lib.ssa_unary hW_ops 167 X _ _ _ rfl (by decide) (by decide)
theorem ssa_v132 : StableHlo.after (ops (F := F)) X main_v132 = (Host.divf : (⟨S300000x64, .f32⟩ : BufTy).Contents (Elt F) → (⟨S300000x64, .f32⟩ : BufTy).Contents (Elt F) → (⟨S300000x64, .f32⟩ : BufTy).Contents (Elt F)) (StableHlo.after (ops (F := F)) X main_v130) (StableHlo.after (ops (F := F)) X main_v131) :=
  Cert.Lib.ssa_binary hW_ops 168 X _ _ _ _ rfl (by decide) (by decide) (by decide)
theorem ssa_v133 : StableHlo.after (ops (F := F)) X main_v133 = (mulf : (⟨S300000x64, .f32⟩ : BufTy).Contents (Elt F) → (⟨S300000x64, .f32⟩ : BufTy).Contents (Elt F) → (⟨S300000x64, .f32⟩ : BufTy).Contents (Elt F)) (StableHlo.after (ops (F := F)) X main_v132) (StableHlo.after (ops (F := F)) X main_v132) :=
  Cert.Lib.ssa_binary hW_ops 169 X _ _ _ _ rfl (by decide) (by decide) (by decide)
theorem ssa_cst_30 : StableHlo.after (ops (F := F)) X main_cst_30 = (constant S_ .f32 0x00000000#32) :=
  Cert.Lib.ssa_nullary hW_ops 170 X _ _ rfl (by decide)
theorem ssa_v134 : StableHlo.after (ops (F := F)) X main_v134 = ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)) (StableHlo.after (ops (F := F)) X main_v133) (StableHlo.after (ops (F := F)) X main_cst_30) :=
  Cert.Lib.ssa_binary hW_ops 171 X _ _ _ _ rfl (by decide) (by decide) (by decide)
theorem ssa_v135 : StableHlo.after (ops (F := F)) X main_v135 = (broadcastInDim S300000x1 ![0] bcast_S300000_S300000x1_0 : (⟨S300000, .f32⟩ : BufTy).Contents (Elt F) → (⟨S300000x1, .f32⟩ : BufTy).Contents (Elt F)) (StableHlo.after (ops (F := F)) X main_v134) :=
  Cert.Lib.ssa_unary hW_ops 172 X _ _ _ rfl (by decide) (by decide)
theorem ssa_v136 : StableHlo.after (ops (F := F)) X main_v136 = (Host.sqrt : (⟨S300000x1, .f32⟩ : BufTy).Contents (Elt F) → (⟨S300000x1, .f32⟩ : BufTy).Contents (Elt F)) (StableHlo.after (ops (F := F)) X main_v135) :=
  Cert.Lib.ssa_unary hW_ops 173 X _ _ _ rfl (by decide) (by decide)
theorem ssa_cst_31 : StableHlo.after (ops (F := F)) X main_cst_31 = (constant S_ .f32 0x2B8CBCCC#32) :=
  Cert.Lib.ssa_nullary hW_ops 174 X _ _ rfl (by decide)
theorem ssa_v137 : StableHlo.after (ops (F := F)) X main_v137 = (broadcastInDim S300000x1 ![] bcast_S_S300000x1 : (⟨S_, .f32⟩ : BufTy).Contents (Elt F) → (⟨S300000x1, .f32⟩ : BufTy).Contents (Elt F)) (StableHlo.after (ops (F := F)) X main_cst_31) :=
  Cert.Lib.ssa_unary hW_ops 175 X _ _ _ rfl (by decide) (by decide)
theorem ssa_v138 : StableHlo.after (ops (F := F)) X main_v138 = (maximumf : (⟨S300000x1, .f32⟩ : BufTy).Contents (Elt F) → (⟨S300000x1, .f32⟩ : BufTy).Contents (Elt F) → (⟨S300000x1, .f32⟩ : BufTy).Contents (Elt F)) (StableHlo.after (ops (F := F)) X main_v136) (StableHlo.after (ops (F := F)) X main_v137) :=
  Cert.Lib.ssa_binary hW_ops 176 X _ _ _ _ rfl (by decide) (by decide) (by decide)
theorem ssa_v139 : StableHlo.after (ops (F := F)) X main_v139 = (broadcastInDim S300000x64 ![0, 1] bcast_S300000x1_S300000x64_0_1 : (⟨S300000x1, .f32⟩ : BufTy).Contents (Elt F) → (⟨S300000x64, .f32⟩ : BufTy).Contents (Elt F)) (StableHlo.after (ops (F := F)) X main_v138) :=
  Cert.Lib.ssa_unary hW_ops 177 X _ _ _ rfl (by decide) (by decide)
theorem ssa_v140 : StableHlo.after (ops (F := F)) X main_v140 = (Host.divf : (⟨S300000x64, .f32⟩ : BufTy).Contents (Elt F) → (⟨S300000x64, .f32⟩ : BufTy).Contents (Elt F) → (⟨S300000x64, .f32⟩ : BufTy).Contents (Elt F)) (StableHlo.after (ops (F := F)) X main_v132) (StableHlo.after (ops (F := F)) X main_v139) :=
  Cert.Lib.ssa_binary hW_ops 178 X _ _ _ _ rfl (by decide) (by decide) (by decide)
theorem ssa_v141 : StableHlo.after (ops (F := F)) X main_v141 = ((extractStridedSlice S200000x64 ![0, 0] · slices_S300000x64_S200000x64_0_0) : (⟨S300000x64, .f32⟩ : BufTy).Contents (Elt F) → (⟨S200000x64, .f32⟩ : BufTy).Contents (Elt F)) (StableHlo.after (ops (F := F)) X main_v140) :=
  Cert.Lib.ssa_unary hW_ops 179 X _ _ _ rfl (by decide) (by decide)
theorem ssa_v142 : StableHlo.after (ops (F := F)) X main_v142 = ((extractStridedSlice S100000x64 ![200000, 0] · slices_S300000x64_S100000x64_200000_0) : (⟨S300000x64, .f32⟩ : BufTy).Contents (Elt F) → (⟨S100000x64, .f32⟩ : BufTy).Contents (Elt F)) (StableHlo.after (ops (F := F)) X main_v140) :=
  Cert.Lib.ssa_unary hW_ops 180 X _ _ _ rfl (by decide) (by decide)

theorem rv_v0 : StableHlo.after (ops (F := F)) X main_v0 = Cert.ReferenceIdeal.Read.val_main_v0 (F := F) (X main_arg2) (X main_arg11) := by
  rw [ssa_v0 X, keep_arg2 X, keep_arg11 X]
  rfl
theorem rv_v1 : StableHlo.after (ops (F := F)) X main_v1 = Cert.ReferenceIdeal.Read.val_main_v1 (F := F) (X main_arg12) := by
  rw [ssa_v1 X, keep_arg12 X]
  rfl
theorem rv_v2 : StableHlo.after (ops (F := F)) X main_v2 = Cert.ReferenceIdeal.Read.val_main_v2 (F := F) (X main_arg12) := by
  rw [ssa_v2 X, rv_v1 X]
  rfl
theorem rv_v3 : StableHlo.after (ops (F := F)) X main_v3 = Cert.ReferenceIdeal.Read.val_main_v3 (F := F) (X main_arg2) (X main_arg11) (X main_arg12) := by
  rw [ssa_v3 X, rv_v0 X, rv_v2 X]
  rfl
theorem rv_call0_cst : StableHlo.after (ops (F := F)) X main_call0_cst = Cert.ReferenceIdeal.Read.val_main_call0_cst (F := F) := by
  rw [ssa_call0_cst X]
  rfl
theorem rv_call0_v0 : StableHlo.after (ops (F := F)) X main_call0_v0 = Cert.ReferenceIdeal.Read.val_main_call0_v0 (F := F) := by
  rw [ssa_call0_v0 X, rv_call0_cst X]
  rfl
theorem rv_v4 : StableHlo.after (ops (F := F)) X main_v4 = Cert.ReferenceIdeal.Read.val_main_v4 (F := F) (X main_arg2) (X main_arg11) (X main_arg12) := by
  rw [ssa_v4 X, rv_v3 X, rv_call0_v0 X]
  rfl
theorem rv_v5 : StableHlo.after (ops (F := F)) X main_v5 = Cert.ReferenceIdeal.Read.val_main_v5 (F := F) (X main_arg2) (X main_arg11) (X main_arg12) (X main_arg13) := by
  rw [ssa_v5 X, rv_v4 X, keep_arg13 X]
  rfl
theorem rv_v6 : StableHlo.after (ops (F := F)) X main_v6 = Cert.ReferenceIdeal.Read.val_main_v6 (F := F) (X main_arg14) := by
  rw [ssa_v6 X, keep_arg14 X]
  rfl
theorem rv_v7 : StableHlo.after (ops (F := F)) X main_v7 = Cert.ReferenceIdeal.Read.val_main_v7 (F := F) (X main_arg14) := by
  rw [ssa_v7 X, rv_v6 X]
  rfl
theorem rv_v8 : StableHlo.after (ops (F := F)) X main_v8 = Cert.ReferenceIdeal.Read.val_main_v8 (F := F) (X main_arg2) (X main_arg11) (X main_arg12) (X main_arg13) (X main_arg14) := by
  rw [ssa_v8 X, rv_v5 X, rv_v7 X]
  rfl
theorem rv_v9 : StableHlo.after (ops (F := F)) X main_v9 = Cert.ReferenceIdeal.Read.val_main_v9 (F := F) (X main_arg2) (X main_arg11) (X main_arg12) (X main_arg13) (X main_arg14) := by
  rw [ssa_v9 X, rv_v8 X]
  rfl
theorem rv_v10 : StableHlo.after (ops (F := F)) X main_v10 = Cert.ReferenceIdeal.Read.val_main_v10 (F := F) (X main_arg2) (X main_arg11) (X main_arg12) (X main_arg13) (X main_arg14) := by
  rw [ssa_v10 X, rv_v9 X]
  rfl
theorem rv_cst : StableHlo.after (ops (F := F)) X main_cst = Cert.ReferenceIdeal.Read.val_main_cst (F := F) := by
  rw [ssa_cst X]
  rfl
theorem rv_v11 : StableHlo.after (ops (F := F)) X main_v11 = Cert.ReferenceIdeal.Read.val_main_v11 (F := F) := by
  rw [ssa_v11 X, rv_cst X]
  rfl
theorem rv_v12 : StableHlo.after (ops (F := F)) X main_v12 = Cert.ReferenceIdeal.Read.val_main_v12 (F := F) (X main_arg2) (X main_arg11) (X main_arg12) (X main_arg13) (X main_arg14) := by
  rw [ssa_v12 X, rv_v11 X, rv_v10 X]
  rfl
theorem rv_cst_0 : StableHlo.after (ops (F := F)) X main_cst_0 = Cert.ReferenceIdeal.Read.val_main_cst_0 (F := F) := by
  rw [ssa_cst_0 X]
  rfl
theorem rv_v13 : StableHlo.after (ops (F := F)) X main_v13 = Cert.ReferenceIdeal.Read.val_main_v13 (F := F) := by
  rw [ssa_v13 X, rv_cst_0 X]
  rfl
theorem rv_v14 : StableHlo.after (ops (F := F)) X main_v14 = Cert.ReferenceIdeal.Read.val_main_v14 (F := F) (X main_arg2) (X main_arg11) (X main_arg12) (X main_arg13) (X main_arg14) := by
  rw [ssa_v14 X, rv_v13 X, rv_v12 X]
  rfl
theorem rv_v15 : StableHlo.after (ops (F := F)) X main_v15 = Cert.ReferenceIdeal.Read.val_main_v15 (F := F) (X main_arg2) (X main_arg11) (X main_arg12) (X main_arg13) (X main_arg14) := by
  rw [ssa_v15 X, rv_v14 X]
  rfl
theorem rv_cst_1 : StableHlo.after (ops (F := F)) X main_cst_1 = Cert.ReferenceIdeal.Read.val_main_cst_1 (F := F) := by
  rw [ssa_cst_1 X]
  rfl
theorem rv_v16 : StableHlo.after (ops (F := F)) X main_v16 = Cert.ReferenceIdeal.Read.val_main_v16 (F := F) := by
  rw [ssa_v16 X, rv_cst_1 X]
  rfl
theorem rv_v17 : StableHlo.after (ops (F := F)) X main_v17 = Cert.ReferenceIdeal.Read.val_main_v17 (F := F) (X main_arg2) (X main_arg11) (X main_arg12) (X main_arg13) (X main_arg14) := by
  rw [ssa_v17 X, rv_v15 X, rv_v16 X]
  rfl
theorem rv_c : StableHlo.after (ops (F := F)) X main_c = Cert.ReferenceIdeal.Read.val_main_c (F := F) := by
  rw [ssa_c X]
  rfl
theorem rv_v18 : StableHlo.after (ops (F := F)) X main_v18 = Cert.ReferenceIdeal.Read.val_main_v18 (F := F) := by
  rw [ssa_v18 X, rv_c X]
  rfl
theorem rv_v19 : StableHlo.after (ops (F := F)) X main_v19 = Cert.ReferenceIdeal.Read.val_main_v19 (F := F) (X main_arg1) := by
  rw [ssa_v19 X, keep_arg1 X, rv_v18 X]
  rfl
theorem rv_v20 : StableHlo.after (ops (F := F)) X main_v20 = Cert.ReferenceIdeal.Read.val_main_v20 (F := F) := by
  rw [ssa_v20 X]
  rfl
theorem rv_v21 : StableHlo.after (ops (F := F)) X main_v21 = Cert.ReferenceIdeal.Read.val_main_v21 (F := F) (X main_arg0) (X main_arg1) := by
  rw [ssa_v21 X, keep_arg0 X, rv_v19 X, rv_v20 X]
  rfl
theorem rv_v22 : StableHlo.after (ops (F := F)) X main_v22 = Cert.ReferenceIdeal.Read.val_main_v22 (F := F) (X main_arg0) (X main_arg1) := by
  rw [ssa_v22 X, rv_v19 X, keep_arg0 X, rv_v20 X]
  rfl
theorem rv_cst_2 : StableHlo.after (ops (F := F)) X main_cst_2 = Cert.ReferenceIdeal.Read.val_main_cst_2 (F := F) := by
  rw [ssa_cst_2 X]
  rfl
theorem rv_v23 : StableHlo.after (ops (F := F)) X main_v23 = Cert.ReferenceIdeal.Read.val_main_v23 (F := F) := by
  rw [ssa_v23 X, rv_cst_2 X]
  rfl
theorem rv_v24 : StableHlo.after (ops (F := F)) X main_v24 = Cert.ReferenceIdeal.Read.val_main_v24 (F := F) (X main_arg2) (X main_arg11) (X main_arg12) (X main_arg13) (X main_arg14) := by
  rw [ssa_v24 X, rv_v17 X, rv_v23 X]
  rfl
theorem rv_cst_3 : StableHlo.after (ops (F := F)) X main_cst_3 = Cert.ReferenceIdeal.Read.val_main_cst_3 (F := F) := by
  rw [ssa_cst_3 X]
  rfl
theorem rv_v25 : StableHlo.after (ops (F := F)) X main_v25 = Cert.ReferenceIdeal.Read.val_main_v25 (F := F) := by
  rw [ssa_v25 X, rv_cst_3 X]
  rfl
theorem rv_v26 : StableHlo.after (ops (F := F)) X main_v26 = Cert.ReferenceIdeal.Read.val_main_v26 (F := F) (X main_arg0) (X main_arg1) := by
  rw [ssa_v26 X, rv_v22 X]
  rfl
theorem rv_v27 : StableHlo.after (ops (F := F)) X main_v27 = Cert.ReferenceIdeal.Read.val_main_v27 (F := F) (X main_arg0) (X main_arg1) (X main_arg2) (X main_arg11) (X main_arg12) (X main_arg13) (X main_arg14) := by
  rw [ssa_v27 X, rv_v25 X, rv_v26 X, rv_v24 X]
  rfl
theorem rv_cst_4 : StableHlo.after (ops (F := F)) X main_cst_4 = Cert.ReferenceIdeal.Read.val_main_cst_4 (F := F) := by
  rw [ssa_cst_4 X]
  rfl
theorem rv_v28 : StableHlo.after (ops (F := F)) X main_v28 = Cert.ReferenceIdeal.Read.val_main_v28 (F := F) := by
  rw [ssa_v28 X, rv_cst_4 X]
  rfl
theorem rv_v29 : StableHlo.after (ops (F := F)) X main_v29 = Cert.ReferenceIdeal.Read.val_main_v29 (F := F) (X main_arg0) (X main_arg1) (X main_arg2) (X main_arg11) (X main_arg12) (X main_arg13) (X main_arg14) := by
  rw [ssa_v29 X, rv_v27 X, rv_v28 X]
  rfl
theorem rv_v30 : StableHlo.after (ops (F := F)) X main_v30 = Cert.ReferenceIdeal.Read.val_main_v30 (F := F) (X main_arg0) (X main_arg1) (X main_arg2) (X main_arg11) (X main_arg12) (X main_arg13) (X main_arg14) := by
  rw [ssa_v30 X, rv_v27 X]
  rfl
theorem rv_cst_5 : StableHlo.after (ops (F := F)) X main_cst_5 = Cert.ReferenceIdeal.Read.val_main_cst_5 (F := F) := by
  rw [ssa_cst_5 X]
  rfl
theorem rv_call1_v0 : StableHlo.after (ops (F := F)) X main_call1_v0 = Cert.ReferenceIdeal.Read.val_main_call1_v0 (F := F) := by
  rw [ssa_call1_v0 X, rv_cst_5 X]
  rfl
theorem rv_call1_v1 : StableHlo.after (ops (F := F)) X main_call1_v1 = Cert.ReferenceIdeal.Read.val_main_call1_v1 (F := F) := by
  rw [ssa_call1_v1 X, rv_call1_v0 X]
  rfl
theorem rv_v31 : StableHlo.after (ops (F := F)) X main_v31 = Cert.ReferenceIdeal.Read.val_main_v31 (F := F) (X main_arg0) (X main_arg1) (X main_arg2) (X main_arg11) (X main_arg12) (X main_arg13) (X main_arg14) := by
  rw [ssa_v31 X, rv_v29 X, rv_v30 X, rv_call1_v1 X]
  rfl
theorem rv_c_6 : StableHlo.after (ops (F := F)) X main_c_6 = Cert.ReferenceIdeal.Read.val_main_c_6 (F := F) := by
  rw [ssa_c_6 X]
  rfl
theorem rv_v32 : StableHlo.after (ops (F := F)) X main_v32 = Cert.ReferenceIdeal.Read.val_main_v32 (F := F) := by
  rw [ssa_v32 X, rv_c_6 X]
  rfl
theorem rv_v33 : StableHlo.after (ops (F := F)) X main_v33 = Cert.ReferenceIdeal.Read.val_main_v33 (F := F) (X main_arg0) (X main_arg1) := by
  rw [ssa_v33 X, rv_v21 X, rv_v32 X]
  rfl
theorem rv_c_7 : StableHlo.after (ops (F := F)) X main_c_7 = Cert.ReferenceIdeal.Read.val_main_c_7 (F := F) := by
  rw [ssa_c_7 X]
  rfl
theorem rv_v34 : StableHlo.after (ops (F := F)) X main_v34 = Cert.ReferenceIdeal.Read.val_main_v34 (F := F) := by
  rw [ssa_v34 X, rv_c_7 X]
  rfl
theorem rv_v35 : StableHlo.after (ops (F := F)) X main_v35 = Cert.ReferenceIdeal.Read.val_main_v35 (F := F) (X main_arg0) (X main_arg1) := by
  rw [ssa_v35 X, rv_v21 X, rv_v34 X]
  rfl
theorem rv_v36 : StableHlo.after (ops (F := F)) X main_v36 = Cert.ReferenceIdeal.Read.val_main_v36 (F := F) (X main_arg0) (X main_arg1) := by
  rw [ssa_v36 X, rv_v33 X, rv_v35 X, rv_v21 X]
  rfl
theorem rv_v37 : StableHlo.after (ops (F := F)) X main_v37 = Cert.ReferenceIdeal.Read.val_main_v37 (F := F) (X main_arg0) (X main_arg1) := by
  rw [ssa_v37 X, rv_v36 X]
  rfl
theorem rv_v38 : StableHlo.after (ops (F := F)) X main_v38 = Cert.ReferenceIdeal.Read.val_main_v38 (F := F) (X main_arg0) (X main_arg1) (X main_arg2) (X main_arg11) (X main_arg12) (X main_arg13) (X main_arg14) := by
  rw [ssa_v38 X, rv_v31 X, rv_v37 X]
  rfl
theorem rv_v39 : StableHlo.after (ops (F := F)) X main_v39 = Cert.ReferenceIdeal.Read.val_main_v39 (F := F) (X main_arg0) (X main_arg1) (X main_arg2) (X main_arg11) (X main_arg12) (X main_arg13) (X main_arg14) := by
  rw [ssa_v39 X, rv_v38 X, rv_v24 X]
  rfl
theorem rv_c_8 : StableHlo.after (ops (F := F)) X main_c_8 = Cert.ReferenceIdeal.Read.val_main_c_8 (F := F) := by
  rw [ssa_c_8 X]
  rfl
theorem rv_v40 : StableHlo.after (ops (F := F)) X main_v40 = Cert.ReferenceIdeal.Read.val_main_v40 (F := F) := by
  rw [ssa_v40 X, rv_c_8 X]
  rfl
theorem rv_v41 : StableHlo.after (ops (F := F)) X main_v41 = Cert.ReferenceIdeal.Read.val_main_v41 (F := F) (X main_arg0) (X main_arg1) := by
  rw [ssa_v41 X, rv_v22 X, rv_v40 X]
  rfl
theorem rv_c_9 : StableHlo.after (ops (F := F)) X main_c_9 = Cert.ReferenceIdeal.Read.val_main_c_9 (F := F) := by
  rw [ssa_c_9 X]
  rfl
theorem rv_v42 : StableHlo.after (ops (F := F)) X main_v42 = Cert.ReferenceIdeal.Read.val_main_v42 (F := F) := by
  rw [ssa_v42 X, rv_c_9 X]
  rfl
theorem rv_v43 : StableHlo.after (ops (F := F)) X main_v43 = Cert.ReferenceIdeal.Read.val_main_v43 (F := F) (X main_arg0) (X main_arg1) := by
  rw [ssa_v43 X, rv_v22 X, rv_v42 X]
  rfl
theorem rv_v44 : StableHlo.after (ops (F := F)) X main_v44 = Cert.ReferenceIdeal.Read.val_main_v44 (F := F) (X main_arg0) (X main_arg1) := by
  rw [ssa_v44 X, rv_v41 X, rv_v43 X, rv_v22 X]
  rfl
theorem rv_v45 : StableHlo.after (ops (F := F)) X main_v45 = Cert.ReferenceIdeal.Read.val_main_v45 (F := F) (X main_arg0) (X main_arg1) := by
  rw [ssa_v45 X, rv_v44 X]
  rfl
theorem rv_v46 : StableHlo.after (ops (F := F)) X main_v46 = Cert.ReferenceIdeal.Read.val_main_v46 (F := F) (X main_arg0) (X main_arg1) (X main_arg2) (X main_arg11) (X main_arg12) (X main_arg13) (X main_arg14) := by
  rw [ssa_v46 X, rv_v31 X, rv_v45 X]
  rfl
theorem rv_v47 : StableHlo.after (ops (F := F)) X main_v47 = Cert.ReferenceIdeal.Read.val_main_v47 (F := F) (X main_arg0) (X main_arg1) (X main_arg2) (X main_arg11) (X main_arg12) (X main_arg13) (X main_arg14) := by
  rw [ssa_v47 X, rv_v39 X, rv_v46 X]
  rfl
theorem rv_v48 : StableHlo.after (ops (F := F)) X main_v48 = Cert.ReferenceIdeal.Read.val_main_v48 (F := F) (X main_arg3) := by
  rw [ssa_v48 X, keep_arg3 X]
  rfl
theorem rv_cst_10 : StableHlo.after (ops (F := F)) X main_cst_10 = Cert.ReferenceIdeal.Read.val_main_cst_10 (F := F) := by
  rw [ssa_cst_10 X]
  rfl
theorem rv_v49 : StableHlo.after (ops (F := F)) X main_v49 = Cert.ReferenceIdeal.Read.val_main_v49 (F := F) (X main_arg3) := by
  rw [ssa_v49 X, rv_v48 X, rv_cst_10 X]
  rfl
theorem rv_v50 : StableHlo.after (ops (F := F)) X main_v50 = Cert.ReferenceIdeal.Read.val_main_v50 (F := F) (X main_arg3) := by
  rw [ssa_v50 X, rv_v49 X]
  rfl
theorem rv_v51 : StableHlo.after (ops (F := F)) X main_v51 = Cert.ReferenceIdeal.Read.val_main_v51 (F := F) (X main_arg3) := by
  rw [ssa_v51 X, rv_v50 X]
  rfl
theorem rv_cst_11 : StableHlo.after (ops (F := F)) X main_cst_11 = Cert.ReferenceIdeal.Read.val_main_cst_11 (F := F) := by
  rw [ssa_cst_11 X]
  rfl
theorem rv_v52 : StableHlo.after (ops (F := F)) X main_v52 = Cert.ReferenceIdeal.Read.val_main_v52 (F := F) := by
  rw [ssa_v52 X, rv_cst_11 X]
  rfl
theorem rv_v53 : StableHlo.after (ops (F := F)) X main_v53 = Cert.ReferenceIdeal.Read.val_main_v53 (F := F) (X main_arg3) := by
  rw [ssa_v53 X, rv_v51 X, rv_v52 X]
  rfl
theorem rv_v54 : StableHlo.after (ops (F := F)) X main_v54 = Cert.ReferenceIdeal.Read.val_main_v54 (F := F) (X main_arg3) := by
  rw [ssa_v54 X, rv_v53 X]
  rfl
theorem rv_v55 : StableHlo.after (ops (F := F)) X main_v55 = Cert.ReferenceIdeal.Read.val_main_v55 (F := F) (X main_arg3) := by
  rw [ssa_v55 X, keep_arg3 X, rv_v54 X]
  rfl
theorem rv_c_12 : StableHlo.after (ops (F := F)) X main_c_12 = Cert.ReferenceIdeal.Read.val_main_c_12 (F := F) := by
  rw [ssa_c_12 X]
  rfl
theorem rv_v56 : StableHlo.after (ops (F := F)) X main_v56 = Cert.ReferenceIdeal.Read.val_main_v56 (F := F) := by
  rw [ssa_v56 X, rv_c_12 X]
  rfl
theorem rv_v57 : StableHlo.after (ops (F := F)) X main_v57 = Cert.ReferenceIdeal.Read.val_main_v57 (F := F) (X main_arg7) := by
  rw [ssa_v57 X, keep_arg7 X, rv_v56 X]
  rfl
theorem rv_c_13 : StableHlo.after (ops (F := F)) X main_c_13 = Cert.ReferenceIdeal.Read.val_main_c_13 (F := F) := by
  rw [ssa_c_13 X]
  rfl
theorem rv_v58 : StableHlo.after (ops (F := F)) X main_v58 = Cert.ReferenceIdeal.Read.val_main_v58 (F := F) := by
  rw [ssa_v58 X, rv_c_13 X]
  rfl
theorem rv_v59 : StableHlo.after (ops (F := F)) X main_v59 = Cert.ReferenceIdeal.Read.val_main_v59 (F := F) (X main_arg7) := by
  rw [ssa_v59 X, keep_arg7 X, rv_v58 X]
  rfl
theorem rv_v60 : StableHlo.after (ops (F := F)) X main_v60 = Cert.ReferenceIdeal.Read.val_main_v60 (F := F) (X main_arg7) := by
  rw [ssa_v60 X, rv_v57 X, rv_v59 X, keep_arg7 X]
  rfl
theorem rv_v61 : StableHlo.after (ops (F := F)) X main_v61 = Cert.ReferenceIdeal.Read.val_main_v61 (F := F) (X main_arg7) := by
  rw [ssa_v61 X, rv_v60 X]
  rfl
theorem rv_v62 : StableHlo.after (ops (F := F)) X main_v62 = Cert.ReferenceIdeal.Read.val_main_v62 (F := F) (X main_arg4) (X main_arg7) := by
  rw [ssa_v62 X, keep_arg4 X, rv_v61 X]
  rfl
theorem rv_c_14 : StableHlo.after (ops (F := F)) X main_c_14 = Cert.ReferenceIdeal.Read.val_main_c_14 (F := F) := by
  rw [ssa_c_14 X]
  rfl
theorem rv_v63 : StableHlo.after (ops (F := F)) X main_v63 = Cert.ReferenceIdeal.Read.val_main_v63 (F := F) := by
  rw [ssa_v63 X, rv_c_14 X]
  rfl
theorem rv_v64 : StableHlo.after (ops (F := F)) X main_v64 = Cert.ReferenceIdeal.Read.val_main_v64 (F := F) (X main_arg8) := by
  rw [ssa_v64 X, keep_arg8 X, rv_v63 X]
  rfl
theorem rv_c_15 : StableHlo.after (ops (F := F)) X main_c_15 = Cert.ReferenceIdeal.Read.val_main_c_15 (F := F) := by
  rw [ssa_c_15 X]
  rfl
theorem rv_v65 : StableHlo.after (ops (F := F)) X main_v65 = Cert.ReferenceIdeal.Read.val_main_v65 (F := F) := by
  rw [ssa_v65 X, rv_c_15 X]
  rfl
theorem rv_v66 : StableHlo.after (ops (F := F)) X main_v66 = Cert.ReferenceIdeal.Read.val_main_v66 (F := F) (X main_arg8) := by
  rw [ssa_v66 X, keep_arg8 X, rv_v65 X]
  rfl
theorem rv_v67 : StableHlo.after (ops (F := F)) X main_v67 = Cert.ReferenceIdeal.Read.val_main_v67 (F := F) (X main_arg8) := by
  rw [ssa_v67 X, rv_v64 X, rv_v66 X, keep_arg8 X]
  rfl
theorem rv_v68 : StableHlo.after (ops (F := F)) X main_v68 = Cert.ReferenceIdeal.Read.val_main_v68 (F := F) (X main_arg8) := by
  rw [ssa_v68 X, rv_v67 X]
  rfl
theorem rv_v69 : StableHlo.after (ops (F := F)) X main_v69 = Cert.ReferenceIdeal.Read.val_main_v69 (F := F) (X main_arg5) (X main_arg8) := by
  rw [ssa_v69 X, keep_arg5 X, rv_v68 X]
  rfl
theorem rv_v70 : StableHlo.after (ops (F := F)) X main_v70 = Cert.ReferenceIdeal.Read.val_main_v70 (F := F) (X main_arg4) (X main_arg5) (X main_arg7) (X main_arg8) := by
  rw [ssa_v70 X, rv_v62 X, rv_v69 X]
  rfl
theorem rv_cst_16 : StableHlo.after (ops (F := F)) X main_cst_16 = Cert.ReferenceIdeal.Read.val_main_cst_16 (F := F) := by
  rw [ssa_cst_16 X]
  rfl
theorem rv_v71 : StableHlo.after (ops (F := F)) X main_v71 = Cert.ReferenceIdeal.Read.val_main_v71 (F := F) := by
  rw [ssa_v71 X, rv_cst_16 X]
  rfl
theorem rv_v72 : StableHlo.after (ops (F := F)) X main_v72 = Cert.ReferenceIdeal.Read.val_main_v72 (F := F) (X main_arg4) (X main_arg5) (X main_arg7) (X main_arg8) := by
  rw [ssa_v72 X, rv_v70 X, rv_v71 X]
  rfl
theorem rv_cst_17 : StableHlo.after (ops (F := F)) X main_cst_17 = Cert.ReferenceIdeal.Read.val_main_cst_17 (F := F) := by
  rw [ssa_cst_17 X]
  rfl
theorem rv_v73 : StableHlo.after (ops (F := F)) X main_v73 = Cert.ReferenceIdeal.Read.val_main_v73 (F := F) := by
  rw [ssa_v73 X, rv_cst_17 X]
  rfl
theorem rv_v74 : StableHlo.after (ops (F := F)) X main_v74 = Cert.ReferenceIdeal.Read.val_main_v74 (F := F) (X main_arg6) := by
  rw [ssa_v74 X, keep_arg6 X, rv_v73 X]
  rfl
theorem rv_v75 : StableHlo.after (ops (F := F)) X main_v75 = Cert.ReferenceIdeal.Read.val_main_v75 (F := F) (X main_arg4) (X main_arg5) (X main_arg6) (X main_arg7) (X main_arg8) := by
  rw [ssa_v75 X, rv_v74 X, rv_v72 X]
  rfl
theorem rv_v76 : StableHlo.after (ops (F := F)) X main_v76 = Cert.ReferenceIdeal.Read.val_main_v76 (F := F) (X main_arg4) (X main_arg5) (X main_arg6) (X main_arg7) (X main_arg8) (X main_arg9) := by
  rw [ssa_v76 X, rv_v75 X, keep_arg9 X]
  rfl
theorem rv_v77 : StableHlo.after (ops (F := F)) X main_v77 = Cert.ReferenceIdeal.Read.val_main_v77 (F := F) (X main_arg10) := by
  rw [ssa_v77 X, keep_arg10 X]
  rfl
theorem rv_v78 : StableHlo.after (ops (F := F)) X main_v78 = Cert.ReferenceIdeal.Read.val_main_v78 (F := F) (X main_arg10) := by
  rw [ssa_v78 X, rv_v77 X]
  rfl
theorem rv_v79 : StableHlo.after (ops (F := F)) X main_v79 = Cert.ReferenceIdeal.Read.val_main_v79 (F := F) (X main_arg4) (X main_arg5) (X main_arg6) (X main_arg7) (X main_arg8) (X main_arg9) (X main_arg10) := by
  rw [ssa_v79 X, rv_v76 X, rv_v78 X]
  rfl
theorem rv_v80 : StableHlo.after (ops (F := F)) X main_v80 = Cert.ReferenceIdeal.Read.val_main_v80 (F := F) (X main_arg4) (X main_arg5) (X main_arg6) (X main_arg7) (X main_arg8) (X main_arg9) (X main_arg10) := by
  rw [ssa_v80 X, rv_v79 X]
  rfl
theorem rv_cst_18 : StableHlo.after (ops (F := F)) X main_cst_18 = Cert.ReferenceIdeal.Read.val_main_cst_18 (F := F) := by
  rw [ssa_cst_18 X]
  rfl
theorem rv_v81 : StableHlo.after (ops (F := F)) X main_v81 = Cert.ReferenceIdeal.Read.val_main_v81 (F := F) (X main_arg4) (X main_arg5) (X main_arg6) (X main_arg7) (X main_arg8) (X main_arg9) (X main_arg10) := by
  rw [ssa_v81 X, rv_v80 X, rv_cst_18 X]
  rfl
theorem rv_v82 : StableHlo.after (ops (F := F)) X main_v82 = Cert.ReferenceIdeal.Read.val_main_v82 (F := F) (X main_arg4) (X main_arg5) (X main_arg6) (X main_arg7) (X main_arg8) (X main_arg9) (X main_arg10) := by
  rw [ssa_v82 X, rv_v81 X]
  rfl
theorem rv_v83 : StableHlo.after (ops (F := F)) X main_v83 = Cert.ReferenceIdeal.Read.val_main_v83 (F := F) (X main_arg4) (X main_arg5) (X main_arg6) (X main_arg7) (X main_arg8) (X main_arg9) (X main_arg10) := by
  rw [ssa_v83 X, rv_v82 X]
  rfl
theorem rv_cst_19 : StableHlo.after (ops (F := F)) X main_cst_19 = Cert.ReferenceIdeal.Read.val_main_cst_19 (F := F) := by
  rw [ssa_cst_19 X]
  rfl
theorem rv_v84 : StableHlo.after (ops (F := F)) X main_v84 = Cert.ReferenceIdeal.Read.val_main_v84 (F := F) := by
  rw [ssa_v84 X, rv_cst_19 X]
  rfl
theorem rv_v85 : StableHlo.after (ops (F := F)) X main_v85 = Cert.ReferenceIdeal.Read.val_main_v85 (F := F) (X main_arg4) (X main_arg5) (X main_arg6) (X main_arg7) (X main_arg8) (X main_arg9) (X main_arg10) := by
  rw [ssa_v85 X, rv_v83 X, rv_v84 X]
  rfl
theorem rv_v86 : StableHlo.after (ops (F := F)) X main_v86 = Cert.ReferenceIdeal.Read.val_main_v86 (F := F) (X main_arg4) (X main_arg5) (X main_arg6) (X main_arg7) (X main_arg8) (X main_arg9) (X main_arg10) := by
  rw [ssa_v86 X, rv_v85 X]
  rfl
theorem rv_v87 : StableHlo.after (ops (F := F)) X main_v87 = Cert.ReferenceIdeal.Read.val_main_v87 (F := F) (X main_arg4) (X main_arg5) (X main_arg6) (X main_arg7) (X main_arg8) (X main_arg9) (X main_arg10) := by
  rw [ssa_v87 X, rv_v79 X, rv_v86 X]
  rfl
theorem rv_v88 : StableHlo.after (ops (F := F)) X main_v88 = Cert.ReferenceIdeal.Read.val_main_v88 (F := F) (X main_arg3) (X main_arg4) (X main_arg5) (X main_arg6) (X main_arg7) (X main_arg8) (X main_arg9) (X main_arg10) := by
  rw [ssa_v88 X, rv_v55 X, rv_v87 X]
  rfl
theorem rv_v89 : StableHlo.after (ops (F := F)) X main_v89 = Cert.ReferenceIdeal.Read.val_main_v89 (F := F) (X main_arg0) (X main_arg1) (X main_arg2) (X main_arg11) (X main_arg12) (X main_arg13) (X main_arg14) := by
  rw [ssa_v89 X, rv_v47 X]
  rfl
theorem rv_c_20 : StableHlo.after (ops (F := F)) X main_c_20 = Cert.ReferenceIdeal.Read.val_main_c_20 (F := F) := by
  rw [ssa_c_20 X]
  rfl
theorem rv_v90 : StableHlo.after (ops (F := F)) X main_v90 = Cert.ReferenceIdeal.Read.val_main_v90 (F := F) := by
  rw [ssa_v90 X, rv_c_20 X]
  rfl
theorem rv_v91 : StableHlo.after (ops (F := F)) X main_v91 = Cert.ReferenceIdeal.Read.val_main_v91 (F := F) (X main_arg0) (X main_arg1) := by
  rw [ssa_v91 X, rv_v21 X, rv_v90 X]
  rfl
theorem rv_c_21 : StableHlo.after (ops (F := F)) X main_c_21 = Cert.ReferenceIdeal.Read.val_main_c_21 (F := F) := by
  rw [ssa_c_21 X]
  rfl
theorem rv_v92 : StableHlo.after (ops (F := F)) X main_v92 = Cert.ReferenceIdeal.Read.val_main_v92 (F := F) := by
  rw [ssa_v92 X, rv_c_21 X]
  rfl
theorem rv_v93 : StableHlo.after (ops (F := F)) X main_v93 = Cert.ReferenceIdeal.Read.val_main_v93 (F := F) (X main_arg0) (X main_arg1) := by
  rw [ssa_v93 X, rv_v21 X, rv_v92 X]
  rfl
theorem rv_v94 : StableHlo.after (ops (F := F)) X main_v94 = Cert.ReferenceIdeal.Read.val_main_v94 (F := F) (X main_arg0) (X main_arg1) := by
  rw [ssa_v94 X, rv_v91 X, rv_v93 X, rv_v21 X]
  rfl
theorem rv_v95 : StableHlo.after (ops (F := F)) X main_v95 = Cert.ReferenceIdeal.Read.val_main_v95 (F := F) (X main_arg0) (X main_arg1) := by
  rw [ssa_v95 X, rv_v94 X]
  rfl
theorem rv_v96 : StableHlo.after (ops (F := F)) X main_v96 = Cert.ReferenceIdeal.Read.val_main_v96 (F := F) (X main_arg0) (X main_arg1) (X main_arg3) (X main_arg4) (X main_arg5) (X main_arg6) (X main_arg7) (X main_arg8) (X main_arg9) (X main_arg10) := by
  rw [ssa_v96 X, rv_v88 X, rv_v95 X]
  rfl
theorem rv_v97 : StableHlo.after (ops (F := F)) X main_v97 = Cert.ReferenceIdeal.Read.val_main_v97 (F := F) (X main_arg0) (X main_arg1) (X main_arg2) (X main_arg11) (X main_arg12) (X main_arg13) (X main_arg14) := by
  rw [ssa_v97 X, rv_v89 X]
  rfl
theorem rv_v98 : StableHlo.after (ops (F := F)) X main_v98 = Cert.ReferenceIdeal.Read.val_main_v98 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v98 X, rv_v97 X, rv_v96 X]
  rfl
theorem rv_cst_22 : StableHlo.after (ops (F := F)) X main_cst_22 = Cert.ReferenceIdeal.Read.val_main_cst_22 (F := F) := by
  rw [ssa_cst_22 X]
  rfl
theorem rv_v99 : StableHlo.after (ops (F := F)) X main_v99 = Cert.ReferenceIdeal.Read.val_main_v99 (F := F) := by
  rw [ssa_v99 X, rv_cst_22 X]
  rfl
theorem rv_v100 : StableHlo.after (ops (F := F)) X main_v100 = Cert.ReferenceIdeal.Read.val_main_v100 (F := F) (X main_arg0) (X main_arg1) := by
  rw [ssa_v100 X, rv_v22 X]
  rfl
theorem rv_v101 : StableHlo.after (ops (F := F)) X main_v101 = Cert.ReferenceIdeal.Read.val_main_v101 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v101 X, rv_v99 X, rv_v100 X, rv_v98 X]
  rfl
theorem rv_v102 : StableHlo.after (ops (F := F)) X main_v102 = Cert.ReferenceIdeal.Read.val_main_v102 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v102 X, rv_v88 X, rv_v101 X]
  rfl
theorem rv_v103 : StableHlo.after (ops (F := F)) X main_v103 = Cert.ReferenceIdeal.Read.val_main_v103 (F := F) (X main_arg0) (X main_arg1) (X main_arg2) (X main_arg11) (X main_arg12) (X main_arg13) (X main_arg14) := by
  rw [ssa_v103 X, rv_v47 X]
  rfl
theorem rv_c_23 : StableHlo.after (ops (F := F)) X main_c_23 = Cert.ReferenceIdeal.Read.val_main_c_23 (F := F) := by
  rw [ssa_c_23 X]
  rfl
theorem rv_v104 : StableHlo.after (ops (F := F)) X main_v104 = Cert.ReferenceIdeal.Read.val_main_v104 (F := F) := by
  rw [ssa_v104 X, rv_c_23 X]
  rfl
theorem rv_v105 : StableHlo.after (ops (F := F)) X main_v105 = Cert.ReferenceIdeal.Read.val_main_v105 (F := F) (X main_arg0) (X main_arg1) := by
  rw [ssa_v105 X, rv_v21 X, rv_v104 X]
  rfl
theorem rv_c_24 : StableHlo.after (ops (F := F)) X main_c_24 = Cert.ReferenceIdeal.Read.val_main_c_24 (F := F) := by
  rw [ssa_c_24 X]
  rfl
theorem rv_v106 : StableHlo.after (ops (F := F)) X main_v106 = Cert.ReferenceIdeal.Read.val_main_v106 (F := F) := by
  rw [ssa_v106 X, rv_c_24 X]
  rfl
theorem rv_v107 : StableHlo.after (ops (F := F)) X main_v107 = Cert.ReferenceIdeal.Read.val_main_v107 (F := F) (X main_arg0) (X main_arg1) := by
  rw [ssa_v107 X, rv_v21 X, rv_v106 X]
  rfl
theorem rv_v108 : StableHlo.after (ops (F := F)) X main_v108 = Cert.ReferenceIdeal.Read.val_main_v108 (F := F) (X main_arg0) (X main_arg1) := by
  rw [ssa_v108 X, rv_v105 X, rv_v107 X, rv_v21 X]
  rfl
theorem rv_v109 : StableHlo.after (ops (F := F)) X main_v109 = Cert.ReferenceIdeal.Read.val_main_v109 (F := F) (X main_arg0) (X main_arg1) := by
  rw [ssa_v109 X, rv_v108 X]
  rfl
theorem rv_v110 : StableHlo.after (ops (F := F)) X main_v110 = Cert.ReferenceIdeal.Read.val_main_v110 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v110 X, rv_v101 X, rv_v109 X]
  rfl
theorem rv_v111 : StableHlo.after (ops (F := F)) X main_v111 = Cert.ReferenceIdeal.Read.val_main_v111 (F := F) (X main_arg0) (X main_arg1) (X main_arg2) (X main_arg11) (X main_arg12) (X main_arg13) (X main_arg14) := by
  rw [ssa_v111 X, rv_v103 X]
  rfl
theorem rv_v112 : StableHlo.after (ops (F := F)) X main_v112 = Cert.ReferenceIdeal.Read.val_main_v112 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v112 X, rv_v111 X, rv_v110 X]
  rfl
theorem rv_cst_25 : StableHlo.after (ops (F := F)) X main_cst_25 = Cert.ReferenceIdeal.Read.val_main_cst_25 (F := F) := by
  rw [ssa_cst_25 X]
  rfl
theorem rv_v113 : StableHlo.after (ops (F := F)) X main_v113 = Cert.ReferenceIdeal.Read.val_main_v113 (F := F) := by
  rw [ssa_v113 X, rv_cst_25 X]
  rfl
theorem rv_v114 : StableHlo.after (ops (F := F)) X main_v114 = Cert.ReferenceIdeal.Read.val_main_v114 (F := F) (X main_arg0) (X main_arg1) := by
  rw [ssa_v114 X, rv_v22 X]
  rfl
theorem rv_v115 : StableHlo.after (ops (F := F)) X main_v115 = Cert.ReferenceIdeal.Read.val_main_v115 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v115 X, rv_v113 X, rv_v114 X, rv_v112 X]
  rfl
theorem rv_v116 : StableHlo.after (ops (F := F)) X main_v116 = Cert.ReferenceIdeal.Read.val_main_v116 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v116 X, rv_v102 X, rv_v115 X]
  rfl
theorem rv_v117 : StableHlo.after (ops (F := F)) X main_v117 = Cert.ReferenceIdeal.Read.val_main_v117 (F := F) (X main_arg0) (X main_arg1) (X main_arg2) (X main_arg11) (X main_arg12) (X main_arg13) (X main_arg14) := by
  rw [ssa_v117 X, rv_v47 X]
  rfl
theorem rv_c_26 : StableHlo.after (ops (F := F)) X main_c_26 = Cert.ReferenceIdeal.Read.val_main_c_26 (F := F) := by
  rw [ssa_c_26 X]
  rfl
theorem rv_v118 : StableHlo.after (ops (F := F)) X main_v118 = Cert.ReferenceIdeal.Read.val_main_v118 (F := F) := by
  rw [ssa_v118 X, rv_c_26 X]
  rfl
theorem rv_v119 : StableHlo.after (ops (F := F)) X main_v119 = Cert.ReferenceIdeal.Read.val_main_v119 (F := F) (X main_arg0) (X main_arg1) := by
  rw [ssa_v119 X, rv_v21 X, rv_v118 X]
  rfl
theorem rv_c_27 : StableHlo.after (ops (F := F)) X main_c_27 = Cert.ReferenceIdeal.Read.val_main_c_27 (F := F) := by
  rw [ssa_c_27 X]
  rfl
theorem rv_v120 : StableHlo.after (ops (F := F)) X main_v120 = Cert.ReferenceIdeal.Read.val_main_v120 (F := F) := by
  rw [ssa_v120 X, rv_c_27 X]
  rfl
theorem rv_v121 : StableHlo.after (ops (F := F)) X main_v121 = Cert.ReferenceIdeal.Read.val_main_v121 (F := F) (X main_arg0) (X main_arg1) := by
  rw [ssa_v121 X, rv_v21 X, rv_v120 X]
  rfl
theorem rv_v122 : StableHlo.after (ops (F := F)) X main_v122 = Cert.ReferenceIdeal.Read.val_main_v122 (F := F) (X main_arg0) (X main_arg1) := by
  rw [ssa_v122 X, rv_v119 X, rv_v121 X, rv_v21 X]
  rfl
theorem rv_v123 : StableHlo.after (ops (F := F)) X main_v123 = Cert.ReferenceIdeal.Read.val_main_v123 (F := F) (X main_arg0) (X main_arg1) := by
  rw [ssa_v123 X, rv_v122 X]
  rfl
theorem rv_v124 : StableHlo.after (ops (F := F)) X main_v124 = Cert.ReferenceIdeal.Read.val_main_v124 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v124 X, rv_v115 X, rv_v123 X]
  rfl
theorem rv_v125 : StableHlo.after (ops (F := F)) X main_v125 = Cert.ReferenceIdeal.Read.val_main_v125 (F := F) (X main_arg0) (X main_arg1) (X main_arg2) (X main_arg11) (X main_arg12) (X main_arg13) (X main_arg14) := by
  rw [ssa_v125 X, rv_v117 X]
  rfl
theorem rv_v126 : StableHlo.after (ops (F := F)) X main_v126 = Cert.ReferenceIdeal.Read.val_main_v126 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v126 X, rv_v125 X, rv_v124 X]
  rfl
theorem rv_cst_28 : StableHlo.after (ops (F := F)) X main_cst_28 = Cert.ReferenceIdeal.Read.val_main_cst_28 (F := F) := by
  rw [ssa_cst_28 X]
  rfl
theorem rv_v127 : StableHlo.after (ops (F := F)) X main_v127 = Cert.ReferenceIdeal.Read.val_main_v127 (F := F) := by
  rw [ssa_v127 X, rv_cst_28 X]
  rfl
theorem rv_v128 : StableHlo.after (ops (F := F)) X main_v128 = Cert.ReferenceIdeal.Read.val_main_v128 (F := F) (X main_arg0) (X main_arg1) := by
  rw [ssa_v128 X, rv_v22 X]
  rfl
theorem rv_v129 : StableHlo.after (ops (F := F)) X main_v129 = Cert.ReferenceIdeal.Read.val_main_v129 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v129 X, rv_v127 X, rv_v128 X, rv_v126 X]
  rfl
theorem rv_v130 : StableHlo.after (ops (F := F)) X main_v130 = Cert.ReferenceIdeal.Read.val_main_v130 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v130 X, rv_v116 X, rv_v129 X]
  rfl
theorem rv_cst_29 : StableHlo.after (ops (F := F)) X main_cst_29 = Cert.ReferenceIdeal.Read.val_main_cst_29 (F := F) := by
  rw [ssa_cst_29 X]
  rfl
theorem rv_v131 : StableHlo.after (ops (F := F)) X main_v131 = Cert.ReferenceIdeal.Read.val_main_v131 (F := F) := by
  rw [ssa_v131 X, rv_cst_29 X]
  rfl
theorem rv_v132 : StableHlo.after (ops (F := F)) X main_v132 = Cert.ReferenceIdeal.Read.val_main_v132 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v132 X, rv_v130 X, rv_v131 X]
  rfl
theorem rv_v133 : StableHlo.after (ops (F := F)) X main_v133 = Cert.ReferenceIdeal.Read.val_main_v133 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v133 X, rv_v132 X]
  rfl
theorem rv_cst_30 : StableHlo.after (ops (F := F)) X main_cst_30 = Cert.ReferenceIdeal.Read.val_main_cst_30 (F := F) := by
  rw [ssa_cst_30 X]
  rfl
theorem rv_v134 : StableHlo.after (ops (F := F)) X main_v134 = Cert.ReferenceIdeal.Read.val_main_v134 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v134 X, rv_v133 X, rv_cst_30 X]
  rfl
theorem rv_v135 : StableHlo.after (ops (F := F)) X main_v135 = Cert.ReferenceIdeal.Read.val_main_v135 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v135 X, rv_v134 X]
  rfl
theorem rv_v136 : StableHlo.after (ops (F := F)) X main_v136 = Cert.ReferenceIdeal.Read.val_main_v136 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v136 X, rv_v135 X]
  rfl
theorem rv_cst_31 : StableHlo.after (ops (F := F)) X main_cst_31 = Cert.ReferenceIdeal.Read.val_main_cst_31 (F := F) := by
  rw [ssa_cst_31 X]
  rfl
theorem rv_v137 : StableHlo.after (ops (F := F)) X main_v137 = Cert.ReferenceIdeal.Read.val_main_v137 (F := F) := by
  rw [ssa_v137 X, rv_cst_31 X]
  rfl
theorem rv_v138 : StableHlo.after (ops (F := F)) X main_v138 = Cert.ReferenceIdeal.Read.val_main_v138 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v138 X, rv_v136 X, rv_v137 X]
  rfl
theorem rv_v139 : StableHlo.after (ops (F := F)) X main_v139 = Cert.ReferenceIdeal.Read.val_main_v139 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v139 X, rv_v138 X]
  rfl
theorem rv_v140 : StableHlo.after (ops (F := F)) X main_v140 = Cert.ReferenceIdeal.Read.val_main_v140 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v140 X, rv_v132 X, rv_v139 X]
  rfl
theorem rv_v141 : StableHlo.after (ops (F := F)) X main_v141 = Cert.ReferenceIdeal.Read.val_main_v141 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v141 X, rv_v140 X]
  rfl
theorem rv_v142 : StableHlo.after (ops (F := F)) X main_v142 = Cert.ReferenceIdeal.Read.val_main_v142 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) := by
  rw [ssa_v142 X, rv_v140 X]
  rfl

end Cert.ReferenceIdeal.Hand

end
-- ==== Proof.RefRead.lean ====
/-
  The reference program read back, gathered under one import for the modules that compare the two programs: its @main as
  a list of host operations with the library's run of such a line, its stage functions (one per operation, of the
  arguments) with their read-at-an-index lemmas, and each array after the line as its stage function of the arguments.
-/
import proofs.«144458_j9423158248257_1_alg».proof.Proof.RefReadP
import proofs.«144458_j9423158248257_1_alg».proof.Proof.RefHand
-- ==== Proof.KI.Bridge.lean ====
/-
  The host stretches the two programs share. Outside its four kernel regions the kernel's @main runs, operation for
  operation, the reference's own host operations; so once the arrays the regions produce agree with the reference's
  stages (the edge weights `P4`, the normalised user rows `P37`, the projected item rows `P61`), every later array of the
  kernel's @main is the reference's stage of the same name, a function of the arguments alone: by the operation's
  equation at the end of the run and the same facts for its operands.
-/
import proofs.«144458_j9423158248257_1_alg».proof.Proof.KI.HostEnd
import proofs.«144458_j9423158248257_1_alg».proof.Proof.RefRead

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

/-- The edge weights the first region leaves, sliced, are the reference's. -/
def P4 : Prop := V17 m outs c main_v4 = Cert.ReferenceIdeal.Read.val_main_v17 (F := Ideal) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14))
/-- The user rows the second region leaves, sliced, are the reference's normalised rows. -/
def P37 : Prop := V17 m outs c main_v37 = Cert.ReferenceIdeal.Read.val_main_v55 (F := Ideal) (m ((c.tc : Thread nD τ).loc main_arg3))
/-- The item rows the third region leaves, sliced, are the reference's projected and normalised rows. -/
def P61 : Prop := V17 m outs c main_v61 = Cert.ReferenceIdeal.Read.val_main_v87 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem br_c_0 : V17 m outs c main_c_0 = Cert.ReferenceIdeal.Read.val_main_c (F := Ideal) := by
  rw [Cert.KernelIdeal.Host.x_c_0 m outs c]
  rfl
theorem br_v5 : V17 m outs c main_v5 = Cert.ReferenceIdeal.Read.val_main_v18 (F := Ideal) := by
  rw [Cert.KernelIdeal.Host.x_v5 m outs c, br_c_0 m outs c]
  rfl
theorem br_v6 : V17 m outs c main_v6 = Cert.ReferenceIdeal.Read.val_main_v19 (F := Ideal) (m ((c.tc : Thread nD τ).loc main_arg1)) := by
  rw [Cert.KernelIdeal.Host.x_v6 m outs c, V17_main_arg1 m outs c, br_v5 m outs c]
  rfl
theorem br_v7 : V17 m outs c main_v7 = Cert.ReferenceIdeal.Read.val_main_v20 (F := Ideal) := by
  rw [Cert.KernelIdeal.Host.x_v7 m outs c]
  rfl
theorem br_v8 : V17 m outs c main_v8 = Cert.ReferenceIdeal.Read.val_main_v21 (F := Ideal) (m ((c.tc : Thread nD τ).loc main_arg0)) (m ((c.tc : Thread nD τ).loc main_arg1)) := by
  rw [Cert.KernelIdeal.Host.x_v8 m outs c, V17_main_arg0 m outs c, br_v6 m outs c, br_v7 m outs c]
  rfl
theorem br_v9 : V17 m outs c main_v9 = Cert.ReferenceIdeal.Read.val_main_v22 (F := Ideal) (m ((c.tc : Thread nD τ).loc main_arg0)) (m ((c.tc : Thread nD τ).loc main_arg1)) := by
  rw [Cert.KernelIdeal.Host.x_v9 m outs c, br_v6 m outs c, V17_main_arg0 m outs c, br_v7 m outs c]
  rfl
theorem br_cst : V17 m outs c main_cst = Cert.ReferenceIdeal.Read.val_main_cst_2 (F := Ideal) := by
  rw [Cert.KernelIdeal.Host.x_cst m outs c]
  rfl
theorem br_v10 : V17 m outs c main_v10 = Cert.ReferenceIdeal.Read.val_main_v23 (F := Ideal) := by
  rw [Cert.KernelIdeal.Host.x_v10 m outs c, br_cst m outs c]
  rfl
theorem br_v11 (h4 : P4 m outs c) : V17 m outs c main_v11 = Cert.ReferenceIdeal.Read.val_main_v24 (F := Ideal) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v11 m outs c, h4, br_v10 m outs c]
  rfl
theorem br_cst_1 : V17 m outs c main_cst_1 = Cert.ReferenceIdeal.Read.val_main_cst_3 (F := Ideal) := by
  rw [Cert.KernelIdeal.Host.x_cst_1 m outs c]
  rfl
theorem br_v12 : V17 m outs c main_v12 = Cert.ReferenceIdeal.Read.val_main_v25 (F := Ideal) := by
  rw [Cert.KernelIdeal.Host.x_v12 m outs c, br_cst_1 m outs c]
  rfl
theorem br_v13 : V17 m outs c main_v13 = Cert.ReferenceIdeal.Read.val_main_v26 (F := Ideal) (m ((c.tc : Thread nD τ).loc main_arg0)) (m ((c.tc : Thread nD τ).loc main_arg1)) := by
  rw [Cert.KernelIdeal.Host.x_v13 m outs c, br_v9 m outs c]
  rfl
theorem br_v14 (h4 : P4 m outs c) : V17 m outs c main_v14 = Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v14 m outs c, br_v12 m outs c, br_v13 m outs c, br_v11 m outs c h4]
  rfl
theorem br_cst_2 : V17 m outs c main_cst_2 = Cert.ReferenceIdeal.Read.val_main_cst_4 (F := Ideal) := by
  rw [Cert.KernelIdeal.Host.x_cst_2 m outs c]
  rfl
theorem br_v15 : V17 m outs c main_v15 = Cert.ReferenceIdeal.Read.val_main_v28 (F := Ideal) := by
  rw [Cert.KernelIdeal.Host.x_v15 m outs c, br_cst_2 m outs c]
  rfl
theorem br_v16 (h4 : P4 m outs c) : V17 m outs c main_v16 = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v16 m outs c, br_v14 m outs c h4, br_v15 m outs c]
  rfl
theorem br_v17 (h4 : P4 m outs c) : V17 m outs c main_v17 = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v17 m outs c, br_v14 m outs c h4]
  rfl
theorem br_cst_3 : V17 m outs c main_cst_3 = Cert.ReferenceIdeal.Read.val_main_cst_5 (F := Ideal) := by
  rw [Cert.KernelIdeal.Host.x_cst_3 m outs c]
  rfl
theorem br_call1_v0 : V17 m outs c main_call1_v0 = Cert.ReferenceIdeal.Read.val_main_call1_v0 (F := Ideal) := by
  rw [Cert.KernelIdeal.Host.x_call1_v0 m outs c, br_cst_3 m outs c]
  rfl
theorem br_call1_v1 : V17 m outs c main_call1_v1 = Cert.ReferenceIdeal.Read.val_main_call1_v1 (F := Ideal) := by
  rw [Cert.KernelIdeal.Host.x_call1_v1 m outs c, br_call1_v0 m outs c]
  rfl
theorem br_v18 (h4 : P4 m outs c) : V17 m outs c main_v18 = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v18 m outs c, br_v16 m outs c h4, br_v17 m outs c h4, br_call1_v1 m outs c]
  rfl
theorem br_c_4 : V17 m outs c main_c_4 = Cert.ReferenceIdeal.Read.val_main_c_6 (F := Ideal) := by
  rw [Cert.KernelIdeal.Host.x_c_4 m outs c]
  rfl
theorem br_v19 : V17 m outs c main_v19 = Cert.ReferenceIdeal.Read.val_main_v32 (F := Ideal) := by
  rw [Cert.KernelIdeal.Host.x_v19 m outs c, br_c_4 m outs c]
  rfl
theorem br_v20 : V17 m outs c main_v20 = Cert.ReferenceIdeal.Read.val_main_v33 (F := Ideal) (m ((c.tc : Thread nD τ).loc main_arg0)) (m ((c.tc : Thread nD τ).loc main_arg1)) := by
  rw [Cert.KernelIdeal.Host.x_v20 m outs c, br_v8 m outs c, br_v19 m outs c]
  rfl
theorem br_c_5 : V17 m outs c main_c_5 = Cert.ReferenceIdeal.Read.val_main_c_7 (F := Ideal) := by
  rw [Cert.KernelIdeal.Host.x_c_5 m outs c]
  rfl
theorem br_v21 : V17 m outs c main_v21 = Cert.ReferenceIdeal.Read.val_main_v34 (F := Ideal) := by
  rw [Cert.KernelIdeal.Host.x_v21 m outs c, br_c_5 m outs c]
  rfl
theorem br_v22 : V17 m outs c main_v22 = Cert.ReferenceIdeal.Read.val_main_v35 (F := Ideal) (m ((c.tc : Thread nD τ).loc main_arg0)) (m ((c.tc : Thread nD τ).loc main_arg1)) := by
  rw [Cert.KernelIdeal.Host.x_v22 m outs c, br_v8 m outs c, br_v21 m outs c]
  rfl
theorem br_v23 : V17 m outs c main_v23 = Cert.ReferenceIdeal.Read.val_main_v36 (F := Ideal) (m ((c.tc : Thread nD τ).loc main_arg0)) (m ((c.tc : Thread nD τ).loc main_arg1)) := by
  rw [Cert.KernelIdeal.Host.x_v23 m outs c, br_v20 m outs c, br_v22 m outs c, br_v8 m outs c]
  rfl
theorem br_v24 : V17 m outs c main_v24 = Cert.ReferenceIdeal.Read.val_main_v37 (F := Ideal) (m ((c.tc : Thread nD τ).loc main_arg0)) (m ((c.tc : Thread nD τ).loc main_arg1)) := by
  rw [Cert.KernelIdeal.Host.x_v24 m outs c, br_v23 m outs c]
  rfl
theorem br_v25 (h4 : P4 m outs c) : V17 m outs c main_v25 = Cert.ReferenceIdeal.Read.val_main_v38 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v25 m outs c, br_v18 m outs c h4, br_v24 m outs c]
  rfl
theorem br_v26 (h4 : P4 m outs c) : V17 m outs c main_v26 = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v26 m outs c, br_v25 m outs c h4, br_v11 m outs c h4]
  rfl
theorem br_c_6 : V17 m outs c main_c_6 = Cert.ReferenceIdeal.Read.val_main_c_8 (F := Ideal) := by
  rw [Cert.KernelIdeal.Host.x_c_6 m outs c]
  rfl
theorem br_v27 : V17 m outs c main_v27 = Cert.ReferenceIdeal.Read.val_main_v40 (F := Ideal) := by
  rw [Cert.KernelIdeal.Host.x_v27 m outs c, br_c_6 m outs c]
  rfl
theorem br_v28 : V17 m outs c main_v28 = Cert.ReferenceIdeal.Read.val_main_v41 (F := Ideal) (m ((c.tc : Thread nD τ).loc main_arg0)) (m ((c.tc : Thread nD τ).loc main_arg1)) := by
  rw [Cert.KernelIdeal.Host.x_v28 m outs c, br_v9 m outs c, br_v27 m outs c]
  rfl
theorem br_c_7 : V17 m outs c main_c_7 = Cert.ReferenceIdeal.Read.val_main_c_9 (F := Ideal) := by
  rw [Cert.KernelIdeal.Host.x_c_7 m outs c]
  rfl
theorem br_v29 : V17 m outs c main_v29 = Cert.ReferenceIdeal.Read.val_main_v42 (F := Ideal) := by
  rw [Cert.KernelIdeal.Host.x_v29 m outs c, br_c_7 m outs c]
  rfl
theorem br_v30 : V17 m outs c main_v30 = Cert.ReferenceIdeal.Read.val_main_v43 (F := Ideal) (m ((c.tc : Thread nD τ).loc main_arg0)) (m ((c.tc : Thread nD τ).loc main_arg1)) := by
  rw [Cert.KernelIdeal.Host.x_v30 m outs c, br_v9 m outs c, br_v29 m outs c]
  rfl
theorem br_v31 : V17 m outs c main_v31 = Cert.ReferenceIdeal.Read.val_main_v44 (F := Ideal) (m ((c.tc : Thread nD τ).loc main_arg0)) (m ((c.tc : Thread nD τ).loc main_arg1)) := by
  rw [Cert.KernelIdeal.Host.x_v31 m outs c, br_v28 m outs c, br_v30 m outs c, br_v9 m outs c]
  rfl
theorem br_v32 : V17 m outs c main_v32 = Cert.ReferenceIdeal.Read.val_main_v45 (F := Ideal) (m ((c.tc : Thread nD τ).loc main_arg0)) (m ((c.tc : Thread nD τ).loc main_arg1)) := by
  rw [Cert.KernelIdeal.Host.x_v32 m outs c, br_v31 m outs c]
  rfl
theorem br_v33 (h4 : P4 m outs c) : V17 m outs c main_v33 = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v33 m outs c, br_v18 m outs c h4, br_v32 m outs c]
  rfl
theorem br_v34 (h4 : P4 m outs c) : V17 m outs c main_v34 = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v34 m outs c, br_v26 m outs c h4, br_v33 m outs c h4]
  rfl
theorem br_c_9 : V17 m outs c main_c_9 = Cert.ReferenceIdeal.Read.val_main_c_12 (F := Ideal) := by
  rw [Cert.KernelIdeal.Host.x_c_9 m outs c]
  rfl
theorem br_v38 : V17 m outs c main_v38 = Cert.ReferenceIdeal.Read.val_main_v56 (F := Ideal) := by
  rw [Cert.KernelIdeal.Host.x_v38 m outs c, br_c_9 m outs c]
  rfl
theorem br_v39 : V17 m outs c main_v39 = Cert.ReferenceIdeal.Read.val_main_v57 (F := Ideal) (m ((c.tc : Thread nD τ).loc main_arg7)) := by
  rw [Cert.KernelIdeal.Host.x_v39 m outs c, V17_main_arg7 m outs c, br_v38 m outs c]
  rfl
theorem br_c_10 : V17 m outs c main_c_10 = Cert.ReferenceIdeal.Read.val_main_c_13 (F := Ideal) := by
  rw [Cert.KernelIdeal.Host.x_c_10 m outs c]
  rfl
theorem br_v40 : V17 m outs c main_v40 = Cert.ReferenceIdeal.Read.val_main_v58 (F := Ideal) := by
  rw [Cert.KernelIdeal.Host.x_v40 m outs c, br_c_10 m outs c]
  rfl
theorem br_v41 : V17 m outs c main_v41 = Cert.ReferenceIdeal.Read.val_main_v59 (F := Ideal) (m ((c.tc : Thread nD τ).loc main_arg7)) := by
  rw [Cert.KernelIdeal.Host.x_v41 m outs c, V17_main_arg7 m outs c, br_v40 m outs c]
  rfl
theorem br_v42 : V17 m outs c main_v42 = Cert.ReferenceIdeal.Read.val_main_v60 (F := Ideal) (m ((c.tc : Thread nD τ).loc main_arg7)) := by
  rw [Cert.KernelIdeal.Host.x_v42 m outs c, br_v39 m outs c, br_v41 m outs c, V17_main_arg7 m outs c]
  rfl
theorem br_v43 : V17 m outs c main_v43 = Cert.ReferenceIdeal.Read.val_main_v61 (F := Ideal) (m ((c.tc : Thread nD τ).loc main_arg7)) := by
  rw [Cert.KernelIdeal.Host.x_v43 m outs c, br_v42 m outs c]
  rfl
theorem br_v44 : V17 m outs c main_v44 = Cert.ReferenceIdeal.Read.val_main_v62 (F := Ideal) (m ((c.tc : Thread nD τ).loc main_arg4)) (m ((c.tc : Thread nD τ).loc main_arg7)) := by
  rw [Cert.KernelIdeal.Host.x_v44 m outs c, V17_main_arg4 m outs c, br_v43 m outs c]
  rfl
theorem br_c_11 : V17 m outs c main_c_11 = Cert.ReferenceIdeal.Read.val_main_c_14 (F := Ideal) := by
  rw [Cert.KernelIdeal.Host.x_c_11 m outs c]
  rfl
theorem br_v45 : V17 m outs c main_v45 = Cert.ReferenceIdeal.Read.val_main_v63 (F := Ideal) := by
  rw [Cert.KernelIdeal.Host.x_v45 m outs c, br_c_11 m outs c]
  rfl
theorem br_v46 : V17 m outs c main_v46 = Cert.ReferenceIdeal.Read.val_main_v64 (F := Ideal) (m ((c.tc : Thread nD τ).loc main_arg8)) := by
  rw [Cert.KernelIdeal.Host.x_v46 m outs c, V17_main_arg8 m outs c, br_v45 m outs c]
  rfl
theorem br_c_12 : V17 m outs c main_c_12 = Cert.ReferenceIdeal.Read.val_main_c_15 (F := Ideal) := by
  rw [Cert.KernelIdeal.Host.x_c_12 m outs c]
  rfl
theorem br_v47 : V17 m outs c main_v47 = Cert.ReferenceIdeal.Read.val_main_v65 (F := Ideal) := by
  rw [Cert.KernelIdeal.Host.x_v47 m outs c, br_c_12 m outs c]
  rfl
theorem br_v48 : V17 m outs c main_v48 = Cert.ReferenceIdeal.Read.val_main_v66 (F := Ideal) (m ((c.tc : Thread nD τ).loc main_arg8)) := by
  rw [Cert.KernelIdeal.Host.x_v48 m outs c, V17_main_arg8 m outs c, br_v47 m outs c]
  rfl
theorem br_v49 : V17 m outs c main_v49 = Cert.ReferenceIdeal.Read.val_main_v67 (F := Ideal) (m ((c.tc : Thread nD τ).loc main_arg8)) := by
  rw [Cert.KernelIdeal.Host.x_v49 m outs c, br_v46 m outs c, br_v48 m outs c, V17_main_arg8 m outs c]
  rfl
theorem br_v50 : V17 m outs c main_v50 = Cert.ReferenceIdeal.Read.val_main_v68 (F := Ideal) (m ((c.tc : Thread nD τ).loc main_arg8)) := by
  rw [Cert.KernelIdeal.Host.x_v50 m outs c, br_v49 m outs c]
  rfl
theorem br_v51 : V17 m outs c main_v51 = Cert.ReferenceIdeal.Read.val_main_v69 (F := Ideal) (m ((c.tc : Thread nD τ).loc main_arg5)) (m ((c.tc : Thread nD τ).loc main_arg8)) := by
  rw [Cert.KernelIdeal.Host.x_v51 m outs c, V17_main_arg5 m outs c, br_v50 m outs c]
  rfl
theorem br_v52 : V17 m outs c main_v52 = Cert.ReferenceIdeal.Read.val_main_v70 (F := Ideal) (m ((c.tc : Thread nD τ).loc main_arg4)) (m ((c.tc : Thread nD τ).loc main_arg5)) (m ((c.tc : Thread nD τ).loc main_arg7)) (m ((c.tc : Thread nD τ).loc main_arg8)) := by
  rw [Cert.KernelIdeal.Host.x_v52 m outs c, br_v44 m outs c, br_v51 m outs c]
  rfl
theorem br_cst_13 : V17 m outs c main_cst_13 = Cert.ReferenceIdeal.Read.val_main_cst_16 (F := Ideal) := by
  rw [Cert.KernelIdeal.Host.x_cst_13 m outs c]
  rfl
theorem br_v53 : V17 m outs c main_v53 = Cert.ReferenceIdeal.Read.val_main_v71 (F := Ideal) := by
  rw [Cert.KernelIdeal.Host.x_v53 m outs c, br_cst_13 m outs c]
  rfl
theorem br_v54 : V17 m outs c main_v54 = Cert.ReferenceIdeal.Read.val_main_v72 (F := Ideal) (m ((c.tc : Thread nD τ).loc main_arg4)) (m ((c.tc : Thread nD τ).loc main_arg5)) (m ((c.tc : Thread nD τ).loc main_arg7)) (m ((c.tc : Thread nD τ).loc main_arg8)) := by
  rw [Cert.KernelIdeal.Host.x_v54 m outs c, br_v52 m outs c, br_v53 m outs c]
  rfl
theorem br_cst_14 : V17 m outs c main_cst_14 = Cert.ReferenceIdeal.Read.val_main_cst_17 (F := Ideal) := by
  rw [Cert.KernelIdeal.Host.x_cst_14 m outs c]
  rfl
theorem br_v55 : V17 m outs c main_v55 = Cert.ReferenceIdeal.Read.val_main_v73 (F := Ideal) := by
  rw [Cert.KernelIdeal.Host.x_v55 m outs c, br_cst_14 m outs c]
  rfl
theorem br_v56 : V17 m outs c main_v56 = Cert.ReferenceIdeal.Read.val_main_v74 (F := Ideal) (m ((c.tc : Thread nD τ).loc main_arg6)) := by
  rw [Cert.KernelIdeal.Host.x_v56 m outs c, V17_main_arg6 m outs c, br_v55 m outs c]
  rfl
theorem br_v57 : V17 m outs c main_v57 = Cert.ReferenceIdeal.Read.val_main_v75 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.KernelIdeal.Host.x_v57 m outs c, br_v56 m outs c, br_v54 m outs c]
  rfl
theorem br_v62 (h37 : P37 m outs c) (h61 : P61 m outs c) : V17 m outs c main_v62 = Cert.ReferenceIdeal.Read.val_main_v88 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.KernelIdeal.Host.x_v62 m outs c, h37, h61]
  rfl
theorem br_v63 (h4 : P4 m outs c) : V17 m outs c main_v63 = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v63 m outs c, br_v34 m outs c h4]
  rfl
theorem br_c_16 : V17 m outs c main_c_16 = Cert.ReferenceIdeal.Read.val_main_c_20 (F := Ideal) := by
  rw [Cert.KernelIdeal.Host.x_c_16 m outs c]
  rfl
theorem br_v64 : V17 m outs c main_v64 = Cert.ReferenceIdeal.Read.val_main_v90 (F := Ideal) := by
  rw [Cert.KernelIdeal.Host.x_v64 m outs c, br_c_16 m outs c]
  rfl
theorem br_v65 : V17 m outs c main_v65 = Cert.ReferenceIdeal.Read.val_main_v91 (F := Ideal) (m ((c.tc : Thread nD τ).loc main_arg0)) (m ((c.tc : Thread nD τ).loc main_arg1)) := by
  rw [Cert.KernelIdeal.Host.x_v65 m outs c, br_v8 m outs c, br_v64 m outs c]
  rfl
theorem br_c_17 : V17 m outs c main_c_17 = Cert.ReferenceIdeal.Read.val_main_c_21 (F := Ideal) := by
  rw [Cert.KernelIdeal.Host.x_c_17 m outs c]
  rfl
theorem br_v66 : V17 m outs c main_v66 = Cert.ReferenceIdeal.Read.val_main_v92 (F := Ideal) := by
  rw [Cert.KernelIdeal.Host.x_v66 m outs c, br_c_17 m outs c]
  rfl
theorem br_v67 : V17 m outs c main_v67 = Cert.ReferenceIdeal.Read.val_main_v93 (F := Ideal) (m ((c.tc : Thread nD τ).loc main_arg0)) (m ((c.tc : Thread nD τ).loc main_arg1)) := by
  rw [Cert.KernelIdeal.Host.x_v67 m outs c, br_v8 m outs c, br_v66 m outs c]
  rfl
theorem br_v68 : V17 m outs c main_v68 = Cert.ReferenceIdeal.Read.val_main_v94 (F := Ideal) (m ((c.tc : Thread nD τ).loc main_arg0)) (m ((c.tc : Thread nD τ).loc main_arg1)) := by
  rw [Cert.KernelIdeal.Host.x_v68 m outs c, br_v65 m outs c, br_v67 m outs c, br_v8 m outs c]
  rfl
theorem br_v69 : V17 m outs c main_v69 = Cert.ReferenceIdeal.Read.val_main_v95 (F := Ideal) (m ((c.tc : Thread nD τ).loc main_arg0)) (m ((c.tc : Thread nD τ).loc main_arg1)) := by
  rw [Cert.KernelIdeal.Host.x_v69 m outs c, br_v68 m outs c]
  rfl
theorem br_v70 (h37 : P37 m outs c) (h61 : P61 m outs c) : V17 m outs c main_v70 = Cert.ReferenceIdeal.Read.val_main_v96 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.KernelIdeal.Host.x_v70 m outs c, br_v62 m outs c h37 h61, br_v69 m outs c]
  rfl
theorem br_v71 (h4 : P4 m outs c) : V17 m outs c main_v71 = Cert.ReferenceIdeal.Read.val_main_v97 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v71 m outs c, br_v63 m outs c h4]
  rfl
theorem br_v72 (h4 : P4 m outs c) (h37 : P37 m outs c) (h61 : P61 m outs c) : V17 m outs c main_v72 = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v72 m outs c, br_v71 m outs c h4, br_v70 m outs c h37 h61]
  rfl
theorem br_cst_18 : V17 m outs c main_cst_18 = Cert.ReferenceIdeal.Read.val_main_cst_22 (F := Ideal) := by
  rw [Cert.KernelIdeal.Host.x_cst_18 m outs c]
  rfl
theorem br_v73 : V17 m outs c main_v73 = Cert.ReferenceIdeal.Read.val_main_v99 (F := Ideal) := by
  rw [Cert.KernelIdeal.Host.x_v73 m outs c, br_cst_18 m outs c]
  rfl
theorem br_v74 : V17 m outs c main_v74 = Cert.ReferenceIdeal.Read.val_main_v100 (F := Ideal) (m ((c.tc : Thread nD τ).loc main_arg0)) (m ((c.tc : Thread nD τ).loc main_arg1)) := by
  rw [Cert.KernelIdeal.Host.x_v74 m outs c, br_v9 m outs c]
  rfl
theorem br_v75 (h4 : P4 m outs c) (h37 : P37 m outs c) (h61 : P61 m outs c) : V17 m outs c main_v75 = Cert.ReferenceIdeal.Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v75 m outs c, br_v73 m outs c, br_v74 m outs c, br_v72 m outs c h4 h37 h61]
  rfl
theorem br_v76 (h4 : P4 m outs c) (h37 : P37 m outs c) (h61 : P61 m outs c) : V17 m outs c main_v76 = Cert.ReferenceIdeal.Read.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v76 m outs c, br_v62 m outs c h37 h61, br_v75 m outs c h4 h37 h61]
  rfl
theorem br_v77 (h4 : P4 m outs c) : V17 m outs c main_v77 = Cert.ReferenceIdeal.Read.val_main_v103 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v77 m outs c, br_v34 m outs c h4]
  rfl
theorem br_c_19 : V17 m outs c main_c_19 = Cert.ReferenceIdeal.Read.val_main_c_23 (F := Ideal) := by
  rw [Cert.KernelIdeal.Host.x_c_19 m outs c]
  rfl
theorem br_v78 : V17 m outs c main_v78 = Cert.ReferenceIdeal.Read.val_main_v104 (F := Ideal) := by
  rw [Cert.KernelIdeal.Host.x_v78 m outs c, br_c_19 m outs c]
  rfl
theorem br_v79 : V17 m outs c main_v79 = Cert.ReferenceIdeal.Read.val_main_v105 (F := Ideal) (m ((c.tc : Thread nD τ).loc main_arg0)) (m ((c.tc : Thread nD τ).loc main_arg1)) := by
  rw [Cert.KernelIdeal.Host.x_v79 m outs c, br_v8 m outs c, br_v78 m outs c]
  rfl
theorem br_c_20 : V17 m outs c main_c_20 = Cert.ReferenceIdeal.Read.val_main_c_24 (F := Ideal) := by
  rw [Cert.KernelIdeal.Host.x_c_20 m outs c]
  rfl
theorem br_v80 : V17 m outs c main_v80 = Cert.ReferenceIdeal.Read.val_main_v106 (F := Ideal) := by
  rw [Cert.KernelIdeal.Host.x_v80 m outs c, br_c_20 m outs c]
  rfl
theorem br_v81 : V17 m outs c main_v81 = Cert.ReferenceIdeal.Read.val_main_v107 (F := Ideal) (m ((c.tc : Thread nD τ).loc main_arg0)) (m ((c.tc : Thread nD τ).loc main_arg1)) := by
  rw [Cert.KernelIdeal.Host.x_v81 m outs c, br_v8 m outs c, br_v80 m outs c]
  rfl
theorem br_v82 : V17 m outs c main_v82 = Cert.ReferenceIdeal.Read.val_main_v108 (F := Ideal) (m ((c.tc : Thread nD τ).loc main_arg0)) (m ((c.tc : Thread nD τ).loc main_arg1)) := by
  rw [Cert.KernelIdeal.Host.x_v82 m outs c, br_v79 m outs c, br_v81 m outs c, br_v8 m outs c]
  rfl
theorem br_v83 : V17 m outs c main_v83 = Cert.ReferenceIdeal.Read.val_main_v109 (F := Ideal) (m ((c.tc : Thread nD τ).loc main_arg0)) (m ((c.tc : Thread nD τ).loc main_arg1)) := by
  rw [Cert.KernelIdeal.Host.x_v83 m outs c, br_v82 m outs c]
  rfl
theorem br_v84 (h4 : P4 m outs c) (h37 : P37 m outs c) (h61 : P61 m outs c) : V17 m outs c main_v84 = Cert.ReferenceIdeal.Read.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v84 m outs c, br_v75 m outs c h4 h37 h61, br_v83 m outs c]
  rfl
theorem br_v85 (h4 : P4 m outs c) : V17 m outs c main_v85 = Cert.ReferenceIdeal.Read.val_main_v111 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v85 m outs c, br_v77 m outs c h4]
  rfl
theorem br_v86 (h4 : P4 m outs c) (h37 : P37 m outs c) (h61 : P61 m outs c) : V17 m outs c main_v86 = Cert.ReferenceIdeal.Read.val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v86 m outs c, br_v85 m outs c h4, br_v84 m outs c h4 h37 h61]
  rfl
theorem br_cst_21 : V17 m outs c main_cst_21 = Cert.ReferenceIdeal.Read.val_main_cst_25 (F := Ideal) := by
  rw [Cert.KernelIdeal.Host.x_cst_21 m outs c]
  rfl
theorem br_v87 : V17 m outs c main_v87 = Cert.ReferenceIdeal.Read.val_main_v113 (F := Ideal) := by
  rw [Cert.KernelIdeal.Host.x_v87 m outs c, br_cst_21 m outs c]
  rfl
theorem br_v88 : V17 m outs c main_v88 = Cert.ReferenceIdeal.Read.val_main_v114 (F := Ideal) (m ((c.tc : Thread nD τ).loc main_arg0)) (m ((c.tc : Thread nD τ).loc main_arg1)) := by
  rw [Cert.KernelIdeal.Host.x_v88 m outs c, br_v9 m outs c]
  rfl
theorem br_v89 (h4 : P4 m outs c) (h37 : P37 m outs c) (h61 : P61 m outs c) : V17 m outs c main_v89 = Cert.ReferenceIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v89 m outs c, br_v87 m outs c, br_v88 m outs c, br_v86 m outs c h4 h37 h61]
  rfl
theorem br_v90 (h4 : P4 m outs c) (h37 : P37 m outs c) (h61 : P61 m outs c) : V17 m outs c main_v90 = Cert.ReferenceIdeal.Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v90 m outs c, br_v76 m outs c h4 h37 h61, br_v89 m outs c h4 h37 h61]
  rfl
theorem br_v91 (h4 : P4 m outs c) : V17 m outs c main_v91 = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v91 m outs c, br_v34 m outs c h4]
  rfl
theorem br_c_22 : V17 m outs c main_c_22 = Cert.ReferenceIdeal.Read.val_main_c_26 (F := Ideal) := by
  rw [Cert.KernelIdeal.Host.x_c_22 m outs c]
  rfl
theorem br_v92 : V17 m outs c main_v92 = Cert.ReferenceIdeal.Read.val_main_v118 (F := Ideal) := by
  rw [Cert.KernelIdeal.Host.x_v92 m outs c, br_c_22 m outs c]
  rfl
theorem br_v93 : V17 m outs c main_v93 = Cert.ReferenceIdeal.Read.val_main_v119 (F := Ideal) (m ((c.tc : Thread nD τ).loc main_arg0)) (m ((c.tc : Thread nD τ).loc main_arg1)) := by
  rw [Cert.KernelIdeal.Host.x_v93 m outs c, br_v8 m outs c, br_v92 m outs c]
  rfl
theorem br_c_23 : V17 m outs c main_c_23 = Cert.ReferenceIdeal.Read.val_main_c_27 (F := Ideal) := by
  rw [Cert.KernelIdeal.Host.x_c_23 m outs c]
  rfl
theorem br_v94 : V17 m outs c main_v94 = Cert.ReferenceIdeal.Read.val_main_v120 (F := Ideal) := by
  rw [Cert.KernelIdeal.Host.x_v94 m outs c, br_c_23 m outs c]
  rfl
theorem br_v95 : V17 m outs c main_v95 = Cert.ReferenceIdeal.Read.val_main_v121 (F := Ideal) (m ((c.tc : Thread nD τ).loc main_arg0)) (m ((c.tc : Thread nD τ).loc main_arg1)) := by
  rw [Cert.KernelIdeal.Host.x_v95 m outs c, br_v8 m outs c, br_v94 m outs c]
  rfl
theorem br_v96 : V17 m outs c main_v96 = Cert.ReferenceIdeal.Read.val_main_v122 (F := Ideal) (m ((c.tc : Thread nD τ).loc main_arg0)) (m ((c.tc : Thread nD τ).loc main_arg1)) := by
  rw [Cert.KernelIdeal.Host.x_v96 m outs c, br_v93 m outs c, br_v95 m outs c, br_v8 m outs c]
  rfl
theorem br_v97 : V17 m outs c main_v97 = Cert.ReferenceIdeal.Read.val_main_v123 (F := Ideal) (m ((c.tc : Thread nD τ).loc main_arg0)) (m ((c.tc : Thread nD τ).loc main_arg1)) := by
  rw [Cert.KernelIdeal.Host.x_v97 m outs c, br_v96 m outs c]
  rfl
theorem br_v98 (h4 : P4 m outs c) (h37 : P37 m outs c) (h61 : P61 m outs c) : V17 m outs c main_v98 = Cert.ReferenceIdeal.Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v98 m outs c, br_v89 m outs c h4 h37 h61, br_v97 m outs c]
  rfl
theorem br_v99 (h4 : P4 m outs c) : V17 m outs c main_v99 = Cert.ReferenceIdeal.Read.val_main_v125 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v99 m outs c, br_v91 m outs c h4]
  rfl
theorem br_v100 (h4 : P4 m outs c) (h37 : P37 m outs c) (h61 : P61 m outs c) : V17 m outs c main_v100 = Cert.ReferenceIdeal.Read.val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v100 m outs c, br_v99 m outs c h4, br_v98 m outs c h4 h37 h61]
  rfl
theorem br_cst_24 : V17 m outs c main_cst_24 = Cert.ReferenceIdeal.Read.val_main_cst_28 (F := Ideal) := by
  rw [Cert.KernelIdeal.Host.x_cst_24 m outs c]
  rfl
theorem br_v101 : V17 m outs c main_v101 = Cert.ReferenceIdeal.Read.val_main_v127 (F := Ideal) := by
  rw [Cert.KernelIdeal.Host.x_v101 m outs c, br_cst_24 m outs c]
  rfl
theorem br_v102 : V17 m outs c main_v102 = Cert.ReferenceIdeal.Read.val_main_v128 (F := Ideal) (m ((c.tc : Thread nD τ).loc main_arg0)) (m ((c.tc : Thread nD τ).loc main_arg1)) := by
  rw [Cert.KernelIdeal.Host.x_v102 m outs c, br_v9 m outs c]
  rfl
theorem br_v103 (h4 : P4 m outs c) (h37 : P37 m outs c) (h61 : P61 m outs c) : V17 m outs c main_v103 = Cert.ReferenceIdeal.Read.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v103 m outs c, br_v101 m outs c, br_v102 m outs c, br_v100 m outs c h4 h37 h61]
  rfl
theorem br_v104 (h4 : P4 m outs c) (h37 : P37 m outs c) (h61 : P61 m outs c) : V17 m outs c main_v104 = Cert.ReferenceIdeal.Read.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Cert.KernelIdeal.Host.x_v104 m outs c, br_v90 m outs c h4 h37 h61, br_v103 m outs c h4 h37 h61]
  rfl

end Cert.KernelIdeal.Bridge

end
-- ==== Proof.EdgeSpec.lean ====
/-
  The edge weight of one interaction, as a function of its row of eight attributes.

  A row a of attributes goes through a two-layer perceptron: hidden unit k is max(Σ_j a_j · W1(j,k) + b1_k, 0), the
  logit is Σ_k hidden_k · W2_k + b2, and the weight is the logistic function of the logit, kept at or above the
  constant 9.99999997e-7 (written by its f32 word, which is never evaluated). Everything is an exact extended real;
  the zero the hidden units are compared with is written by its f32 word as well.

  The whole-array function of an [n, 8] matrix of attribute rows applies this to every row, and only to that row:
  row p of the result depends on row p of the matrix alone.
-/
import Idealize.ShloMosaic.Lib.ValueIdx
import Idealize.ShloMosaic.PureOps.Ideal
import Idealize.ShloMosaic.PureOps.Ideal.Laws

noncomputable section

namespace Cert.Edge

open Idealize.ShloMosaic Idealize.ShloMosaic.ValueIdx

/-- Hidden unit k of a row: max(Σ_j a_j · W1(j,k) + b1_k, 0). -/
def hidden (row : Fin 8 → EReal) (w1 : (⟨2, ![8, 32]⟩ : Shape).Idx → EReal) (b1 : Fin 32 → EReal) (k : Fin 32) : EReal :=
  max ((∑ j : Fin 8, row j * w1 (ix2 j k)) + b1 k) (Ideal.ofBits .f32 0x00000000#32)

/-- The weight of a row: the logistic function of Σ_k hidden_k · W2_k + b2, kept at or above 9.99999997e-7. -/
def weight (row : Fin 8 → EReal) (w1 : (⟨2, ![8, 32]⟩ : Shape).Idx → EReal) (b1 : Fin 32 → EReal) (w2 : Fin 32 → EReal)
    (b2 : EReal) : EReal :=
  max (Ideal.logistic ((∑ k : Fin 32, hidden row w1 b1 k * w2 k) + b2)) (Ideal.ofBits .f32 0x358637BD#32)

/-- The weights of the 1015808 rows of a padded attribute matrix, with the first layer's bias as a row [1, 32], the
    second layer's matrix as a column [32, 1] and its bias as a [1, 1] array. -/
def weights (a : (⟨2, ![1015808, 8]⟩ : Shape).Idx → EReal) (w1 : (⟨2, ![8, 32]⟩ : Shape).Idx → EReal)
    (b1 : (⟨2, ![1, 32]⟩ : Shape).Idx → EReal) (w2 : (⟨2, ![32, 1]⟩ : Shape).Idx → EReal)
    (b2 : (⟨2, ![1, 1]⟩ : Shape).Idx → EReal) : (⟨1, ![1015808]⟩ : Shape).Idx → EReal :=
  fun i => weight (fun j => a (ix2 (i 0 : Fin 1015808) j)) w1 (fun k => b1 (ix2 0 k)) (fun k => w2 (ix2 k 0)) (b2 (ix2 0 0))

/-- Row p of the weights is the weight of row p of the matrix. -/
theorem weights_apply (a : (⟨2, ![1015808, 8]⟩ : Shape).Idx → EReal) (w1 : (⟨2, ![8, 32]⟩ : Shape).Idx → EReal)
    (b1 : (⟨2, ![1, 32]⟩ : Shape).Idx → EReal) (w2 : (⟨2, ![32, 1]⟩ : Shape).Idx → EReal)
    (b2 : (⟨2, ![1, 1]⟩ : Shape).Idx → EReal) (p : Fin 1015808) :
    weights a w1 b1 w2 b2 (ix1 p)
      = weight (fun j => a (ix2 p j)) w1 (fun k => b1 (ix2 0 k)) (fun k => w2 (ix2 k 0)) (b2 (ix2 0 0)) := rfl

end Cert.Edge

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnToVec.lean ====
/-
  An [a, 1] array shape-cast to the vector [a], read at i: the operand at (i, 0). Any a, any element type.
-/
import Idealize.ShloMosaic.Lib.Pipeline.Value
import Idealize.ShloMosaic.Lib.ValueIdx

namespace Cert.Lib

open Idealize.ShloMosaic Idealize.ShloMosaic.ValueIdx

variable {α : Type}

/-- A COLUMN [a, 1] cast to the vector [a] reads, at i, the column's entry (i, 0). -/
theorem colToVec_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h (ix1 i) (ix2 i (0 : Fin 1)) (by
    rw [Shape.rowMajor_val_two, Shape.rowMajor_val_one]
    show i.val * 1 + 0 = i.val
    omega)

end Cert.Lib
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.EdgePayload.lean ====
/-
  The edge-weight body's stored value, read at one row.

  The body loads a block of 32768 attribute rows and the perceptron's four parameter arrays whole, and stores one
  vector of 32768 weights. Row p of that vector is the weight of row p of the loaded block: the first matrix product
  into a zero accumulator is Σ_j a(p,j) · W1(j,k), the bias row is broadcast down the rows, the comparison with zero is
  elementwise, the second product is Σ_k hidden(p,k) · W2(k,0), the [1,1] bias is broadcast down the column, the
  logistic function and the lower bound are elementwise, and the final cast of the column [32768,1] to a vector keeps
  row p at p. The narrowings to bf16 before the products are the identity on extended reals.
-/
import proofs.«144458_j9423158248257_1_alg».proof.Proof.Gen.KernelIdeal.Skeleton
import proofs.«144458_j9423158248257_1_alg».proof.Proof.EdgeSpec
import proofs.«144458_j9423158248257_1_alg».proof.Proof.LibPlainDot
import proofs.«144458_j9423158248257_1_alg».proof.Proof.LibColumnToVec
import proofs.«144458_j9423158248257_1_alg».proof.Proof.LibRowLayout
import Idealize.ShloMosaic.Lib.ValueIdx
import Idealize.ShloMosaic.Lib.Pipeline.Value

noncomputable section

namespace Cert.KernelIdeal.Edge

open Idealize.ShloMosaic Idealize.ShloMosaic.ValueIdx Cert.KernelIdeal Cert.KernelIdeal.Gen Cert.Edge

/-- The hidden layer of the block at (p, k). -/
theorem hidden_at (x0 : Vec Ideal S32768x8 .f32) (x1 : Vec Ideal S8x32 .f32) (x2 : Vec Ideal S1x32 .f32)
    (p : Fin 32768) (k : Fin 32) :
    maximumf
        (addf
          (matmul dot_S32768x8_S8x32_S32768x32_1_0_0_1_n_n none
            (truncf .bf16 (shapeCast S32768x8 x0 shapeCasts_S32768x8_S32768x8) bitsLt_bf16_f32)
            (truncf .bf16 x1 bitsLt_bf16_f32) (constant (F := Ideal) S32768x32 .f32 0x00000000#32))
          (broadcastTo S32768x32 (shapeCast S1x32 x2 shapeCasts_S1x32_S1x32) broadcasts_S1x32_S32768x32))
        (broadcast S32768x32 (Scalar.ofBits (F := Ideal) .f32 0x00000000#32)) (ix2 p k)
      = hidden (fun j => x0 (ix2 p j)) x1 (fun k => x2 (ix2 0 k)) k := by
  show max (_ + _) _ = max (_ + _) _
  refine congrArg₂ max (congrArg₂ (· + ·) ?_ ?_) rfl
  · refine (Cert.Lib.matmul_zero_apply dot_S32768x8_S8x32_S32768x32_1_0_0_1_n_n_wf none _ _ p k).trans ?_
    rw [shapeCast_self]
    rfl
  · refine (Cert.Lib.rowBroadcast_apply _ broadcasts_S1x32_S32768x32 p k).trans ?_
    rw [shapeCast_self]

/-- THE STORED VALUE AT ROW p is the weight of row p of the loaded block. -/
theorem pay_at (x0 : Vec Ideal S32768x8 .f32) (x1 : Vec Ideal S8x32 .f32) (x2 : Vec Ideal S1x32 .f32)
    (x3 : Vec Ideal S32x1 .f32) (x4 : Vec Ideal S1x1 .f32) (p : Fin 32768) :
    k0_pay1 (F := Ideal) x0 x1 x2 x3 x4 (ix1 p)
      = weight (fun j => x0 (ix2 p j)) x1 (fun k => x2 (ix2 0 k)) (fun k => x3 (ix2 k 0)) (x4 (ix2 0 0)) := by
  unfold k0_pay1
  refine (Cert.Lib.colToVec_apply _ shapeCasts_S32768x1_S32768 p).trans ?_
  show max (Ideal.logistic (_ + _)) _ = max (Ideal.logistic (_ + _)) _
  refine congrArg₂ max (congrArg Ideal.logistic (congrArg₂ (· + ·) ?_ ?_)) rfl
  · refine (Cert.Lib.matmul_zero_apply dot_S32768x32_S32x1_S32768x1_1_0_0_1_n_n_wf none _ _ p 0).trans ?_
    refine Finset.sum_congr rfl fun k _ => ?_
    refine congrArg₂ (· * ·) ?_ rfl
    exact hidden_at x0 x1 x2 p k
  · refine (Cert.Lib.rowBroadcast_apply _ broadcasts_S1x1_S32768x1 p 0).trans ?_
    rw [shapeCast_self]

end Cert.KernelIdeal.Edge

end
-- ==== Proof.EdgeFinal.lean ====
/-
  The edge-weight region's output array after the region: the weights of the rows of the padded attribute matrix.

  The grid has 31 points; at point t the attribute window's block is rows 32768·t … 32768·t + 32767 of the matrix and
  the output window's block is entries 32768·t … 32768·t + 32767 of the result, while the four parameter windows are
  their whole arrays at every point. The body stores, at entry p of its block, the weight of row p of the attribute
  block; so point t writes back exactly block t of the whole-array function "row r ↦ weight of row r", and since
  31 · 32768 = 1015808 the 31 blocks cover the result, the point covering entry r being r / 32768.
-/
import proofs.«144458_j9423158248257_1_alg».proof.Proof.KI.Region0
import proofs.«144458_j9423158248257_1_alg».proof.Proof.EdgePayload
import Idealize.ShloMosaic.Lib.Pipeline.Value

noncomputable section

namespace Cert.KernelIdeal.Edge

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg Cert.Edge

/-- The stored value at entry y of a block whose attribute rows are rows of a matrix `a`: when row y of the block is
    row i of `a`, the entry is the weight of row i. -/
theorem pay_block (x0 : Vec Ideal S32768x8 .f32) (x1 : Vec Ideal S8x32 .f32) (x2 : Vec Ideal S1x32 .f32)
    (x3 : Vec Ideal S32x1 .f32) (x4 : Vec Ideal S1x1 .f32) (a : S1015808x8.Idx → EReal) (y : S32768.Idx) (i : S1015808.Idx)
    (h0 : ∀ jj : Fin 8, x0 (ix2 (y 0 : Fin 32768) jj) = a (ix2 (i 0 : Fin 1015808) jj)) :
    k0_pay1 (F := Ideal) x0 x1 x2 x3 x4 y = weights a x1 x2 x3 x4 i := by
  obtain ⟨p, rfl⟩ : ∃ p : Fin 32768, y = ix1 p := ⟨y 0, eq_ix1 y⟩
  refine (pay_at x0 x1 x2 x3 x4 p).trans ?_
  show weight _ _ _ _ _ = weight _ _ _ _ _
  exact congrArg (fun r => weight r x1 (fun k => x2 (ix2 0 k)) (fun k => x3 (ix2 k 0)) (x4 (ix2 0 0))) (funext fun jj => h0 jj)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps, decided over the grid: the attribute window's block row is the output window's block, its
    block column is 0, the parameter windows stay at block (0, 0), and the output's block index is at most 30. -/
theorem idx_facts : ∀ t : Fin cfg0.N, win0_0.index t (0 : Fin 2) = win0_5.index t (0 : Fin 1)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) ≤ 30 :=
  (by decide +kernel : ∀ t : Fin grid0.N, _)

/-- Every one of the 31 blocks of the result is some point's. -/
theorem idx_onto : ∀ q0 : Fin 31, ∃ t : Fin cfg0.N, win0_5.index t = ![q0.val] :=
  (by decide +kernel : ∀ q0 : Fin 31, ∃ t : Fin grid0.N, win0_5.index t = ![q0.val])

/-- A parameter window's block is its whole array: the first-layer matrix, -/
theorem iblk_w1 (c : Dev nD) (t : Fin cfg0.N) : iblk0 V c 1 t = V c main_arg11 := by
  obtain ⟨-, -, e0, e1, -⟩ := idx_facts t
  funext y
  show V c main_arg11 (((cfg0.win 1).blk t).view.emb y) = V c main_arg11 y
  refine congrArg (V c main_arg11) (funext fun a => Fin.ext ?_)
  match a with
  | ⟨0, _⟩ => show win0_1.index t (0 : Fin 2) * 8 + 1 * (y 0).val = (y 0).val; omega
  | ⟨1, _⟩ => show win0_1.index t (1 : Fin 2) * 32 + 1 * (y 1).val = (y 1).val; omega

/-- the first-layer bias row, -/
theorem iblk_b1 (c : Dev nD) (t : Fin cfg0.N) : iblk0 V c 2 t = V c main_v1 := by
  obtain ⟨-, -, -, -, e0, e1, -⟩ := idx_facts t
  funext y
  show V c main_v1 (((cfg0.win 2).blk t).view.emb y) = V c main_v1 y
  refine congrArg (V c main_v1) (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- the second-layer column, -/
theorem iblk_w2 (c : Dev nD) (t : Fin cfg0.N) : iblk0 V c 3 t = V c main_arg13 := by
  obtain ⟨-, -, -, -, -, -, e0, e1, -⟩ := idx_facts t
  funext y
  show V c main_arg13 (((cfg0.win 3).blk t).view.emb y) = V c main_arg13 y
  refine congrArg (V c main_arg13) (funext fun a => Fin.ext ?_)
  match a with
  | ⟨0, _⟩ => show win0_3.index t (0 : Fin 2) * 32 + 1 * (y 0).val = (y 0).val; omega
  | ⟨1, _⟩ => show win0_3.index t (1 : Fin 2) * 1 + 1 * (y 1).val = (y 1).val; omega

/-- and the second-layer bias. -/
theorem iblk_b2 (c : Dev nD) (t : Fin cfg0.N) : iblk0 V c 4 t = V c main_v2 := by
  obtain ⟨-, -, -, -, -, -, -, -, e0, e1, -⟩ := idx_facts t
  funext y
  show V c main_v2 (((cfg0.win 4).blk t).view.emb y) = V c main_v2 y
  refine congrArg (V c main_v2) (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- Row y of the attribute block at point t is the matrix's row under entry y of the output block at point t. -/
theorem iblk_rows (c : Dev nD) (t : Fin cfg0.N) (y : S32768.Idx) (jj : Fin 8) :
    iblk0 V c 0 t (ix2 (y 0 : Fin 32768) jj)
      = V c main_v0 (ix2 ((((cfg0.win 5).blk t).view.emb y) 0 : Fin 1015808) jj) := by
  obtain ⟨e0, e1, -⟩ := idx_facts t
  show V c main_v0 (((cfg0.win 0).blk t).view.emb (ix2 (y 0 : Fin 32768) jj)) = _
  refine congrArg (V c main_v0) (funext fun a => Fin.ext ?_)
  match a with
  | ⟨0, _⟩ => show win0_0.index t (0 : Fin 2) * 32768 + 1 * (y 0).val = win0_5.index t (0 : Fin 1) * 32768 + 1 * (y 0).val; omega
  | ⟨1, _⟩ => show win0_0.index t (1 : Fin 2) * 8 + 1 * jj.val = jj.val; omega

/-- WHAT POINT t WRITES BACK is block t of the weights of the matrix's rows. -/
theorem flushed_eq (c : Dev nD) (t : Fin cfg0.N) :
    (dat0 V c).flushed 5 t = ((cfg0.win 5).blk t).view.read (Elt Ideal)
      (weights (V c main_v0) (V c main_arg11) (V c main_v1) (V c main_arg13) (V c main_v2)) := by
  show (cfg0.win 5).cut (grid0.coords t) ((dat0 V c).after 5 t) = _
  rw [after0_5]
  unfold out0_5
  rw [View.canon_unit_zero hz1]
  simp only [View.ld_unit_zero (S := S32768x8) hz2, View.ld_unit_zero (S := S8x32) hz2, View.ld_unit_zero (S := S1x32) hz2,
    View.ld_unit_zero (S := S32x1) hz2, View.ld_unit_zero (S := S1x1) hz2]
  rw [iblk_w1 V c t, iblk_b1 V c t, iblk_w2 V c t, iblk_b2 V c t]
  funext y
  exact pay_block (iblk0 V c 0 t) (V c main_arg11) (V c main_v1) (V c main_arg13) (V c main_v2) (V c main_v0) y
    (((cfg0.win 5).blk t).view.emb y) (fun jj => iblk_rows V c t y jj)

/-- An entry of the result is in point t's block iff it is in the block's range. -/
theorem mem_blk (t : Fin cfg0.N) (i : S1015808.Idx) :
    i ∈ ((cfg0.win 5).blk t).view.set ↔ ∀ a : Fin 1, win0_5.index t a * S32768.size a ≤ (i a).val ∧ (i a).val < win0_5.index t a * S32768.size a + S32768.size a := by
  show i ∈ ((View.whole main_v3).slice (win0_5.rect t)).set ↔ _
  rw [View.set_slice_whole, Rect.mem_set_unit]
  exact Iff.rfl

/-- THE BLOCKS COVER THE RESULT: entry r is in the block of the point with block index r / 32768. -/
theorem cover (i : S1015808.Idx) : ∃ t : Fin cfg0.N, (cfg0.win 5).flush t = true ∧ i ∈ ((cfg0.win 5).blk t).view.set := by
  have hi0 : (i 0).val < 1015808 := (i 0).isLt
  obtain ⟨t, ht⟩ := idx_onto ⟨(i 0).val / 32768, by omega⟩
  have q0 : win0_5.index t (0 : Fin 1) = (i 0).val / 32768 := congrFun ht 0
  refine ⟨t, flush0_5 t, ?_⟩
  rw [mem_blk]
  intro a
  match a with
  | ⟨0, _⟩ => show win0_5.index t (0 : Fin 1) * 32768 ≤ (i 0).val ∧ (i 0).val < win0_5.index t (0 : Fin 1) * 32768 + 32768; omega

/-- THE RESULT ARRAY after the region: the weights of the rows of the padded attribute matrix as the region finds it. -/
theorem final0 (c : Dev nD) :
    (dat0 V c).arrAt 5 cfg0.N = weights (V c main_v0) (V c main_arg11) (V c main_v1) (V c main_arg13) (V c main_v2) :=
  (dat0 V c).arrAt_eq_of_cover 5 _ (fun t _ => flushed_eq V c t) cover

end Cert.KernelIdeal.Edge

end
-- ==== Proof.LibPadRead.lean ====
/-
  A StableHLO `pad` without interior padding, read at an index.

  With interior padding zero on every axis the padded array holds the operand shifted by the low padding, and the padding
  value around it: at an index whose every coordinate is `lo a + k a` for an operand index `k` it reads the operand at
  `k`; at an index with some coordinate below `lo a` or at least `lo a + (the operand's extent)` it reads the padding value.
  Any shapes, any element type; imports only the operations' definitions.
-/
import Idealize.ShloMosaic.PureOps.ShapeOps

namespace Idealize.ShloMosaic

variable {s t u : Shape} {α : Type}

/-- Inside the operand's image, a pad without interior padding reads the operand: result index `j` with
    `j a = lo a + k a` on every axis reads `x k`. -/
theorem pad_apply_inside (lo hi interior : Fin s.rank → Nat) (hint : ∀ a, interior a = 0) (x : s.Idx → α) (v : u.Idx → α)
    (h : s.Pads lo hi interior t) (hu : 0 < u.numel) (j : t.Idx) (k : s.Idx)
    (hk : ∀ a : Fin s.rank, (j (a.cast h.1)).val = lo a + (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := by
    intro a
    have hka := (k a).isLt
    rw [hint a, hk a]
    refine ⟨Nat.le_add_right _ _, Nat.mod_one _, ?_⟩
    rw [Nat.zero_add, Nat.div_one, Nat.add_sub_cancel_left]
    exact hka
  rw [dif_pos hin]
  refine congrArg x (funext fun a => Fin.ext ?_)
  show ((j (a.cast h.1)).val - lo a) / (interior a + 1) = (k a).val
  rw [hint a, hk a, Nat.zero_add, Nat.div_one, Nat.add_sub_cancel_left]

/-- Outside the operand's image, a pad without interior padding reads the padding value: some coordinate of `j` is below
    the low padding, or at or past the low padding plus the operand's extent. -/
theorem pad_apply_outside (lo hi interior : Fin s.rank → Nat) (hint : ∀ a, interior a = 0) (x : s.Idx → α) (v : u.Idx → α)
    (h : s.Pads lo hi interior t) (hu : 0 < u.numel) (j : t.Idx) (a : Fin s.rank)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint a, Nat.zero_add, Nat.div_one] at h3
  omega

end Idealize.ShloMosaic
-- ==== Proof.LibHostLogistic.lean ====
/-
  The logistic function and the swish as a host program spells them, and a bias vector added to every row of a matrix,
  read at an index over the extended reals. Independent of any program.

  A host program may spell σ(z) out as 1 / (1 + e^(-z)) in four elementwise operations — negate, exponential, add,
  divide — with the scalar 1.0 broadcast to the array's shape; the swish is z times that. Over the extended reals the f32 word of
  1.0 denotes 1, and `Ideal.logistic z` is by definition `Ideal.div 1 (1 + Ideal.exp (-z))`: so the spelt-out quotient
  IS the logistic function at every index, infinities included. A bias vector [f] broadcast to the row [1, f] and then
  down n rows contributes its entry q to entry (p, q).
-/
import Idealize.ShloMosaic.Lib.ValueIdx
import Idealize.ShloMosaic.Lib.Pipeline.Value
import Idealize.ShloMosaic.PureOps.Ideal
import Idealize.ShloMosaic.PureOps.IdealRules

noncomputable section

namespace Cert.Lib

open Idealize.ShloMosaic Idealize.ShloMosaic.ValueIdx

/-- The f32 word of 1.0 denotes the extended real 1. -/
theorem one_f32 : Ideal.ofBits .f32 0x3F800000#32 = 1 := IdealRules.sign_bit.ideal_onePat .f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_f32

/-- 1 / (1 + e^(-z)), spelt in the host's operations, is the logistic function at every index. -/
theorem hostLogistic_apply {s : Shape} (z : FVec Ideal s .f32) (h0 : (⟨0, ![]⟩ : Shape).BroadcastsInDim s ![]) (i : s.Idx) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) i
      = Ideal.logistic (z i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(z i)))
    = Ideal.div 1 (1 + Ideal.exp (-(z i)))
  rw [ones_apply h0 i]

/-- z · (1 / (1 + e^(-z))), spelt in the host's operations, is z · σ(z) at every index. -/
theorem hostSwish_apply {s : Shape} (z : FVec Ideal s .f32) (h0 : (⟨0, ![]⟩ : Shape).BroadcastsInDim s ![]) (i : s.Idx) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))) i
      = z i * Ideal.logistic (z i) :=
  congrArg (z i * ·) (hostLogistic_apply z h0 i)

/-- A bias vector [f] broadcast to the row [1, f], then down n rows, and added: entry (p, q) gains the vector's entry q. -/
theorem hostRowBias_apply {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    addf a (broadcastInDim ⟨2, ![n, f]⟩ ![0, 1] h2 (broadcastInDim ⟨2, ![1, f]⟩ ![1] h1 b)) (ix2 p q)
      = a (ix2 p q) + b (ix1 q) := by
  have hq := q.isLt
  have e2 : broadcastInDim ⟨2, ![n, f]⟩ ![0, 1] h2 (broadcastInDim ⟨2, ![1, f]⟩ ![1] h1 b) (ix2 p q)
      = broadcastInDim ⟨2, ![1, f]⟩ ![1] h1 b (ix2 0 q) :=
    broadcastInDim_apply ![0, 1] h2 _ (ix2 p q) (ix2 0 q) (fun d => by
      match d with
      | ⟨0, _⟩ => show (0 : Nat) = if (1 : Nat) = 1 then 0 else p.val; rw [if_pos rfl]
      | ⟨1, _⟩ => show q.val = if f = 1 then 0 else q.val; split <;> omega)
  have e1 : broadcastInDim ⟨2, ![1, f]⟩ ![1] h1 b (ix2 0 q) = b (ix1 q) :=
    broadcastInDim_apply ![1] h1 b (ix2 0 q) (ix1 q) (fun d => by
      match d with
      | ⟨0, _⟩ => show q.val = if f = 1 then 0 else q.val; split <;> omega)
  show a (ix2 p q) + _ = a (ix2 p q) + b (ix1 q)
  rw [e2, e1]

end Cert.Lib

end
-- ==== Proof.EdgeRef.lean ====
/-
  The reference's edge weights are the same function of the attribute rows as the kernel's, and the kernel's host
  operations around its region do not change that.

  The reference computes, for each of the 1000000 rows, max(1 / (1 + e^(-z)), 9.99999997e-7) with
  z = Σ_k max(Σ_j a(p,j) · W1(j,k) + b1(k), 0) · W2(k,0) + b2(0): the bias vectors are broadcast along the rows, the
  comparison with zero is against a broadcast scalar, and 1 / (1 + e^(-z)) is the logistic function of z on the
  extended reals, the f32 word of 1.0 denoting 1. So row p of the reference's result is the weight of row p.

  The kernel's program pads the attribute matrix with 15808 more rows, re-lays the two bias vectors as a row [1, 32] and
  a [1, 1] array, runs the region, and keeps the first 1000000 entries of the result. Entry p < 1000000 of the region's
  result is the weight of row p of the padded matrix, which is row p of the matrix itself; the padding value is never
  read. Hence the two arrays are equal.
-/
import proofs.«144458_j9423158248257_1_alg».proof.Proof.RefRead
import proofs.«144458_j9423158248257_1_alg».proof.Proof.EdgeSpec
import proofs.«144458_j9423158248257_1_alg».proof.Proof.LibPadRead
import proofs.«144458_j9423158248257_1_alg».proof.Proof.LibHostLogistic
import proofs.«144458_j9423158248257_1_alg».proof.Proof.LibRowLayout
import Idealize.ShloMosaic.Lib.Pipeline.Value
import Idealize.ShloMosaic.Lib.ValueIdx

noncomputable section

namespace Cert.EdgeJoin

open Idealize.ShloMosaic Idealize.ShloMosaic.ValueIdx
open Cert.ReferenceIdeal Cert.ReferenceIdeal.Gen Cert.ReferenceIdeal.Read Cert.Edge

/-- The reference's hidden layer at (p, k) is hidden unit k of row p. -/
theorem ref_hidden (x2 : (⟨S1000000x8, .f32⟩ : BufTy).Contents (Elt Ideal)) (x11 : (⟨S8x32, .f32⟩ : BufTy).Contents (Elt Ideal))
    (x12 : (⟨S32, .f32⟩ : BufTy).Contents (Elt Ideal)) (p : Fin 1000000) (k : Fin 32) :
    val_main_v4 (F := Ideal) x2 x11 x12 (ix2 p k) = hidden (fun j => x2 (ix2 p j)) x11 (fun k => x12 (ix1 k)) k := by
  rw [val_main_v4_apply, val_main_call0_v0_apply, val_main_call0_cst_apply, val_main_v3_apply, val_main_v0_apply,
    val_main_v2_apply, val_main_v1_apply]
  have el : ∀ j : Fin 8, lidx_main_v0 (ix2 p k) j = ix2 p j := fun j => funext fun d => Fin.ext (by
    match d with | ⟨0, _⟩ => rfl | ⟨1, _⟩ => rfl)
  have er : ∀ j : Fin 8, ridx_main_v0 (ix2 p k) j = ix2 j k := fun j => funext fun d => Fin.ext (by
    match d with | ⟨0, _⟩ => rfl | ⟨1, _⟩ => rfl)
  have eb : idx_main_v1 (idx_main_v2 (ix2 p k)) = ix1 k := funext fun d => Fin.ext (by
    match d with | ⟨0, _⟩ => rfl)
  simp only [el, er, eb]
  rfl

/-- THE REFERENCE'S RESULT AT ROW p is the weight of row p. -/
theorem ref_at (x2 : (⟨S1000000x8, .f32⟩ : BufTy).Contents (Elt Ideal)) (x11 : (⟨S8x32, .f32⟩ : BufTy).Contents (Elt Ideal))
    (x12 : (⟨S32, .f32⟩ : BufTy).Contents (Elt Ideal)) (x13 : (⟨S32x1, .f32⟩ : BufTy).Contents (Elt Ideal))
    (x14 : (⟨S1, .f32⟩ : BufTy).Contents (Elt Ideal)) (p : Fin 1000000) :
    val_main_v17 (F := Ideal) x2 x11 x12 x13 x14 (ix1 p)
      = weight (fun j => x2 (ix2 p j)) x11 (fun k => x12 (ix1 k)) (fun k => x13 (ix2 k 0)) (x14 (ix1 0)) := by
  rw [val_main_v17_apply, val_main_v16_apply, val_main_cst_1_apply, val_main_v15_apply, val_main_v14_apply,
    val_main_v13_apply, val_main_cst_0_apply, val_main_v12_apply, val_main_v11_apply, val_main_cst_apply,
    val_main_v10_apply, val_main_v9_apply, val_main_v8_apply, val_main_v5_apply, val_main_v7_apply, val_main_v6_apply]
  have e15 : idx_main_v15 (ix1 p) = ix2 p (0 : Fin 1) := funext fun d => Fin.ext (by
    match d with
    | ⟨0, _⟩ => show p.val / 1 = p.val; exact Nat.div_one _
    | ⟨1, _⟩ => rfl)
  rw [e15]
  have el : ∀ k : Fin 32, lidx_main_v5 (ix2 p (0 : Fin 1)) k = ix2 p k := fun k => funext fun d => Fin.ext (by
    match d with | ⟨0, _⟩ => rfl | ⟨1, _⟩ => rfl)
  have er : ∀ k : Fin 32, ridx_main_v5 (ix2 p (0 : Fin 1)) k = ix2 k (0 : Fin 1) := fun k => funext fun d => Fin.ext (by
    match d with | ⟨0, _⟩ => rfl | ⟨1, _⟩ => rfl)
  have eb : idx_main_v6 (idx_main_v7 (ix2 p (0 : Fin 1))) = ix1 (0 : Fin 1) := funext fun d => Fin.ext (by
    match d with | ⟨0, _⟩ => rfl)
  simp only [el, er, eb, ref_hidden]
  show max (Ideal.div (Ideal.ofBits .f32 0x3F800000#32) (Ideal.ofBits .f32 0x3F800000#32 + Ideal.exp (-(_ + _)))) _ = _
  rw [Cert.Lib.one_f32]
  rfl

/-- THE TWO PROGRAMS' EDGE WEIGHTS AGREE: the region's result on the padded matrix and the re-laid biases, cut back to
    the first 1000000 entries, is the reference's result, whatever the padding value. -/
theorem edge_join (x2 : (⟨S1000000x8, .f32⟩ : BufTy).Contents (Elt Ideal)) (x11 : (⟨S8x32, .f32⟩ : BufTy).Contents (Elt Ideal))
    (x12 : (⟨S32, .f32⟩ : BufTy).Contents (Elt Ideal)) (x13 : (⟨S32x1, .f32⟩ : BufTy).Contents (Elt Ideal))
    (x14 : (⟨S1, .f32⟩ : BufTy).Contents (Elt Ideal)) (v : S_.Idx → EReal)
    (hp : S1000000x8.Pads ![0, 0] ![15808, 0] ![0, 0] (⟨2, ![1015808, 8]⟩ : Shape)) (hu : 0 < S_.numel)
    (hc1 : S32.ShapeCasts S1x32) (hc2 : S1.ShapeCasts S1x1)
    (hs : (⟨1, ![1015808]⟩ : Shape).Slices ![0] S1000000) :
    extractStridedSlice S1000000 ![0]
        (weights (pad (⟨2, ![1015808, 8]⟩ : Shape) ![0, 0] ![15808, 0] ![0, 0] x2 v hp hu) x11
          (shapeCast S1x32 x12 hc1) x13 (shapeCast S1x1 x14 hc2)) hs
      = val_main_v17 (F := Ideal) x2 x11 x12 x13 x14 := by
  funext i
  obtain ⟨p, rfl⟩ : ∃ p : Fin 1000000, i = ix1 p := ⟨i 0, eq_ix1 i⟩
  rw [ref_at]
  have hp' : p.val < 1015808 := by have := p.isLt; omega
  refine (extractStridedSlice_apply ![0] _ hs (ix1 p) (ix1 (⟨p.val, hp'⟩ : Fin 1015808)) (fun a => ?_)).trans ?_
  · match a with
    | ⟨0, _⟩ => show p.val = 0 + p.val; omega
  rw [weights_apply]
  have e1 : (fun j : Fin 8 => pad (⟨2, ![1015808, 8]⟩ : Shape) ![0, 0] ![15808, 0] ![0, 0] x2 v hp hu
      (ix2 (⟨p.val, hp'⟩ : Fin 1015808) j)) = fun j => x2 (ix2 p j) :=
    funext fun j => pad_apply_inside ![0, 0] ![15808, 0] ![0, 0] (fun a => by fin_cases a <;> rfl) x2 v hp hu _ (ix2 p j)
      (fun a => by
        match a with
        | ⟨0, _⟩ => show p.val = 0 + p.val; omega
        | ⟨1, _⟩ => show j.val = 0 + j.val; omega)
  have e2 : (fun k : Fin 32 => shapeCast S1x32 x12 hc1 (ix2 0 k)) = fun k => x12 (ix1 k) :=
    funext fun k => Cert.Lib.vecToRow_apply x12 hc1 k
  have e3 : shapeCast S1x1 x14 hc2 (ix2 0 0) = x14 (ix1 0) := Cert.Lib.vecToRow_apply x14 hc2 0
  rw [e1, e2, e3]

end Cert.EdgeJoin

end
-- ==== Proof.ItemSpec.lean ====
/-
  The projected and normalised embedding of one item, as a function of its row of 128 input features.

  A row x of features is projected to 64 coordinates, y_q = Σ_k x_k · Wp(k,q) + bp_q, and divided by its Euclidean
  length kept at or above the constant 9.99999996e-13 (written by its f32 word, which is never evaluated): coordinate
  q of the result is y_q / max(√(Σ_c y_c · y_c), 9.99999996e-13). Everything is an exact extended real, the quotient
  is the extended reals' division.

  The whole-array function of an [n, 128] matrix of feature rows applies this to every row, and only to that row.
-/
import Idealize.ShloMosaic.Lib.ValueIdx
import Idealize.ShloMosaic.PureOps.Ideal
import Idealize.ShloMosaic.PureOps.Ideal.Laws

noncomputable section

namespace Cert.Item

open Idealize.ShloMosaic Idealize.ShloMosaic.ValueIdx

/-- Coordinate q of the projection of a row: Σ_k x_k · Wp(k,q) + bp_q. -/
def proj (row : Fin 128 → EReal) (wp : (⟨2, ![128, 64]⟩ : Shape).Idx → EReal) (bp : Fin 64 → EReal) (q : Fin 64) : EReal :=
  (∑ k : Fin 128, row k * wp (ix2 k q)) + bp q

/-- The length the projection is divided by: max(√(Σ_c y_c · y_c), 9.99999996e-13). -/
def len (row : Fin 128 → EReal) (wp : (⟨2, ![128, 64]⟩ : Shape).Idx → EReal) (bp : Fin 64 → EReal) : EReal :=
  max (Ideal.sqrt (∑ c : Fin 64, proj row wp bp c * proj row wp bp c)) (Ideal.ofBits .f32 0x2B8CBCCC#32)

/-- Coordinate q of the normalised projection of a row. -/
def unit (row : Fin 128 → EReal) (wp : (⟨2, ![128, 64]⟩ : Shape).Idx → EReal) (bp : Fin 64 → EReal) (q : Fin 64) : EReal :=
  Ideal.div (proj row wp bp q) (len row wp bp)

/-- The normalised projections of the 106496 rows of a padded feature matrix, with the bias as a row [1, 64]. -/
def units (x : (⟨2, ![106496, 128]⟩ : Shape).Idx → EReal) (wp : (⟨2, ![128, 64]⟩ : Shape).Idx → EReal)
    (bp : (⟨2, ![1, 64]⟩ : Shape).Idx → EReal) : (⟨2, ![106496, 64]⟩ : Shape).Idx → EReal :=
  fun i => unit (fun k => x (ix2 (i 0 : Fin 106496) k)) wp (fun q => bp (ix2 0 q)) (i 1 : Fin 64)

/-- Entry (p, q) of the result is coordinate q of the normalised projection of row p of the matrix. -/
theorem units_apply (x : (⟨2, ![106496, 128]⟩ : Shape).Idx → EReal) (wp : (⟨2, ![128, 64]⟩ : Shape).Idx → EReal)
    (bp : (⟨2, ![1, 64]⟩ : Shape).Idx → EReal) (p : Fin 106496) (q : Fin 64) :
    units x wp bp (ix2 p q) = unit (fun k => x (ix2 p k)) wp (fun q => bp (ix2 0 q)) q := rfl

end Cert.Item

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.ItemPayload.lean ====
/-
  The item-projection body's stored value, read at one entry.

  The body loads a block of 8192 feature rows, the projection matrix and the bias row whole, and stores a block of
  8192 normalised projections. Entry (p, q) of the stored block is coordinate q of the normalised projection of row p
  of the loaded block: the matrix product into a zero accumulator is Σ_k x(p,k) · Wp(k,q), the bias row is broadcast
  down the rows, the sum of squares over the 64 lanes is a row sum, its cast to a column [8192,1], the square root and
  the lower bound keep row p at p, and the column is broadcast back over the 64 lanes before the division. The
  narrowings to bf16 before the product are the identity on extended reals.
-/
import proofs.«144458_j9423158248257_1_alg».proof.Proof.Gen.KernelIdeal.Skeleton
import proofs.«144458_j9423158248257_1_alg».proof.Proof.ItemSpec
import proofs.«144458_j9423158248257_1_alg».proof.Proof.LibPlainDot
import proofs.«144458_j9423158248257_1_alg».proof.Proof.LibAxisSums
import proofs.«144458_j9423158248257_1_alg».proof.Proof.LibColumnCast
import proofs.«144458_j9423158248257_1_alg».proof.Proof.LibColumnBroadcast
import proofs.«144458_j9423158248257_1_alg».proof.Proof.LibRowLayout
import Idealize.ShloMosaic.Lib.ValueIdx
import Idealize.ShloMosaic.Lib.Pipeline.Value

noncomputable section

namespace Cert.KernelIdeal.Item

open Idealize.ShloMosaic Idealize.ShloMosaic.ValueIdx Cert.KernelIdeal Cert.KernelIdeal.Gen Cert.Item

/-- The projection of the block at (p, q): the product plus the bias row. -/
theorem proj_at (x0 : Vec Ideal S8192x128 .f32) (x1 : Vec Ideal S128x64 .f32) (x2 : Vec Ideal S1x64 .f32)
    (p : Fin 8192) (q : Fin 64) :
    addf
        (matmul dot_S8192x128_S128x64_S8192x64_1_0_0_1_n_n none
          (truncf .bf16 (shapeCast S8192x128 x0 shapeCasts_S8192x128_S8192x128) bitsLt_bf16_f32)
          (truncf .bf16 x1 bitsLt_bf16_f32) (constant (F := Ideal) S8192x64 .f32 0x00000000#32))
        (broadcastTo S8192x64 (shapeCast S1x64 x2 shapeCasts_S1x64_S1x64) broadcasts_S1x64_S8192x64) (ix2 p q)
      = proj (fun k => x0 (ix2 p k)) x1 (fun q => x2 (ix2 0 q)) q := by
  show _ + _ = _ + _
  refine congrArg₂ (· + ·) ?_ ?_
  · refine (Cert.Lib.matmul_zero_apply dot_S8192x128_S128x64_S8192x64_1_0_0_1_n_n_wf none _ _ p q).trans ?_
    rw [shapeCast_self]
    rfl
  · refine (Cert.Lib.rowBroadcast_apply _ broadcasts_S1x64_S8192x64 p q).trans ?_
    rw [shapeCast_self]

/-- THE STORED VALUE AT (p, q) is coordinate q of the normalised projection of row p of the loaded block. -/
theorem pay_at (x0 : Vec Ideal S8192x128 .f32) (x1 : Vec Ideal S128x64 .f32) (x2 : Vec Ideal S1x64 .f32)
    (p : Fin 8192) (q : Fin 64) :
    k2_pay1 (F := Ideal) x0 x1 x2 (ix2 p q) = unit (fun k => x0 (ix2 p k)) x1 (fun q => x2 (ix2 0 q)) q := by
  show Ideal.div _ _ = Ideal.div _ _
  refine congrArg₂ Ideal.div (proj_at x0 x1 x2 p q) ?_
  refine (Cert.Lib.broadcastTo_a1_ab_apply _ broadcasts_S8192x1_S8192x64 p q).trans ?_
  show max (Ideal.sqrt _) _ = max (Ideal.sqrt _) _
  refine congrArg₂ max (congrArg Ideal.sqrt ?_) rfl
  refine (Cert.Lib.shapeCast_a_a1_apply _ shapeCasts_S8192_S8192x1 p 0).trans ?_
  refine (Cert.Lib.rowSum_apply _ _ _ _ _ p).trans ?_
  refine Finset.sum_congr rfl fun c _ => ?_
  exact congrArg₂ (· * ·) (proj_at x0 x1 x2 p c) (proj_at x0 x1 x2 p c)

end Cert.KernelIdeal.Item

end
-- ==== Proof.ItemFinal.lean ====
/-
  The item-projection region's output array after the region: the normalised projections of the rows of the padded
  feature matrix.

  The grid has 13 points; at point t the feature window's block is rows 8192·t … 8192·t + 8191 of the matrix (all 128
  columns) and the output window's block is the same rows of the result (all 64 columns), while the projection matrix
  and the bias row are their whole arrays at every point. The body stores, at entry (p, q) of its block, coordinate q
  of the normalised projection of row p of the feature block; so point t writes back exactly block t of the
  whole-array function "(r, q) ↦ coordinate q of the normalised projection of row r", and since 13 · 8192 = 106496 the
  13 blocks cover the result, the point covering row r being r / 8192.
-/
import proofs.«144458_j9423158248257_1_alg».proof.Proof.KI.Region2
import proofs.«144458_j9423158248257_1_alg».proof.Proof.ItemPayload
import Idealize.ShloMosaic.Lib.Pipeline.Value

noncomputable section

namespace Cert.KernelIdeal.Item

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg Cert.Item

/-- The stored value at entry y of a block whose feature rows are rows of a matrix `x`: when row y 0 of the block is
    row i 0 of `x` and the columns agree, the entry is that coordinate of the normalised projection of that row. -/
theorem pay_block (x0 : Vec Ideal S8192x128 .f32) (x1 : Vec Ideal S128x64 .f32) (x2 : Vec Ideal S1x64 .f32)
    (x : S106496x128.Idx → EReal) (y : S8192x64.Idx) (i : S106496x64.Idx)
    (h0 : ∀ k : Fin 128, x0 (ix2 (y 0 : Fin 8192) k) = x (ix2 (i 0 : Fin 106496) k))
    (h1 : (y 1 : Fin 64) = (i 1 : Fin 64)) :
    k2_pay1 (F := Ideal) x0 x1 x2 y = units x x1 x2 i := by
  obtain ⟨p, q, rfl⟩ : ∃ (p : Fin 8192) (q : Fin 64), y = ix2 p q := ⟨y 0, y 1, eq_ix2 y⟩
  refine (pay_at x0 x1 x2 p q).trans ?_
  show unit _ _ _ _ = unit _ _ _ _
  have hq : q = (i 1 : Fin 64) := h1
  rw [hq]
  exact congrArg (fun r => unit r x1 (fun q => x2 (ix2 0 q)) (i 1 : Fin 64)) (funext fun k => h0 k)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the feature window's block row is the output window's, both block
    columns are 0, the parameter windows stay at block (0, 0), and the output's block row is at most 12. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0
    ∧ win2_3.index t (0 : Fin 2) ≤ 12 :=
  (by decide +kernel : ∀ t : Fin grid2.N, _)

/-- Every one of the 13 row blocks of the result is some point's. -/
theorem idx_onto : ∀ q0 : Fin 13, ∃ t : Fin cfg2.N, win2_3.index t = ![q0.val, 0] :=
  (by decide +kernel : ∀ q0 : Fin 13, ∃ t : Fin grid2.N, win2_3.index t = ![q0.val, 0])

/-- A parameter window's block is its whole array: the projection matrix, -/
theorem iblk_wp (c : Dev nD) (t : Fin cfg2.N) : iblk2 V c 1 t = V c main_arg9 := by
  obtain ⟨-, -, e0, e1, -⟩ := idx_facts t
  funext y
  show V c main_arg9 (((cfg2.win 1).blk t).view.emb y) = V c main_arg9 y
  refine congrArg (V c main_arg9) (funext fun a => Fin.ext ?_)
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- and the bias row. -/
theorem iblk_bp (c : Dev nD) (t : Fin cfg2.N) : iblk2 V c 2 t = V c main_v59 := by
  obtain ⟨-, -, -, -, e0, e1, -⟩ := idx_facts t
  funext y
  show V c main_v59 (((cfg2.win 2).blk t).view.emb y) = V c main_v59 y
  refine congrArg (V c main_v59) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Row y 0 of the feature block at point t is the matrix's row under entry y of the output block at point t. -/
theorem iblk_rows (c : Dev nD) (t : Fin cfg2.N) (y : S8192x64.Idx) (k : Fin 128) :
    iblk2 V c 0 t (ix2 (y 0 : Fin 8192) k)
      = V c main_v58 (ix2 ((((cfg2.win 3).blk t).view.emb y) 0 : Fin 106496) k) := by
  obtain ⟨e0, e1, -⟩ := idx_facts t
  show V c main_v58 (((cfg2.win 0).blk t).view.emb (ix2 (y 0 : Fin 8192) k)) = _
  refine congrArg (V c main_v58) (funext fun a => Fin.ext ?_)
  match a with
  | ⟨0, _⟩ => show win2_0.index t (0 : Fin 2) * 8192 + 1 * (y 0).val = win2_3.index t (0 : Fin 2) * 8192 + 1 * (y 0).val; omega
  | ⟨1, _⟩ => show win2_0.index t (1 : Fin 2) * 128 + 1 * k.val = k.val; omega

/-- The column of entry y of the output block at point t is y's own column. -/
theorem emb_col (t : Fin cfg2.N) (y : S8192x64.Idx) :
    (y 1 : Fin 64) = ((((cfg2.win 3).blk t).view.emb y) 1 : Fin 64) := by
  obtain ⟨-, -, -, -, -, -, e1, -⟩ := idx_facts t
  refine Fin.ext ?_
  show (y 1).val = win2_3.index t (1 : Fin 2) * 64 + 1 * (y 1).val
  omega

/-- WHAT POINT t WRITES BACK is block t of the normalised projections of the matrix's rows. -/
theorem flushed_eq (c : Dev nD) (t : Fin cfg2.N) :
    (dat2 V c).flushed 3 t = ((cfg2.win 3).blk t).view.read (Elt Ideal)
      (units (V c main_v58) (V c main_arg9) (V c main_v59)) := by
  show (cfg2.win 3).cut (grid2.coords t) ((dat2 V c).after 3 t) = _
  rw [after2_3]
  unfold out2_3
  rw [View.canon_unit_zero hz2]
  simp only [View.ld_unit_zero (S := S8192x128) hz2, View.ld_unit_zero (S := S128x64) hz2, View.ld_unit_zero (S := S1x64) hz2]
  rw [iblk_wp V c t, iblk_bp V c t]
  funext y
  exact pay_block (iblk2 V c 0 t) (V c main_arg9) (V c main_v59) (V c main_v58) y
    (((cfg2.win 3).blk t).view.emb y) (fun k => iblk_rows V c t y k) (emb_col t y)

/-- An entry of the result is in point t's block iff each coordinate is in the block's range. -/
theorem mem_blk (t : Fin cfg2.N) (i : S106496x64.Idx) :
    i ∈ ((cfg2.win 3).blk t).view.set ↔ ∀ a : Fin 2, win2_3.index t a * S8192x64.size a ≤ (i a).val ∧ (i a).val < win2_3.index t a * S8192x64.size a + S8192x64.size a := by
  show i ∈ ((View.whole main_v60).slice (win2_3.rect t)).set ↔ _
  rw [View.set_slice_whole, Rect.mem_set_unit]
  exact Iff.rfl

/-- THE BLOCKS COVER THE RESULT: row r is in the block of the point with block row r / 8192. -/
theorem cover (i : S106496x64.Idx) : ∃ t : Fin cfg2.N, (cfg2.win 3).flush t = true ∧ i ∈ ((cfg2.win 3).blk t).view.set := by
  have hi0 : (i 0).val < 106496 := (i 0).isLt
  have hi1 : (i 1).val < 64 := (i 1).isLt
  obtain ⟨t, ht⟩ := idx_onto ⟨(i 0).val / 8192, by omega⟩
  have q0 : win2_3.index t (0 : Fin 2) = (i 0).val / 8192 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 8192 ≤ (i 0).val ∧ (i 0).val < win2_3.index t (0 : Fin 2) * 8192 + 8192; omega
  | ⟨1, _⟩ => show win2_3.index t (1 : Fin 2) * 64 ≤ (i 1).val ∧ (i 1).val < win2_3.index t (1 : Fin 2) * 64 + 64; omega

/-- THE RESULT ARRAY after the region: the normalised projections of the rows of the padded feature matrix as the
    region finds it. -/
theorem final2 (c : Dev nD) :
    (dat2 V c).arrAt 3 cfg2.N = units (V c main_v58) (V c main_arg9) (V c main_v59) :=
  (dat2 V c).arrAt_eq_of_cover 3 _ (fun t _ => flushed_eq V c t) cover

end Cert.KernelIdeal.Item

end
-- ==== Proof.ItemRef.lean ====
/-
  The reference's item embeddings are the same function of the item feature rows as the kernel's, and the kernel's host
  operations around its region do not change that.

  The reference computes, for each of the 100000 feature rows x, y = x · Wp + bp with the bias broadcast along the rows,
  the row sums of y · y starting from the scalar zero (the f32 zero word denotes 0, which adds nothing), their square
  roots kept at or above 9.99999996e-13 as a column broadcast back over the 64 coordinates, and the quotient: entry
  (p, q) is coordinate q of the normalised projection of row p. The feature matrix itself — a concatenation of gathered
  tables — is never opened: both sides read the same rows of it.

  The kernel's program pads the feature matrix with 6496 more rows, re-lays the bias vector as a row [1, 64], runs the
  region, and keeps the first 100000 rows of the result. Entry (p, q) with p < 100000 of the region's result is
  coordinate q of the normalised projection of row p of the padded matrix, which is row p of the matrix itself; the
  padding value is never read. Hence the two arrays are equal.
-/
import proofs.«144458_j9423158248257_1_alg».proof.Proof.RefRead
import proofs.«144458_j9423158248257_1_alg».proof.Proof.ItemSpec
import proofs.«144458_j9423158248257_1_alg».proof.Proof.LibPadRead
import proofs.«144458_j9423158248257_1_alg».proof.Proof.LibRowLayout
import Idealize.ShloMosaic.Lib.Pipeline.Value
import Idealize.ShloMosaic.Lib.ValueIdx
import Idealize.ShloMosaic.PureOps.Ideal.Laws

noncomputable section

namespace Cert.ItemJoin

open Idealize.ShloMosaic Idealize.ShloMosaic.ValueIdx
open Cert.ReferenceIdeal Cert.ReferenceIdeal.Gen Cert.ReferenceIdeal.Read Cert.Item

/-- The reference's projection at (p, q) is coordinate q of the projection of row p of the feature matrix. -/
theorem ref_proj (x4 : (⟨S20000x64, .f32⟩ : BufTy).Contents (Elt Ideal)) (x5 : (⟨S50000x64, .f32⟩ : BufTy).Contents (Elt Ideal))
    (x6 : (⟨S100000x64, .f32⟩ : BufTy).Contents (Elt Ideal)) (x7 x8 : (⟨S100000, .i32⟩ : BufTy).Contents (Elt Ideal))
    (x9 : (⟨S128x64, .f32⟩ : BufTy).Contents (Elt Ideal)) (x10 : (⟨S64, .f32⟩ : BufTy).Contents (Elt Ideal))
    (p : Fin 100000) (q : Fin 64) :
    val_main_v79 (F := Ideal) x4 x5 x6 x7 x8 x9 x10 (ix2 p q)
      = proj (fun k => val_main_v75 (F := Ideal) x4 x5 x6 x7 x8 (ix2 p k)) x9 (fun q => x10 (ix1 q)) q := by
  rw [val_main_v79_apply, val_main_v76_apply, val_main_v78_apply, val_main_v77_apply]
  have el : ∀ k : Fin 128, lidx_main_v76 (ix2 p q) k = ix2 p k := fun k => funext fun d => Fin.ext (by
    match d with | ⟨0, _⟩ => rfl | ⟨1, _⟩ => rfl)
  have er : ∀ k : Fin 128, ridx_main_v76 (ix2 p q) k = ix2 k q := fun k => funext fun d => Fin.ext (by
    match d with | ⟨0, _⟩ => rfl | ⟨1, _⟩ => rfl)
  have eb : idx_main_v77 (idx_main_v78 (ix2 p q)) = ix1 q := funext fun d => Fin.ext (by
    match d with | ⟨0, _⟩ => rfl)
  simp only [el, er, eb]
  rfl

/-- THE REFERENCE'S RESULT AT (p, q) is coordinate q of the normalised projection of row p of the feature matrix. -/
theorem ref_at (x4 : (⟨S20000x64, .f32⟩ : BufTy).Contents (Elt Ideal)) (x5 : (⟨S50000x64, .f32⟩ : BufTy).Contents (Elt Ideal))
    (x6 : (⟨S100000x64, .f32⟩ : BufTy).Contents (Elt Ideal)) (x7 x8 : (⟨S100000, .i32⟩ : BufTy).Contents (Elt Ideal))
    (x9 : (⟨S128x64, .f32⟩ : BufTy).Contents (Elt Ideal)) (x10 : (⟨S64, .f32⟩ : BufTy).Contents (Elt Ideal))
    (p : Fin 100000) (q : Fin 64) :
    val_main_v87 (F := Ideal) x4 x5 x6 x7 x8 x9 x10 (ix2 p q)
      = unit (fun k => val_main_v75 (F := Ideal) x4 x5 x6 x7 x8 (ix2 p k)) x9 (fun q => x10 (ix1 q)) q := by
  rw [val_main_v87_apply, val_main_v86_apply, val_main_v85_apply, val_main_v84_apply, val_main_cst_19_apply,
    val_main_v83_apply, val_main_v82_apply, val_main_v81_apply, val_main_cst_18_apply]
  have e86 : idx_main_v82 (idx_main_v86 (ix2 p q)) = ix1 p := funext fun d => Fin.ext (by
    match d with | ⟨0, _⟩ => rfl)
  have e81 : ∀ c : Fin 64, idx_main_v81 (ix1 p) c = ix2 p c := fun c => funext fun d => Fin.ext (by
    match d with | ⟨0, _⟩ => rfl | ⟨1, _⟩ => rfl)
  simp only [e86, e81, val_main_v80_apply, ref_proj]
  show Ideal.div _ (max (Ideal.sqrt (Ideal.ofBits .f32 0x00000000#32 + _)) _) = _
  rw [Ideal.ofBits_zero_f32, zero_add]
  rfl

/-- THE TWO PROGRAMS' ITEM EMBEDDINGS AGREE: the region's result on the padded feature matrix and the re-laid bias, cut
    back to the first 100000 rows, is the reference's result, whatever the padding value. -/
theorem item_join (x4 : (⟨S20000x64, .f32⟩ : BufTy).Contents (Elt Ideal)) (x5 : (⟨S50000x64, .f32⟩ : BufTy).Contents (Elt Ideal))
    (x6 : (⟨S100000x64, .f32⟩ : BufTy).Contents (Elt Ideal)) (x7 x8 : (⟨S100000, .i32⟩ : BufTy).Contents (Elt Ideal))
    (x9 : (⟨S128x64, .f32⟩ : BufTy).Contents (Elt Ideal)) (x10 : (⟨S64, .f32⟩ : BufTy).Contents (Elt Ideal))
    (v : S_.Idx → EReal)
    (hp : S100000x128.Pads ![0, 0] ![6496, 0] ![0, 0] (⟨2, ![106496, 128]⟩ : Shape)) (hu : 0 < S_.numel)
    (hc : S64.ShapeCasts S1x64)
    (hs : (⟨2, ![106496, 64]⟩ : Shape).Slices ![0, 0] S100000x64) :
    extractStridedSlice S100000x64 ![0, 0]
        (units (pad (⟨2, ![106496, 128]⟩ : Shape) ![0, 0] ![6496, 0] ![0, 0] (val_main_v75 (F := Ideal) x4 x5 x6 x7 x8) v hp hu)
          x9 (shapeCast S1x64 x10 hc)) hs
      = val_main_v87 (F := Ideal) x4 x5 x6 x7 x8 x9 x10 := by
  funext i
  obtain ⟨p, q, rfl⟩ : ∃ (p : Fin 100000) (q : Fin 64), i = ix2 p q := ⟨i 0, i 1, eq_ix2 i⟩
  rw [ref_at]
  have hp' : p.val < 106496 := by have := p.isLt; omega
  refine (extractStridedSlice_apply ![0, 0] _ hs (ix2 p q) (ix2 (⟨p.val, hp'⟩ : Fin 106496) q) (fun a => ?_)).trans ?_
  · match a with
    | ⟨0, _⟩ => show p.val = 0 + p.val; omega
    | ⟨1, _⟩ => show q.val = 0 + q.val; omega
  rw [units_apply]
  have e1 : (fun k : Fin 128 => pad (⟨2, ![106496, 128]⟩ : Shape) ![0, 0] ![6496, 0] ![0, 0]
      (val_main_v75 (F := Ideal) x4 x5 x6 x7 x8) v hp hu (ix2 (⟨p.val, hp'⟩ : Fin 106496) k))
        = fun k => val_main_v75 (F := Ideal) x4 x5 x6 x7 x8 (ix2 p k) :=
    funext fun k => pad_apply_inside ![0, 0] ![6496, 0] ![0, 0] (fun a => by fin_cases a <;> rfl)
      (val_main_v75 (F := Ideal) x4 x5 x6 x7 x8) v hp hu _ (ix2 p k)
      (fun a => by
        match a with
        | ⟨0, _⟩ => show p.val = 0 + p.val; omega
        | ⟨1, _⟩ => show k.val = 0 + k.val; omega)
  have e2 : (fun q : Fin 64 => shapeCast S1x64 x10 hc (ix2 0 q)) = fun q => x10 (ix1 q) :=
    funext fun q => Cert.Lib.vecToRow_apply x10 hc q
  rw [e1, e2]

end Cert.ItemJoin

end
-- ==== Proof.NormRow.lean ====
/-
  One row's l2-normalisation on the extended reals, and the two laws that join the kernel's scaled rows to the
  reference's.

  For a row r : Fin 64 → [-∞, +∞] and a floor ε, entry q of the normalised row is r q / max (√(Σ_k r k · r k)) ε, with the
  extended reals' division, square root and maximum. The kernel normalises the row x · s for a scale word s; the
  reference normalises x itself (s = 1.0) or x / 4 (s = 0.25). The word 0x3F800000 denotes 1 and x · 1 = x; the word
  0x3E800000 denotes the dyadic 1/4, the word 0x40800000 denotes 4, and x · (1/4) = x / 4 for EVERY extended real x, the
  infinities included, because division by a nonzero real is the product with its reciprocal there. Neither law needs a
  finite x. The reference's row sum starts from the word 0x00000000, which denotes 0, and 0 + S = S.
-/
import Idealize.ShloMosaic.PureOps.Ideal
import Idealize.ShloMosaic.PureOps.Ideal.Laws

noncomputable section

namespace Cert.Norm

open Idealize.ShloMosaic
open scoped BigOperators

/-- The word of 1.0 denotes 1. -/
theorem ofBits_one : Ideal.ofBits .f32 0x3F800000#32 = 1 := by
  simp [Ideal.ofBits, Ideal.ieee, -EReal.coe_mul]; norm_num

/-- The word of 0.25 denotes the real 1/4. -/
theorem ofBits_quarter : Ideal.ofBits .f32 0x3E800000#32 = ((1 / 4 : ℝ) : EReal) := by
  simp [Ideal.ofBits, Ideal.ieee, -EReal.coe_mul]; norm_num

/-- The word of 4.0 denotes the real 4. -/
theorem ofBits_four : Ideal.ofBits .f32 0x40800000#32 = ((4 : ℝ) : EReal) := by
  simp [Ideal.ofBits, Ideal.ieee, -EReal.coe_mul]; norm_num

/-- Entry q of the row r divided by the larger of its l2 norm and the floor ε. -/
def rowNorm (ε : EReal) (r : Fin 64 → EReal) (q : Fin 64) : EReal :=
  Ideal.div (r q) (max (Ideal.sqrt (∑ k : Fin 64, r k * r k)) ε)

/-- Scaling by the word of 1.0 changes nothing. -/
theorem mul_one_word (x : EReal) : x * Ideal.ofBits .f32 0x3F800000#32 = x := by
  rw [ofBits_one, mul_one]

/-- Scaling by the word of 0.25 is dividing by the word of 4.0, at every extended real. -/
theorem mul_quarter_word (x : EReal) :
    x * Ideal.ofBits .f32 0x3E800000#32 = Ideal.div x (Ideal.ofBits .f32 0x40800000#32) := by
  rw [ofBits_quarter, ofBits_four, Ideal.div_coe (by norm_num : (4 : ℝ) ≠ 0)]

/-- The normalised row of x · 1.0 is the normalised row of x, the row sum started from the zero word. -/
theorem rowNorm_scale_one (ε : EReal) (r : Fin 64 → EReal) (q : Fin 64) :
    rowNorm ε (fun k => r k * Ideal.ofBits .f32 0x3F800000#32) q
      = Ideal.div (r q) (max (Ideal.sqrt (Ideal.ofBits .f32 0x00000000#32 + ∑ k : Fin 64, r k * r k)) ε) := by
  unfold rowNorm
  simp only [mul_one_word, Ideal.ofBits_zero_f32, zero_add]

/-- The normalised row of x · 0.25 is the normalised row of x / 4.0, the row sum started from the zero word. -/
theorem rowNorm_scale_quarter (ε : EReal) (r : Fin 64 → EReal) (q : Fin 64) :
    rowNorm ε (fun k => r k * Ideal.ofBits .f32 0x3E800000#32) q
      = Ideal.div (Ideal.div (r q) (Ideal.ofBits .f32 0x40800000#32))
          (max (Ideal.sqrt (Ideal.ofBits .f32 0x00000000#32
            + ∑ k : Fin 64, Ideal.div (r k) (Ideal.ofBits .f32 0x40800000#32) * Ideal.div (r k) (Ideal.ofBits .f32 0x40800000#32))) ε) := by
  unfold rowNorm
  simp only [mul_quarter_word, Ideal.ofBits_zero_f32, zero_add]

end Cert.Norm

end
-- ==== Proof.NormPayload.lean ====
/-
  The row-normalising kernel body at an index of its block.

  The body loads a [8192, 64] block x, scales it by a word s, squares, sums each row over its 64 lanes, takes the square
  root, floors it at the word 0x2B8CBCCC, spreads the [8192, 1] column back over the lanes and divides. At row p and lane q
  the result is therefore the entry q of the normalised row (x (p, k) · s)_k: every layout step reads one element, the lane
  sum reads row p only.
-/
import proofs.«144458_j9423158248257_1_alg».proof.Proof.Gen.KernelIdeal.Skeleton
import proofs.«144458_j9423158248257_1_alg».proof.Proof.NormRow
import proofs.«144458_j9423158248257_1_alg».proof.Proof.LibAxisSums
import proofs.«144458_j9423158248257_1_alg».proof.Proof.LibColumnCast
import proofs.«144458_j9423158248257_1_alg».proof.Proof.LibColumnBroadcast
import Idealize.ShloMosaic.Lib.Pipeline.Value
import Idealize.ShloMosaic.Lib.ValueIdx

noncomputable section

namespace Cert.Norm

open Idealize.ShloMosaic Idealize.ShloMosaic.ValueIdx
open scoped BigOperators

/-- The block scaled by the word s. -/
def scaledBlock (s : BitVec 32) (v0 : Vec Ideal ⟨2, ![8192, 64]⟩ .f32)
    (hc : (⟨2, ![8192, 64]⟩ : Shape).ShapeCasts ⟨2, ![8192, 64]⟩) : FVec Ideal ⟨2, ![8192, 64]⟩ .f32 :=
  mulf (shapeCast ⟨2, ![8192, 64]⟩ v0 hc) (broadcast ⟨2, ![8192, 64]⟩ (Scalar.ofBits (F := Ideal) .f32 s))

/-- At (p, q) it is the block's element times the word's value. -/
theorem scaledBlock_apply (s : BitVec 32) (v0 : Vec Ideal ⟨2, ![8192, 64]⟩ .f32)
    (hc : (⟨2, ![8192, 64]⟩ : Shape).ShapeCasts ⟨2, ![8192, 64]⟩) (i : (⟨2, ![8192, 64]⟩ : Shape).Idx) :
    scaledBlock s v0 hc i = v0 i * Ideal.ofBits .f32 s := by
  unfold scaledBlock
  rw [shapeCast_self]
  rfl

/-- The whole body over the scale word s: the scaled block divided by the spread column of floored row norms. -/
def normBlock (s : BitVec 32) (v0 : Vec Ideal ⟨2, ![8192, 64]⟩ .f32)
    (hc : (⟨2, ![8192, 64]⟩ : Shape).ShapeCasts ⟨2, ![8192, 64]⟩)
    (hr : (⟨2, ![8192, 64]⟩ : Shape).Reduces [1] ⟨1, ![8192]⟩) (hφ : FKind.Formats .f32)
    (hacc : (0x00000000#32 : BitVec 32) = FKind.add.neutral .f32 hφ)
    (hc1 : (⟨1, ![8192]⟩ : Shape).ShapeCasts ⟨2, ![8192, 1]⟩)
    (hb : (⟨2, ![8192, 1]⟩ : Shape).Broadcasts ⟨2, ![8192, 64]⟩) : FVec Ideal ⟨2, ![8192, 64]⟩ .f32 :=
  divf (scaledBlock s v0 hc)
    (broadcastTo ⟨2, ![8192, 64]⟩
      (maximumf
        (sqrt (shapeCast ⟨2, ![8192, 1]⟩
          (multiReduction .add [1] ⟨1, ![8192]⟩ (mulf (scaledBlock s v0 hc) (scaledBlock s v0 hc)) 0x00000000#32 hr hφ hacc) hc1))
        (broadcast ⟨2, ![8192, 1]⟩ (Scalar.ofBits (F := Ideal) .f32 0x2B8CBCCC#32))) hb)

/-- THE BODY AT (p, q): entry q of the normalised row (x (p, k) · s)_k, floored at the word 0x2B8CBCCC. -/
theorem normBlock_apply (s : BitVec 32) (v0 : Vec Ideal ⟨2, ![8192, 64]⟩ .f32)
    (hc : (⟨2, ![8192, 64]⟩ : Shape).ShapeCasts ⟨2, ![8192, 64]⟩)
    (hr : (⟨2, ![8192, 64]⟩ : Shape).Reduces [1] ⟨1, ![8192]⟩) (hφ : FKind.Formats .f32)
    (hacc : (0x00000000#32 : BitVec 32) = FKind.add.neutral .f32 hφ)
    (hc1 : (⟨1, ![8192]⟩ : Shape).ShapeCasts ⟨2, ![8192, 1]⟩)
    (hb : (⟨2, ![8192, 1]⟩ : Shape).Broadcasts ⟨2, ![8192, 64]⟩) (p : Fin 8192) (q : Fin 64) :
    normBlock s v0 hc hr hφ hacc hc1 hb (ix2 p q)
      = rowNorm (Ideal.ofBits .f32 0x2B8CBCCC#32) (fun k => v0 (ix2 p k) * Ideal.ofBits .f32 s) q := by
  unfold normBlock rowNorm
  refine (divf_apply _ _ (ix2 p q)).trans ?_
  refine congrArg₂ Ideal.div (scaledBlock_apply s v0 hc (ix2 p q)) ?_
  refine (Cert.Lib.broadcastTo_a1_ab_apply _ hb p q).trans ?_
  refine (maximumf_apply _ _ (ix2 p (0 : Fin 1))).trans ?_
  refine congrArg₂ max (congrArg Ideal.sqrt ?_) rfl
  refine (Cert.Lib.shapeCast_a_a1_apply _ hc1 p (0 : Fin 1)).trans ?_
  refine (Cert.Lib.rowSum_apply _ _ hr hφ hacc p).trans ?_
  refine Finset.sum_congr rfl fun k _ => ?_
  refine (mulf_apply _ _ (ix2 p k)).trans ?_
  rw [scaledBlock_apply]

open Cert.KernelIdeal Cert.KernelIdeal.Gen in
/-- Region 1's payload is the body at the word of 1.0. -/
theorem k1_pay1_apply (v0 : Vec Ideal S8192x64 .f32) (p : Fin 8192) (q : Fin 64) :
    k1_pay1 (F := Ideal) v0 (ix2 p q)
      = rowNorm (Ideal.ofBits .f32 0x2B8CBCCC#32) (fun k => v0 (ix2 p k) * Ideal.ofBits .f32 0x3F800000#32) q :=
  normBlock_apply 0x3F800000#32 v0 shapeCasts_S8192x64_S8192x64 reduces_S8192x64_S8192 (.inl rfl) rfl
    shapeCasts_S8192_S8192x1 broadcasts_S8192x1_S8192x64 p q

open Cert.KernelIdeal Cert.KernelIdeal.Gen in
/-- Region 3's payload is the body at the word of 0.25. -/
theorem k3_pay1_apply (v0 : Vec Ideal S8192x64 .f32) (p : Fin 8192) (q : Fin 64) :
    k3_pay1 (F := Ideal) v0 (ix2 p q)
      = rowNorm (Ideal.ofBits .f32 0x2B8CBCCC#32) (fun k => v0 (ix2 p k) * Ideal.ofBits .f32 0x3E800000#32) q :=
  normBlock_apply 0x3E800000#32 v0 shapeCasts_S8192x64_S8192x64 reduces_S8192x64_S8192 (.inl rfl) rfl
    shapeCasts_S8192_S8192x1 broadcasts_S8192x1_S8192x64 p q

end Cert.Norm

end
-- ==== Proof.NormSpec.lean ====
/-
  The whole-array form of the row normalisation: every row of a [R, 64] array scaled by a word and normalised.

  Entry (p, q) of the result depends on row p of the operand only: it is entry q of the normalised row (a (p, k) · s)_k,
  floored at the word 0x2B8CBCCC.
-/
import proofs.«144458_j9423158248257_1_alg».proof.Proof.NormRow
import Idealize.ShloMosaic.Lib.ValueIdx

noncomputable section

namespace Cert.Norm

open Idealize.ShloMosaic Idealize.ShloMosaic.ValueIdx

/-- Each row of a scaled by the word s, then divided by the larger of its l2 norm and the floor. -/
def rowsNorm {R : ℕ} (s : BitVec 32) (a : (⟨2, ![R, 64]⟩ : Shape).Idx → Ideal .f32) :
    (⟨2, ![R, 64]⟩ : Shape).Idx → Ideal .f32 :=
  fun i => rowNorm (Ideal.ofBits .f32 0x2B8CBCCC#32) (fun k => a (ix2 (i 0 : Fin R) k) * Ideal.ofBits .f32 s) (i 1 : Fin 64)

/-- At (p, q). -/
theorem rowsNorm_apply {R : ℕ} (s : BitVec 32) (a : (⟨2, ![R, 64]⟩ : Shape).Idx → Ideal .f32) (p : Fin R) (q : Fin 64) :
    rowsNorm s a (ix2 p q)
      = rowNorm (Ideal.ofBits .f32 0x2B8CBCCC#32) (fun k => a (ix2 p k) * Ideal.ofBits .f32 s) q := rfl

end Cert.Norm

end
-- ==== Proof.NormUserFinal.lean ====
/-
  Region 1's output array after the run: every row of the entry array scaled and normalised.

  The grid has 25 points; point t loads rows 8192·t … 8192·t + 8191 of the entry array, all 64 lanes, and writes the same rows of
  the output. A row's normalisation reads that row only, and a block holds whole rows, so what point t writes back is block
  t of ONE whole-array function of the entry array; the 25 blocks tile the 204800 rows, so that function is the array.
-/
import proofs.«144458_j9423158248257_1_alg».proof.Proof.KI.Region1
import proofs.«144458_j9423158248257_1_alg».proof.Proof.NormPayload
import proofs.«144458_j9423158248257_1_alg».proof.Proof.NormSpec
import Idealize.ShloMosaic.Lib.Pipeline.Value

noncomputable section

namespace Cert.Norm.Region1

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Both windows' block index at point t is (t, 0), decided over the grid. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- WHAT POINT t WRITES BACK is block t of the row-normalised entry array. -/
theorem flushed_eq (c : Dev nD) (t : Fin cfg1.N) :
    (dat1 V c).flushed 1 t
      = ((cfg1.win 1).blk t).view.read (Elt Ideal) (Cert.Norm.rowsNorm 0x3F800000#32 (V c main_v35)) := by
  show (cfg1.win 1).cut (grid1.coords t) ((dat1 V c).after 1 t) = _
  rw [after1_1]
  unfold out1_1
  rw [View.canon_unit_zero zero_offsets]
  simp only [View.ld_unit_zero (S := S8192x64) zero_offsets]
  funext j
  obtain ⟨e0, e1, e2, e3⟩ := block_index t
  obtain ⟨p, q, rfl⟩ : ∃ (p : Fin 8192) (q : Fin 64), j = ix2 p q := ⟨j 0, j 1, eq_ix2 (n0 := 8192) (n1 := 64) j⟩
  have hN : cfg1.N = 25 := N_1
  have hP : t.val * 8192 + p.val < 204800 := by have := t.isLt; have := p.isLt; omega
  show k1_pay1 (iblk1 V c 0 t) (ix2 p q)
    = Cert.Norm.rowsNorm 0x3F800000#32 (V c main_v35) (((cfg1.win 1).blk t).view.emb (ix2 p q))
  have hemb : ((cfg1.win 1).blk t).view.emb (ix2 p q) = ix2 (⟨t.val * 8192 + p.val, hP⟩ : Fin 204800) q := by
    funext a; apply Fin.ext
    match a with
    | ⟨0, _⟩ => show win1_1.index t (0 : Fin 2) * 8192 + 1 * p.val = t.val * 8192 + p.val; rw [e2]; omega
    | ⟨1, _⟩ => show win1_1.index t (1 : Fin 2) * 64 + 1 * q.val = q.val; rw [e3]; omega
  rw [hemb, Cert.Norm.rowsNorm_apply, Cert.Norm.k1_pay1_apply]
  refine congrArg (fun r => Cert.Norm.rowNorm (Ideal.ofBits .f32 0x2B8CBCCC#32) r q) (funext fun k => ?_)
  refine congrArg (· * Ideal.ofBits .f32 0x3F800000#32) ?_
  show V c main_v35 (((cfg1.win 0).blk t).view.emb (ix2 p k)) = V c main_v35 (ix2 (⟨t.val * 8192 + p.val, hP⟩ : Fin 204800) k)
  refine congrArg (V c main_v35) (funext fun a => Fin.ext ?_)
  match a with
  | ⟨0, _⟩ => show win1_0.index t (0 : Fin 2) * 8192 + 1 * p.val = t.val * 8192 + p.val; rw [e0]; omega
  | ⟨1, _⟩ => show win1_0.index t (1 : Fin 2) * 64 + 1 * k.val = k.val; rw [e1]; omega

/-- An index of the output array is in point t's block iff each coordinate is in the block's range on its axis. -/
theorem mem_blk (t : Fin cfg1.N) (i : S204800x64.Idx) :
    i ∈ ((cfg1.win 1).blk t).view.set ↔ ∀ a : Fin 2, win1_1.index t a * S8192x64.size a ≤ (i a).val ∧ (i a).val < win1_1.index t a * S8192x64.size a + S8192x64.size a := by
  show i ∈ ((View.whole main_v36).slice (win1_1.rect t)).set ↔ _
  rw [View.set_slice_whole, Rect.mem_set_unit]
  exact Iff.rfl

/-- Every index of the output array is in the block of the point that holds its row: point (row / 8192). -/
theorem covered (i : S204800x64.Idx) : ∃ t : Fin cfg1.N, (cfg1.win 1).flush t = true ∧ i ∈ ((cfg1.win 1).blk t).view.set := by
  have hN : cfg1.N = 25 := N_1
  have hi0 : (i 0).val < 204800 := (i 0).isLt
  have hi1 : (i 1).val < 64 := (i 1).isLt
  let t : Fin cfg1.N := ⟨(i 0).val / 8192, by rw [hN]; omega⟩
  obtain ⟨e0, e1, e2, e3⟩ := block_index t
  have ht : t.val = (i 0).val / 8192 := rfl
  refine ⟨t, flush1_1 t, ?_⟩
  rw [mem_blk]
  intro a
  match a with
  | ⟨0, _⟩ => show win1_1.index t (0 : Fin 2) * 8192 ≤ (i 0).val ∧ (i 0).val < win1_1.index t (0 : Fin 2) * 8192 + 8192; rw [e2, ht]; omega
  | ⟨1, _⟩ => show win1_1.index t (1 : Fin 2) * 64 ≤ (i 1).val ∧ (i 1).val < win1_1.index t (1 : Fin 2) * 64 + 64; rw [e3]; omega

/-- THE OUTPUT ARRAY after the run: the row-normalised entry array. -/
theorem final (c : Dev nD) :
    (dat1 V c).arrAt 1 cfg1.N = Cert.Norm.rowsNorm 0x3F800000#32 (V c main_v35) :=
  (dat1 V c).arrAt_eq_of_cover 1 (Cert.Norm.rowsNorm 0x3F800000#32 (V c main_v35)) (fun t _ => flushed_eq V c t) covered

end Cert.Norm.Region1

end
-- ==== Proof.LibHostRowSum.lean ====
/-
  The host's sum of each row of an [a, b] matrix (a one-operand reduce with an add body over axis 1), read at a row on the
  extended reals: the initial value's one element plus the sum over k of the matrix at (p, k). Any a, b, any float format.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- HOST ROW SUMS: at row p, the initial value plus the sum over k of the matrix at (p, k). -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

end Cert.Lib

end
-- ==== Proof.NormHostRef.lean ====
/-
  The reference's row normalisation as its chain of host operations, read at an index.

  For a [R, 64] array y the reference multiplies y by itself, sums each row from the zero word, makes the [R] sums a
  column, takes the square root, floors it at the word 0x2B8CBCCC, spreads the column over the 64 lanes and divides y by
  it. At (p, q) that is y (p, q) / max (√(0 + Σ_k y (p, k) · y (p, k))) floor: each broadcast reads one element, the row
  sum reads row p only. The second form is the same chain after y = a / 4.0, the division by the spread word 0x40800000.
-/
import proofs.«144458_j9423158248257_1_alg».proof.Proof.NormRow
import proofs.«144458_j9423158248257_1_alg».proof.Proof.LibHostRowSum
import Idealize.ShloMosaic.Lib.Pipeline.Value
import Idealize.ShloMosaic.Lib.ValueIdx

noncomputable section

namespace Cert.Norm

open Idealize.ShloMosaic Idealize.ShloMosaic.ValueIdx
open scoped BigOperators

/-- The host chain: y divided by the spread column of floored row norms. -/
def hostNorm {R : ℕ} (y : FVec Ideal ⟨2, ![R, 64]⟩ .f32)
    (hred : (⟨2, ![R, 64]⟩ : Shape).ReducesTo [1] ⟨1, ![R]⟩) (hu : 0 < (⟨0, ![]⟩ : Shape).numel)
    (hb1 : (⟨1, ![R]⟩ : Shape).BroadcastsInDim ⟨2, ![R, 1]⟩ ![0])
    (hb2 : (⟨0, ![]⟩ : Shape).BroadcastsInDim ⟨2, ![R, 1]⟩ ![])
    (hb3 : (⟨2, ![R, 1]⟩ : Shape).BroadcastsInDim ⟨2, ![R, 64]⟩ ![0, 1]) : FVec Ideal ⟨2, ![R, 64]⟩ .f32 :=
  Host.divf y (broadcastInDim ⟨2, ![R, 64]⟩ ![0, 1] hb3
    (maximumf
      (Host.sqrt (broadcastInDim ⟨2, ![R, 1]⟩ ![0] hb1
        (Host.reduceAdd (mulf y y) (constant (F := Ideal) ⟨0, ![]⟩ .f32 0x00000000#32) hred hu)))
      (broadcastInDim ⟨2, ![R, 1]⟩ ![] hb2 (constant (F := Ideal) ⟨0, ![]⟩ .f32 0x2B8CBCCC#32))))

/-- THE HOST CHAIN AT (p, q): y (p, q) over the larger of row p's l2 norm (its sum started at the zero word) and the floor. -/
theorem hostNorm_apply {R : ℕ} (y : FVec Ideal ⟨2, ![R, 64]⟩ .f32)
    (hred : (⟨2, ![R, 64]⟩ : Shape).ReducesTo [1] ⟨1, ![R]⟩) (hr : (⟨2, ![R, 64]⟩ : Shape).Reduces [1] ⟨1, ![R]⟩)
    (hu : 0 < (⟨0, ![]⟩ : Shape).numel)
    (hb1 : (⟨1, ![R]⟩ : Shape).BroadcastsInDim ⟨2, ![R, 1]⟩ ![0])
    (hb2 : (⟨0, ![]⟩ : Shape).BroadcastsInDim ⟨2, ![R, 1]⟩ ![])
    (hb3 : (⟨2, ![R, 1]⟩ : Shape).BroadcastsInDim ⟨2, ![R, 64]⟩ ![0, 1]) (p : Fin R) (q : Fin 64) :
    hostNorm y hred hu hb1 hb2 hb3 (ix2 p q)
      = Ideal.div (y (ix2 p q))
          (max (Ideal.sqrt (Ideal.ofBits .f32 0x00000000#32 + ∑ k : Fin 64, y (ix2 p k) * y (ix2 p k)))
            (Ideal.ofBits .f32 0x2B8CBCCC#32)) := by
  unfold hostNorm
  show Ideal.div (y (ix2 p q)) (broadcastInDim (s := ⟨2, ![R, 1]⟩) ⟨2, ![R, 64]⟩ ![0, 1] hb3 _ (ix2 p q)) = _
  refine congrArg (Ideal.div (y (ix2 p q))) ?_
  refine (broadcastInDim_apply ![0, 1] hb3 _ (ix2 p q) (ix2 p (0 : Fin 1)) (fun a => ?_)).trans ?_
  · match a with
    | ⟨0, _⟩ =>
      show p.val = if R = 1 then 0 else p.val
      split
      · have := p.isLt; omega
      · rfl
    | ⟨1, _⟩ => show (0 : ℕ) = if (1 : ℕ) = 1 then 0 else q.val; rw [if_pos rfl]
  refine congrArg₂ max (congrArg Ideal.sqrt ?_) ?_
  · refine (broadcastInDim_apply ![0] hb1 _ (ix2 p (0 : Fin 1)) (ix1 p) (fun a => ?_)).trans ?_
    · match a with
      | ⟨0, _⟩ =>
        show p.val = if R = 1 then 0 else p.val
        split
        · have := p.isLt; omega
        · rfl
    refine (Cert.Lib.hostRowSum_apply _ _ hred hr hu p).trans ?_
    rfl
  · exact broadcastInDim_apply ![] hb2 _ (ix2 p (0 : Fin 1)) (Shape.Idx.first hu) (fun a => a.elim0)

/-- An array divided by the spread word of 4.0. -/
def hostQuarter {R : ℕ} (a : FVec Ideal ⟨2, ![R, 64]⟩ .f32)
    (hb : (⟨0, ![]⟩ : Shape).BroadcastsInDim ⟨2, ![R, 64]⟩ ![]) : FVec Ideal ⟨2, ![R, 64]⟩ .f32 :=
  Host.divf a (broadcastInDim ⟨2, ![R, 64]⟩ ![] hb (constant (F := Ideal) ⟨0, ![]⟩ .f32 0x40800000#32))

/-- At an index it is the element over the word's value. -/
theorem hostQuarter_apply {R : ℕ} (a : FVec Ideal ⟨2, ![R, 64]⟩ .f32)
    (hb : (⟨0, ![]⟩ : Shape).BroadcastsInDim ⟨2, ![R, 64]⟩ ![]) (i : (⟨2, ![R, 64]⟩ : Shape).Idx) :
    hostQuarter a hb i = Ideal.div (a i) (Ideal.ofBits .f32 0x40800000#32) := by
  unfold hostQuarter
  show Ideal.div (a i) (broadcastInDim (s := ⟨0, ![]⟩) ⟨2, ![R, 64]⟩ ![] hb _ i) = _
  refine congrArg (Ideal.div (a i)) ?_
  exact broadcastInDim_apply ![] hb _ i ix0 (fun a => a.elim0)

end Cert.Norm

end
-- ==== Proof.NormBridge.lean ====
/-
  The kernel's side of a row normalisation, as the host operations around it, equals the reference's chain.

  Around the kernel the program pads the [R₀, 64] operand with d rows below (to a whole number of blocks), normalises every
  row of the padded array, and slices the first R₀ rows back. Row p < R₀ of the padded array is row p of the operand, and a
  row's result reads that row only, so the padding rows never reach the slice, whatever the padding value. What is left is
  the law between the scaled row and the reference's row: x · 1.0 = x, or x · 0.25 = x / 4.0, on every extended real.
-/
import proofs.«144458_j9423158248257_1_alg».proof.Proof.NormSpec
import proofs.«144458_j9423158248257_1_alg».proof.Proof.NormHostRef
import proofs.«144458_j9423158248257_1_alg».proof.Proof.LibPadRead
import Idealize.ShloMosaic.Lib.Pipeline.Value

noncomputable section

namespace Cert.Norm

open Idealize.ShloMosaic Idealize.ShloMosaic.ValueIdx
open scoped BigOperators

/-- PAD, NORMALISE, SLICE at (p, q): the normalised scaled row p of the operand itself. -/
theorem slice_rowsNorm_pad_apply {R₀ R d : ℕ} (hle : R₀ ≤ R) (s : BitVec 32) (x : FVec Ideal ⟨2, ![R₀, 64]⟩ .f32)
    {u : Shape} (v : u.Idx → Ideal .f32)
    (hpad : (⟨2, ![R₀, 64]⟩ : Shape).Pads (![0, 0] : Fin 2 → Nat) ![d, 0] ![0, 0] ⟨2, ![R, 64]⟩) (hu : 0 < u.numel)
    (hsl : (⟨2, ![R, 64]⟩ : Shape).Slices ![0, 0] ⟨2, ![R₀, 64]⟩) (p : Fin R₀) (q : Fin 64) :
    extractStridedSlice ⟨2, ![R₀, 64]⟩ ![0, 0]
        (rowsNorm s (pad ⟨2, ![R, 64]⟩ (![0, 0] : Fin 2 → Nat) ![d, 0] ![0, 0] x v hpad hu)) hsl (ix2 p q)
      = rowNorm (Ideal.ofBits .f32 0x2B8CBCCC#32) (fun k => x (ix2 p k) * Ideal.ofBits .f32 s) q := by
  have hp : p.val < R := lt_of_lt_of_le p.isLt hle
  refine (extractStridedSlice_apply ![0, 0] _ hsl (ix2 p q) (ix2 (⟨p.val, hp⟩ : Fin R) q) (fun a => ?_)).trans ?_
  · match a with
    | ⟨0, _⟩ => show p.val = 0 + p.val; omega
    | ⟨1, _⟩ => show q.val = 0 + q.val; omega
  refine (rowsNorm_apply s _ (⟨p.val, hp⟩ : Fin R) q).trans ?_
  refine congrArg (fun r => rowNorm (Ideal.ofBits .f32 0x2B8CBCCC#32) r q) (funext fun k => ?_)
  refine congrArg (· * Ideal.ofBits .f32 s) ?_
  refine pad_apply_inside (![0, 0] : Fin 2 → Nat) ![d, 0] ![0, 0]
    (fun a => by match a with | ⟨0, _⟩ => rfl | ⟨1, _⟩ => rfl) x v hpad hu (ix2 (⟨p.val, hp⟩ : Fin R) k) (ix2 p k) (fun a => ?_)
  match a with
  | ⟨0, _⟩ => show p.val = 0 + p.val; omega
  | ⟨1, _⟩ => show k.val = 0 + k.val; omega

/-- SCALE 1.0: pad, normalise with the word of 1.0, slice — the reference's chain on the operand. -/
theorem unit_scale_bridge {R₀ R d : ℕ} (hle : R₀ ≤ R) (x : FVec Ideal ⟨2, ![R₀, 64]⟩ .f32)
    {u : Shape} (v : u.Idx → Ideal .f32)
    (hpad : (⟨2, ![R₀, 64]⟩ : Shape).Pads (![0, 0] : Fin 2 → Nat) ![d, 0] ![0, 0] ⟨2, ![R, 64]⟩) (hu : 0 < u.numel)
    (hsl : (⟨2, ![R, 64]⟩ : Shape).Slices ![0, 0] ⟨2, ![R₀, 64]⟩)
    (hred : (⟨2, ![R₀, 64]⟩ : Shape).ReducesTo [1] ⟨1, ![R₀]⟩) (hr : (⟨2, ![R₀, 64]⟩ : Shape).Reduces [1] ⟨1, ![R₀]⟩)
    (hu0 : 0 < (⟨0, ![]⟩ : Shape).numel)
    (hb1 : (⟨1, ![R₀]⟩ : Shape).BroadcastsInDim ⟨2, ![R₀, 1]⟩ ![0])
    (hb2 : (⟨0, ![]⟩ : Shape).BroadcastsInDim ⟨2, ![R₀, 1]⟩ ![])
    (hb3 : (⟨2, ![R₀, 1]⟩ : Shape).BroadcastsInDim ⟨2, ![R₀, 64]⟩ ![0, 1]) :
    extractStridedSlice ⟨2, ![R₀, 64]⟩ ![0, 0]
        (rowsNorm 0x3F800000#32 (pad ⟨2, ![R, 64]⟩ (![0, 0] : Fin 2 → Nat) ![d, 0] ![0, 0] x v hpad hu)) hsl
      = hostNorm x hred hu0 hb1 hb2 hb3 := by
  funext i
  obtain ⟨p, q, rfl⟩ : ∃ (p : Fin R₀) (q : Fin 64), i = ix2 p q := ⟨i 0, i 1, eq_ix2 i⟩
  rw [slice_rowsNorm_pad_apply hle, hostNorm_apply x hred hr, rowNorm_scale_one]

/-- SCALE 0.25: pad, normalise with the word of 0.25, slice — the reference's chain on the operand divided by 4.0. -/
theorem quarter_scale_bridge {R₀ R d : ℕ} (hle : R₀ ≤ R) (a : FVec Ideal ⟨2, ![R₀, 64]⟩ .f32)
    {u : Shape} (v : u.Idx → Ideal .f32)
    (hpad : (⟨2, ![R₀, 64]⟩ : Shape).Pads (![0, 0] : Fin 2 → Nat) ![d, 0] ![0, 0] ⟨2, ![R, 64]⟩) (hu : 0 < u.numel)
    (hsl : (⟨2, ![R, 64]⟩ : Shape).Slices ![0, 0] ⟨2, ![R₀, 64]⟩)
    (hb4 : (⟨0, ![]⟩ : Shape).BroadcastsInDim ⟨2, ![R₀, 64]⟩ ![])
    (hred : (⟨2, ![R₀, 64]⟩ : Shape).ReducesTo [1] ⟨1, ![R₀]⟩) (hr : (⟨2, ![R₀, 64]⟩ : Shape).Reduces [1] ⟨1, ![R₀]⟩)
    (hu0 : 0 < (⟨0, ![]⟩ : Shape).numel)
    (hb1 : (⟨1, ![R₀]⟩ : Shape).BroadcastsInDim ⟨2, ![R₀, 1]⟩ ![0])
    (hb2 : (⟨0, ![]⟩ : Shape).BroadcastsInDim ⟨2, ![R₀, 1]⟩ ![])
    (hb3 : (⟨2, ![R₀, 1]⟩ : Shape).BroadcastsInDim ⟨2, ![R₀, 64]⟩ ![0, 1]) :
    extractStridedSlice ⟨2, ![R₀, 64]⟩ ![0, 0]
        (rowsNorm 0x3E800000#32 (pad ⟨2, ![R, 64]⟩ (![0, 0] : Fin 2 → Nat) ![d, 0] ![0, 0] a v hpad hu)) hsl
      = hostNorm (hostQuarter a hb4) hred hu0 hb1 hb2 hb3 := by
  funext i
  obtain ⟨p, q, rfl⟩ : ∃ (p : Fin R₀) (q : Fin 64), i = ix2 p q := ⟨i 0, i 1, eq_ix2 i⟩
  rw [slice_rowsNorm_pad_apply hle, hostNorm_apply (hostQuarter a hb4) hred hr, rowNorm_scale_quarter]
  simp only [hostQuarter_apply]

end Cert.Norm

end
-- ==== Proof.NormUserRef.lean ====
/-
  The user rows: the kernel's side (pad, normalise every row with the word of 1.0, slice) is the reference's l2norm of
  user_w.

  The reference's value for this stage is its chain of host operations on the argument, and the kernel's side reads, in the
  200000 rows that survive the slice, exactly the operand's rows scaled by 1; so the two are one array.
-/
import proofs.«144458_j9423158248257_1_alg».proof.Proof.RefRead
import proofs.«144458_j9423158248257_1_alg».proof.Proof.Gen.KernelIdeal
import proofs.«144458_j9423158248257_1_alg».proof.Proof.NormBridge

noncomputable section

namespace Cert.Norm

open Idealize.ShloMosaic

/-- The reference's normalised user rows are the host chain on the argument. -/
theorem val_main_v55_eq (x3 : (⟨Cert.ReferenceIdeal.S200000x64, .f32⟩ : BufTy).Contents (Elt Ideal)) :
    Cert.ReferenceIdeal.Read.val_main_v55 (F := Ideal) x3
      = hostNorm (R := 200000) x3 Cert.ReferenceIdeal.Gen.reducesTo_S200000x64_S200000_d1 Cert.ReferenceIdeal.Gen.h_S_ Cert.ReferenceIdeal.Gen.bcast_S200000_S200000x1_0
          Cert.ReferenceIdeal.Gen.bcast_S_S200000x1 Cert.ReferenceIdeal.Gen.bcast_S200000x1_S200000x64_0_1 := by
  unfold hostNorm Cert.ReferenceIdeal.Read.val_main_v55 Cert.ReferenceIdeal.Read.val_main_v54 Cert.ReferenceIdeal.Read.val_main_v53 Cert.ReferenceIdeal.Read.val_main_v52 Cert.ReferenceIdeal.Read.val_main_v51
    Cert.ReferenceIdeal.Read.val_main_v50 Cert.ReferenceIdeal.Read.val_main_v49 Cert.ReferenceIdeal.Read.val_main_v48 Cert.ReferenceIdeal.Read.val_main_cst_10 Cert.ReferenceIdeal.Read.val_main_cst_11
  rfl

/-- USER ROWS: pad to 204800 rows with any value, normalise with the word of 1.0, slice the first 200000 rows — the
    reference's l2norm of the argument. -/
theorem user_rows_eq {u : Shape} (x3 : (⟨Cert.ReferenceIdeal.S200000x64, .f32⟩ : BufTy).Contents (Elt Ideal)) (v : u.Idx → Ideal .f32)
    (hu : 0 < u.numel) :
    extractStridedSlice Cert.KernelIdeal.S200000x64 ![0, 0]
        (rowsNorm (R := 204800) 0x3F800000#32
          (pad Cert.KernelIdeal.S204800x64 (![0, 0] : Fin 2 → Nat) ![4800, 0] ![0, 0] x3 v Cert.KernelIdeal.Gen.pads_S200000x64_S204800x64_048000_000 hu))
        Cert.KernelIdeal.Gen.slices_S204800x64_S200000x64_0_0
      = Cert.ReferenceIdeal.Read.val_main_v55 (F := Ideal) x3 := by
  rw [val_main_v55_eq]
  exact unit_scale_bridge (R₀ := 200000) (R := 204800) (d := 4800) (by decide) x3 v
    Cert.KernelIdeal.Gen.pads_S200000x64_S204800x64_048000_000 hu Cert.KernelIdeal.Gen.slices_S204800x64_S200000x64_0_0
    Cert.ReferenceIdeal.Gen.reducesTo_S200000x64_S200000_d1 (by decide) Cert.ReferenceIdeal.Gen.h_S_ Cert.ReferenceIdeal.Gen.bcast_S200000_S200000x1_0
    Cert.ReferenceIdeal.Gen.bcast_S_S200000x1 Cert.ReferenceIdeal.Gen.bcast_S200000x1_S200000x64_0_1

end Cert.Norm

end
-- ==== Proof.NormOutFinal.lean ====
/-
  Region 3's output array after the run: every row of the entry array scaled and normalised.

  The grid has 37 points; point t loads rows 8192·t … 8192·t + 8191 of the entry array, all 64 lanes, and writes the same rows of
  the output. A row's normalisation reads that row only, and a block holds whole rows, so what point t writes back is block
  t of ONE whole-array function of the entry array; the 37 blocks tile the 303104 rows, so that function is the array.
-/
import proofs.«144458_j9423158248257_1_alg».proof.Proof.KI.Region3
import proofs.«144458_j9423158248257_1_alg».proof.Proof.NormPayload
import proofs.«144458_j9423158248257_1_alg».proof.Proof.NormSpec
import Idealize.ShloMosaic.Lib.Pipeline.Value

noncomputable section

namespace Cert.Norm.Region3

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Both windows' block index at point t is (t, 0), decided over the grid. -/
theorem block_index : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- WHAT POINT t WRITES BACK is block t of the row-normalised entry array. -/
theorem flushed_eq (c : Dev nD) (t : Fin cfg3.N) :
    (dat3 V c).flushed 1 t
      = ((cfg3.win 1).blk t).view.read (Elt Ideal) (Cert.Norm.rowsNorm 0x3E800000#32 (V c main_v105)) := by
  show (cfg3.win 1).cut (grid3.coords t) ((dat3 V c).after 1 t) = _
  rw [after3_1]
  unfold out3_1
  rw [View.canon_unit_zero zero_offsets]
  simp only [View.ld_unit_zero (S := S8192x64) zero_offsets]
  funext j
  obtain ⟨e0, e1, e2, e3⟩ := block_index t
  obtain ⟨p, q, rfl⟩ : ∃ (p : Fin 8192) (q : Fin 64), j = ix2 p q := ⟨j 0, j 1, eq_ix2 (n0 := 8192) (n1 := 64) j⟩
  have hN : cfg3.N = 37 := N_3
  have hP : t.val * 8192 + p.val < 303104 := by have := t.isLt; have := p.isLt; omega
  show k3_pay1 (iblk3 V c 0 t) (ix2 p q)
    = Cert.Norm.rowsNorm 0x3E800000#32 (V c main_v105) (((cfg3.win 1).blk t).view.emb (ix2 p q))
  have hemb : ((cfg3.win 1).blk t).view.emb (ix2 p q) = ix2 (⟨t.val * 8192 + p.val, hP⟩ : Fin 303104) q := by
    funext a; apply Fin.ext
    match a with
    | ⟨0, _⟩ => show win3_1.index t (0 : Fin 2) * 8192 + 1 * p.val = t.val * 8192 + p.val; rw [e2]; omega
    | ⟨1, _⟩ => show win3_1.index t (1 : Fin 2) * 64 + 1 * q.val = q.val; rw [e3]; omega
  rw [hemb, Cert.Norm.rowsNorm_apply, Cert.Norm.k3_pay1_apply]
  refine congrArg (fun r => Cert.Norm.rowNorm (Ideal.ofBits .f32 0x2B8CBCCC#32) r q) (funext fun k => ?_)
  refine congrArg (· * Ideal.ofBits .f32 0x3E800000#32) ?_
  show V c main_v105 (((cfg3.win 0).blk t).view.emb (ix2 p k)) = V c main_v105 (ix2 (⟨t.val * 8192 + p.val, hP⟩ : Fin 303104) k)
  refine congrArg (V c main_v105) (funext fun a => Fin.ext ?_)
  match a with
  | ⟨0, _⟩ => show win3_0.index t (0 : Fin 2) * 8192 + 1 * p.val = t.val * 8192 + p.val; rw [e0]; omega
  | ⟨1, _⟩ => show win3_0.index t (1 : Fin 2) * 64 + 1 * k.val = k.val; rw [e1]; omega

/-- An index of the output array is in point t's block iff each coordinate is in the block's range on its axis. -/
theorem mem_blk (t : Fin cfg3.N) (i : S303104x64.Idx) :
    i ∈ ((cfg3.win 1).blk t).view.set ↔ ∀ a : Fin 2, win3_1.index t a * S8192x64.size a ≤ (i a).val ∧ (i a).val < win3_1.index t a * S8192x64.size a + S8192x64.size a := by
  show i ∈ ((View.whole main_v106).slice (win3_1.rect t)).set ↔ _
  rw [View.set_slice_whole, Rect.mem_set_unit]
  exact Iff.rfl

/-- Every index of the output array is in the block of the point that holds its row: point (row / 8192). -/
theorem covered (i : S303104x64.Idx) : ∃ t : Fin cfg3.N, (cfg3.win 1).flush t = true ∧ i ∈ ((cfg3.win 1).blk t).view.set := by
  have hN : cfg3.N = 37 := N_3
  have hi0 : (i 0).val < 303104 := (i 0).isLt
  have hi1 : (i 1).val < 64 := (i 1).isLt
  let t : Fin cfg3.N := ⟨(i 0).val / 8192, by rw [hN]; omega⟩
  obtain ⟨e0, e1, e2, e3⟩ := block_index t
  have ht : t.val = (i 0).val / 8192 := rfl
  refine ⟨t, flush3_1 t, ?_⟩
  rw [mem_blk]
  intro a
  match a with
  | ⟨0, _⟩ => show win3_1.index t (0 : Fin 2) * 8192 ≤ (i 0).val ∧ (i 0).val < win3_1.index t (0 : Fin 2) * 8192 + 8192; rw [e2, ht]; omega
  | ⟨1, _⟩ => show win3_1.index t (1 : Fin 2) * 64 ≤ (i 1).val ∧ (i 1).val < win3_1.index t (1 : Fin 2) * 64 + 64; rw [e3]; omega

/-- THE OUTPUT ARRAY after the run: the row-normalised entry array. -/
theorem final (c : Dev nD) :
    (dat3 V c).arrAt 1 cfg3.N = Cert.Norm.rowsNorm 0x3E800000#32 (V c main_v105) :=
  (dat3 V c).arrAt_eq_of_cover 1 (Cert.Norm.rowsNorm 0x3E800000#32 (V c main_v105)) (fun t _ => flushed_eq V c t) covered

end Cert.Norm.Region3

end
-- ==== Proof.NormOutRef.lean ====
/-
  The final rows: the kernel's side (pad the accumulated array, normalise every row with the word of 0.25, slice, split into
  the user rows and the item rows) is the reference's l2norm of the accumulated array over 4.0, split the same way.

  The accumulated array is whatever the earlier stages left: it is carried as one name on both sides and never opened. The
  law that joins the sides is x · 0.25 = x / 4.0 on every extended real.
-/
import proofs.«144458_j9423158248257_1_alg».proof.Proof.RefRead
import proofs.«144458_j9423158248257_1_alg».proof.Proof.Gen.KernelIdeal
import proofs.«144458_j9423158248257_1_alg».proof.Proof.NormBridge

noncomputable section

namespace Cert.Norm

open Idealize.ShloMosaic

/-- The reference's normalised final array is the host chain on the accumulated array over 4.0. -/
theorem val_main_v140_eq (x0 x1 : (⟨Cert.ReferenceIdeal.S1000000, .i32⟩ : BufTy).Contents (Elt Ideal)) (x2 : (⟨Cert.ReferenceIdeal.S1000000x8, .f32⟩ : BufTy).Contents (Elt Ideal)) (x3 : (⟨Cert.ReferenceIdeal.S200000x64, .f32⟩ : BufTy).Contents (Elt Ideal)) (x4 : (⟨Cert.ReferenceIdeal.S20000x64, .f32⟩ : BufTy).Contents (Elt Ideal)) (x5 : (⟨Cert.ReferenceIdeal.S50000x64, .f32⟩ : BufTy).Contents (Elt Ideal)) (x6 : (⟨Cert.ReferenceIdeal.S100000x64, .f32⟩ : BufTy).Contents (Elt Ideal)) (x7 x8 : (⟨Cert.ReferenceIdeal.S100000, .i32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S8x32, .f32⟩ : BufTy).Contents (Elt Ideal)) (x12 : (⟨Cert.ReferenceIdeal.S32, .f32⟩ : BufTy).Contents (Elt Ideal)) (x13 : (⟨Cert.ReferenceIdeal.S32x1, .f32⟩ : BufTy).Contents (Elt Ideal)) (x14 : (⟨Cert.ReferenceIdeal.S1, .f32⟩ : BufTy).Contents (Elt Ideal)) :
    Cert.ReferenceIdeal.Read.val_main_v140 (F := Ideal) x0 x1 x2 x3 x4 x5 x6 x7 x8 x9 x10 x11 x12 x13 x14
      = hostNorm (R := 300000) (hostQuarter (Cert.ReferenceIdeal.Read.val_main_v130 (F := Ideal) x0 x1 x2 x3 x4 x5 x6 x7 x8 x9 x10 x11 x12 x13 x14) Cert.ReferenceIdeal.Gen.bcast_S_S300000x64)
          Cert.ReferenceIdeal.Gen.reducesTo_S300000x64_S300000_d1 Cert.ReferenceIdeal.Gen.h_S_ Cert.ReferenceIdeal.Gen.bcast_S300000_S300000x1_0
          Cert.ReferenceIdeal.Gen.bcast_S_S300000x1 Cert.ReferenceIdeal.Gen.bcast_S300000x1_S300000x64_0_1 := by
  unfold Cert.ReferenceIdeal.Read.val_main_v140 Cert.ReferenceIdeal.Read.val_main_v139 Cert.ReferenceIdeal.Read.val_main_v138 Cert.ReferenceIdeal.Read.val_main_v137
    Cert.ReferenceIdeal.Read.val_main_v136 Cert.ReferenceIdeal.Read.val_main_v135 Cert.ReferenceIdeal.Read.val_main_v134 Cert.ReferenceIdeal.Read.val_main_v133 Cert.ReferenceIdeal.Read.val_main_v132
    Cert.ReferenceIdeal.Read.val_main_v131 Cert.ReferenceIdeal.Read.val_main_cst_29 Cert.ReferenceIdeal.Read.val_main_cst_30 Cert.ReferenceIdeal.Read.val_main_cst_31
  generalize Cert.ReferenceIdeal.Read.val_main_v130 (F := Ideal) x0 x1 x2 x3 x4 x5 x6 x7 x8 x9 x10 x11 x12 x13 x14 = acc
  unfold hostNorm hostQuarter
  rfl

/-- FINAL ROWS, WHOLE: pad to 303104 rows with any value, normalise with the word of 0.25, slice the first 300000 rows — the
    reference's normalised array. -/
theorem final_rows_eq {u : Shape} (x0 x1 : (⟨Cert.ReferenceIdeal.S1000000, .i32⟩ : BufTy).Contents (Elt Ideal)) (x2 : (⟨Cert.ReferenceIdeal.S1000000x8, .f32⟩ : BufTy).Contents (Elt Ideal)) (x3 : (⟨Cert.ReferenceIdeal.S200000x64, .f32⟩ : BufTy).Contents (Elt Ideal)) (x4 : (⟨Cert.ReferenceIdeal.S20000x64, .f32⟩ : BufTy).Contents (Elt Ideal)) (x5 : (⟨Cert.ReferenceIdeal.S50000x64, .f32⟩ : BufTy).Contents (Elt Ideal)) (x6 : (⟨Cert.ReferenceIdeal.S100000x64, .f32⟩ : BufTy).Contents (Elt Ideal)) (x7 x8 : (⟨Cert.ReferenceIdeal.S100000, .i32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S8x32, .f32⟩ : BufTy).Contents (Elt Ideal)) (x12 : (⟨Cert.ReferenceIdeal.S32, .f32⟩ : BufTy).Contents (Elt Ideal)) (x13 : (⟨Cert.ReferenceIdeal.S32x1, .f32⟩ : BufTy).Contents (Elt Ideal)) (x14 : (⟨Cert.ReferenceIdeal.S1, .f32⟩ : BufTy).Contents (Elt Ideal)) (v : u.Idx → Ideal .f32) (hu : 0 < u.numel) :
    (extractStridedSlice Cert.KernelIdeal.S300000x64 ![0, 0]
          (rowsNorm (R := 303104) 0x3E800000#32
            (pad Cert.KernelIdeal.S303104x64 (![0, 0] : Fin 2 → Nat) ![3104, 0] ![0, 0] (Cert.ReferenceIdeal.Read.val_main_v130 (F := Ideal) x0 x1 x2 x3 x4 x5 x6 x7 x8 x9 x10 x11 x12 x13 x14) v Cert.KernelIdeal.Gen.pads_S300000x64_S303104x64_031040_000 hu))
          Cert.KernelIdeal.Gen.slices_S303104x64_S300000x64_0_0)
      = Cert.ReferenceIdeal.Read.val_main_v140 (F := Ideal) x0 x1 x2 x3 x4 x5 x6 x7 x8 x9 x10 x11 x12 x13 x14 := by
  rw [val_main_v140_eq]
  generalize Cert.ReferenceIdeal.Read.val_main_v130 (F := Ideal) x0 x1 x2 x3 x4 x5 x6 x7 x8 x9 x10 x11 x12 x13 x14 = acc
  exact quarter_scale_bridge (R₀ := 300000) (R := 303104) (d := 3104) (by decide) acc v
    Cert.KernelIdeal.Gen.pads_S300000x64_S303104x64_031040_000 hu Cert.KernelIdeal.Gen.slices_S303104x64_S300000x64_0_0 Cert.ReferenceIdeal.Gen.bcast_S_S300000x64
    Cert.ReferenceIdeal.Gen.reducesTo_S300000x64_S300000_d1 (by decide) Cert.ReferenceIdeal.Gen.h_S_ Cert.ReferenceIdeal.Gen.bcast_S300000_S300000x1_0
    Cert.ReferenceIdeal.Gen.bcast_S_S300000x1 Cert.ReferenceIdeal.Gen.bcast_S300000x1_S300000x64_0_1

/-- FINAL ROWS, THE USERS' PART: rows 0 … 199999 of the above are the reference's first result. -/
theorem final_user_rows_eq {u : Shape} (x0 x1 : (⟨Cert.ReferenceIdeal.S1000000, .i32⟩ : BufTy).Contents (Elt Ideal)) (x2 : (⟨Cert.ReferenceIdeal.S1000000x8, .f32⟩ : BufTy).Contents (Elt Ideal)) (x3 : (⟨Cert.ReferenceIdeal.S200000x64, .f32⟩ : BufTy).Contents (Elt Ideal)) (x4 : (⟨Cert.ReferenceIdeal.S20000x64, .f32⟩ : BufTy).Contents (Elt Ideal)) (x5 : (⟨Cert.ReferenceIdeal.S50000x64, .f32⟩ : BufTy).Contents (Elt Ideal)) (x6 : (⟨Cert.ReferenceIdeal.S100000x64, .f32⟩ : BufTy).Contents (Elt Ideal)) (x7 x8 : (⟨Cert.ReferenceIdeal.S100000, .i32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S8x32, .f32⟩ : BufTy).Contents (Elt Ideal)) (x12 : (⟨Cert.ReferenceIdeal.S32, .f32⟩ : BufTy).Contents (Elt Ideal)) (x13 : (⟨Cert.ReferenceIdeal.S32x1, .f32⟩ : BufTy).Contents (Elt Ideal)) (x14 : (⟨Cert.ReferenceIdeal.S1, .f32⟩ : BufTy).Contents (Elt Ideal)) (v : u.Idx → Ideal .f32) (hu : 0 < u.numel) :
    extractStridedSlice Cert.KernelIdeal.S200000x64 ![0, 0]
        (extractStridedSlice Cert.KernelIdeal.S300000x64 ![0, 0]
          (rowsNorm (R := 303104) 0x3E800000#32
            (pad Cert.KernelIdeal.S303104x64 (![0, 0] : Fin 2 → Nat) ![3104, 0] ![0, 0] (Cert.ReferenceIdeal.Read.val_main_v130 (F := Ideal) x0 x1 x2 x3 x4 x5 x6 x7 x8 x9 x10 x11 x12 x13 x14) v Cert.KernelIdeal.Gen.pads_S300000x64_S303104x64_031040_000 hu))
          Cert.KernelIdeal.Gen.slices_S303104x64_S300000x64_0_0)
        Cert.KernelIdeal.Gen.slices_S300000x64_S200000x64_0_0
      = Cert.ReferenceIdeal.Read.val_main_v141 (F := Ideal) x0 x1 x2 x3 x4 x5 x6 x7 x8 x9 x10 x11 x12 x13 x14 := by
  rw [final_rows_eq]
  unfold Cert.ReferenceIdeal.Read.val_main_v141
  generalize Cert.ReferenceIdeal.Read.val_main_v140 (F := Ideal) x0 x1 x2 x3 x4 x5 x6 x7 x8 x9 x10 x11 x12 x13 x14 = z
  rfl

/-- FINAL ROWS, THE ITEMS' PART: rows 200000 … 299999 of the above are the reference's second result. -/
theorem final_item_rows_eq {u : Shape} (x0 x1 : (⟨Cert.ReferenceIdeal.S1000000, .i32⟩ : BufTy).Contents (Elt Ideal)) (x2 : (⟨Cert.ReferenceIdeal.S1000000x8, .f32⟩ : BufTy).Contents (Elt Ideal)) (x3 : (⟨Cert.ReferenceIdeal.S200000x64, .f32⟩ : BufTy).Contents (Elt Ideal)) (x4 : (⟨Cert.ReferenceIdeal.S20000x64, .f32⟩ : BufTy).Contents (Elt Ideal)) (x5 : (⟨Cert.ReferenceIdeal.S50000x64, .f32⟩ : BufTy).Contents (Elt Ideal)) (x6 : (⟨Cert.ReferenceIdeal.S100000x64, .f32⟩ : BufTy).Contents (Elt Ideal)) (x7 x8 : (⟨Cert.ReferenceIdeal.S100000, .i32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S8x32, .f32⟩ : BufTy).Contents (Elt Ideal)) (x12 : (⟨Cert.ReferenceIdeal.S32, .f32⟩ : BufTy).Contents (Elt Ideal)) (x13 : (⟨Cert.ReferenceIdeal.S32x1, .f32⟩ : BufTy).Contents (Elt Ideal)) (x14 : (⟨Cert.ReferenceIdeal.S1, .f32⟩ : BufTy).Contents (Elt Ideal)) (v : u.Idx → Ideal .f32) (hu : 0 < u.numel) :
    extractStridedSlice Cert.KernelIdeal.S100000x64 ![200000, 0]
        (extractStridedSlice Cert.KernelIdeal.S300000x64 ![0, 0]
          (rowsNorm (R := 303104) 0x3E800000#32
            (pad Cert.KernelIdeal.S303104x64 (![0, 0] : Fin 2 → Nat) ![3104, 0] ![0, 0] (Cert.ReferenceIdeal.Read.val_main_v130 (F := Ideal) x0 x1 x2 x3 x4 x5 x6 x7 x8 x9 x10 x11 x12 x13 x14) v Cert.KernelIdeal.Gen.pads_S300000x64_S303104x64_031040_000 hu))
          Cert.KernelIdeal.Gen.slices_S303104x64_S300000x64_0_0)
        Cert.KernelIdeal.Gen.slices_S300000x64_S100000x64_200000_0
      = Cert.ReferenceIdeal.Read.val_main_v142 (F := Ideal) x0 x1 x2 x3 x4 x5 x6 x7 x8 x9 x10 x11 x12 x13 x14 := by
  rw [final_rows_eq]
  unfold Cert.ReferenceIdeal.Read.val_main_v142
  generalize Cert.ReferenceIdeal.Read.val_main_v140 (F := Ideal) x0 x1 x2 x3 x4 x5 x6 x7 x8 x9 x10 x11 x12 x13 x14 = z
  rfl

end Cert.Norm

end
-- ==== Proof.KI.Ends.lean ====
/-
  Where the kernel's regions meet the reference. Each region leaves in its output array the fold of its grid points'
  write-backs, which is one whole-array function of the arrays it found: the edge weights of the padded attribute rows,
  the normalised rows of the padded user table, the projected and normalised rows of the padded item features, the
  normalised rows of the padded quarter-scaled sum. @main pads before each region and cuts the padding away after it,
  and on the rows that remain the region computes what the reference's host operations compute. So the three arrays
  that feed the shared host stretches are the reference's stages, every later array is too, and the two results are
  the reference's two results, as functions of the fifteen arguments.
-/
import proofs.«144458_j9423158248257_1_alg».proof.Proof.KI.Outs
import proofs.«144458_j9423158248257_1_alg».proof.Proof.KI.Bridge
import proofs.«144458_j9423158248257_1_alg».proof.Proof.EdgeFinal
import proofs.«144458_j9423158248257_1_alg».proof.Proof.EdgeRef
import proofs.«144458_j9423158248257_1_alg».proof.Proof.ItemFinal
import proofs.«144458_j9423158248257_1_alg».proof.Proof.ItemRef
import proofs.«144458_j9423158248257_1_alg».proof.Proof.NormUserFinal
import proofs.«144458_j9423158248257_1_alg».proof.Proof.NormUserRef
import proofs.«144458_j9423158248257_1_alg».proof.Proof.NormOutFinal
import proofs.«144458_j9423158248257_1_alg».proof.Proof.NormOutRef

set_option maxRecDepth 16384

noncomputable section

namespace Cert.KernelIdeal.Ends

open Cert.KernelIdeal Cert.KernelIdeal.Gen Cert.KernelIdeal.Reg Cert.KernelIdeal.Host Cert.KernelIdeal.Bridge
open Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

/-- Region 0's output array at the end of the run: the edge weights of the arrays the region found. -/
theorem out0 (hok : OutsOk m outs) : V17 m outs c main_v3
    = Cert.Edge.weights (V3 m c main_v0) (V3 m c main_arg11) (V3 m c main_v1) (V3 m c main_arg13) (V3 m c main_v2) :=
  (carry4 m outs c main_v3 (by decide)).trans ((hok.1 c).symm.trans (Cert.KernelIdeal.Edge.final0 (rd (V3 m)) c))

/-- Region 1's output array: the normalised rows of the array it found. -/
theorem out1 (hok : OutsOk m outs) : V17 m outs c main_v36 = Cert.Norm.rowsNorm (R := 204800) 0x3F800000#32 (V8 m outs c main_v35) :=
  (carry9 m outs c main_v36 (by decide)).trans ((hok.2.1 c).symm.trans (Cert.Norm.Region1.final (rd (V8 m outs)) c))

/-- Region 2's output array: the projected and normalised rows of the arrays it found. -/
theorem out2 (hok : OutsOk m outs) : V17 m outs c main_v60
    = Cert.Item.units (V12 m outs c main_v58) (V12 m outs c main_arg9) (V12 m outs c main_v59) :=
  (carry13 m outs c main_v60 (by decide)).trans ((hok.2.2.1 c).symm.trans (Cert.KernelIdeal.Item.final2 (rd (V12 m outs)) c))

/-- Region 3's output array: the normalised rows of the quarter of the array it found. -/
theorem out3 (hok : OutsOk m outs) : V17 m outs c main_v106 = Cert.Norm.rowsNorm (R := 303104) 0x3E800000#32 (V15 m outs c main_v105) :=
  (carry16 m outs c main_v106 (by decide)).trans ((hok.2.2.2 c).symm.trans (Cert.Norm.Region3.final (rd (V15 m outs)) c))

/-- The edge weights, cut back to the real edges, are the reference's. -/
theorem p4 (hok : OutsOk m outs) : P4 m outs c := by
  unfold P4
  rw [x_v4 m outs c, out0 m outs c hok, ← carry3 m outs c main_v0 (by decide), ← carry3 m outs c main_arg11 (by decide),
    ← carry3 m outs c main_v1 (by decide), ← carry3 m outs c main_arg13 (by decide), ← carry3 m outs c main_v2 (by decide),
    x_v0 m outs c, x_call0_v0 m outs c, x_c m outs c, x_v1 m outs c, x_v2 m outs c,
    V17_main_arg2 m outs c, V17_main_arg11 m outs c, V17_main_arg12 m outs c, V17_main_arg13 m outs c, V17_main_arg14 m outs c]
  exact Cert.EdgeJoin.edge_join _ _ _ _ _ _ _ _ _ _ _

/-- The user rows, cut back to the real users, are the reference's normalised rows. -/
theorem p37 (hok : OutsOk m outs) : P37 m outs c := by
  unfold P37
  rw [x_v37 m outs c, out1 m outs c hok, ← carry8 m outs c main_v35 (by decide),
    x_v35 m outs c, x_call2_v0 m outs c, x_c_8 m outs c, V17_main_arg3 m outs c]
  exact Cert.Norm.user_rows_eq _ _ _

/-- The item rows, cut back to the real items, are the reference's projected and normalised rows. -/
theorem p61 (hok : OutsOk m outs) : P61 m outs c := by
  unfold P61
  rw [x_v61 m outs c, out2 m outs c hok, ← carry12 m outs c main_v58 (by decide), ← carry12 m outs c main_arg9 (by decide),
    ← carry12 m outs c main_v59 (by decide), x_v58 m outs c, x_call3_v0 m outs c, x_c_15 m outs c, x_v59 m outs c,
    br_v57 m outs c, V17_main_arg9 m outs c, V17_main_arg10 m outs c]
  exact Cert.ItemJoin.item_join _ _ _ _ _ _ _ _ _ _ _ _

/-- THE FIRST RESULT is the reference's first result, as a function of the arguments. -/
theorem res0 (hok : OutsOk m outs) : V17 m outs c main_v108 = Cert.ReferenceIdeal.Read.val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [x_v108 m outs c, x_v107 m outs c, out3 m outs c hok, ← carry15 m outs c main_v105 (by decide),
    x_v105 m outs c, x_call4_v0 m outs c, x_c_25 m outs c,
    br_v104 m outs c (p4 m outs c hok) (p37 m outs c hok) (p61 m outs c hok)]
  exact Cert.Norm.final_user_rows_eq _ _ _ _ _ _ _ _ _ _ _ _ _ _ _ _ _

/-- THE SECOND RESULT is the reference's second result. -/
theorem res1 (hok : OutsOk m outs) : V17 m outs c main_v109 = Cert.ReferenceIdeal.Read.val_main_v142 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [x_v109 m outs c, x_v107 m outs c, out3 m outs c hok, ← carry15 m outs c main_v105 (by decide),
    x_v105 m outs c, x_call4_v0 m outs c, x_c_25 m outs c,
    br_v104 m outs c (p4 m outs c hok) (p37 m outs c hok) (p61 m outs c hok)]
  exact Cert.Norm.final_item_rows_eq _ _ _ _ _ _ _ _ _ _ _ _ _ _ _ _ _

end Cert.KernelIdeal.Ends

end
-- ==== Proof.lean ====
/-
  A message-passing recommender over a user–item graph: edge weights from a two-layer perceptron on the edge
  attributes, symmetric degree normalisation, unit-length user rows and projected unit-length item rows, three rounds
  of weighted neighbour sums, and the unit-length rows of the mean of the four layers. The kernel computes the four
  dense pieces — the edge perceptron, the two row normalisations and the item projection — in tiled kernel regions on
  zero-padded arrays and cuts the padding away; everything irregular (the degree sums, the gathers and the accumulating
  scatters of each round) it leaves to the same host operations the reference runs.

  Over the extended reals the two programs compute the same arrays. A tile's rows depend only on the same rows of its
  operands, so a region's output restricted to the real rows is the reference's host computation: a matrix product into
  a zero accumulator is the finite sum the host's product is, a lane sum is the host's sum, rounding to a narrower
  float format is the identity, multiplying by the exact dyadic 1/4 is dividing by 4, and multiplying by 1 changes
  nothing. No law used moves a factor across a sum, so nothing needs the inputs to be finite. Between the regions the
  two programs are the same operations applied to equal arrays.

  The frames: @main is seventeen items; each region is entered from the unscoped buffers at known contents and left
  with its output array at the fold of its grid points' write-backs, every other buffer untouched; no item writes an
  argument. The idealized kernel is the kernel's own text read at the exact instance (the pass rewrote nothing).
-/
import proofs.«144458_j9423158248257_1_alg».proof.Defs
import proofs.«144458_j9423158248257_1_alg».proof.Proof.Gen.Kernel
import proofs.«144458_j9423158248257_1_alg».proof.Proof.Gen.KernelIdeal
import proofs.«144458_j9423158248257_1_alg».proof.Proof.Gen.ReferenceIdeal
import proofs.«144458_j9423158248257_1_alg».proof.Proof.Gen.Pre_finite_inputs
import proofs.«144458_j9423158248257_1_alg».proof.Proof.K.Outs
import proofs.«144458_j9423158248257_1_alg».proof.Proof.KI.Ends

set_option maxRecDepth 16384

noncomputable section

namespace Cert.Proof

open Idealize.ShloMosaic Idealize.ShloMosaic.TcCoe Idealize.SL.Sem

/-- The kernel as printed runs, faults nowhere and leaves its arguments as launched. -/
theorem frame_p : Cert.frame_Kernel := fun m ρ _ => Cert.Kernel.Reg.frame m ρ

/-- So does its idealization. -/
theorem frame_pi : Cert.frame_KernelIdeal := fun m ρ _ => Cert.KernelIdeal.Reg.frame m ρ

/-- The reference is a straight line of host operations, none of which writes an argument. -/
theorem frame_ri : Cert.frame_ReferenceIdeal := fun m ρ _ =>
  (θ_run Cert.ReferenceIdeal.defs _ _).mono (fun _ h c =>
      ⟨(h c Cert.ReferenceIdeal.main_arg0).trans (Cert.ReferenceIdeal.Hand.keep_arg0 _),
        (h c Cert.ReferenceIdeal.main_arg1).trans (Cert.ReferenceIdeal.Hand.keep_arg1 _),
        (h c Cert.ReferenceIdeal.main_arg2).trans (Cert.ReferenceIdeal.Hand.keep_arg2 _),
        (h c Cert.ReferenceIdeal.main_arg3).trans (Cert.ReferenceIdeal.Hand.keep_arg3 _),
        (h c Cert.ReferenceIdeal.main_arg4).trans (Cert.ReferenceIdeal.Hand.keep_arg4 _),
        (h c Cert.ReferenceIdeal.main_arg5).trans (Cert.ReferenceIdeal.Hand.keep_arg5 _),
        (h c Cert.ReferenceIdeal.main_arg6).trans (Cert.ReferenceIdeal.Hand.keep_arg6 _),
        (h c Cert.ReferenceIdeal.main_arg7).trans (Cert.ReferenceIdeal.Hand.keep_arg7 _),
        (h c Cert.ReferenceIdeal.main_arg8).trans (Cert.ReferenceIdeal.Hand.keep_arg8 _),
        (h c Cert.ReferenceIdeal.main_arg9).trans (Cert.ReferenceIdeal.Hand.keep_arg9 _),
        (h c Cert.ReferenceIdeal.main_arg10).trans (Cert.ReferenceIdeal.Hand.keep_arg10 _),
        (h c Cert.ReferenceIdeal.main_arg11).trans (Cert.ReferenceIdeal.Hand.keep_arg11 _),
        (h c Cert.ReferenceIdeal.main_arg12).trans (Cert.ReferenceIdeal.Hand.keep_arg12 _),
        (h c Cert.ReferenceIdeal.main_arg13).trans (Cert.ReferenceIdeal.Hand.keep_arg13 _),
        (h c Cert.ReferenceIdeal.main_arg14).trans (Cert.ReferenceIdeal.Hand.keep_arg14 _)⟩)
    (Cert.ReferenceIdeal.Value.run_line (F := Ideal) m ρ)

/-- The idealization rewrote no operation. -/
theorem preserves : Cert.preserves_Kernel_KernelIdeal := trivial

open Cert.KernelIdeal Cert.KernelIdeal.Gen Cert.KernelIdeal.Reg in
/-- From memories agreeing on the arguments both programs run to the end, and the kernel's two result arrays — the
    last contents of its two result buffers — are the reference's two results: each is the reference's last stage as a
    function of the fifteen arguments. -/
theorem algebraic : Cert.algebraic_KernelIdeal_ReferenceIdeal := by
  intro m ρ m' ρ' _ hagree
  refine ⟨fun c => rd (V17 m (outsD m)) c main_v108, fun c => rd (V17 m (outsD m)) c main_v109, ?_, ?_⟩
  · exact (θ_run Cert.KernelIdeal.defs _ _).mono (fun _ h c =>
      ⟨h c _ (mem_uc main_v108 (by decide)), h c _ (mem_uc main_v109 (by decide)),
        (h c _ (mem_uc main_arg0 (by decide))).trans (V17_main_arg0 m (outsD m) c),
        (h c _ (mem_uc main_arg1 (by decide))).trans (V17_main_arg1 m (outsD m) c),
        (h c _ (mem_uc main_arg2 (by decide))).trans (V17_main_arg2 m (outsD m) c),
        (h c _ (mem_uc main_arg3 (by decide))).trans (V17_main_arg3 m (outsD m) c),
        (h c _ (mem_uc main_arg4 (by decide))).trans (V17_main_arg4 m (outsD m) c),
        (h c _ (mem_uc main_arg5 (by decide))).trans (V17_main_arg5 m (outsD m) c),
        (h c _ (mem_uc main_arg6 (by decide))).trans (V17_main_arg6 m (outsD m) c),
        (h c _ (mem_uc main_arg7 (by decide))).trans (V17_main_arg7 m (outsD m) c),
        (h c _ (mem_uc main_arg8 (by decide))).trans (V17_main_arg8 m (outsD m) c),
        (h c _ (mem_uc main_arg9 (by decide))).trans (V17_main_arg9 m (outsD m) c),
        (h c _ (mem_uc main_arg10 (by decide))).trans (V17_main_arg10 m (outsD m) c),
        (h c _ (mem_uc main_arg11 (by decide))).trans (V17_main_arg11 m (outsD m) c),
        (h c _ (mem_uc main_arg12 (by decide))).trans (V17_main_arg12 m (outsD m) c),
        (h c _ (mem_uc main_arg13 (by decide))).trans (V17_main_arg13 m (outsD m) c),
        (h c _ (mem_uc main_arg14 (by decide))).trans (V17_main_arg14 m (outsD m) c)⟩)
      (run_all m ρ (outsD m) (outsOk m))
  · refine (θ_run Cert.ReferenceIdeal.defs _ _).mono (fun _ h c =>
      ⟨(h c Cert.ReferenceIdeal.main_v141).trans ((Cert.ReferenceIdeal.Hand.rv_v141 _).trans ?_),
        (h c Cert.ReferenceIdeal.main_v142).trans ((Cert.ReferenceIdeal.Hand.rv_v142 _).trans ?_),
        (h c Cert.ReferenceIdeal.main_arg0).trans (Cert.ReferenceIdeal.Hand.keep_arg0 _),
        (h c Cert.ReferenceIdeal.main_arg1).trans (Cert.ReferenceIdeal.Hand.keep_arg1 _),
        (h c Cert.ReferenceIdeal.main_arg2).trans (Cert.ReferenceIdeal.Hand.keep_arg2 _),
        (h c Cert.ReferenceIdeal.main_arg3).trans (Cert.ReferenceIdeal.Hand.keep_arg3 _),
        (h c Cert.ReferenceIdeal.main_arg4).trans (Cert.ReferenceIdeal.Hand.keep_arg4 _),
        (h c Cert.ReferenceIdeal.main_arg5).trans (Cert.ReferenceIdeal.Hand.keep_arg5 _),
        (h c Cert.ReferenceIdeal.main_arg6).trans (Cert.ReferenceIdeal.Hand.keep_arg6 _),
        (h c Cert.ReferenceIdeal.main_arg7).trans (Cert.ReferenceIdeal.Hand.keep_arg7 _),
        (h c Cert.ReferenceIdeal.main_arg8).trans (Cert.ReferenceIdeal.Hand.keep_arg8 _),
        (h c Cert.ReferenceIdeal.main_arg9).trans (Cert.ReferenceIdeal.Hand.keep_arg9 _),
        (h c Cert.ReferenceIdeal.main_arg10).trans (Cert.ReferenceIdeal.Hand.keep_arg10 _),
        (h c Cert.ReferenceIdeal.main_arg11).trans (Cert.ReferenceIdeal.Hand.keep_arg11 _),
        (h c Cert.ReferenceIdeal.main_arg12).trans (Cert.ReferenceIdeal.Hand.keep_arg12 _),
        (h c Cert.ReferenceIdeal.main_arg13).trans (Cert.ReferenceIdeal.Hand.keep_arg13 _),
        (h c Cert.ReferenceIdeal.main_arg14).trans (Cert.ReferenceIdeal.Hand.keep_arg14 _)⟩)
      (Cert.ReferenceIdeal.Value.run_line (F := Ideal) m' ρ')
    · show Cert.ReferenceIdeal.Read.val_main_v141 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
      exact (Cert.KernelIdeal.Ends.res0 m (outsD m) c (outsOk m)).symm
    · show Cert.ReferenceIdeal.Read.val_main_v142 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
      exact (Cert.KernelIdeal.Ends.res1 m (outsD m) c (outsOk m)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
